-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27))

def preserves_Kernel_KernelIdeal : Prop :=
  IdealRules.named_const.Statement Cert.KernelIdeal.κ "inv_200000" .f32 0x36A7C5AC#32 ((1 / 200000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v315) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x6 : Shape := ⟨2, ![200000, 6]⟩
abbrev S20000x6 : Shape := ⟨2, ![20000, 6]⟩
abbrev S200000x4 : Shape := ⟨2, ![200000, 4]⟩
abbrev S4000000 : Shape := ⟨1, ![4000000]⟩
abbrev S400000 : Shape := ⟨1, ![400000]⟩
abbrev S6x10 : Shape := ⟨2, ![6, 10]⟩
abbrev S10 : Shape := ⟨1, ![10]⟩
abbrev S4x10 : Shape := ⟨2, ![4, 10]⟩
abbrev S10x10 : Shape := ⟨2, ![10, 10]⟩
abbrev S10x1 : Shape := ⟨2, ![10, 1]⟩
abbrev S1 : Shape := ⟨1, ![1]⟩
abbrev S_ : Shape := ⟨0, ![]⟩

class Facts : Prop where
  bcast_S_S200000x6 : S_.BroadcastsInDim S200000x6 (![] : Fin 0 → Fin S200000x6.rank)
  reducesTo_S200000x6_S_d0_1 : S200000x6.ReducesTo [0, 1] S_
  h_S_ : 0 < S_.numel
  bcast_S_S20000x6 : S_.BroadcastsInDim S20000x6 (![] : Fin 0 → Fin S20000x6.rank)
  reducesTo_S20000x6_S_d0_1 : S20000x6.ReducesTo [0, 1] S_
  bcast_S_S200000x4 : S_.BroadcastsInDim S200000x4 (![] : Fin 0 → Fin S200000x4.rank)
  reducesTo_S200000x4_S_d0_1 : S200000x4.ReducesTo [0, 1] S_
  bcast_S_S4000000 : S_.BroadcastsInDim S4000000 (![] : Fin 0 → Fin S4000000.rank)
  reducesTo_S4000000_S_d0 : S4000000.ReducesTo [0] S_
  bcast_S_S400000 : S_.BroadcastsInDim S400000 (![] : Fin 0 → Fin S400000.rank)
  reducesTo_S400000_S_d0 : S400000.ReducesTo [0] S_
  bcast_S_S6x10 : S_.BroadcastsInDim S6x10 (![] : Fin 0 → Fin S6x10.rank)
  reducesTo_S6x10_S_d0_1 : S6x10.ReducesTo [0, 1] S_
  bcast_S_S10 : S_.BroadcastsInDim S10 (![] : Fin 0 → Fin S10.rank)
  reducesTo_S10_S_d0 : S10.ReducesTo [0] S_
  bcast_S_S4x10 : S_.BroadcastsInDim S4x10 (![] : Fin 0 → Fin S4x10.rank)
  reducesTo_S4x10_S_d0_1 : S4x10.ReducesTo [0, 1] S_
  bcast_S_S10x10 : S_.BroadcastsInDim S10x10 (![] : Fin 0 → Fin S10x10.rank)
  reducesTo_S10x10_S_d0_1 : S10x10.ReducesTo [0, 1] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg27 : FVec F S1 .f32) (main_v98 : IVec S_ 1) (main_v101 : IVec S10x1 1) (main_c_39 : IVec S_ 1) : IVec S_ 1 :=
  let main_v102 : IVec S_ 1 := (fun x v => Host.reduce IntOp.andi x v reducesTo_S10x1_S_d0_1 h_S_) main_v101 main_c_39
  let main_v103 : IVec S_ 1 := andi main_v98 main_v102
  let main_v104 : FVec F S1 .f32 := Host.absf main_arg27
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg24 : FVec F S10x10 .f32) (main_arg25 : FVec F S10 .f32) (main_arg26 : FVec F S10x1 .f32) (main_arg27 : FVec F S1 .f32) (main_v83 : IVec S_ 1) (main_v84 : FVec F S10 .f32) (main_cst_32 : FVec F S_ .f32) : IVec S_ 1 :=
  let main_v85 : FVec F S10 .f32 := broadcastInDim S10 ![] bcast_S_S10 main_cst_32
  let main_v86 : IVec S10 1 := cmpf .olt main_v84 main_v85
  let main_c_33 : IVec S_ 1 := constantI S_ 1 1#1
  let main_v87 : IVec S_ 1 := (fun x v => Host.reduce IntOp.andi x v reducesTo_S10_S_d0 h_S_) main_v86 main_c_33
  let main_v88 : IVec S_ 1 := andi main_v83 main_v87
  let main_v89 : FVec F S10x10 .f32 := Host.absf main_arg24
  let main_cst_34 : FVec F S_ .f32 := constant S_ .f32 0x7F800000#32
  let main_v90 : FVec F S10x10 .f32 := broadcastInDim S10x10 ![] bcast_S_S10x10 main_cst_34
  let main_v91 : IVec S10x10 1 := cmpf .olt main_v89 main_v90
  let main_c_35 : IVec S_ 1 := constantI S_ 1 1#1
  let main_v92 : IVec S_ 1 := (fun x v => Host.reduce IntOp.andi x v reducesTo_S10x10_S_d0_1 h_S_) main_v91 main_c_35
  let main_v93 : IVec S_ 1 := andi main_v88 main_v92
  let main_v94 : FVec F S10 .f32 := Host.absf main_arg25
  let main_cst_36 : FVec F S_ .f32 := constant S_ .f32 0x7F800000#32
  let main_v95 : FVec F S10 .f32 := broadcastInDim S10 ![] bcast_S_S10 main_cst_36
  let main_v96 : IVec S10 1 := cmpf .olt main_v94 main_v95
  let main_c_37 : IVec S_ 1 := constantI S_ 1 1#1
  let main_v97 : IVec S_ 1 := (fun x v => Host.reduce IntOp.andi x v reducesTo_S10_S_d0 h_S_) main_v96 main_c_37
  let main_v98 : IVec S_ 1 := andi main_v93 main_v97
  let main_v99 : FVec F S10x1 .f32 := Host.absf main_arg26
  let main_cst_38 : FVec F S_ .f32 := constant S_ .f32 0x7F800000#32
  let main_v100 : FVec F S10x1 .f32 := broadcastInDim S10x1 ![] bcast_S_S10x1 main_cst_38
  let main_v101 : IVec S10x1 1 := cmpf .olt main_v99 main_v100
  let main_c_39 : IVec S_ 1 := constantI S_ 1 1#1
  fn_part6 (F := F) main_arg27 main_v98 main_v101 main_c_39

def fn_part4 {F : FTy → Type} [FloatOps F] (main_arg20 : FVec F S10x10 .f32) (main_arg21 : FVec F S10 .f32) (main_arg22 : FVec F S10x10 .f32) (main_arg23 : FVec F S10 .f32) (main_arg24 : FVec F S10x10 .f32) (main_arg25 : FVec F S10 .f32) (main_arg26 : FVec F S10x1 .f32) (main_arg27 : FVec F S1 .f32) (main_v63 : IVec S_ 1) (main_v67 : IVec S_ 1) : IVec S_ 1 :=
  let main_v68 : IVec S_ 1 := andi main_v63 main_v67
  let main_v69 : FVec F S10x10 .f32 := Host.absf main_arg20
  let main_cst_26 : FVec F S_ .f32 := constant S_ .f32 0x7F800000#32
  let main_v70 : FVec F S10x10 .f32 := broadcastInDim S10x10 ![] bcast_S_S10x10 main_cst_26
  let main_v71 : IVec S10x10 1 := cmpf .olt main_v69 main_v70
  let main_c_27 : IVec S_ 1 := constantI S_ 1 1#1
  let main_v72 : IVec S_ 1 := (fun x v => Host.reduce IntOp.andi x v reducesTo_S10x10_S_d0_1 h_S_) main_v71 main_c_27
  let main_v73 : IVec S_ 1 := andi main_v68 main_v72
  let main_v74 : FVec F S10 .f32 := Host.absf main_arg21
  let main_cst_28 : FVec F S_ .f32 := constant S_ .f32 0x7F800000#32
  let main_v75 : FVec F S10 .f32 := broadcastInDim S10 ![] bcast_S_S10 main_cst_28
  let main_v76 : IVec S10 1 := cmpf .olt main_v74 main_v75
  let main_c_29 : IVec S_ 1 := constantI S_ 1 1#1
  let main_v77 : IVec S_ 1 := (fun x v => Host.reduce IntOp.andi x v reducesTo_S10_S_d0 h_S_) main_v76 main_c_29
  let main_v78 : IVec S_ 1 := andi main_v73 main_v77
  let main_v79 : FVec F S10x10 .f32 := Host.absf main_arg22
  let main_cst_30 : FVec F S_ .f32 := constant S_ .f32 0x7F800000#32
  let main_v80 : FVec F S10x10 .f32 := broadcastInDim S10x10 ![] bcast_S_S10x10 main_cst_30
  let main_v81 : IVec S10x10 1 := cmpf .olt main_v79 main_v80
  let main_c_31 : IVec S_ 1 := constantI S_ 1 1#1
  let main_v82 : IVec S_ 1 := (fun x v => Host.reduce IntOp.andi x v reducesTo_S10x10_S_d0_1 h_S_) main_v81 main_c_31
  let main_v83 : IVec S_ 1 := andi main_v78 main_v82
  let main_v84 : FVec F S10 .f32 := Host.absf main_arg23
  let main_cst_32 : FVec F S_ .f32 := constant S_ .f32 0x7F800000#32
  fn_part5 (F := F) main_arg24 main_arg25 main_arg26 main_arg27 main_v83 main_v84 main_cst_32

def fn_part3 {F : FTy → Type} [FloatOps F] (main_arg17 : FVec F S10 .f32) (main_arg18 : FVec F S10x10 .f32) (main_arg19 : FVec F S10 .f32) (main_arg20 : FVec F S10x10 .f32) (main_arg21 : FVec F S10 .f32) (main_arg22 : FVec F S10x10 .f32) (main_arg23 : FVec F S10 .f32) (main_arg24 : FVec F S10x10 .f32) (main_arg25 : FVec F S10 .f32) (main_arg26 : FVec F S10x1 .f32) (main_arg27 : FVec F S1 .f32) (main_v48 : IVec S_ 1) (main_v49 : FVec F S4x10 .f32) (main_v50 : FVec F S4x10 .f32) : IVec S_ 1 :=
  let main_v51 : IVec S4x10 1 := cmpf .olt main_v49 main_v50
  let main_c_19 : IVec S_ 1 := constantI S_ 1 1#1
  let main_v52 : IVec S_ 1 := (fun x v => Host.reduce IntOp.andi x v reducesTo_S4x10_S_d0_1 h_S_) main_v51 main_c_19
  let main_v53 : IVec S_ 1 := andi main_v48 main_v52
  let main_v54 : FVec F S10 .f32 := Host.absf main_arg17
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10x10 .f32 := Host.absf main_arg18
  let main_cst_22 : FVec F S_ .f32 := constant S_ .f32 0x7F800000#32
  let main_v60 : FVec F S10x10 .f32 := broadcastInDim S10x10 ![] bcast_S_S10x10 main_cst_22
  let main_v61 : IVec S10x10 1 := cmpf .olt main_v59 main_v60
  let main_c_23 : IVec S_ 1 := constantI S_ 1 1#1
  let main_v62 : IVec S_ 1 := (fun x v => Host.reduce IntOp.andi x v reducesTo_S10x10_S_d0_1 h_S_) main_v61 main_c_23
  let main_v63 : IVec S_ 1 := andi main_v58 main_v62
  let main_v64 : FVec F S10 .f32 := Host.absf main_arg19
  let main_cst_24 : FVec F S_ .f32 := constant S_ .f32 0x7F800000#32
  let main_v65 : FVec F S10 .f32 := broadcastInDim S10 ![] bcast_S_S10 main_cst_24
  let main_v66 : IVec S10 1 := cmpf .olt main_v64 main_v65
  let main_c_25 : IVec S_ 1 := constantI S_ 1 1#1
  let main_v67 : IVec S_ 1 := (fun x v => Host.reduce IntOp.andi x v reducesTo_S10_S_d0 h_S_) main_v66 main_c_25
  fn_part4 (F := F) main_arg20 main_arg21 main_arg22 main_arg23 main_arg24 main_arg25 main_arg26 main_arg27 main_v63 main_v67

def fn_part2 {F : FTy → Type} [FloatOps F] (main_arg13 : FVec F S10 .f32) (main_arg14 : FVec F S6x10 .f32) (main_arg15 : FVec F S10 .f32) (main_arg16 : FVec F S4x10 .f32) (main_arg17 : FVec F S10 .f32) (main_arg18 : FVec F S10x10 .f32) (main_arg19 : FVec F S10 .f32) (main_arg20 : FVec F S10x10 .f32) (main_arg21 : FVec F S10 .f32) (main_arg22 : FVec F S10x10 .f32) (main_arg23 : FVec F S10 .f32) (main_arg24 : FVec F S10x10 .f32) (main_arg25 : FVec F S10 .f32) (main_arg26 : FVec F S10x1 .f32) (main_arg27 : FVec F S1 .f32) (main_v33 : IVec S_ 1) : IVec S_ 1 :=
  let main_v34 : FVec F S10 .f32 := Host.absf main_arg13
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S6x10 .f32 := Host.absf main_arg14
  let main_cst_14 : FVec F S_ .f32 := constant S_ .f32 0x7F800000#32
  let main_v40 : FVec F S6x10 .f32 := broadcastInDim S6x10 ![] bcast_S_S6x10 main_cst_14
  let main_v41 : IVec S6x10 1 := cmpf .olt main_v39 main_v40
  let main_c_15 : IVec S_ 1 := constantI S_ 1 1#1
  let main_v42 : IVec S_ 1 := (fun x v => Host.reduce IntOp.andi x v reducesTo_S6x10_S_d0_1 h_S_) main_v41 main_c_15
  let main_v43 : IVec S_ 1 := andi main_v38 main_v42
  let main_v44 : FVec F S10 .f32 := Host.absf main_arg15
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  let main_v49 : FVec F S4x10 .f32 := Host.absf main_arg16
  let main_cst_18 : FVec F S_ .f32 := constant S_ .f32 0x7F800000#32
  let main_v50 : FVec F S4x10 .f32 := broadcastInDim S4x10 ![] bcast_S_S4x10 main_cst_18
  fn_part3 (F := F) main_arg17 main_arg18 main_arg19 main_arg20 main_arg21 main_arg22 main_arg23 main_arg24 main_arg25 main_arg26 main_arg27 main_v48 main_v49 main_v50

def fn_part1 {F : FTy → Type} [FloatOps F] (main_arg10 : FVec F S4000000 .f32) (main_arg11 : FVec F S400000 .f32) (main_arg12 : FVec F S6x10 .f32) (main_arg13 : FVec F S10 .f32) (main_arg14 : FVec F S6x10 .f32) (main_arg15 : FVec F S10 .f32) (main_arg16 : FVec F S4x10 .f32) (main_arg17 : FVec F S10 .f32) (main_arg18 : FVec F S10x10 .f32) (main_arg19 : FVec F S10 .f32) (main_arg20 : FVec F S10x10 .f32) (main_arg21 : FVec F S10 .f32) (main_arg22 : FVec F S10x10 .f32) (main_arg23 : FVec F S10 .f32) (main_arg24 : FVec F S10x10 .f32) (main_arg25 : FVec F S10 .f32) (main_arg26 : FVec F S10x1 .f32) (main_arg27 : FVec F S1 .f32) (main_v13 : IVec S_ 1) (main_v16 : IVec S4000000 1) : IVec S_ 1 :=
  let main_c_5 : IVec S_ 1 := constantI S_ 1 1#1
  let main_v17 : IVec S_ 1 := (fun x v => Host.reduce IntOp.andi x v reducesTo_S4000000_S_d0 h_S_) main_v16 main_c_5
  let main_v18 : IVec S_ 1 := andi main_v13 main_v17
  let main_v19 : FVec F S4000000 .f32 := Host.absf main_arg10
  let main_cst_6 : FVec F S_ .f32 := constant S_ .f32 0x7F800000#32
  let main_v20 : FVec F S4000000 .f32 := broadcastInDim S4000000 ![] bcast_S_S4000000 main_cst_6
  let main_v21 : IVec S4000000 1 := cmpf .olt main_v19 main_v20
  let main_c_7 : IVec S_ 1 := constantI S_ 1 1#1
  let main_v22 : IVec S_ 1 := (fun x v => Host.reduce IntOp.andi x v reducesTo_S4000000_S_d0 h_S_) main_v21 main_c_7
  let main_v23 : IVec S_ 1 := andi main_v18 main_v22
  let main_v24 : FVec F S400000 .f32 := Host.absf main_arg11
  let main_cst_8 : FVec F S_ .f32 := constant S_ .f32 0x7F800000#32
  let main_v25 : FVec F S400000 .f32 := broadcastInDim S400000 ![] bcast_S_S400000 main_cst_8
  let main_v26 : IVec S400000 1 := cmpf .olt main_v24 main_v25
  let main_c_9 : IVec S_ 1 := constantI S_ 1 1#1
  let main_v27 : IVec S_ 1 := (fun x v => Host.reduce IntOp.andi x v reducesTo_S400000_S_d0 h_S_) main_v26 main_c_9
  let main_v28 : IVec S_ 1 := andi main_v23 main_v27
  let main_v29 : FVec F S6x10 .f32 := Host.absf main_arg12
  let main_cst_10 : FVec F S_ .f32 := constant S_ .f32 0x7F800000#32
  let main_v30 : FVec F S6x10 .f32 := broadcastInDim S6x10 ![] bcast_S_S6x10 main_cst_10
  let main_v31 : IVec S6x10 1 := cmpf .olt main_v29 main_v30
  let main_c_11 : IVec S_ 1 := constantI S_ 1 1#1
  let main_v32 : IVec S_ 1 := (fun x v => Host.reduce IntOp.andi x v reducesTo_S6x10_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_arg23 main_arg24 main_arg25 main_arg26 main_arg27 main_v33

def fn {F : FTy → Type} [FloatOps F] (main_arg0 : FVec F S200000x6 .f32) (main_arg1 : FVec F S20000x6 .f32) (main_arg2 : FVec F S200000x4 .f32) (main_arg3 : IVec S4000000 32) (main_arg4 : IVec S4000000 32) (main_arg5 : IVec S4000000 32) (main_arg6 : IVec S4000000 32) (main_arg7 : IVec S400000 32) (main_arg8 : IVec S400000 32) (main_arg9 : FVec F S4000000 .f32) (main_arg10 : FVec F S4000000 .f32) (main_arg11 : FVec F S400000 .f32) (main_arg12 : FVec F S6x10 .f32) (main_arg13 : FVec F S10 .f32) (main_arg14 : FVec F S6x10 .f32) (main_arg15 : FVec F S10 .f32) (main_arg16 : FVec F S4x10 .f32) (main_arg17 : FVec F S10 .f32) (main_arg18 : FVec F S10x10 .f32) (main_arg19 : FVec F S10 .f32) (main_arg20 : FVec F S10x10 .f32) (main_arg21 : FVec F S10 .f32) (main_arg22 : FVec F S10x10 .f32) (main_arg23 : FVec F S10 .f32) (main_arg24 : FVec F S10x10 .f32) (main_arg25 : FVec F S10 .f32) (main_arg26 : FVec F S10x1 .f32) (main_arg27 : FVec F S1 .f32) : IVec S_ 1 :=
  let main_v0 : FVec F S200000x6 .f32 := Host.absf main_arg0
  let main_cst : FVec F S_ .f32 := constant S_ .f32 0x7F800000#32
  let main_v1 : FVec F S200000x6 .f32 := broadcastInDim S200000x6 ![] bcast_S_S200000x6 main_cst
  let main_v2 : IVec S200000x6 1 := cmpf .olt main_v0 main_v1
  let main_c : IVec S_ 1 := constantI S_ 1 1#1
  let main_v3 : IVec S_ 1 := (fun x v => Host.reduce IntOp.andi x v reducesTo_S200000x6_S_d0_1 h_S_) main_v2 main_c
  let main_v4 : FVec F S20000x6 .f32 := Host.absf main_arg1
  let main_cst_0 : FVec F S_ .f32 := constant S_ .f32 0x7F800000#32
  let main_v5 : FVec F S20000x6 .f32 := broadcastInDim S20000x6 ![] bcast_S_S20000x6 main_cst_0
  let main_v6 : IVec S20000x6 1 := cmpf .olt main_v4 main_v5
  let main_c_1 : IVec S_ 1 := constantI S_ 1 1#1
  let main_v7 : IVec S_ 1 := (fun x v => Host.reduce IntOp.andi x v reducesTo_S20000x6_S_d0_1 h_S_) main_v6 main_c_1
  let main_v8 : IVec S_ 1 := andi main_v3 main_v7
  let main_v9 : FVec F S200000x4 .f32 := Host.absf main_arg2
  let main_cst_2 : FVec F S_ .f32 := constant S_ .f32 0x7F800000#32
  let main_v10 : FVec F S200000x4 .f32 := broadcastInDim S200000x4 ![] bcast_S_S200000x4 main_cst_2
  let main_v11 : IVec S200000x4 1 := cmpf .olt main_v9 main_v10
  let main_c_3 : IVec S_ 1 := constantI S_ 1 1#1
  let main_v12 : IVec S_ 1 := (fun x v => Host.reduce IntOp.andi x v reducesTo_S200000x4_S_d0_1 h_S_) main_v11 main_c_3
  let main_v13 : IVec S_ 1 := andi main_v8 main_v12
  let main_v14 : FVec F S4000000 .f32 := Host.absf main_arg9
  let main_cst_4 : FVec F S_ .f32 := constant S_ .f32 0x7F800000#32
  let main_v15 : FVec F S4000000 .f32 := broadcastInDim S4000000 ![] bcast_S_S4000000 main_cst_4
  let main_v16 : IVec S4000000 1 := cmpf .olt main_v14 main_v15
  fn_part1 (F := F) main_arg10 main_arg11 main_arg12 main_arg13 main_arg14 main_arg15 main_arg16 main_arg17 main_arg18 main_arg19 main_arg20 main_arg21 main_arg22 main_arg23 main_arg24 main_arg25 main_arg26 main_arg27 main_v13 main_v16
-- ==== Kernel.lean ====
abbrev S200000x6 : Shape := ⟨2, ![200000, 6]⟩
abbrev S20000x6 : Shape := ⟨2, ![20000, 6]⟩
abbrev S200000x4 : Shape := ⟨2, ![200000, 4]⟩
abbrev S4000000 : Shape := ⟨1, ![4000000]⟩
abbrev S400000 : Shape := ⟨1, ![400000]⟩
abbrev S6x10 : Shape := ⟨2, ![6, 10]⟩
abbrev S10 : Shape := ⟨1, ![10]⟩
abbrev S4x10 : Shape := ⟨2, ![4, 10]⟩
abbrev S10x10 : Shape := ⟨2, ![10, 10]⟩
abbrev S10x1 : Shape := ⟨2, ![10, 1]⟩
abbrev S1 : Shape := ⟨1, ![1]⟩
abbrev S1x10 : Shape := ⟨2, ![1, 10]⟩
abbrev S200000x10 : Shape := ⟨2, ![200000, 10]⟩
abbrev S5000x6 : Shape := ⟨2, ![5000, 6]⟩
abbrev S5000x10 : Shape := ⟨2, ![5000, 10]⟩
abbrev S20000x10 : Shape := ⟨2, ![20000, 10]⟩
abbrev S_ : Shape := ⟨0, ![]⟩
abbrev S200000 : Shape := ⟨1, ![200000]⟩
abbrev S4000000x1 : Shape := ⟨2, ![4000000, 1]⟩
abbrev S200000x1 : Shape := ⟨2, ![200000, 1]⟩
abbrev S4000000x10 : Shape := ⟨2, ![4000000, 10]⟩
abbrev S20000 : Shape := ⟨1, ![20000]⟩
abbrev S400000x1 : Shape := ⟨2, ![400000, 1]⟩
abbrev S20000x1 : Shape := ⟨2, ![20000, 1]⟩
abbrev S400000x10 : Shape := ⟨2, ![400000, 10]⟩
abbrev S1x1 : Shape := ⟨2, ![1, 1]⟩
abbrev S5000x1 : Shape := ⟨2, ![5000, 1]⟩

abbrev nBuf : Space → Nat
  | .hbm => 209
  | .vmem => 34
  | .smem => 0
  | _ => 0

abbrev hbmTy0_0 (i : Nat) : BufTy := match i % 128 with
  | 0 => ⟨S200000x6, .f32⟩
  | 1 => ⟨S20000x6, .f32⟩
  | 2 => ⟨S200000x4, .f32⟩
  | 3 => ⟨S4000000, .i32⟩
  | 4 => ⟨S4000000, .i32⟩
  | 5 => ⟨S4000000, .i32⟩
  | 6 => ⟨S4000000, .i32⟩
  | 7 => ⟨S400000, .i32⟩
  | 8 => ⟨S400000, .i32⟩
  | 9 => ⟨S4000000, .f32⟩
  | 10 => ⟨S4000000, .f32⟩
  | 11 => ⟨S400000, .f32⟩
  | 12 => ⟨S6x10, .f32⟩
  | 13 => ⟨S10, .f32⟩
  | 14 => ⟨S6x10, .f32⟩
  | 15 => ⟨S10, .f32⟩
  | 16 => ⟨S4x10, .f32⟩
  | 17 => ⟨S10, .f32⟩
  | 18 => ⟨S10x10, .f32⟩
  | 19 => ⟨S10, .f32⟩
  | 20 => ⟨S10x10, .f32⟩
  | 21 => ⟨S10, .f32⟩
  | 22 => ⟨S10x10, .f32⟩
  | 23 => ⟨S10, .f32⟩
  | 24 => ⟨S10x10, .f32⟩
  | 25 => ⟨S10, .f32⟩
  | 26 => ⟨S10x1, .f32⟩
  | 27 => ⟨S1, .f32⟩
  | 28 => ⟨S1x10, .f32⟩
  | 29 => ⟨S200000x10, .f32⟩
  | 30 => ⟨S1x10, .f32⟩
  | 31 => ⟨S20000x10, .f32⟩
  | 32 => ⟨S_, .f32⟩
  | 33 => ⟨S200000, .f32⟩
  | 34 => ⟨S_, .i32⟩
  | 35 => ⟨S4000000, .i32⟩
  | 36 => ⟨S4000000, .i1⟩
  | 37 => ⟨S_, .i32⟩
  | 38 => ⟨S4000000, .i32⟩
  | 39 => ⟨S4000000, .i32⟩
  | 40 => ⟨S4000000, .i32⟩
  | 41 => ⟨S4000000x1, .i32⟩
  | 42 => ⟨S_, .f32⟩
  | 43 => ⟨S4000000, .f32⟩
  | 44 => ⟨S200000, .f32⟩
  | 45 => ⟨S_, .f32⟩
  | 46 => ⟨S200000, .f32⟩
  | 47 => ⟨S_, .i32⟩
  | 48 => ⟨S4000000, .i32⟩
  | 49 => ⟨S4000000, .i1⟩
  | 50 => ⟨S_, .i32⟩
  | 51 => ⟨S4000000, .i32⟩
  | 52 => ⟨S4000000, .i32⟩
  | 53 => ⟨S4000000, .i32⟩
  | 54 => ⟨S4000000x1, .i32⟩
  | 55 => ⟨S_, .f32⟩
  | 56 => ⟨S4000000, .f32⟩
  | 57 => ⟨S200000, .f32⟩
  | 58 => ⟨S_, .f32⟩
  | 59 => ⟨S200000, .f32⟩
  | 60 => ⟨S200000, .f32⟩
  | 61 => ⟨S200000, .f32⟩
  | 62 => ⟨S_, .f32⟩
  | 63 => ⟨S200000, .f32⟩
  | 64 => ⟨S200000, .f32⟩
  | 65 => ⟨S200000, .f32⟩
  | 66 => ⟨S200000x1, .f32⟩
  | 67 => ⟨S200000x10, .f32⟩
  | 68 => ⟨S200000x10, .f32⟩
  | 69 => ⟨S_, .i32⟩
  | 70 => ⟨S4000000, .i32⟩
  | 71 => ⟨S4000000, .i1⟩
  | 72 => ⟨S_, .i32⟩
  | 73 => ⟨S4000000, .i32⟩
  | 74 => ⟨S4000000, .i32⟩
  | 75 => ⟨S4000000, .i32⟩
  | 76 => ⟨S4000000x1, .i32⟩
  | 77 => ⟨S4000000x10, .f32⟩
  | 78 => ⟨S4000000x1, .f32⟩
  | 79 => ⟨S4000000x10, .f32⟩
  | 80 => ⟨S4000000x10, .f32⟩
  | 81 => ⟨S_, .f32⟩
  | 82 => ⟨S200000x10, .f32⟩
  | 83 => ⟨S4000000x1, .i32⟩
  | 84 => ⟨S200000x10, .f32⟩
  | 85 => ⟨S200000x1, .f32⟩
  | 86 => ⟨S200000x10, .f32⟩
  | 87 => ⟨S200000x10, .f32⟩
  | 88 => ⟨S_, .f32⟩
  | 89 => ⟨S20000, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S_, .f32⟩
  | 99 => ⟨S400000, .f32⟩
  | 100 => ⟨S20000, .f32⟩
  | 101 => ⟨S_, .f32⟩
  | 102 => ⟨S200000, .f32⟩
  | 103 => ⟨S_, .i32⟩
  | 104 => ⟨S400000, .i32⟩
  | 105 => ⟨S400000, .i1⟩
  | 106 => ⟨S_, .i32⟩
  | 107 => ⟨S400000, .i32⟩
  | 108 => ⟨S400000, .i32⟩
  | 109 => ⟨S400000, .i32⟩
  | 110 => ⟨S400000x1, .i32⟩
  | 111 => ⟨S_, .f32⟩
  | 112 => ⟨S400000, .f32⟩
  | 113 => ⟨S200000, .f32⟩
  | 114 => ⟨S_, .f32⟩
  | 115 => ⟨S20000, .f32⟩
  | 116 => ⟨S20000, .f32⟩
  | 117 => ⟨S20000, .f32⟩
  | 118 => ⟨S_, .f32⟩
  | 119 => ⟨S200000, .f32⟩
  | 120 => ⟨S200000, .f32⟩
  | 121 => ⟨S200000, .f32⟩
  | 122 => ⟨S20000x1, .f32⟩
  | 123 => ⟨S20000x10, .f32⟩
  | 124 => ⟨S20000x10, .f32⟩
  | 125 => ⟨S_, .i32⟩
  | 126 => ⟨S400000, .i32⟩
  | 127 => ⟨S400000, .i1⟩
  | _ => ⟨S200000x6, .f32⟩

abbrev hbmTy0_1 (i : Nat) : BufTy := match i % 128 with
  | 0 => ⟨S_, .i32⟩
  | 1 => ⟨S400000, .i32⟩
  | 2 => ⟨S400000, .i32⟩
  | 3 => ⟨S400000, .i32⟩
  | 4 => ⟨S400000x1, .i32⟩
  | 5 => ⟨S400000x10, .f32⟩
  | 6 => ⟨S400000x1, .f32⟩
  | 7 => ⟨S400000x10, .f32⟩
  | 8 => ⟨S400000x10, .f32⟩
  | 9 => ⟨S_, .f32⟩
  | 10 => ⟨S200000x10, .f32⟩
  | 11 => ⟨S400000x1, .i32⟩
  | 12 => ⟨S200000x10, .f32⟩
  | 13 => ⟨S200000x1, .f32⟩
  | 14 => ⟨S200000x10, .f32⟩
  | 15 => ⟨S200000x10, .f32⟩
  | 16 => ⟨S200000x10, .f32⟩
  | 17 => ⟨S1x10, .f32⟩
  | 18 => ⟨S200000x10, .f32⟩
  | 19 => ⟨S_, .f32⟩
  | 20 => ⟨S200000, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S_, .f32⟩
  | 30 => ⟨S4000000, .f32⟩
  | 31 => ⟨S200000, .f32⟩
  | 32 => ⟨S_, .f32⟩
  | 33 => ⟨S200000, .f32⟩
  | 34 => ⟨S_, .i32⟩
  | 35 => ⟨S4000000, .i32⟩
  | 36 => ⟨S4000000, .i1⟩
  | 37 => ⟨S_, .i32⟩
  | 38 => ⟨S4000000, .i32⟩
  | 39 => ⟨S4000000, .i32⟩
  | 40 => ⟨S4000000, .i32⟩
  | 41 => ⟨S4000000x1, .i32⟩
  | 42 => ⟨S_, .f32⟩
  | 43 => ⟨S4000000, .f32⟩
  | 44 => ⟨S200000, .f32⟩
  | 45 => ⟨S_, .f32⟩
  | 46 => ⟨S200000, .f32⟩
  | 47 => ⟨S200000, .f32⟩
  | 48 => ⟨S200000, .f32⟩
  | 49 => ⟨S_, .f32⟩
  | 50 => ⟨S200000, .f32⟩
  | 51 => ⟨S200000, .f32⟩
  | 52 => ⟨S200000, .f32⟩
  | 53 => ⟨S200000x1, .f32⟩
  | 54 => ⟨S200000x10, .f32⟩
  | 55 => ⟨S200000x10, .f32⟩
  | 56 => ⟨S_, .i32⟩
  | 57 => ⟨S4000000, .i32⟩
  | 58 => ⟨S4000000, .i1⟩
  | 59 => ⟨S_, .i32⟩
  | 60 => ⟨S4000000, .i32⟩
  | 61 => ⟨S4000000, .i32⟩
  | 62 => ⟨S4000000, .i32⟩
  | 63 => ⟨S4000000x1, .i32⟩
  | 64 => ⟨S4000000x10, .f32⟩
  | 65 => ⟨S4000000x1, .f32⟩
  | 66 => ⟨S4000000x10, .f32⟩
  | 67 => ⟨S4000000x10, .f32⟩
  | 68 => ⟨S_, .f32⟩
  | 69 => ⟨S200000x10, .f32⟩
  | 70 => ⟨S4000000x1, .i32⟩
  | 71 => ⟨S200000x10, .f32⟩
  | 72 => ⟨S200000x1, .f32⟩
  | 73 => ⟨S200000x10, .f32⟩
  | 74 => ⟨S200000x10, .f32⟩
  | 75 => ⟨S1x10, .f32⟩
  | 76 => ⟨S200000x10, .f32⟩
  | 77 => ⟨S1x10, .f32⟩
  | 78 => ⟨S1x10, .f32⟩
  | 79 => ⟨S1x1, .f32⟩
  | 80 => ⟨S1x1, .f32⟩
  | _ => ⟨S200000x6, .f32⟩

abbrev hbmTy (i : Nat) : BufTy := match i / 128 with
  | 0 => hbmTy0_0 i
  | 1 => hbmTy0_1 i
  | _ => ⟨S200000x6, .f32⟩

abbrev bufTy : (tb : Table) → Fin (tcTables nBuf tb) → BufTy
  | .hbm, ⟨i, _⟩ => hbmTy i
  | .local _ .vmem, ⟨0, _⟩ => ⟨S5000x6, .f32⟩
  | .local _ .vmem, ⟨1, _⟩ => ⟨S5000x6, .f32⟩
  | .local _ .vmem, ⟨2, _⟩ => ⟨S6x10, .f32⟩
  | .local _ .vmem, ⟨3, _⟩ => ⟨S1x10, .f32⟩
  | .local _ .vmem, ⟨4, _⟩ => ⟨S5000x10, .f32⟩
  | .local _ .vmem, ⟨5, _⟩ => ⟨S5000x10, .f32⟩
  | .local _ .vmem, ⟨6, _⟩ => ⟨S5000x6, .f32⟩
  | .local _ .vmem, ⟨7, _⟩ => ⟨S5000x6, .f32⟩
  | .local _ .vmem, ⟨8, _⟩ => ⟨S6x10, .f32⟩
  | .local _ .vmem, ⟨9, _⟩ => ⟨S1x10, .f32⟩
  | .local _ .vmem, ⟨10, _⟩ => ⟨S5000x10, .f32⟩
  | .local _ .vmem, ⟨11, _⟩ => ⟨S5000x10, .f32⟩
  | .local _ .vmem, ⟨12, _⟩ => ⟨S5000x10, .f32⟩
  | .local _ .vmem, ⟨13, _⟩ => ⟨S5000x10, .f32⟩
  | .local _ .vmem, ⟨14, _⟩ => ⟨S10x10, .f32⟩
  | .local _ .vmem, ⟨15, _⟩ => ⟨S1x10, .f32⟩
  | .local _ .vmem, ⟨16, _⟩ => ⟨S5000x10, .f32⟩
  | .local _ .vmem, ⟨17, _⟩ => ⟨S5000x10, .f32⟩
  | .local _ .vmem, ⟨18, _⟩ => ⟨S5000x10, .f32⟩
  | .local _ .vmem, ⟨19, _⟩ => ⟨S5000x10, .f32⟩
  | .local _ .vmem, ⟨20, _⟩ => ⟨S10x10, .f32⟩
  | .local _ .vmem, ⟨21, _⟩ => ⟨S1x10, .f32⟩
  | .local _ .vmem, ⟨22, _⟩ => ⟨S5000x10, .f32⟩
  | .local _ .vmem, ⟨23, _⟩ => ⟨S5000x10, .f32⟩
  | .local _ .vmem, ⟨24, _⟩ => ⟨S5000x10, .f32⟩
  | .local _ .vmem, ⟨25, _⟩ => ⟨S5000x10, .f32⟩
  | .local _ .vmem, ⟨26, _⟩ => ⟨S10x10, .f32⟩
  | .local _ .vmem, ⟨27, _⟩ => ⟨S1x10, .f32⟩
  | .local _ .vmem, ⟨28, _⟩ => ⟨S10x10, .f32⟩
  | .local _ .vmem, ⟨29, _⟩ => ⟨S1x10, .f32⟩
  | .local _ .vmem, ⟨30, _⟩ => ⟨S10x1, .f32⟩
  | .local _ .vmem, ⟨31, _⟩ => ⟨S1x1, .f32⟩
  | .local _ .vmem, ⟨32, _⟩ => ⟨S1x1, .f32⟩
  | .local _ .vmem, ⟨33, _⟩ => ⟨S1x1, .f32⟩
  | _, _ => ⟨S200000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst_1 : Ref sig .tc := ⟨.hbm, 42, rfl⟩
abbrev main_v11 : Ref sig .tc := ⟨.hbm, 43, rfl⟩
abbrev main_v12 : Ref sig .tc := ⟨.hbm, 44, rfl⟩
abbrev main_cst_2 : Ref sig .tc := ⟨.hbm, 45, rfl⟩
abbrev main_v13 : Ref sig .tc := ⟨.hbm, 46, rfl⟩
abbrev main_c_3 : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_5 : Ref sig .tc := ⟨.hbm, 55, rfl⟩
abbrev main_v20 : Ref sig .tc := ⟨.hbm, 56, rfl⟩
abbrev main_v21 : Ref sig .tc := ⟨.hbm, 57, rfl⟩
abbrev main_cst_6 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_cst_7 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_8 : Ref sig .tc := ⟨.hbm, 69, rfl⟩
abbrev main_v31 : Ref sig .tc := ⟨.hbm, 70, rfl⟩
abbrev main_v32 : Ref sig .tc := ⟨.hbm, 71, rfl⟩
abbrev main_c_9 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_cst_10 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_11 : Ref sig .tc := ⟨.hbm, 88, rfl⟩
abbrev main_v47 : Ref sig .tc := ⟨.hbm, 89, rfl⟩
abbrev main_c_12 : Ref sig .tc := ⟨.hbm, 90, rfl⟩
abbrev main_v48 : Ref sig .tc := ⟨.hbm, 91, rfl⟩
abbrev main_v49 : Ref sig .tc := ⟨.hbm, 92, rfl⟩
abbrev main_c_13 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_14 : Ref sig .tc := ⟨.hbm, 98, rfl⟩
abbrev main_v54 : Ref sig .tc := ⟨.hbm, 99, rfl⟩
abbrev main_v55 : Ref sig .tc := ⟨.hbm, 100, rfl⟩
abbrev main_cst_15 : Ref sig .tc := ⟨.hbm, 101, rfl⟩
abbrev main_v56 : Ref sig .tc := ⟨.hbm, 102, rfl⟩
abbrev main_c_16 : Ref sig .tc := ⟨.hbm, 103, rfl⟩
abbrev main_v57 : Ref sig .tc := ⟨.hbm, 104, rfl⟩
abbrev main_v58 : Ref sig .tc := ⟨.hbm, 105, rfl⟩
abbrev main_c_17 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_cst_18 : Ref sig .tc := ⟨.hbm, 111, rfl⟩
abbrev main_v63 : Ref sig .tc := ⟨.hbm, 112, rfl⟩
abbrev main_v64 : Ref sig .tc := ⟨.hbm, 113, rfl⟩
abbrev main_cst_19 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_20 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_c_21 : Ref sig .tc := ⟨.hbm, 125, rfl⟩
abbrev main_v74 : Ref sig .tc := ⟨.hbm, 126, rfl⟩
abbrev main_v75 : Ref sig .tc := ⟨.hbm, 127, rfl⟩
abbrev main_c_22 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_23 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_cst_24 : Ref sig .tc := ⟨.hbm, 147, rfl⟩
abbrev main_v93 : Ref sig .tc := ⟨.hbm, 148, rfl⟩
abbrev main_c_25 : Ref sig .tc := ⟨.hbm, 149, rfl⟩
abbrev main_v94 : Ref sig .tc := ⟨.hbm, 150, rfl⟩
abbrev main_v95 : Ref sig .tc := ⟨.hbm, 151, rfl⟩
abbrev main_c_26 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_cst_27 : Ref sig .tc := ⟨.hbm, 157, rfl⟩
abbrev main_v100 : Ref sig .tc := ⟨.hbm, 158, rfl⟩
abbrev main_v101 : Ref sig .tc := ⟨.hbm, 159, rfl⟩
abbrev main_cst_28 : Ref sig .tc := ⟨.hbm, 160, rfl⟩
abbrev main_v102 : Ref sig .tc := ⟨.hbm, 161, rfl⟩
abbrev main_c_29 : Ref sig .tc := ⟨.hbm, 162, rfl⟩
abbrev main_v103 : Ref sig .tc := ⟨.hbm, 163, rfl⟩
abbrev main_v104 : Ref sig .tc := ⟨.hbm, 164, rfl⟩
abbrev main_c_30 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_cst_31 : Ref sig .tc := ⟨.hbm, 170, rfl⟩
abbrev main_v109 : Ref sig .tc := ⟨.hbm, 171, rfl⟩
abbrev main_v110 : Ref sig .tc := ⟨.hbm, 172, rfl⟩
abbrev main_cst_32 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_cst_33 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_v117 : Ref sig .tc := ⟨.hbm, 181, rfl⟩
abbrev main_v118 : Ref sig .tc := ⟨.hbm, 182, rfl⟩
abbrev main_v119 : Ref sig .tc := ⟨.hbm, 183, rfl⟩
abbrev main_c_34 : Ref sig .tc := ⟨.hbm, 184, rfl⟩
abbrev main_v120 : Ref sig .tc := ⟨.hbm, 185, rfl⟩
abbrev main_v121 : Ref sig .tc := ⟨.hbm, 186, rfl⟩
abbrev main_c_35 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_cst_36 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg4_0 : Ref sig .tc := ⟨.vmem, 29, rfl⟩
abbrev cc4_stg5_0 : Ref sig .tc := ⟨.vmem, 30, rfl⟩
abbrev cc4_stg6_0 : Ref sig .tc := ⟨.vmem, 31, rfl⟩
abbrev cc4_stg7_0 : Ref sig .tc := ⟨.vmem, 32, rfl⟩
abbrev cc4_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem4_0 : DmaSem sig := 29
abbrev cc4_sem5_0 : DmaSem sig := 30
abbrev cc4_sem6_0 : DmaSem sig := 31
abbrev cc4_sem7_0 : DmaSem sig := 32

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x10 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x10 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![40], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x10 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x10 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x10 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x10 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x10 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![40], ![false]⟩

def k4_cond2 (i : grid4.Coords) : BitVec 1 :=
  let arg0 : BitVec 32 := BitVec.ofNat 32 (i 0).val
  let c39_i32 : BitVec 32 := 39#32
  let v40 : BitVec 1 := Scalar.cmpi .eq arg0 c39_i32
  let v41 : BitVec 32 := Scalar.extui v40
  let c0_i32_23 : BitVec 32 := 0#32
  let v42 : BitVec 1 := Scalar.cmpi .ne v41 c0_i32_23
  v42

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x10 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S10x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S10x10 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x10 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S10x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  shapeCasts_S10_S1x10 : S10.ShapeCasts S1x10
  inb_S5000x6_S5000x6_0_0 : ∀ a, (![0, 0] : Fin 2 → Nat) a + S5000x6.size a ≤ S5000x6.size a
  h_S5000x6 : 0 < S5000x6.numel
  bitsLt_bf16_f32 : FTy.bits .bf16 < FTy.bits .f32
  inb_S6x10_S6x10_0_0 : ∀ a, (![0, 0] : Fin 2 → Nat) a + S6x10.size a ≤ S6x10.size a
  h_S6x10 : 0 < S6x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  bcast_S_S200000 : S_.BroadcastsInDim S200000 (![] : Fin 0 → Fin S200000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  bcast_S4000000x1_S4000000x10_0_1 : S4000000x1.BroadcastsInDim S4000000x10 (![0, 1] : Fin 2 → Fin S4000000x10.rank)
  bcast_S_S200000x10 : S_.BroadcastsInDim S200000x10 (![] : Fin 0 → Fin S200000x10.rank)
  bcast_S_S20000 : S_.BroadcastsInDim S20000 (![] : Fin 0 → Fin S20000.rank)
  bcast_S_S400000 : S_.BroadcastsInDim S400000 (![] : Fin 0 → Fin S400000.rank)
  bcast_S400000_S400000x1_0 : S400000.BroadcastsInDim S400000x1 (![0] : Fin 1 → Fin S400000x1.rank)
  bcast_S20000_S20000x1_0 : S20000.BroadcastsInDim S20000x1 (![0] : Fin 1 → Fin S20000x1.rank)
  bcast_S20000x1_S20000x10_0_1 : S20000x1.BroadcastsInDim S20000x10 (![0, 1] : Fin 2 → Fin S20000x10.rank)
  bcast_S400000x1_S400000x10_0_1 : S400000x1.BroadcastsInDim S400000x10 (![0, 1] : Fin 2 → Fin S400000x10.rank)
  shapeCasts_S5000x10_S5000x10 : S5000x10.ShapeCasts S5000x10
  inb_S10x10_S10x10_0_0 : ∀ a, (![0, 0] : Fin 2 → Nat) a + S10x10.size a ≤ S10x10.size a
  h_S10x10 : 0 < S10x10.numel
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S10x1_S10x1_0_0 : ∀ a, (![0, 0] : Fin 2 → Nat) a + S10x1.size a ≤ S10x1.size a
  h_S10x1 : 0 < S10x1.numel
  broadcasts_S1x1_S5000x1 : S1x1.Broadcasts S5000x1
  reduces_S5000x1_S1 : S5000x1.Reduces [0] S1
  dot_S5000x6_S6x10_S5000x10_1_0_0_1_n_n_wf : DotDims.WF S5000x6 S6x10 S5000x10 [1] [0] [0] [1] [] []
  scatter_S200000_S4000000x1_S4000000_n_0_0_1_wf : ScatterDims.WF S200000 S4000000x1 S4000000 [] [0] [0] 1
  gather_S200000x10_S4000000x1_S4000000x10_1_0_n_n_0_1_110_wf : GatherDims.WF S200000x10 S4000000x1 S4000000x10 [1] [0] [] [0] [] 1 ![1, 10]
  scatter_S200000x10_S4000000x1_S4000000x10_1_0_0_1_wf : ScatterDims.WF S200000x10 S4000000x1 S4000000x10 [1] [0] [0] 1
  scatter_S20000_S400000x1_S400000_n_0_0_1_wf : ScatterDims.WF S20000 S400000x1 S400000 [] [0] [0] 1
  scatter_S200000_S400000x1_S400000_n_0_0_1_wf : ScatterDims.WF S200000 S400000x1 S400000 [] [0] [0] 1
  gather_S20000x10_S400000x1_S400000x10_1_0_n_n_0_1_110_wf : GatherDims.WF S20000x10 S400000x1 S400000x10 [1] [0] [] [0] [] 1 ![1, 10]
  scatter_S200000x10_S400000x1_S400000x10_1_0_0_1_wf : ScatterDims.WF S200000x10 S400000x1 S400000x10 [1] [0] [0] 1
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x6.size a ≤ S200000x6.size a
  hwx0_0 : ∀ i : grid0.Coords, EltTy.bits .f32 = 32 ∨ (Rect.block (s := S200000x6) S5000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x10.size a ≤ S6x10.size a
  hwx0_1 : ∀ i : grid0.Coords, EltTy.bits .f32 = 32 ∨ (Rect.block (s := S6x10) S6x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x10.size a ≤ S1x10.size a
  hwx0_2 : ∀ i : grid0.Coords, EltTy.bits .f32 = 32 ∨ (Rect.block (s := S1x10) S1x10.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x10.size a ≤ S200000x10.size a
  hwx0_3 : ∀ i : grid0.Coords, EltTy.bits .f32 = 32 ∨ (Rect.block (s := S200000x10) S5000x10.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x6.size a ≤ S20000x6.size a
  hwx1_0 : ∀ i : grid1.Coords, EltTy.bits .f32 = 32 ∨ (Rect.block (s := S20000x6) S5000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x10.size a ≤ S6x10.size a
  hwx1_1 : ∀ i : grid1.Coords, EltTy.bits .f32 = 32 ∨ (Rect.block (s := S6x10) S6x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x10.size a ≤ S20000x10.size a
  hwx1_3 : ∀ i : grid1.Coords, EltTy.bits .f32 = 32 ∨ (Rect.block (s := S20000x10) S5000x10.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x10.size a ≤ S200000x10.size a
  hwx2_0 : ∀ i : grid2.Coords, EltTy.bits .f32 = 32 ∨ (Rect.block (s := S200000x10) S5000x10.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10x10.size a ≤ S10x10.size a
  hwx2_1 : ∀ i : grid2.Coords, EltTy.bits .f32 = 32 ∨ (Rect.block (s := S10x10) S10x10.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x10.size a ≤ S1x10.size a
  hwx2_2 : ∀ i : grid2.Coords, EltTy.bits .f32 = 32 ∨ (Rect.block (s := S1x10) S1x10.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x10.size a ≤ S200000x10.size a
  hwx2_3 : ∀ i : grid2.Coords, EltTy.bits .f32 = 32 ∨ (Rect.block (s := S200000x10) S5000x10.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x10.size a ≤ S200000x10.size a
  hwx3_0 : ∀ i : grid3.Coords, EltTy.bits .f32 = 32 ∨ (Rect.block (s := S200000x10) S5000x10.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10x10.size a ≤ S10x10.size a
  hwx3_1 : ∀ i : grid3.Coords, EltTy.bits .f32 = 32 ∨ (Rect.block (s := S10x10) S10x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x10.size a ≤ S1x10.size a
  hwx3_2 : ∀ i : grid3.Coords, EltTy.bits .f32 = 32 ∨ (Rect.block (s := S1x10) S1x10.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x10.size a ≤ S200000x10.size a
  hwx3_3 : ∀ i : grid3.Coords, EltTy.bits .f32 = 32 ∨ (Rect.block (s := S200000x10) S5000x10.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x10.size a ≤ S200000x10.size a
  hwx4_0 : ∀ i : grid4.Coords, EltTy.bits .f32 = 32 ∨ (Rect.block (s := S200000x10) S5000x10.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S10x10.size a ≤ S10x10.size a
  hwx4_1 : ∀ i : grid4.Coords, EltTy.bits .f32 = 32 ∨ (Rect.block (s := S10x10) S10x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S10x10.size a ≤ S10x10.size a
  hwx4_3 : ∀ i : grid4.Coords, EltTy.bits .f32 = 32 ∨ (Rect.block (s := S10x10) S10x10.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x10.size a ≤ S1x10.size a
  hwx4_4 : ∀ i : grid4.Coords, EltTy.bits .f32 = 32 ∨ (Rect.block (s := S1x10) S1x10.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S10x1.size a ≤ S10x1.size a
  hwx4_5 : ∀ i : grid4.Coords, EltTy.bits .f32 = 32 ∨ (Rect.block (s := S10x1) S10x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)

variable [Facts₀]

def dot_S5000x6_S6x10_S5000x10_1_0_0_1_n_n : DotDims S5000x6 S6x10 S5000x10 where
  lhsContracting := [1]
  rhsContracting := [0]
  lhsNonContracting := [0]
  rhsNonContracting := [1]
  lhsBatch := []
  rhsBatch := []
  wf := dot_S5000x6_S6x10_S5000x10_1_0_0_1_n_n_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000x10_S4000000x1_S4000000x10_1_0_n_n_0_1_110 : GatherDims S200000x10 S4000000x1 S4000000x10 where
  offsetDims := [1]
  collapsedSliceDims := [0]
  operandBatchingDims := []
  startIndicesBatchingDims := []
  startIndexMap := [0]
  indexVectorDim := 1
  sliceSizes := ![1, 10]
  wf := gather_S200000x10_S4000000x1_S4000000x10_1_0_n_n_0_1_110_wf
def scatter_S200000x10_S4000000x1_S4000000x10_1_0_0_1 : ScatterDims S200000x10 S4000000x1 S4000000x10 where
  updateWindowDims := [1]
  insertedWindowDims := [0]
  scatterDimsToOperandDims := [0]
  indexVectorDim := 1
  wf := scatter_S200000x10_S4000000x1_S4000000x10_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S20000x10_S400000x1_S400000x10_1_0_n_n_0_1_110 : GatherDims S20000x10 S400000x1 S400000x10 where
  offsetDims := [1]
  collapsedSliceDims := [0]
  operandBatchingDims := []
  startIndicesBatchingDims := []
  startIndexMap := [0]
  indexVectorDim := 1
  sliceSizes := ![1, 10]
  wf := gather_S20000x10_S400000x1_S400000x10_1_0_n_n_0_1_110_wf
def scatter_S200000x10_S400000x1_S400000x10_1_0_0_1 : ScatterDims S200000x10 S400000x1 S400000x10 where
  updateWindowDims := [1]
  insertedWindowDims := [0]
  scatterDimsToOperandDims := [0]
  indexVectorDim := 1
  wf := scatter_S200000x10_S400000x1_S400000x10_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

abbrev win0_0 : Pipeline.Window sig grid0 :=
  Pipeline.Window.ofSpec (Memref.whole main_arg0) S5000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg12) S6x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x10.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S5000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg14) S6x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S5000x10.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v90) S5000x10.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg20) S10x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v91) S1x10.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v92) S5000x10.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v135) S5000x10.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg20) S10x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v136) S1x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v137) S5000x10.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v137) S5000x10.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg22) S10x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v138) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg24) S10x10.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v139) S1x10.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg26) S10x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v140) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v141) S1x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun _ => false | 7 => fun i => !(k4_cond2 i == 1#1) | ⟨_ + 8, h⟩ => absurd h (Nat.not_lt.2 (Nat.le_add_left _ _))

class Facts : Prop extends Facts₀ where

variable [Facts]
-- ==== ReferenceIdeal.lean ====
abbrev S200000x6 : Shape := ⟨2, ![200000, 6]⟩
abbrev S20000x6 : Shape := ⟨2, ![20000, 6]⟩
abbrev S200000x4 : Shape := ⟨2, ![200000, 4]⟩
abbrev S4000000 : Shape := ⟨1, ![4000000]⟩
abbrev S400000 : Shape := ⟨1, ![400000]⟩
abbrev S6x10 : Shape := ⟨2, ![6, 10]⟩
abbrev S10 : Shape := ⟨1, ![10]⟩
abbrev S4x10 : Shape := ⟨2, ![4, 10]⟩
abbrev S10x10 : Shape := ⟨2, ![10, 10]⟩
abbrev S10x1 : Shape := ⟨2, ![10, 1]⟩
abbrev S1 : Shape := ⟨1, ![1]⟩
abbrev S200000x10 : Shape := ⟨2, ![200000, 10]⟩
abbrev S1x10 : Shape := ⟨2, ![1, 10]⟩
abbrev S_ : Shape := ⟨0, ![]⟩
abbrev S20000x10 : Shape := ⟨2, ![20000, 10]⟩
abbrev S200000 : Shape := ⟨1, ![200000]⟩
abbrev S4000000x1 : Shape := ⟨2, ![4000000, 1]⟩
abbrev S200000x1 : Shape := ⟨2, ![200000, 1]⟩
abbrev S4000000x10 : Shape := ⟨2, ![4000000, 10]⟩
abbrev S20000 : Shape := ⟨1, ![20000]⟩
abbrev S400000x1 : Shape := ⟨2, ![400000, 1]⟩
abbrev S20000x1 : Shape := ⟨2, ![20000, 1]⟩
abbrev S400000x10 : Shape := ⟨2, ![400000, 10]⟩
abbrev S1x1 : Shape := ⟨2, ![1, 1]⟩

abbrev nBuf : Space → Nat
  | .hbm => 440
  | .vmem => 0
  | .smem => 0
  | _ => 0

abbrev hbmTy0_0 (i : Nat) : BufTy := match i % 128 with
  | 0 => ⟨S200000x6, .f32⟩
  | 1 => ⟨S20000x6, .f32⟩
  | 2 => ⟨S200000x4, .f32⟩
  | 3 => ⟨S4000000, .i32⟩
  | 4 => ⟨S4000000, .i32⟩
  | 5 => ⟨S4000000, .i32⟩
  | 6 => ⟨S4000000, .i32⟩
  | 7 => ⟨S400000, .i32⟩
  | 8 => ⟨S400000, .i32⟩
  | 9 => ⟨S4000000, .f32⟩
  | 10 => ⟨S4000000, .f32⟩
  | 11 => ⟨S400000, .f32⟩
  | 12 => ⟨S6x10, .f32⟩
  | 13 => ⟨S10, .f32⟩
  | 14 => ⟨S6x10, .f32⟩
  | 15 => ⟨S10, .f32⟩
  | 16 => ⟨S4x10, .f32⟩
  | 17 => ⟨S10, .f32⟩
  | 18 => ⟨S10x10, .f32⟩
  | 19 => ⟨S10, .f32⟩
  | 20 => ⟨S10x10, .f32⟩
  | 21 => ⟨S10, .f32⟩
  | 22 => ⟨S10x10, .f32⟩
  | 23 => ⟨S10, .f32⟩
  | 24 => ⟨S10x10, .f32⟩
  | 25 => ⟨S10, .f32⟩
  | 26 => ⟨S10x1, .f32⟩
  | 27 => ⟨S1, .f32⟩
  | 28 => ⟨S200000x10, .f32⟩
  | 29 => ⟨S1x10, .f32⟩
  | 30 => ⟨S200000x10, .f32⟩
  | 31 => ⟨S200000x10, .f32⟩
  | 32 => ⟨S_, .f32⟩
  | 33 => ⟨S200000x10, .f32⟩
  | 34 => ⟨S200000x10, .f32⟩
  | 35 => ⟨S20000x10, .f32⟩
  | 36 => ⟨S1x10, .f32⟩
  | 37 => ⟨S20000x10, .f32⟩
  | 38 => ⟨S20000x10, .f32⟩
  | 39 => ⟨S_, .f32⟩
  | 40 => ⟨S20000x10, .f32⟩
  | 41 => ⟨S20000x10, .f32⟩
  | 42 => ⟨S_, .f32⟩
  | 43 => ⟨S200000, .f32⟩
  | 44 => ⟨S_, .i32⟩
  | 45 => ⟨S4000000, .i32⟩
  | 46 => ⟨S4000000, .i1⟩
  | 47 => ⟨S_, .i32⟩
  | 48 => ⟨S4000000, .i32⟩
  | 49 => ⟨S4000000, .i32⟩
  | 50 => ⟨S4000000, .i32⟩
  | 51 => ⟨S4000000x1, .i32⟩
  | 52 => ⟨S_, .f32⟩
  | 53 => ⟨S4000000, .f32⟩
  | 54 => ⟨S200000, .f32⟩
  | 55 => ⟨S_, .f32⟩
  | 56 => ⟨S200000, .f32⟩
  | 57 => ⟨S_, .i32⟩
  | 58 => ⟨S4000000, .i32⟩
  | 59 => ⟨S4000000, .i1⟩
  | 60 => ⟨S_, .i32⟩
  | 61 => ⟨S4000000, .i32⟩
  | 62 => ⟨S4000000, .i32⟩
  | 63 => ⟨S4000000, .i32⟩
  | 64 => ⟨S4000000x1, .i32⟩
  | 65 => ⟨S_, .f32⟩
  | 66 => ⟨S4000000, .f32⟩
  | 67 => ⟨S200000, .f32⟩
  | 68 => ⟨S_, .f32⟩
  | 69 => ⟨S200000, .f32⟩
  | 70 => ⟨S200000, .f32⟩
  | 71 => ⟨S200000, .f32⟩
  | 72 => ⟨S_, .f32⟩
  | 73 => ⟨S200000, .f32⟩
  | 74 => ⟨S200000, .f32⟩
  | 75 => ⟨S200000, .f32⟩
  | 76 => ⟨S200000x1, .f32⟩
  | 77 => ⟨S200000x10, .f32⟩
  | 78 => ⟨S200000x10, .f32⟩
  | 79 => ⟨S_, .i32⟩
  | 80 => ⟨S4000000, .i32⟩
  | 81 => ⟨S4000000, .i1⟩
  | 82 => ⟨S_, .i32⟩
  | 83 => ⟨S4000000, .i32⟩
  | 84 => ⟨S4000000, .i32⟩
  | 85 => ⟨S4000000, .i32⟩
  | 86 => ⟨S4000000x1, .i32⟩
  | 87 => ⟨S4000000x10, .f32⟩
  | 88 => ⟨S4000000x1, .f32⟩
  | 89 => ⟨S4000000x10, .f32⟩
  | 90 => ⟨S4000000x10, .f32⟩
  | 91 => ⟨S_, .f32⟩
  | 92 => ⟨S200000x10, .f32⟩
  | 93 => ⟨S4000000x1, .i32⟩
  | 94 => ⟨S200000x10, .f32⟩
  | 95 => ⟨S200000x1, .f32⟩
  | 96 => ⟨S200000x10, .f32⟩
  | 97 => ⟨S200000x10, .f32⟩
  | 98 => ⟨S200000x10, .f32⟩
  | 99 => ⟨S1x10, .f32⟩
  | 100 => ⟨S200000x10, .f32⟩
  | 101 => ⟨S200000x10, .f32⟩
  | 102 => ⟨S_, .f32⟩
  | 103 => ⟨S20000, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S_, .f32⟩
  | 113 => ⟨S400000, .f32⟩
  | 114 => ⟨S20000, .f32⟩
  | 115 => ⟨S_, .f32⟩
  | 116 => ⟨S200000, .f32⟩
  | 117 => ⟨S_, .i32⟩
  | 118 => ⟨S400000, .i32⟩
  | 119 => ⟨S400000, .i1⟩
  | 120 => ⟨S_, .i32⟩
  | 121 => ⟨S400000, .i32⟩
  | 122 => ⟨S400000, .i32⟩
  | 123 => ⟨S400000, .i32⟩
  | 124 => ⟨S400000x1, .i32⟩
  | 125 => ⟨S_, .f32⟩
  | 126 => ⟨S400000, .f32⟩
  | 127 => ⟨S200000, .f32⟩
  | _ => ⟨S200000x6, .f32⟩

abbrev hbmTy0_1 (i : Nat) : BufTy := match i % 128 with
  | 0 => ⟨S_, .f32⟩
  | 1 => ⟨S20000, .f32⟩
  | 2 => ⟨S20000, .f32⟩
  | 3 => ⟨S20000, .f32⟩
  | 4 => ⟨S_, .f32⟩
  | 5 => ⟨S200000, .f32⟩
  | 6 => ⟨S200000, .f32⟩
  | 7 => ⟨S200000, .f32⟩
  | 8 => ⟨S20000x1, .f32⟩
  | 9 => ⟨S20000x10, .f32⟩
  | 10 => ⟨S20000x10, .f32⟩
  | 11 => ⟨S_, .i32⟩
  | 12 => ⟨S400000, .i32⟩
  | 13 => ⟨S400000, .i1⟩
  | 14 => ⟨S_, .i32⟩
  | 15 => ⟨S400000, .i32⟩
  | 16 => ⟨S400000, .i32⟩
  | 17 => ⟨S400000, .i32⟩
  | 18 => ⟨S400000x1, .i32⟩
  | 19 => ⟨S400000x10, .f32⟩
  | 20 => ⟨S400000x1, .f32⟩
  | 21 => ⟨S400000x10, .f32⟩
  | 22 => ⟨S400000x10, .f32⟩
  | 23 => ⟨S_, .f32⟩
  | 24 => ⟨S200000x10, .f32⟩
  | 25 => ⟨S400000x1, .i32⟩
  | 26 => ⟨S200000x10, .f32⟩
  | 27 => ⟨S200000x1, .f32⟩
  | 28 => ⟨S200000x10, .f32⟩
  | 29 => ⟨S200000x10, .f32⟩
  | 30 => ⟨S200000x10, .f32⟩
  | 31 => ⟨S1x10, .f32⟩
  | 32 => ⟨S200000x10, .f32⟩
  | 33 => ⟨S200000x10, .f32⟩
  | 34 => ⟨S200000x10, .f32⟩
  | 35 => ⟨S_, .f32⟩
  | 36 => ⟨S200000x10, .f32⟩
  | 37 => ⟨S200000x10, .f32⟩
  | 38 => ⟨S_, .f32⟩
  | 39 => ⟨S200000, .f32⟩
  | 40 => ⟨S_, .i32⟩
  | 41 => ⟨S4000000, .i32⟩
  | 42 => ⟨S4000000, .i1⟩
  | 43 => ⟨S_, .i32⟩
  | 44 => ⟨S4000000, .i32⟩
  | 45 => ⟨S4000000, .i32⟩
  | 46 => ⟨S4000000, .i32⟩
  | 47 => ⟨S4000000x1, .i32⟩
  | 48 => ⟨S_, .f32⟩
  | 49 => ⟨S4000000, .f32⟩
  | 50 => ⟨S200000, .f32⟩
  | 51 => ⟨S_, .f32⟩
  | 52 => ⟨S200000, .f32⟩
  | 53 => ⟨S_, .i32⟩
  | 54 => ⟨S4000000, .i32⟩
  | 55 => ⟨S4000000, .i1⟩
  | 56 => ⟨S_, .i32⟩
  | 57 => ⟨S4000000, .i32⟩
  | 58 => ⟨S4000000, .i32⟩
  | 59 => ⟨S4000000, .i32⟩
  | 60 => ⟨S4000000x1, .i32⟩
  | 61 => ⟨S_, .f32⟩
  | 62 => ⟨S4000000, .f32⟩
  | 63 => ⟨S200000, .f32⟩
  | 64 => ⟨S_, .f32⟩
  | 65 => ⟨S200000, .f32⟩
  | 66 => ⟨S200000, .f32⟩
  | 67 => ⟨S200000, .f32⟩
  | 68 => ⟨S_, .f32⟩
  | 69 => ⟨S200000, .f32⟩
  | 70 => ⟨S200000, .f32⟩
  | 71 => ⟨S200000, .f32⟩
  | 72 => ⟨S200000x1, .f32⟩
  | 73 => ⟨S200000x10, .f32⟩
  | 74 => ⟨S200000x10, .f32⟩
  | 75 => ⟨S_, .i32⟩
  | 76 => ⟨S4000000, .i32⟩
  | 77 => ⟨S4000000, .i1⟩
  | 78 => ⟨S_, .i32⟩
  | 79 => ⟨S4000000, .i32⟩
  | 80 => ⟨S4000000, .i32⟩
  | 81 => ⟨S4000000, .i32⟩
  | 82 => ⟨S4000000x1, .i32⟩
  | 83 => ⟨S4000000x10, .f32⟩
  | 84 => ⟨S4000000x1, .f32⟩
  | 85 => ⟨S4000000x10, .f32⟩
  | 86 => ⟨S4000000x10, .f32⟩
  | 87 => ⟨S_, .f32⟩
  | 88 => ⟨S200000x10, .f32⟩
  | 89 => ⟨S4000000x1, .i32⟩
  | 90 => ⟨S200000x10, .f32⟩
  | 91 => ⟨S200000x1, .f32⟩
  | 92 => ⟨S200000x10, .f32⟩
  | 93 => ⟨S200000x10, .f32⟩
  | 94 => ⟨S200000x10, .f32⟩
  | 95 => ⟨S1x10, .f32⟩
  | 96 => ⟨S200000x10, .f32⟩
  | 97 => ⟨S200000x10, .f32⟩
  | 98 => ⟨S_, .f32⟩
  | 99 => ⟨S20000, .f32⟩
  | 100 => ⟨S_, .i32⟩
  | 101 => ⟨S400000, .i32⟩
  | 102 => ⟨S400000, .i1⟩
  | 103 => ⟨S_, .i32⟩
  | 104 => ⟨S400000, .i32⟩
  | 105 => ⟨S400000, .i32⟩
  | 106 => ⟨S400000, .i32⟩
  | 107 => ⟨S400000x1, .i32⟩
  | 108 => ⟨S_, .f32⟩
  | 109 => ⟨S400000, .f32⟩
  | 110 => ⟨S20000, .f32⟩
  | 111 => ⟨S_, .f32⟩
  | 112 => ⟨S200000, .f32⟩
  | 113 => ⟨S_, .i32⟩
  | 114 => ⟨S400000, .i32⟩
  | 115 => ⟨S400000, .i1⟩
  | 116 => ⟨S_, .i32⟩
  | 117 => ⟨S400000, .i32⟩
  | 118 => ⟨S400000, .i32⟩
  | 119 => ⟨S400000, .i32⟩
  | 120 => ⟨S400000x1, .i32⟩
  | 121 => ⟨S_, .f32⟩
  | 122 => ⟨S400000, .f32⟩
  | 123 => ⟨S200000, .f32⟩
  | 124 => ⟨S_, .f32⟩
  | 125 => ⟨S20000, .f32⟩
  | 126 => ⟨S20000, .f32⟩
  | 127 => ⟨S20000, .f32⟩
  | _ => ⟨S200000x6, .f32⟩

abbrev hbmTy0_2 (i : Nat) : BufTy := match i % 128 with
  | 0 => ⟨S_, .f32⟩
  | 1 => ⟨S200000, .f32⟩
  | 2 => ⟨S200000, .f32⟩
  | 3 => ⟨S200000, .f32⟩
  | 4 => ⟨S20000x1, .f32⟩
  | 5 => ⟨S20000x10, .f32⟩
  | 6 => ⟨S20000x10, .f32⟩
  | 7 => ⟨S_, .i32⟩
  | 8 => ⟨S400000, .i32⟩
  | 9 => ⟨S400000, .i1⟩
  | 10 => ⟨S_, .i32⟩
  | 11 => ⟨S400000, .i32⟩
  | 12 => ⟨S400000, .i32⟩
  | 13 => ⟨S400000, .i32⟩
  | 14 => ⟨S400000x1, .i32⟩
  | 15 => ⟨S400000x10, .f32⟩
  | 16 => ⟨S400000x1, .f32⟩
  | 17 => ⟨S400000x10, .f32⟩
  | 18 => ⟨S400000x10, .f32⟩
  | 19 => ⟨S_, .f32⟩
  | 20 => ⟨S200000x10, .f32⟩
  | 21 => ⟨S400000x1, .i32⟩
  | 22 => ⟨S200000x10, .f32⟩
  | 23 => ⟨S200000x1, .f32⟩
  | 24 => ⟨S200000x10, .f32⟩
  | 25 => ⟨S200000x10, .f32⟩
  | 26 => ⟨S200000x10, .f32⟩
  | 27 => ⟨S1x10, .f32⟩
  | 28 => ⟨S200000x10, .f32⟩
  | 29 => ⟨S200000x10, .f32⟩
  | 30 => ⟨S200000x10, .f32⟩
  | 31 => ⟨S_, .f32⟩
  | 32 => ⟨S200000x10, .f32⟩
  | 33 => ⟨S200000x10, .f32⟩
  | 34 => ⟨S_, .f32⟩
  | 35 => ⟨S200000, .f32⟩
  | 36 => ⟨S_, .i32⟩
  | 37 => ⟨S4000000, .i32⟩
  | 38 => ⟨S4000000, .i1⟩
  | 39 => ⟨S_, .i32⟩
  | 40 => ⟨S4000000, .i32⟩
  | 41 => ⟨S4000000, .i32⟩
  | 42 => ⟨S4000000, .i32⟩
  | 43 => ⟨S4000000x1, .i32⟩
  | 44 => ⟨S_, .f32⟩
  | 45 => ⟨S4000000, .f32⟩
  | 46 => ⟨S200000, .f32⟩
  | 47 => ⟨S_, .f32⟩
  | 48 => ⟨S200000, .f32⟩
  | 49 => ⟨S_, .i32⟩
  | 50 => ⟨S4000000, .i32⟩
  | 51 => ⟨S4000000, .i1⟩
  | 52 => ⟨S_, .i32⟩
  | 53 => ⟨S4000000, .i32⟩
  | 54 => ⟨S4000000, .i32⟩
  | 55 => ⟨S4000000, .i32⟩
  | 56 => ⟨S4000000x1, .i32⟩
  | 57 => ⟨S_, .f32⟩
  | 58 => ⟨S4000000, .f32⟩
  | 59 => ⟨S200000, .f32⟩
  | 60 => ⟨S_, .f32⟩
  | 61 => ⟨S200000, .f32⟩
  | 62 => ⟨S200000, .f32⟩
  | 63 => ⟨S200000, .f32⟩
  | 64 => ⟨S_, .f32⟩
  | 65 => ⟨S200000, .f32⟩
  | 66 => ⟨S200000, .f32⟩
  | 67 => ⟨S200000, .f32⟩
  | 68 => ⟨S200000x1, .f32⟩
  | 69 => ⟨S200000x10, .f32⟩
  | 70 => ⟨S200000x10, .f32⟩
  | 71 => ⟨S_, .i32⟩
  | 72 => ⟨S4000000, .i32⟩
  | 73 => ⟨S4000000, .i1⟩
  | 74 => ⟨S_, .i32⟩
  | 75 => ⟨S4000000, .i32⟩
  | 76 => ⟨S4000000, .i32⟩
  | 77 => ⟨S4000000, .i32⟩
  | 78 => ⟨S4000000x1, .i32⟩
  | 79 => ⟨S4000000x10, .f32⟩
  | 80 => ⟨S4000000x1, .f32⟩
  | 81 => ⟨S4000000x10, .f32⟩
  | 82 => ⟨S4000000x10, .f32⟩
  | 83 => ⟨S_, .f32⟩
  | 84 => ⟨S200000x10, .f32⟩
  | 85 => ⟨S4000000x1, .i32⟩
  | 86 => ⟨S200000x10, .f32⟩
  | 87 => ⟨S200000x1, .f32⟩
  | 88 => ⟨S200000x10, .f32⟩
  | 89 => ⟨S200000x10, .f32⟩
  | 90 => ⟨S200000x10, .f32⟩
  | 91 => ⟨S1x10, .f32⟩
  | 92 => ⟨S200000x10, .f32⟩
  | 93 => ⟨S200000x10, .f32⟩
  | 94 => ⟨S_, .f32⟩
  | 95 => ⟨S200000x10, .f32⟩
  | 96 => ⟨S200000x10, .f32⟩
  | 97 => ⟨S_, .f32⟩
  | 98 => ⟨S200000, .f32⟩
  | 99 => ⟨S_, .i32⟩
  | 100 => ⟨S4000000, .i32⟩
  | 101 => ⟨S4000000, .i1⟩
  | 102 => ⟨S_, .i32⟩
  | 103 => ⟨S4000000, .i32⟩
  | 104 => ⟨S4000000, .i32⟩
  | 105 => ⟨S4000000, .i32⟩
  | 106 => ⟨S4000000x1, .i32⟩
  | 107 => ⟨S_, .f32⟩
  | 108 => ⟨S4000000, .f32⟩
  | 109 => ⟨S200000, .f32⟩
  | 110 => ⟨S_, .f32⟩
  | 111 => ⟨S200000, .f32⟩
  | 112 => ⟨S_, .i32⟩
  | 113 => ⟨S4000000, .i32⟩
  | 114 => ⟨S4000000, .i1⟩
  | 115 => ⟨S_, .i32⟩
  | 116 => ⟨S4000000, .i32⟩
  | 117 => ⟨S4000000, .i32⟩
  | 118 => ⟨S4000000, .i32⟩
  | 119 => ⟨S4000000x1, .i32⟩
  | 120 => ⟨S_, .f32⟩
  | 121 => ⟨S4000000, .f32⟩
  | 122 => ⟨S200000, .f32⟩
  | 123 => ⟨S_, .f32⟩
  | 124 => ⟨S200000, .f32⟩
  | 125 => ⟨S200000, .f32⟩
  | 126 => ⟨S200000, .f32⟩
  | 127 => ⟨S_, .f32⟩
  | _ => ⟨S200000x6, .f32⟩

abbrev hbmTy0_3 (i : Nat) : BufTy := match i % 128 with
  | 0 => ⟨S200000, .f32⟩
  | 1 => ⟨S200000, .f32⟩
  | 2 => ⟨S200000, .f32⟩
  | 3 => ⟨S200000x1, .f32⟩
  | 4 => ⟨S200000x10, .f32⟩
  | 5 => ⟨S200000x10, .f32⟩
  | 6 => ⟨S_, .i32⟩
  | 7 => ⟨S4000000, .i32⟩
  | 8 => ⟨S4000000, .i1⟩
  | 9 => ⟨S_, .i32⟩
  | 10 => ⟨S4000000, .i32⟩
  | 11 => ⟨S4000000, .i32⟩
  | 12 => ⟨S4000000, .i32⟩
  | 13 => ⟨S4000000x1, .i32⟩
  | 14 => ⟨S4000000x10, .f32⟩
  | 15 => ⟨S4000000x1, .f32⟩
  | 16 => ⟨S4000000x10, .f32⟩
  | 17 => ⟨S4000000x10, .f32⟩
  | 18 => ⟨S_, .f32⟩
  | 19 => ⟨S200000x10, .f32⟩
  | 20 => ⟨S4000000x1, .i32⟩
  | 21 => ⟨S200000x10, .f32⟩
  | 22 => ⟨S200000x1, .f32⟩
  | 23 => ⟨S200000x10, .f32⟩
  | 24 => ⟨S200000x10, .f32⟩
  | 25 => ⟨S200000x10, .f32⟩
  | 26 => ⟨S1x10, .f32⟩
  | 27 => ⟨S200000x10, .f32⟩
  | 28 => ⟨S200000x10, .f32⟩
  | 29 => ⟨S_, .f32⟩
  | 30 => ⟨S200000x10, .f32⟩
  | 31 => ⟨S200000x10, .f32⟩
  | 32 => ⟨S200000x10, .f32⟩
  | 33 => ⟨S1x10, .f32⟩
  | 34 => ⟨S200000x10, .f32⟩
  | 35 => ⟨S200000x10, .f32⟩
  | 36 => ⟨S_, .f32⟩
  | 37 => ⟨S200000x10, .f32⟩
  | 38 => ⟨S200000x10, .f32⟩
  | 39 => ⟨S200000x10, .f32⟩
  | 40 => ⟨S1x10, .f32⟩
  | 41 => ⟨S200000x10, .f32⟩
  | 42 => ⟨S200000x10, .f32⟩
  | 43 => ⟨S_, .f32⟩
  | 44 => ⟨S200000x10, .f32⟩
  | 45 => ⟨S200000x10, .f32⟩
  | 46 => ⟨S200000x1, .f32⟩
  | 47 => ⟨S1x1, .f32⟩
  | 48 => ⟨S200000x1, .f32⟩
  | 49 => ⟨S200000x1, .f32⟩
  | 50 => ⟨S_, .f32⟩
  | 51 => ⟨S1, .f32⟩
  | 52 => ⟨S1x1, .f32⟩
  | 53 => ⟨S_, .f32⟩
  | 54 => ⟨S1x1, .f32⟩
  | 55 => ⟨S1x1, .f32⟩
  | _ => ⟨S200000x6, .f32⟩

abbrev hbmTy (i : Nat) : BufTy := match i / 128 with
  | 0 => hbmTy0_0 i
  | 1 => hbmTy0_1 i
  | 2 => hbmTy0_2 i
  | 3 => hbmTy0_3 i
  | _ => ⟨S200000x6, .f32⟩

abbrev bufTy : (tb : Table) → Fin (tcTables nBuf tb) → BufTy
  | .hbm, ⟨i, _⟩ => hbmTy i
  | _, _ => ⟨S200000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_call0_cst : Ref sig .tc := ⟨.hbm, 32, rfl⟩
abbrev main_call0_v0 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_cst : Ref sig .tc := ⟨.hbm, 39, rfl⟩
abbrev main_call1_v0 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_c : Ref sig .tc := ⟨.hbm, 44, rfl⟩
abbrev main_v11 : Ref sig .tc := ⟨.hbm, 45, rfl⟩
abbrev main_v12 : Ref sig .tc := ⟨.hbm, 46, rfl⟩
abbrev main_c_0 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_1 : Ref sig .tc := ⟨.hbm, 52, rfl⟩
abbrev main_v17 : Ref sig .tc := ⟨.hbm, 53, rfl⟩
abbrev main_v18 : Ref sig .tc := ⟨.hbm, 54, rfl⟩
abbrev main_cst_2 : Ref sig .tc := ⟨.hbm, 55, rfl⟩
abbrev main_v19 : Ref sig .tc := ⟨.hbm, 56, rfl⟩
abbrev main_c_3 : Ref sig .tc := ⟨.hbm, 57, rfl⟩
abbrev main_v20 : Ref sig .tc := ⟨.hbm, 58, rfl⟩
abbrev main_v21 : Ref sig .tc := ⟨.hbm, 59, rfl⟩
abbrev main_c_4 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_v27 : Ref sig .tc := ⟨.hbm, 67, rfl⟩
abbrev main_cst_6 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_cst_7 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_c_8 : Ref sig .tc := ⟨.hbm, 79, rfl⟩
abbrev main_v37 : Ref sig .tc := ⟨.hbm, 80, rfl⟩
abbrev main_v38 : Ref sig .tc := ⟨.hbm, 81, rfl⟩
abbrev main_c_9 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_cst_10 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_cst_11 : Ref sig .tc := ⟨.hbm, 102, rfl⟩
abbrev main_v57 : Ref sig .tc := ⟨.hbm, 103, rfl⟩
abbrev main_c_12 : Ref sig .tc := ⟨.hbm, 104, rfl⟩
abbrev main_v58 : Ref sig .tc := ⟨.hbm, 105, rfl⟩
abbrev main_v59 : Ref sig .tc := ⟨.hbm, 106, rfl⟩
abbrev main_c_13 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_14 : Ref sig .tc := ⟨.hbm, 112, rfl⟩
abbrev main_v64 : Ref sig .tc := ⟨.hbm, 113, rfl⟩
abbrev main_v65 : Ref sig .tc := ⟨.hbm, 114, rfl⟩
abbrev main_cst_15 : Ref sig .tc := ⟨.hbm, 115, rfl⟩
abbrev main_v66 : Ref sig .tc := ⟨.hbm, 116, rfl⟩
abbrev main_c_16 : Ref sig .tc := ⟨.hbm, 117, rfl⟩
abbrev main_v67 : Ref sig .tc := ⟨.hbm, 118, rfl⟩
abbrev main_v68 : Ref sig .tc := ⟨.hbm, 119, rfl⟩
abbrev main_c_17 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_18 : Ref sig .tc := ⟨.hbm, 125, rfl⟩
abbrev main_v73 : Ref sig .tc := ⟨.hbm, 126, rfl⟩
abbrev main_v74 : Ref sig .tc := ⟨.hbm, 127, rfl⟩
abbrev main_cst_19 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_cst_20 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_c_21 : Ref sig .tc := ⟨.hbm, 139, rfl⟩
abbrev main_v84 : Ref sig .tc := ⟨.hbm, 140, rfl⟩
abbrev main_v85 : Ref sig .tc := ⟨.hbm, 141, rfl⟩
abbrev main_c_22 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_23 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_call2_cst : Ref sig .tc := ⟨.hbm, 163, rfl⟩
abbrev main_call2_v0 : Ref sig .tc := ⟨.hbm, 164, rfl⟩
abbrev main_v105 : Ref sig .tc := ⟨.hbm, 165, rfl⟩
abbrev main_cst_24 : Ref sig .tc := ⟨.hbm, 166, rfl⟩
abbrev main_v106 : Ref sig .tc := ⟨.hbm, 167, rfl⟩
abbrev main_c_25 : Ref sig .tc := ⟨.hbm, 168, rfl⟩
abbrev main_v107 : Ref sig .tc := ⟨.hbm, 169, rfl⟩
abbrev main_v108 : Ref sig .tc := ⟨.hbm, 170, rfl⟩
abbrev main_c_26 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_27 : Ref sig .tc := ⟨.hbm, 176, rfl⟩
abbrev main_v113 : Ref sig .tc := ⟨.hbm, 177, rfl⟩
abbrev main_v114 : Ref sig .tc := ⟨.hbm, 178, rfl⟩
abbrev main_cst_28 : Ref sig .tc := ⟨.hbm, 179, rfl⟩
abbrev main_v115 : Ref sig .tc := ⟨.hbm, 180, rfl⟩
abbrev main_c_29 : Ref sig .tc := ⟨.hbm, 181, rfl⟩
abbrev main_v116 : Ref sig .tc := ⟨.hbm, 182, rfl⟩
abbrev main_v117 : Ref sig .tc := ⟨.hbm, 183, rfl⟩
abbrev main_c_30 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_v121 : Ref sig .tc := ⟨.hbm, 188, rfl⟩
abbrev main_cst_31 : Ref sig .tc := ⟨.hbm, 189, rfl⟩
abbrev main_v122 : Ref sig .tc := ⟨.hbm, 190, rfl⟩
abbrev main_v123 : Ref sig .tc := ⟨.hbm, 191, rfl⟩
abbrev main_cst_32 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_cst_33 : Ref sig .tc := ⟨.hbm, 196, rfl⟩
abbrev main_v127 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_c_34 : Ref sig .tc := ⟨.hbm, 203, rfl⟩
abbrev main_v133 : Ref sig .tc := ⟨.hbm, 204, rfl⟩
abbrev main_v134 : Ref sig .tc := ⟨.hbm, 205, rfl⟩
abbrev main_c_35 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_cst_36 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_37 : Ref sig .tc := ⟨.hbm, 226, rfl⟩
abbrev main_v153 : Ref sig .tc := ⟨.hbm, 227, rfl⟩
abbrev main_c_38 : Ref sig .tc := ⟨.hbm, 228, rfl⟩
abbrev main_v154 : Ref sig .tc := ⟨.hbm, 229, rfl⟩
abbrev main_v155 : Ref sig .tc := ⟨.hbm, 230, rfl⟩
abbrev main_c_39 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_cst_40 : Ref sig .tc := ⟨.hbm, 236, rfl⟩
abbrev main_v160 : Ref sig .tc := ⟨.hbm, 237, rfl⟩
abbrev main_v161 : Ref sig .tc := ⟨.hbm, 238, rfl⟩
abbrev main_cst_41 : Ref sig .tc := ⟨.hbm, 239, rfl⟩
abbrev main_v162 : Ref sig .tc := ⟨.hbm, 240, rfl⟩
abbrev main_c_42 : Ref sig .tc := ⟨.hbm, 241, rfl⟩
abbrev main_v163 : Ref sig .tc := ⟨.hbm, 242, rfl⟩
abbrev main_v164 : Ref sig .tc := ⟨.hbm, 243, rfl⟩
abbrev main_c_43 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_cst_44 : Ref sig .tc := ⟨.hbm, 249, rfl⟩
abbrev main_v169 : Ref sig .tc := ⟨.hbm, 250, rfl⟩
abbrev main_v170 : Ref sig .tc := ⟨.hbm, 251, rfl⟩
abbrev main_cst_45 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_cst_46 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_c_47 : Ref sig .tc := ⟨.hbm, 263, rfl⟩
abbrev main_v180 : Ref sig .tc := ⟨.hbm, 264, rfl⟩
abbrev main_v181 : Ref sig .tc := ⟨.hbm, 265, rfl⟩
abbrev main_c_48 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_cst_49 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_v195 : Ref sig .tc := ⟨.hbm, 281, rfl⟩
abbrev main_v196 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_v200 : Ref sig .tc := ⟨.hbm, 286, rfl⟩
abbrev main_call3_cst : Ref sig .tc := ⟨.hbm, 287, rfl⟩
abbrev main_call3_v0 : Ref sig .tc := ⟨.hbm, 288, rfl⟩
abbrev main_v201 : Ref sig .tc := ⟨.hbm, 289, rfl⟩
abbrev main_cst_50 : Ref sig .tc := ⟨.hbm, 290, rfl⟩
abbrev main_v202 : Ref sig .tc := ⟨.hbm, 291, rfl⟩
abbrev main_c_51 : Ref sig .tc := ⟨.hbm, 292, rfl⟩
abbrev main_v203 : Ref sig .tc := ⟨.hbm, 293, rfl⟩
abbrev main_v204 : Ref sig .tc := ⟨.hbm, 294, rfl⟩
abbrev main_c_52 : Ref sig .tc := ⟨.hbm, 295, rfl⟩
abbrev main_v205 : Ref sig .tc := ⟨.hbm, 296, rfl⟩
abbrev main_v206 : Ref sig .tc := ⟨.hbm, 297, rfl⟩
abbrev main_v207 : Ref sig .tc := ⟨.hbm, 298, rfl⟩
abbrev main_v208 : Ref sig .tc := ⟨.hbm, 299, rfl⟩
abbrev main_cst_53 : Ref sig .tc := ⟨.hbm, 300, rfl⟩
abbrev main_v209 : Ref sig .tc := ⟨.hbm, 301, rfl⟩
abbrev main_v210 : Ref sig .tc := ⟨.hbm, 302, rfl⟩
abbrev main_cst_54 : Ref sig .tc := ⟨.hbm, 303, rfl⟩
abbrev main_v211 : Ref sig .tc := ⟨.hbm, 304, rfl⟩
abbrev main_c_55 : Ref sig .tc := ⟨.hbm, 305, rfl⟩
abbrev main_v212 : Ref sig .tc := ⟨.hbm, 306, rfl⟩
abbrev main_v213 : Ref sig .tc := ⟨.hbm, 307, rfl⟩
abbrev main_c_56 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_cst_57 : Ref sig .tc := ⟨.hbm, 313, rfl⟩
abbrev main_v218 : Ref sig .tc := ⟨.hbm, 314, rfl⟩
abbrev main_v219 : Ref sig .tc := ⟨.hbm, 315, rfl⟩
abbrev main_cst_58 : Ref sig .tc := ⟨.hbm, 316, rfl⟩
abbrev main_v220 : Ref sig .tc := ⟨.hbm, 317, rfl⟩
abbrev main_v221 : Ref sig .tc := ⟨.hbm, 318, rfl⟩
abbrev main_v222 : Ref sig .tc := ⟨.hbm, 319, rfl⟩
abbrev main_cst_59 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_c_60 : Ref sig .tc := ⟨.hbm, 327, rfl⟩
abbrev main_v229 : Ref sig .tc := ⟨.hbm, 328, rfl⟩
abbrev main_v230 : Ref sig .tc := ⟨.hbm, 329, rfl⟩
abbrev main_c_61 : Ref sig .tc := ⟨.hbm, 330, rfl⟩
abbrev main_v231 : Ref sig .tc := ⟨.hbm, 331, rfl⟩
abbrev main_v232 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_v236 : Ref sig .tc := ⟨.hbm, 336, rfl⟩
abbrev main_v237 : Ref sig .tc := ⟨.hbm, 337, rfl⟩
abbrev main_v238 : Ref sig .tc := ⟨.hbm, 338, rfl⟩
abbrev main_cst_62 : Ref sig .tc := ⟨.hbm, 339, rfl⟩
abbrev main_v239 : Ref sig .tc := ⟨.hbm, 340, rfl⟩
abbrev main_v240 : Ref sig .tc := ⟨.hbm, 341, rfl⟩
abbrev main_v241 : Ref sig .tc := ⟨.hbm, 342, rfl⟩
abbrev main_v242 : Ref sig .tc := ⟨.hbm, 343, rfl⟩
abbrev main_v243 : Ref sig .tc := ⟨.hbm, 344, rfl⟩
abbrev main_v244 : Ref sig .tc := ⟨.hbm, 345, rfl⟩
abbrev main_v245 : Ref sig .tc := ⟨.hbm, 346, rfl⟩
abbrev main_v246 : Ref sig .tc := ⟨.hbm, 347, rfl⟩
abbrev main_v247 : Ref sig .tc := ⟨.hbm, 348, rfl⟩
abbrev main_v248 : Ref sig .tc := ⟨.hbm, 349, rfl⟩
abbrev main_call4_cst : Ref sig .tc := ⟨.hbm, 350, rfl⟩
abbrev main_call4_v0 : Ref sig .tc := ⟨.hbm, 351, rfl⟩
abbrev main_v249 : Ref sig .tc := ⟨.hbm, 352, rfl⟩
abbrev main_cst_63 : Ref sig .tc := ⟨.hbm, 353, rfl⟩
abbrev main_v250 : Ref sig .tc := ⟨.hbm, 354, rfl⟩
abbrev main_c_64 : Ref sig .tc := ⟨.hbm, 355, rfl⟩
abbrev main_v251 : Ref sig .tc := ⟨.hbm, 356, rfl⟩
abbrev main_v252 : Ref sig .tc := ⟨.hbm, 357, rfl⟩
abbrev main_c_65 : Ref sig .tc := ⟨.hbm, 358, rfl⟩
abbrev main_v253 : Ref sig .tc := ⟨.hbm, 359, rfl⟩
abbrev main_v254 : Ref sig .tc := ⟨.hbm, 360, rfl⟩
abbrev main_v255 : Ref sig .tc := ⟨.hbm, 361, rfl⟩
abbrev main_v256 : Ref sig .tc := ⟨.hbm, 362, rfl⟩
abbrev main_cst_66 : Ref sig .tc := ⟨.hbm, 363, rfl⟩
abbrev main_v257 : Ref sig .tc := ⟨.hbm, 364, rfl⟩
abbrev main_v258 : Ref sig .tc := ⟨.hbm, 365, rfl⟩
abbrev main_cst_67 : Ref sig .tc := ⟨.hbm, 366, rfl⟩
abbrev main_v259 : Ref sig .tc := ⟨.hbm, 367, rfl⟩
abbrev main_c_68 : Ref sig .tc := ⟨.hbm, 368, rfl⟩
abbrev main_v260 : Ref sig .tc := ⟨.hbm, 369, rfl⟩
abbrev main_v261 : Ref sig .tc := ⟨.hbm, 370, rfl⟩
abbrev main_c_69 : Ref sig .tc := ⟨.hbm, 371, rfl⟩
abbrev main_v262 : Ref sig .tc := ⟨.hbm, 372, rfl⟩
abbrev main_v263 : Ref sig .tc := ⟨.hbm, 373, rfl⟩
abbrev main_v264 : Ref sig .tc := ⟨.hbm, 374, rfl⟩
abbrev main_v265 : Ref sig .tc := ⟨.hbm, 375, rfl⟩
abbrev main_cst_70 : Ref sig .tc := ⟨.hbm, 376, rfl⟩
abbrev main_v266 : Ref sig .tc := ⟨.hbm, 377, rfl⟩
abbrev main_v267 : Ref sig .tc := ⟨.hbm, 378, rfl⟩
abbrev main_cst_71 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_cst_72 : Ref sig .tc := ⟨.hbm, 383, rfl⟩
abbrev main_v271 : Ref sig .tc := ⟨.hbm, 384, rfl⟩
abbrev main_v272 : Ref sig .tc := ⟨.hbm, 385, rfl⟩
abbrev main_v273 : Ref sig .tc := ⟨.hbm, 386, rfl⟩
abbrev main_v274 : Ref sig .tc := ⟨.hbm, 387, rfl⟩
abbrev main_v275 : Ref sig .tc := ⟨.hbm, 388, rfl⟩
abbrev main_v276 : Ref sig .tc := ⟨.hbm, 389, rfl⟩
abbrev main_c_73 : Ref sig .tc := ⟨.hbm, 390, rfl⟩
abbrev main_v277 : Ref sig .tc := ⟨.hbm, 391, rfl⟩
abbrev main_v278 : Ref sig .tc := ⟨.hbm, 392, rfl⟩
abbrev main_c_74 : Ref sig .tc := ⟨.hbm, 393, rfl⟩
abbrev main_v279 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_cst_75 : Ref sig .tc := ⟨.hbm, 402, rfl⟩
abbrev main_v287 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_v293 : Ref sig .tc := ⟨.hbm, 409, rfl⟩
abbrev main_v294 : Ref sig .tc := ⟨.hbm, 410, rfl⟩
abbrev main_v295 : Ref sig .tc := ⟨.hbm, 411, rfl⟩
abbrev main_v296 : Ref sig .tc := ⟨.hbm, 412, rfl⟩
abbrev main_call5_cst : Ref sig .tc := ⟨.hbm, 413, rfl⟩
abbrev main_call5_v0 : Ref sig .tc := ⟨.hbm, 414, rfl⟩
abbrev main_v297 : Ref sig .tc := ⟨.hbm, 415, rfl⟩
abbrev main_v298 : Ref sig .tc := ⟨.hbm, 416, rfl⟩
abbrev main_v299 : Ref sig .tc := ⟨.hbm, 417, rfl⟩
abbrev main_v300 : Ref sig .tc := ⟨.hbm, 418, rfl⟩
abbrev main_v301 : Ref sig .tc := ⟨.hbm, 419, rfl⟩
abbrev main_call6_cst : Ref sig .tc := ⟨.hbm, 420, rfl⟩
abbrev main_call6_v0 : Ref sig .tc := ⟨.hbm, 421, rfl⟩
abbrev main_v302 : Ref sig .tc := ⟨.hbm, 422, rfl⟩
abbrev main_v303 : Ref sig .tc := ⟨.hbm, 423, rfl⟩
abbrev main_v304 : Ref sig .tc := ⟨.hbm, 424, rfl⟩
abbrev main_v305 : Ref sig .tc := ⟨.hbm, 425, rfl⟩
abbrev main_v306 : Ref sig .tc := ⟨.hbm, 426, rfl⟩
abbrev main_call7_cst : Ref sig .tc := ⟨.hbm, 427, rfl⟩
abbrev main_call7_v0 : Ref sig .tc := ⟨.hbm, 428, rfl⟩
abbrev main_v307 : Ref sig .tc := ⟨.hbm, 429, rfl⟩
abbrev main_v308 : Ref sig .tc := ⟨.hbm, 430, rfl⟩
abbrev main_v309 : Ref sig .tc := ⟨.hbm, 431, rfl⟩
abbrev main_v310 : Ref sig .tc := ⟨.hbm, 432, rfl⟩
abbrev main_v311 : Ref sig .tc := ⟨.hbm, 433, rfl⟩
abbrev main_cst_76 : Ref sig .tc := ⟨.hbm, 434, rfl⟩
abbrev main_v312 : Ref sig .tc := ⟨.hbm, 435, rfl⟩
abbrev main_v313 : Ref sig .tc := ⟨.hbm, 436, rfl⟩
abbrev main_cst_77 : Ref sig .tc := ⟨.hbm, 437, rfl⟩
abbrev main_v314 : Ref sig .tc := ⟨.hbm, 438, rfl⟩
abbrev main_v315 : Ref sig .tc := ⟨.hbm, 439, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S200000x10_0_1 : S1x10.BroadcastsInDim S200000x10 (![0, 1] : Fin 2 → Fin S200000x10.rank)
  bcast_S_S200000x10 : S_.BroadcastsInDim S200000x10 (![] : Fin 0 → Fin S200000x10.rank)
  bcast_S1x10_S20000x10_0_1 : S1x10.BroadcastsInDim S20000x10 (![0, 1] : Fin 2 → Fin S20000x10.rank)
  bcast_S_S20000x10 : S_.BroadcastsInDim S20000x10 (![] : Fin 0 → Fin S20000x10.rank)
  bcast_S_S200000 : S_.BroadcastsInDim S200000 (![] : Fin 0 → Fin S200000.rank)
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S200000_S200000x1_0 : S200000.BroadcastsInDim S200000x1 (![0] : Fin 1 → Fin S200000x1.rank)
  bcast_S200000x1_S200000x10_0_1 : S200000x1.BroadcastsInDim S200000x10 (![0, 1] : Fin 2 → Fin S200000x10.rank)
  bcast_S4000000x1_S4000000x10_0_1 : S4000000x1.BroadcastsInDim S4000000x10 (![0, 1] : Fin 2 → Fin S4000000x10.rank)
  bcast_S_S20000 : S_.BroadcastsInDim S20000 (![] : Fin 0 → Fin S20000.rank)
  bcast_S_S400000 : S_.BroadcastsInDim S400000 (![] : Fin 0 → Fin S400000.rank)
  bcast_S400000_S400000x1_0 : S400000.BroadcastsInDim S400000x1 (![0] : Fin 1 → Fin S400000x1.rank)
  bcast_S20000_S20000x1_0 : S20000.BroadcastsInDim S20000x1 (![0] : Fin 1 → Fin S20000x1.rank)
  bcast_S20000x1_S20000x10_0_1 : S20000x1.BroadcastsInDim S20000x10 (![0, 1] : Fin 2 → Fin S20000x10.rank)
  bcast_S400000x1_S400000x10_0_1 : S400000x1.BroadcastsInDim S400000x10 (![0, 1] : Fin 2 → Fin S400000x10.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  reducesTo_S200000x1_S1_d0 : S200000x1.ReducesTo [0] S1
  h_S_ : 0 < S_.numel
  bcast_S_S1x1 : S_.BroadcastsInDim S1x1 (![] : Fin 0 → Fin S1x1.rank)
  dot_S200000x6_S6x10_S200000x10_1_0_0_1_n_n_wf : DotDims.WF S200000x6 S6x10 S200000x10 [1] [0] [0] [1] [] []
  dot_S20000x6_S6x10_S20000x10_1_0_0_1_n_n_wf : DotDims.WF S20000x6 S6x10 S20000x10 [1] [0] [0] [1] [] []
  scatter_S200000_S4000000x1_S4000000_n_0_0_1_wf : ScatterDims.WF S200000 S4000000x1 S4000000 [] [0] [0] 1
  gather_S200000x10_S4000000x1_S4000000x10_1_0_n_n_0_1_110_wf : GatherDims.WF S200000x10 S4000000x1 S4000000x10 [1] [0] [] [0] [] 1 ![1, 10]
  scatter_S200000x10_S4000000x1_S4000000x10_1_0_0_1_wf : ScatterDims.WF S200000x10 S4000000x1 S4000000x10 [1] [0] [0] 1
  dot_S200000x10_S10x10_S200000x10_1_0_0_1_n_n_wf : DotDims.WF S200000x10 S10x10 S200000x10 [1] [0] [0] [1] [] []
  scatter_S20000_S400000x1_S400000_n_0_0_1_wf : ScatterDims.WF S20000 S400000x1 S400000 [] [0] [0] 1
  scatter_S200000_S400000x1_S400000_n_0_0_1_wf : ScatterDims.WF S200000 S400000x1 S400000 [] [0] [0] 1
  gather_S20000x10_S400000x1_S400000x10_1_0_n_n_0_1_110_wf : GatherDims.WF S20000x10 S400000x1 S400000x10 [1] [0] [] [0] [] 1 ![1, 10]
  scatter_S200000x10_S400000x1_S400000x10_1_0_0_1_wf : ScatterDims.WF S200000x10 S400000x1 S400000x10 [1] [0] [0] 1
  dot_S200000x10_S10x1_S200000x1_1_0_0_1_n_n_wf : DotDims.WF S200000x10 S10x1 S200000x1 [1] [0] [0] [1] [] []

variable [Facts₀]

def dot_S200000x6_S6x10_S200000x10_1_0_0_1_n_n : DotDims S200000x6 S6x10 S200000x10 where
  lhsContracting := [1]
  rhsContracting := [0]
  lhsNonContracting := [0]
  rhsNonContracting := [1]
  lhsBatch := []
  rhsBatch := []
  wf := dot_S200000x6_S6x10_S200000x10_1_0_0_1_n_n_wf
def dot_S20000x6_S6x10_S20000x10_1_0_0_1_n_n : DotDims S20000x6 S6x10 S20000x10 where
  lhsContracting := [1]
  rhsContracting := [0]
  lhsNonContracting := [0]
  rhsNonContracting := [1]
  lhsBatch := []
  rhsBatch := []
  wf := dot_S20000x6_S6x10_S20000x10_1_0_0_1_n_n_wf
def scatter_S200000_S4000000x1_S4000000_n_0_0_1 : ScatterDims S200000 S4000000x1 S4000000 where
  updateWindowDims := []
  insertedWindowDims := [0]
  scatterDimsToOperandDims := [0]
  indexVectorDim := 1
  wf := scatter_S200000_S4000000x1_S4000000_n_0_0_1_wf
def gather_S200000x10_S4000000x1_S4000000x10_1_0_n_n_0_1_110 : GatherDims S200000x10 S4000000x1 S4000000x10 where
  offsetDims := [1]
  collapsedSliceDims := [0]
  operandBatchingDims := []
  startIndicesBatchingDims := []
  startIndexMap := [0]
  indexVectorDim := 1
  sliceSizes := ![1, 10]
  wf := gather_S200000x10_S4000000x1_S4000000x10_1_0_n_n_0_1_110_wf
def scatter_S200000x10_S4000000x1_S4000000x10_1_0_0_1 : ScatterDims S200000x10 S4000000x1 S4000000x10 where
  updateWindowDims := [1]
  insertedWindowDims := [0]
  scatterDimsToOperandDims := [0]
  indexVectorDim := 1
  wf := scatter_S200000x10_S4000000x1_S4000000x10_1_0_0_1_wf
def dot_S200000x10_S10x10_S200000x10_1_0_0_1_n_n : DotDims S200000x10 S10x10 S200000x10 where
  lhsContracting := [1]
  rhsContracting := [0]
  lhsNonContracting := [0]
  rhsNonContracting := [1]
  lhsBatch := []
  rhsBatch := []
  wf := dot_S200000x10_S10x10_S200000x10_1_0_0_1_n_n_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def scatter_S200000_S400000x1_S400000_n_0_0_1 : ScatterDims S200000 S400000x1 S400000 where
  updateWindowDims := []
  insertedWindowDims := [0]
  scatterDimsToOperandDims := [0]
  indexVectorDim := 1
  wf := scatter_S200000_S400000x1_S400000_n_0_0_1_wf
def gather_S20000x10_S400000x1_S400000x10_1_0_n_n_0_1_110 : GatherDims S20000x10 S400000x1 S400000x10 where
  offsetDims := [1]
  collapsedSliceDims := [0]
  operandBatchingDims := []
  startIndicesBatchingDims := []
  startIndexMap := [0]
  indexVectorDim := 1
  sliceSizes := ![1, 10]
  wf := gather_S20000x10_S400000x1_S400000x10_1_0_n_n_0_1_110_wf
def scatter_S200000x10_S400000x1_S400000x10_1_0_0_1 : ScatterDims S200000x10 S400000x1 S400000x10 where
  updateWindowDims := [1]
  insertedWindowDims := [0]
  scatterDimsToOperandDims := [0]
  indexVectorDim := 1
  wf := scatter_S200000x10_S400000x1_S400000x10_1_0_0_1_wf
def dot_S200000x10_S10x1_S200000x1_1_0_0_1_n_n : DotDims S200000x10 S10x1 S200000x1 where
  lhsContracting := [1]
  rhsContracting := [0]
  lhsNonContracting := [0]
  rhsNonContracting := [1]
  lhsBatch := []
  rhsBatch := []
  wf := dot_S200000x10_S10x1_S200000x1_1_0_0_1_n_n_wf

class Facts : Prop extends Facts₀ where

variable [Facts]
-- ==== Proof.K.R0.lean ====
/- The class-A half of region 0 of @main (custom_call 0: the tiled linear kernel, a block of
   relu (x · W + c · b) per grid point), at a PARAMETER `V` — the TensorCore's buffer contents when the region is
   entered: each window's block at a point (`iblk0`), the output window's staging buffer after the body as a
   closed function of the input blocks (`out0_3`), the body's triple (`sound_kernel0`), the pipeline's proof
   data (`dat0`) and the body obligation at every point (`body_obligation0`). -/
import proofs.«125994_j2843268349979_1_alg».proof.Proof.Gen.Kernel.Launch
import proofs.«125994_j2843268349979_1_alg».proof.Proof.Gen.Kernel.Skeleton
import proofs.«125994_j2843268349979_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- window 1 (W, whole) at the first point only: its index map is constant; -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- window 2 (b, whole) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_x : Rect S5000x6 := Rect.unit (s := S5000x6) ![0, 0] S5000x6.size inb_S5000x6_S5000x6_0_0
abbrev r0_w : Rect S6x10 := Rect.unit (s := S6x10) ![0, 0] S6x10.size inb_S6x10_S6x10_0_0
abbrev r0_b : Rect S1x10 := Rect.unit (s := S1x10) ![0, 0] S1x10.size inb_S1x10_S1x10_0_0
abbrev r0_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out0_3 (x0 : Vec F S5000x6 .f32) (x1 : Vec F S6x10 .f32) (x2 : Vec F S1x10 .f32) : Vec F S5000x10 .f32 :=
  View.canon [⟨r0_out, k0_pay1 (View.ld x0 r0_x) (View.ld x1 r0_w) (View.ld x2 r0_b)⟩]

/-- The one store is the whole buffer, so it covers it (checked by evaluation). -/
theorem cover0_3 (p0 : Vec F S5000x10 .f32) (y : S5000x10.Idx) :
    ∃ pc ∈ ([⟨r0_out, p0⟩] : List (View.Piece (Elt F) S5000x10 .f32)), y ∈ pc.1.set :=
  View.cover_of_tiled [⟨r0_out, p0⟩] S5000x10.size (by rfl) y

/-! ## The body's triple -/

set_option maxHeartbeats 1000000 in
/-- The kernel body on whole staging memrefs, the inputs' at read contents `xW` and the output's at anything, runs to
    the continuation holding the inputs' as they were and the output's at `out0_3` of the inputs': the printed
    function is its skeleton, run operation by operation. The body also loads the output's buffer before storing
    into it; the value read is used nowhere, so whatever the buffer held does not matter. -/
theorem sound_kernel0 (c : Dev nD) (E : Set ℕ) (i : grid0.Coords) (arg1 : Memref sig .tc .vmem S5000x6 .f32) (harg1 : arg1.IsWhole) (arg2 : Memref sig .tc .vmem S6x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x6 .f32) (x1 : Vec F S6x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.R1.lean ====
/- The class-A half of region 1 of @main (custom_call 1: the tiled linear kernel, a block of
   relu (x · W + c · b) per grid point), at a PARAMETER `V` — the TensorCore's buffer contents when the region is
   entered: each window's block at a point (`iblk1`), the output window's staging buffer after the body as a
   closed function of the input blocks (`out1_3`), the body's triple (`sound_kernel1`), the pipeline's proof
   data (`dat1`) and the body obligation at every point (`body_obligation1`). -/
import proofs.«125994_j2843268349979_1_alg».proof.Proof.Gen.Kernel.Launch
import proofs.«125994_j2843268349979_1_alg».proof.Proof.Gen.Kernel.Skeleton
import proofs.«125994_j2843268349979_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1 (W, whole) at the first point only: its index map is constant; -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- window 2 (b, whole) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_x : Rect S5000x6 := Rect.unit (s := S5000x6) ![0, 0] S5000x6.size inb_S5000x6_S5000x6_0_0
abbrev r1_w : Rect S6x10 := Rect.unit (s := S6x10) ![0, 0] S6x10.size inb_S6x10_S6x10_0_0
abbrev r1_b : Rect S1x10 := Rect.unit (s := S1x10) ![0, 0] S1x10.size inb_S1x10_S1x10_0_0
abbrev r1_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out1_3 (x0 : Vec F S5000x6 .f32) (x1 : Vec F S6x10 .f32) (x2 : Vec F S1x10 .f32) : Vec F S5000x10 .f32 :=
  View.canon [⟨r1_out, k1_pay1 (View.ld x0 r1_x) (View.ld x1 r1_w) (View.ld x2 r1_b)⟩]

/-- The one store is the whole buffer, so it covers it (checked by evaluation). -/
theorem cover1_3 (p0 : Vec F S5000x10 .f32) (y : S5000x10.Idx) :
    ∃ pc ∈ ([⟨r1_out, p0⟩] : List (View.Piece (Elt F) S5000x10 .f32)), y ∈ pc.1.set :=
  View.cover_of_tiled [⟨r1_out, p0⟩] S5000x10.size (by rfl) y

/-! ## The body's triple -/

set_option maxHeartbeats 1000000 in
/-- The kernel body on whole staging memrefs, the inputs' at read contents `xW` and the output's at anything, runs to
    the continuation holding the inputs' as they were and the output's at `out1_3` of the inputs': the printed
    function is its skeleton, run operation by operation. The body also loads the output's buffer before storing
    into it; the value read is used nowhere, so whatever the buffer held does not matter. -/
theorem sound_kernel1 (c : Dev nD) (E : Set ℕ) (i : grid1.Coords) (arg1 : Memref sig .tc .vmem S5000x6 .f32) (harg1 : arg1.IsWhole) (arg2 : Memref sig .tc .vmem S6x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x6 .f32) (x1 : Vec F S6x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Frm

end
-- ==== Proof.K.R2.lean ====
/- The class-A half of region 2 of @main (custom_call 2: the tiled linear kernel, a block of
   relu (x · W + c · b) per grid point), at a PARAMETER `V` — the TensorCore's buffer contents when the region is
   entered: each window's block at a point (`iblk2`), the output window's staging buffer after the body as a
   closed function of the input blocks (`out2_3`), the body's triple (`sound_kernel2`), the pipeline's proof
   data (`dat2`) and the body obligation at every point (`body_obligation2`). -/
import proofs.«125994_j2843268349979_1_alg».proof.Proof.Gen.Kernel.Launch
import proofs.«125994_j2843268349979_1_alg».proof.Proof.Gen.Kernel.Skeleton
import proofs.«125994_j2843268349979_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- window 1 (W, whole) at the first point only: its index map is constant; -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- window 2 (b, whole) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_x : Rect S5000x10 := Rect.unit (s := S5000x10) ![0, 0] S5000x10.size inb_S5000x10_S5000x10_0_0
abbrev r2_w : Rect S10x10 := Rect.unit (s := S10x10) ![0, 0] S10x10.size inb_S10x10_S10x10_0_0
abbrev r2_b : Rect S1x10 := Rect.unit (s := S1x10) ![0, 0] S1x10.size inb_S1x10_S1x10_0_0
abbrev r2_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out2_3 (x0 : Vec F S5000x10 .f32) (x1 : Vec F S10x10 .f32) (x2 : Vec F S1x10 .f32) : Vec F S5000x10 .f32 :=
  View.canon [⟨r2_out, k2_pay1 (View.ld x0 r2_x) (View.ld x1 r2_w) (View.ld x2 r2_b)⟩]

/-- The one store is the whole buffer, so it covers it (checked by evaluation). -/
theorem cover2_3 (p0 : Vec F S5000x10 .f32) (y : S5000x10.Idx) :
    ∃ pc ∈ ([⟨r2_out, p0⟩] : List (View.Piece (Elt F) S5000x10 .f32)), y ∈ pc.1.set :=
  View.cover_of_tiled [⟨r2_out, p0⟩] S5000x10.size (by rfl) y

/-! ## The body's triple -/

set_option maxHeartbeats 1000000 in
/-- The kernel body on whole staging memrefs, the inputs' at read contents `xW` and the output's at anything, runs to
    the continuation holding the inputs' as they were and the output's at `out2_3` of the inputs': the printed
    function is its skeleton, run operation by operation. The body also loads the output's buffer before storing
    into it; the value read is used nowhere, so whatever the buffer held does not matter. -/
theorem sound_kernel2 (c : Dev nD) (E : Set ℕ) (i : grid2.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x10 .f32) (x1 : Vec F S10x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Frm

end
-- ==== Proof.K.R3.lean ====
/- The class-A half of region 3 of @main (custom_call 3: the tiled linear kernel, a block of
   relu (x · W + c · b) per grid point), at a PARAMETER `V` — the TensorCore's buffer contents when the region is
   entered: each window's block at a point (`iblk3`), the output window's staging buffer after the body as a
   closed function of the input blocks (`out3_3`), the body's triple (`sound_kernel3`), the pipeline's proof
   data (`dat3`) and the body obligation at every point (`body_obligation3`). -/
import proofs.«125994_j2843268349979_1_alg».proof.Proof.Gen.Kernel.Launch
import proofs.«125994_j2843268349979_1_alg».proof.Proof.Gen.Kernel.Skeleton
import proofs.«125994_j2843268349979_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- window 1 (W, whole) at the first point only: its index map is constant; -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- window 2 (b, whole) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole staging buffer -/

abbrev r3_x : Rect S5000x10 := Rect.unit (s := S5000x10) ![0, 0] S5000x10.size inb_S5000x10_S5000x10_0_0
abbrev r3_w : Rect S10x10 := Rect.unit (s := S10x10) ![0, 0] S10x10.size inb_S10x10_S10x10_0_0
abbrev r3_b : Rect S1x10 := Rect.unit (s := S1x10) ![0, 0] S1x10.size inb_S1x10_S1x10_0_0
abbrev r3_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out3_3 (x0 : Vec F S5000x10 .f32) (x1 : Vec F S10x10 .f32) (x2 : Vec F S1x10 .f32) : Vec F S5000x10 .f32 :=
  View.canon [⟨r3_out, k3_pay1 (View.ld x0 r3_x) (View.ld x1 r3_w) (View.ld x2 r3_b)⟩]

/-- The one store is the whole buffer, so it covers it (checked by evaluation). -/
theorem cover3_3 (p0 : Vec F S5000x10 .f32) (y : S5000x10.Idx) :
    ∃ pc ∈ ([⟨r3_out, p0⟩] : List (View.Piece (Elt F) S5000x10 .f32)), y ∈ pc.1.set :=
  View.cover_of_tiled [⟨r3_out, p0⟩] S5000x10.size (by rfl) y

/-! ## The body's triple -/

set_option maxHeartbeats 1000000 in
/-- The kernel body on whole staging memrefs, the inputs' at read contents `xW` and the output's at anything, runs to
    the continuation holding the inputs' as they were and the output's at `out3_3` of the inputs': the printed
    function is its skeleton, run operation by operation. The body also loads the output's buffer before storing
    into it; the value read is used nowhere, so whatever the buffer held does not matter. -/
theorem sound_kernel3 (c : Dev nD) (E : Set ℕ) (i : grid3.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x10 .f32) (x1 : Vec F S10x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Frm

end
-- ==== Proof.K.R4Runs.lean ====
import proofs.«125994_j2843268349979_1_alg».proof.Proof.Gen.Kernel.Launch
import proofs.«125994_j2843268349979_1_alg».proof.Proof.Gen.Kernel.Skeleton
import proofs.«125994_j2843268349979_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The readout kernel's body on any staging memrefs

The fifth call's kernel keeps a running sum in a scratch buffer of its own: zeroed at the grid's first point,
increased at every point by the column sum of that point's block, and at the last point scaled into the output.
This module states the body's triple in each of the three cases the two conditions on the grid coordinate
leave (first point; a middle point; last point), over the payloads of the kernel's skeleton. -/

/-- The two zero offsets of a rank-2 rectangle at the origin. -/
theorem zeros2 : (![0, 0] : Fin 2 → ℕ) = fun _ => 0 := by
  funext a; fin_cases a <;> rfl

/-- A load through the whole-shape rectangle at zero offsets reads the buffer's contents through the view. -/
theorem readAt_unit_zero {sg : RefSig} {κ : Kind} {sp : Space} {S : Shape} {e : EltTy} (v : View sg κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- A store through it, last, leaves its payload in the buffer, whatever it held and whatever was stored before. -/
theorem read_writes_unit_zero {sg : RefSig} {κ : Kind} {sp : Space} {S : Shape} {e : EltTy} (v : View sg κ sp S e) {off : Fin S.rank → ℕ}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The body's two conditions, in closed form over the grid -/

/-- The condition of the body's first conditional (zero the accumulator), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)

/-- The condition of the body's second conditional (write the mean into the output). -/
abbrev cond4_1 (i : grid4.Coords) : Prop := k4_cond2 i = 1#1
/-- It holds at the last point only — decided over the grid. -/
theorem hcond4_1 : ∀ t : Fin cfg4.N, cond4_1 (grid4.coords t) ↔ t.val = 39 :=
  (by decide +kernel : ∀ t : Fin grid4.N, cond4_1 (grid4.coords t) ↔ t.val = 39)

/-! ## Where the windows are idle -/

/-- The inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Where the second condition fails the output window is idle: the body stores nothing into it, -/
theorem idleAt4_7 : ∀ t : Fin cfg4.N, ¬cond4_1 (grid4.coords t) → cfg4.idle 7 (grid4.coords t) = true := by decide +kernel
/-- and the pipeline does not write its block back there. -/
theorem noFlush4_7 : ∀ t : Fin cfg4.N, ¬cond4_1 (grid4.coords t) → (cfg4.win 7).flush t = false := by decide +kernel
/-- Where it holds the output window is live. -/
theorem liveAt4_7 : ∀ t : Fin cfg4.N, cond4_1 (grid4.coords t) → cfg4.idle 7 (grid4.coords t) = false := by decide +kernel

/-! ## The scratch accumulator -/

/-- The kernel's scratch operand: a whole scoped buffer of its own, passed beside the windows. -/
abbrev scM4 : Memref sig .tc .vmem S1x1 .f32 := Memref.whole cc4_scratch0

/-- The scoped buffers of the core that are neither a staging buffer of this call nor its scratch, unopened. -/
abbrev restBut4 (c : Dev nD) : sProp 𝕄 :=
  Pipeline.scopedRestBut (Ix := Unit) (Name := ℕ) (U := UR sig nD τ) (Lvl := ℕ) (Val := Elt F) spec4 c [cc4_scratch0]

/-- The class's invariant with the scratch operand split out as a memref owned at some contents: what the body
    obligation hands the body and takes back. -/
theorem PhiA4_eq (c : Dev nD) :
    (Pipeline.ΦA spec4 c : sProp 𝕄)
      = iprop(iprop(iprop((∃ d, owns (c : Thread nD τ) scM4 fullShare d)) ∗ restBut4 c) ∗ (∃ r, prngReg c r)) := by
  unfold Pipeline.ΦA; rw [scopedRest4_split]; simp only [scM4, owns_whole]; try rfl

/-- The column-sum operand computed from whole-buffer loads of the seven inputs is the one computed from the buffers'
    contents. -/
theorem pay4_readAt (arg1 : Memref sig .tc .vmem S5000x10 .f32) (arg2 : Memref sig .tc .vmem S10x10 .f32) (arg3 : Memref sig .tc .vmem S1x10 .f32) (arg4 : Memref sig .tc .vmem S10x10 .f32) (arg5 : Memref sig .tc .vmem S1x10 .f32) (arg6 : Memref sig .tc .vmem S10x1 .f32) (arg7 : Memref sig .tc .vmem S1x1 .f32)
    (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) :
    k4_pay4 (F := F) (View.readAt (Elt F) arg1.view (Rect.unit ![0, 0] S5000x10.size inb_S5000x10_S5000x10_0_0).toLoadRect f0)
          (View.readAt (Elt F) arg2.view (Rect.unit ![0, 0] S10x10.size inb_S10x10_S10x10_0_0).toLoadRect f1)
          (View.readAt (Elt F) arg3.view (Rect.unit ![0, 0] S1x10.size inb_S1x10_S1x10_0_0).toLoadRect f2)
          (View.readAt (Elt F) arg4.view (Rect.unit ![0, 0] S10x10.size inb_S10x10_S10x10_0_0).toLoadRect f3)
          (View.readAt (Elt F) arg5.view (Rect.unit ![0, 0] S1x10.size inb_S1x10_S1x10_0_0).toLoadRect f4)
          (View.readAt (Elt F) arg6.view (Rect.unit ![0, 0] S10x1.size inb_S10x1_S10x1_0_0).toLoadRect f5)
          (View.readAt (Elt F) arg7.view (Rect.unit ![0, 0] S1x1.size inb_S1x1_S1x1_0_0).toLoadRect f6)
      = k4_pay4 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) := by
  simp only [readAt_unit_zero (S := S5000x10) _ zeros2, readAt_unit_zero (S := S10x10) _ zeros2,
    readAt_unit_zero (S := S1x10) _ zeros2, readAt_unit_zero (S := S10x1) _ zeros2, readAt_unit_zero (S := S1x1) _ zeros2]

/-! ## The body's triple, case by case -/

set_option maxHeartbeats 1000000 in
/-- FIRST POINT (the first condition holds, the second does not): on whole memrefs, the inputs' at contents `x·`, the
    output's at contents `xi7` and the scratch at anything, the body runs to the continuation holding the inputs' and
    the output's as they were and the scratch at the column sum of this point's block added to zero. -/
theorem sound_kernel4_A (c : Dev nD) (E : Set ℕ) (i : grid4.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : cond4_0 i) (hc1 : ¬cond4_1 i) (x0 : Vec F S5000x10 .f32) (x1 : Vec F S10x10 .f32) (x2 : Vec F S1x10 .f32) (x3 : Vec F S10x10 .f32) (x4 : Vec F S1x10 .f32) (x5 : Vec F S10x1 .f32) (x6 : Vec F S1x1 .f32) (xi7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare (k4_pay1 (k4_pay4 x0 x1 x2 x3 x4 x5 x6) (k4_pay3 (F := F)))) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9) K := by
  simp only [cc4__readout_kernel_eq_skeleton]; unfold cc4__readout_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  refine (read_writes_unit_zero (S := S1x1) _ zeros2 _ _ _ _).trans ?_
  exact congrArg₂ k4_pay1 (pay4_readAt ..) (View.readCov_unit_zero (S := S1x1) _ zeros2 _ _)

set_option maxHeartbeats 1000000 in
/-- A MIDDLE POINT (neither condition holds): the same with the scratch at the contents `xs` the point before left,
    and left at the column sum of this point's block added to them. -/
theorem sound_kernel4_B (c : Dev nD) (E : Set ℕ) (i : grid4.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond4_0 i) (hc1 : ¬cond4_1 i) (x0 : Vec F S5000x10 .f32) (x1 : Vec F S10x10 .f32) (x2 : Vec F S1x10 .f32) (x3 : Vec F S10x10 .f32) (x4 : Vec F S1x10 .f32) (x5 : Vec F S10x1 .f32) (x6 : Vec F S1x1 .f32) (xi7 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare (k4_pay1 (k4_pay4 x0 x1 x2 x3 x4 x5 x6) xs)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9) K := by
  simp only [cc4__readout_kernel_eq_skeleton]; unfold cc4__readout_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0 hf1 hf2 hf3 hf4 hf5 hf6 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  refine (read_writes_unit_zero (S := S1x1) _ zeros2 _ _ _ _).trans ?_
  exact congrArg₂ k4_pay1 (pay4_readAt ..) (readAt_unit_zero (S := S1x1) _ zeros2 _ _)

set_option maxHeartbeats 1000000 in
/-- LAST POINT (the first condition fails, the second holds): the output's memref at anything; the scratch is left at the
    column sum of this point's block added to `xs`, and the output at that sum scaled by the kernel's constant. -/
theorem sound_kernel4_C (c : Dev nD) (E : Set ℕ) (i : grid4.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond4_0 i) (hc1 : cond4_1 i) (x0 : Vec F S5000x10 .f32) (x1 : Vec F S10x10 .f32) (x2 : Vec F S1x10 .f32) (x3 : Vec F S10x10 .f32) (x4 : Vec F S1x10 .f32) (x5 : Vec F S10x1 .f32) (x6 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k4_pay2 (k4_pay1 (k4_pay4 x0 x1 x2 x3 x4 x5 x6) xs))
            ∗ owns (c : Thread nD τ) arg9 fullShare (k4_pay1 (k4_pay4 x0 x1 x2 x3 x4 x5 x6) xs)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9) K := by
  simp only [cc4__readout_kernel_eq_skeleton]; unfold cc4__readout_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_unit_zero (S := S1x1) _ zeros2 _ _ _ _).trans (congrArg k4_pay2 ?_)
    refine (View.readCov_unit_zero (S := S1x1) _ zeros2 _ _).trans ?_
    exact congrArg₂ k4_pay1 (pay4_readAt ..) (readAt_unit_zero (S := S1x1) _ zeros2 _ _)
  iexists _; isplitr
  swap; · iexact HS
  ipureintro
  refine (read_writes_unit_zero (S := S1x1) _ zeros2 _ _ _ _).trans ?_
  exact congrArg₂ k4_pay1 (pay4_readAt ..) (readAt_unit_zero (S := S1x1) _ zeros2 _ _)

end Cert.Kernel.Frm

end
-- ==== Proof.K.R4.lean ====
import proofs.«125994_j2843268349979_1_alg».proof.Proof.K.R4Runs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The readout call's half of the frame, at the contents `V` the region is entered with

The proof data of the fifth call's pipeline: the inputs' staging buffers hold their blocks at every point; the
scratch accumulator after point `n` holds the running sum `acc4 n` of the column sums of the blocks up to `n`;
the output's buffer is left untouched but at the last point, where it is left at the running sum scaled. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for any proof
    data whose array is `V`'s and whose body leaves the block in place: the window is uncut and never idle, and where
    it is not fetched its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The running sum -/

/-- The per-row readout of the block at point `t`: the operand whose column sum the body adds to the accumulator. -/
def pay4 (c : Dev nD) (t : Fin cfg4.N) : FVec F S5000x1 .f32 :=
  k4_pay4 (iblk4 V c 0 t) (iblk4 V c 1 t) (iblk4 V c 2 t) (iblk4 V c 3 t) (iblk4 V c 4 t) (iblk4 V c 5 t) (iblk4 V c 6 t)

/-- THE ACCUMULATION: what the scratch holds after the body at position `n` — at the first point the column sum of
    its block added to zero, afterwards the column sum of the point's block added to what the point before left. -/
def acc4 (c : Dev nD) : (n : ℕ) → n < cfg4.N → Vec F S1x1 .f32
  | 0, hn => k4_pay1 (pay4 V c ⟨0, hn⟩) (k4_pay3 (F := F))
  | n + 1, hn => k4_pay1 (pay4 V c ⟨n + 1, hn⟩) (acc4 c n (Nat.lt_of_succ_lt hn))

/-- At the first point. -/
theorem acc4_zero (c : Dev nD) (t : Fin cfg4.N) (h : t.val = 0) :
    acc4 V c t.val t.isLt = k4_pay1 (pay4 V c t) (k4_pay3 (F := F)) := by
  obtain ⟨n, hn⟩ := t
  cases n with
  | zero => rfl
  | succ n => exact absurd h (Nat.succ_ne_zero n)

/-- At a later point, over what the point before left. -/
theorem acc4_pos (c : Dev nD) (t : Fin cfg4.N) (h : t.val ≠ 0) :
    acc4 V c t.val t.isLt = k4_pay1 (pay4 V c t) (acc4 V c (t.val - 1) (Nat.lt_of_le_of_lt (Nat.sub_le _ _) t.isLt)) := by
  obtain ⟨n, hn⟩ := t
  cases n with
  | zero => exact absurd rfl h
  | succ n => rfl

/-! ## The invariant -/

/-- The region invariant before position `n`: before the first point the class's (every scoped buffer that is no
    staging buffer at anything, the generator register at some state); afterwards the same with the scratch
    accumulator at what the point before left in it. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ restBut4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4 fullShare (acc4 V c n hn) ∗ restBut4 c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4 fullShare (acc4 V c (n - 1) (by omega)) ∗ restBut4 c) ∗ (∃ r, prngReg c r)) := by
  cases n with
  | zero => exact absurd rfl hz
  | succ n => rfl

/-! ## The pipeline's proof data -/

/-- The proof data of the readout call's pipeline on core `c`: the arrays as the region finds them (`V`); after the
    body at point `t` each input's buffer at its block and the output's at the running sum scaled (what the last
    point, the only one that stores into it and writes it back, leaves; elsewhere the window is idle and this is not
    consulted); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => k4_pay2 (acc4 V c t.val t.isLt)
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = k4_pay2 (acc4 V c t.val t.isLt) := by dsimp only [dat4]

/-- At the last point the output's buffer is left at the whole grid's running sum scaled. -/
theorem after4_7_last (c : Dev nD) (t : Fin cfg4.N) (ht : t.val = 39) :
    (dat4 V c).after 7 t = k4_pay2 (acc4 V c 39 (by rw [show cfg4.N = 40 from N_4]; omega)) := by
  rw [after4_7]
  obtain ⟨n, hn⟩ := t
  obtain rfl : n = 39 := ht
  rfl

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- Each window's current staging memref at point `t`, as the pipeline passes it to the body. -/
abbrev ms4_0 (t : Fin cfg4.N) : Memref sig .tc .vmem S5000x10 .f32 := win4_0.stage (cfg4.slots t 0)
abbrev ms4_1 (t : Fin cfg4.N) : Memref sig .tc .vmem S10x10 .f32 := win4_1.stage (cfg4.slots t 1)
abbrev ms4_2 (t : Fin cfg4.N) : Memref sig .tc .vmem S1x10 .f32 := win4_2.stage (cfg4.slots t 2)
abbrev ms4_3 (t : Fin cfg4.N) : Memref sig .tc .vmem S10x10 .f32 := win4_3.stage (cfg4.slots t 3)
abbrev ms4_4 (t : Fin cfg4.N) : Memref sig .tc .vmem S1x10 .f32 := win4_4.stage (cfg4.slots t 4)
abbrev ms4_5 (t : Fin cfg4.N) : Memref sig .tc .vmem S10x1 .f32 := win4_5.stage (cfg4.slots t 5)
abbrev ms4_6 (t : Fin cfg4.N) : Memref sig .tc .vmem S1x1 .f32 := win4_6.stage (cfg4.slots t 6)
abbrev ms4_7 (t : Fin cfg4.N) : Memref sig .tc .vmem S1x1 .f32 := win4_7.stage (cfg4.slots t 7)

/-- An input's buffer is left at its block. -/
theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (ms4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (ms4_3 t) fullShare (iblk4 V c 3 t) := by
  unfold Dat.leavesExact; rw [liveAt4_3 t, after4_3]
theorem leaves4_4 (c : Dev nD) (t : Fin cfg4.N) :
    (dat4 V c).leavesExact 4 t = owns (c : Thread nD τ) (ms4_4 t) fullShare (iblk4 V c 4 t) := by
  unfold Dat.leavesExact; rw [liveAt4_4 t, after4_4]
theorem leaves4_5 (c : Dev nD) (t : Fin cfg4.N) :
    (dat4 V c).leavesExact 5 t = owns (c : Thread nD τ) (ms4_5 t) fullShare (iblk4 V c 5 t) := by
  unfold Dat.leavesExact; rw [liveAt4_5 t, after4_5]
theorem leaves4_6 (c : Dev nD) (t : Fin cfg4.N) :
    (dat4 V c).leavesExact 6 t = owns (c : Thread nD τ) (ms4_6 t) fullShare (iblk4 V c 6 t) := by
  unfold Dat.leavesExact; rw [liveAt4_6 t, after4_6]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' memrefs hold their blocks; the closed forms of the two conditions say which case
    the point is in; the invariant hands the body the accumulator at what the point before left (at anything at the
    first point) and takes it back at this point's running sum; where the second condition fails the output's buffer
    goes back as it came, where it holds it goes back at the running sum scaled; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, leaves4_6]
  have hN : t.val < 40 := lt_of_lt_of_eq t.isLt (show cfg4.N = 40 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 7 t (idleAt4_7 t hc1) (noFlush4_7 t hc1)]
    rw [acc4_zero V c t h0]
    rw [PhiS4_castSucc V c t, PhiS4_zero V c _ _ h0, PhiA4_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_A c Set.univ (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) (iblk4 V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond4_0 (grid4.coords t) := fun h => h0 ((hcond4_0 t).mp h)
    by_cases h1 : t.val = 39
    · have hc1 : cond4_1 (grid4.coords t) := (hcond4_1 t).mpr h1
      rw [show (dat4 V c).leavesExact 7 t = owns (c : Thread nD τ) (ms4_7 t) fullShare ((dat4 V c).after 7 t) from by
        unfold Dat.leavesExact; rw [liveAt4_7 t hc1], after4_7]
      rw [acc4_pos V c t h0]
      rw [PhiS4_castSucc V c t, PhiS4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_C c Set.univ (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) (iblk4 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond4_1 (grid4.coords t) := fun h => h1 ((hcond4_1 t).mp h)
      rw [Dat.leavesExact_idle (dat4 V c) 7 t (idleAt4_7 t hc1) (noFlush4_7 t hc1)]
      rw [acc4_pos V c t h0]
      rw [PhiS4_castSucc V c t, PhiS4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_B c Set.univ (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) (iblk4 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 40 := N_4; omega)

end Cert.Kernel.Frm

end
-- ==== Proof.K.Folds.lean ====
/-
  The contents of a TensorCore's buffers at every boundary of @main, as a fold from the launch memory.

  @main is five stretches of host operations, each followed by a kernel region. A stretch replaces the buffers its
  operations write by their functions of their operands; a region replaces its windows' arrays by what its write-backs
  leave (the inputs as entered, the output at the blocks the points wrote) and keeps every other buffer. W0 is the launch
  memory, W(2k+1) the contents when region k is entered, W(2k+2) the contents when it is left.
-/
import proofs.«125994_j2843268349979_1_alg».proof.Proof.K.R0
import proofs.«125994_j2843268349979_1_alg».proof.Proof.K.R1
import proofs.«125994_j2843268349979_1_alg».proof.Proof.K.R2
import proofs.«125994_j2843268349979_1_alg».proof.Proof.K.R3
import proofs.«125994_j2843268349979_1_alg».proof.Proof.K.R4

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the first stretch of host operations: region 0's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves the region as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the second stretch of host operations: region 1's entry. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves the region as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the third stretch of host operations: region 2's entry. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves the region as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the fourth stretch of host operations: region 3's entry. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves the region as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After the fifth stretch of host operations: region 4's entry. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves the region as it entered it. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

end Cert.Kernel.Frm

end
-- ==== Proof.K.Run.lean ====
/-
  The run of @main over its ten segments — five stretches of host operations, each followed by a kernel region —
  from the launch to the return: every weakly fair execution terminates without a fault, and in its final state every
  unscoped buffer of a TensorCore holds the last boundary's contents (the fold W10).

  Each stretch is a host segment from its boundary's contents; each region is entered from every unscoped buffer at its
  entry contents and left at its exit contents: its arrays are split out of the unscoped buffers and put back at what
  the write-backs leave, the generator register goes into the region's invariant and comes back, the core owes nothing.
  The thread state between segments is "every unscoped buffer at the boundary's contents, the generator register at some
  state, nothing owed".
-/
import proofs.«125994_j2843268349979_1_alg».proof.Proof.K.Folds

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor

/-- No operation of stretch 1 allocates a buffer. -/
theorem hostOps1_fresh : (hostOps1 : List (HloOp τ sig (Elt F))).Forall fun op => op.fresh = ∅ := by
  simp only [List.Forall]; repeat' constructor

/-- No operation of stretch 2 allocates a buffer. -/
theorem hostOps2_fresh : (hostOps2 : List (HloOp τ sig (Elt F))).Forall fun op => op.fresh = ∅ := by
  simp only [List.Forall]; repeat' constructor

/-- No operation of stretch 3 allocates a buffer. -/
theorem hostOps3_fresh : (hostOps3 : List (HloOp τ sig (Elt F))).Forall fun op => op.fresh = ∅ := by
  simp only [List.Forall]; repeat' constructor

/-- No operation of stretch 4 allocates a buffer. -/
theorem hostOps4_fresh : (hostOps4 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main is the run of the segments. -/
theorem main_run (c : Dev nD) : main (F := F) c = Pipeline.Seg.run (segs m ρ) := by
  rw [main_chain, Pipeline.Seg.run_eq_chain]; rfl

set_option backward.isDefEq.respectTransparency.types false in
/-- From any memory with zero counters every weakly fair execution of @main terminates, nothing faulting, and in every
    final state each unscoped buffer of a TensorCore holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.Kernel.Frm

end
-- ==== Proof.K.Args.lean ====
/-
  The argument arrays are never written: at every boundary of @main each of them holds its launch contents.

  The arguments are the first 28 buffers of the device's main memory. Every host operation writes a buffer numbered 28 or
  higher, and a kernel region touches an argument only as an input window's array, which the region leaves as it entered
  it (its output array, too, is numbered 28 or higher). So the fold of the boundary contents, read at an argument, walks
  back to the launch memory.
-/
import proofs.«125994_j2843268349979_1_alg».proof.Proof.K.Folds

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer numbered below 28 is not one numbered 28 or higher. -/
theorem ne_of_idx_lt {b y : Ref sig .tc} (hb : b.idx.val < 28) (hy : 28 ≤ y.idx.val) : b ≠ y :=
  fun e => by subst e; omega

/-- Closes `after ops W (devRef b) = W (devRef b)` for a literal list of host operations, each writing a buffer numbered 28
    or higher, and a buffer `b` numbered below 28 (`hb`). -/
macro "keeps_low " ops:ident hb:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (ne_of_idx_lt $hb (by decide))))

set_option maxHeartbeats 4000000 in
/-- Stretch 0 keeps every buffer numbered below 28. -/
theorem hostOps0_keeps (W : Valuation τ sig (Elt F)) (b : Ref sig .tc) (hb : b.idx.val < 28) :
    StableHlo.after (hostOps0 (F := F)) W (Proc.devRef .tc b) = W (Proc.devRef .tc b) := by
  keeps_low hostOps0 hb
/-- Region 0's output windows' arrays are numbered 28 or higher. -/
theorem region0_out : ∀ w : Fin cfg0.W, (cfg0.win w).isOut = true → 28 ≤ (Pipeline.arrRef spec0 w).idx.val := by decide

set_option maxHeartbeats 4000000 in
/-- Stretch 1 keeps every buffer numbered below 28. -/
theorem hostOps1_keeps (W : Valuation τ sig (Elt F)) (b : Ref sig .tc) (hb : b.idx.val < 28) :
    StableHlo.after (hostOps1 (F := F)) W (Proc.devRef .tc b) = W (Proc.devRef .tc b) := by
  keeps_low hostOps1 hb
/-- Region 1's output windows' arrays are numbered 28 or higher. -/
theorem region1_out : ∀ w : Fin cfg1.W, (cfg1.win w).isOut = true → 28 ≤ (Pipeline.arrRef spec1 w).idx.val := by decide

set_option maxHeartbeats 4000000 in
/-- Stretch 2 keeps every buffer numbered below 28. -/
theorem hostOps2_keeps (W : Valuation τ sig (Elt F)) (b : Ref sig .tc) (hb : b.idx.val < 28) :
    StableHlo.after (hostOps2 (F := F)) W (Proc.devRef .tc b) = W (Proc.devRef .tc b) := by
  keeps_low hostOps2 hb
/-- Region 2's output windows' arrays are numbered 28 or higher. -/
theorem region2_out : ∀ w : Fin cfg2.W, (cfg2.win w).isOut = true → 28 ≤ (Pipeline.arrRef spec2 w).idx.val := by decide

set_option maxHeartbeats 4000000 in
/-- Stretch 3 keeps every buffer numbered below 28. -/
theorem hostOps3_keeps (W : Valuation τ sig (Elt F)) (b : Ref sig .tc) (hb : b.idx.val < 28) :
    StableHlo.after (hostOps3 (F := F)) W (Proc.devRef .tc b) = W (Proc.devRef .tc b) := by
  keeps_low hostOps3 hb
/-- Region 3's output windows' arrays are numbered 28 or higher. -/
theorem region3_out : ∀ w : Fin cfg3.W, (cfg3.win w).isOut = true → 28 ≤ (Pipeline.arrRef spec3 w).idx.val := by decide

set_option maxHeartbeats 4000000 in
/-- Stretch 4 keeps every buffer numbered below 28. -/
theorem hostOps4_keeps (W : Valuation τ sig (Elt F)) (b : Ref sig .tc) (hb : b.idx.val < 28) :
    StableHlo.after (hostOps4 (F := F)) W (Proc.devRef .tc b) = W (Proc.devRef .tc b) := by
  keeps_low hostOps4 hb
/-- Region 4's output windows' arrays are numbered 28 or higher. -/
theorem region4_out : ∀ w : Fin cfg4.W, (cfg4.win w).isOut = true → 28 ≤ (Pipeline.arrRef spec4 w).idx.val := by decide

variable {m ρ}

theorem W1_arg (c : Dev nD) (b : Ref sig .tc) (hb : b.idx.val < 28) : W1 m ρ c (Proc.devRef .tc b) = W0 m ρ c (Proc.devRef .tc b) :=
  hostOps0_keeps _ b hb
theorem W2_arg (c : Dev nD) (b : Ref sig .tc) (hb : b.idx.val < 28) : W2 m ρ c (Proc.devRef .tc b) = W1 m ρ c (Proc.devRef .tc b) := by
  by_cases h : ∃ w, Pipeline.arrRef spec0 w = b
  · obtain ⟨w, rfl⟩ := h
    refine W2_in m ρ c w ?_
    cases hw : (cfg0.win w).isOut
    · rfl
    · exact absurd hb (Nat.not_lt.mpr (region0_out w hw))
  · exact W2_of_ne m ρ c b fun w e => h ⟨w, e⟩

theorem W3_arg (c : Dev nD) (b : Ref sig .tc) (hb : b.idx.val < 28) : W3 m ρ c (Proc.devRef .tc b) = W2 m ρ c (Proc.devRef .tc b) :=
  hostOps1_keeps _ b hb
theorem W4_arg (c : Dev nD) (b : Ref sig .tc) (hb : b.idx.val < 28) : W4 m ρ c (Proc.devRef .tc b) = W3 m ρ c (Proc.devRef .tc b) := by
  by_cases h : ∃ w, Pipeline.arrRef spec1 w = b
  · obtain ⟨w, rfl⟩ := h
    refine W4_in m ρ c w ?_
    cases hw : (cfg1.win w).isOut
    · rfl
    · exact absurd hb (Nat.not_lt.mpr (region1_out w hw))
  · exact W4_of_ne m ρ c b fun w e => h ⟨w, e⟩

theorem W5_arg (c : Dev nD) (b : Ref sig .tc) (hb : b.idx.val < 28) : W5 m ρ c (Proc.devRef .tc b) = W4 m ρ c (Proc.devRef .tc b) :=
  hostOps2_keeps _ b hb
theorem W6_arg (c : Dev nD) (b : Ref sig .tc) (hb : b.idx.val < 28) : W6 m ρ c (Proc.devRef .tc b) = W5 m ρ c (Proc.devRef .tc b) := by
  by_cases h : ∃ w, Pipeline.arrRef spec2 w = b
  · obtain ⟨w, rfl⟩ := h
    refine W6_in m ρ c w ?_
    cases hw : (cfg2.win w).isOut
    · rfl
    · exact absurd hb (Nat.not_lt.mpr (region2_out w hw))
  · exact W6_of_ne m ρ c b fun w e => h ⟨w, e⟩

theorem W7_arg (c : Dev nD) (b : Ref sig .tc) (hb : b.idx.val < 28) : W7 m ρ c (Proc.devRef .tc b) = W6 m ρ c (Proc.devRef .tc b) :=
  hostOps3_keeps _ b hb
theorem W8_arg (c : Dev nD) (b : Ref sig .tc) (hb : b.idx.val < 28) : W8 m ρ c (Proc.devRef .tc b) = W7 m ρ c (Proc.devRef .tc b) := by
  by_cases h : ∃ w, Pipeline.arrRef spec3 w = b
  · obtain ⟨w, rfl⟩ := h
    refine W8_in m ρ c w ?_
    cases hw : (cfg3.win w).isOut
    · rfl
    · exact absurd hb (Nat.not_lt.mpr (region3_out w hw))
  · exact W8_of_ne m ρ c b fun w e => h ⟨w, e⟩

theorem W9_arg (c : Dev nD) (b : Ref sig .tc) (hb : b.idx.val < 28) : W9 m ρ c (Proc.devRef .tc b) = W8 m ρ c (Proc.devRef .tc b) :=
  hostOps4_keeps _ b hb
theorem W10_arg (c : Dev nD) (b : Ref sig .tc) (hb : b.idx.val < 28) : W10 m ρ c (Proc.devRef .tc b) = W9 m ρ c (Proc.devRef .tc b) := by
  by_cases h : ∃ w, Pipeline.arrRef spec4 w = b
  · obtain ⟨w, rfl⟩ := h
    refine W10_in m ρ c w ?_
    cases hw : (cfg4.win w).isOut
    · rfl
    · exact absurd hb (Nat.not_lt.mpr (region4_out w hw))
  · exact W10_of_ne m ρ c b fun w e => h ⟨w, e⟩

/-- At every boundary an argument holds its launch contents. -/
theorem W_arg (c : Dev nD) (b : Ref sig .tc) (hb : b.idx.val < 28) :
    W1 m ρ c (Proc.devRef .tc b) = m ((c : Thread nD τ).loc b) ∧ W2 m ρ c (Proc.devRef .tc b) = m ((c : Thread nD τ).loc b)
    ∧ W3 m ρ c (Proc.devRef .tc b) = m ((c : Thread nD τ).loc b) ∧ W4 m ρ c (Proc.devRef .tc b) = m ((c : Thread nD τ).loc b)
    ∧ W5 m ρ c (Proc.devRef .tc b) = m ((c : Thread nD τ).loc b) ∧ W6 m ρ c (Proc.devRef .tc b) = m ((c : Thread nD τ).loc b)
    ∧ W7 m ρ c (Proc.devRef .tc b) = m ((c : Thread nD τ).loc b) ∧ W8 m ρ c (Proc.devRef .tc b) = m ((c : Thread nD τ).loc b)
    ∧ W9 m ρ c (Proc.devRef .tc b) = m ((c : Thread nD τ).loc b) ∧ W10 m ρ c (Proc.devRef .tc b) = m ((c : Thread nD τ).loc b) := by
  have h0 : W0 m ρ c (Proc.devRef .tc b) = m ((c : Thread nD τ).loc b) := rfl
  have h1 := (W1_arg c b hb).trans h0
  have h2 := (W2_arg c b hb).trans h1
  have h3 := (W3_arg c b hb).trans h2
  have h4 := (W4_arg c b hb).trans h3
  have h5 := (W5_arg c b hb).trans h4
  have h6 := (W6_arg c b hb).trans h5
  have h7 := (W7_arg c b hb).trans h6
  have h8 := (W8_arg c b hb).trans h7
  have h9 := (W9_arg c b hb).trans h8
  have h10 := (W10_arg c b hb).trans h9
  exact ⟨h1, h2, h3, h4, h5, h6, h7, h8, h9, h10⟩

end Cert.Kernel.Frm

end
-- ==== Proof.K.Frame.lean ====
/-
  The frame of the program: it runs to the end without a fault and its 28 argument arrays end as launched — the run
  over the ten segments, each argument read at the last boundary's contents.
-/
import proofs.«125994_j2843268349979_1_alg».proof.Proof.K.Run
import proofs.«125994_j2843268349979_1_alg».proof.Proof.K.Args

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

variable {m ρ} in
/-- At the last boundary an argument holds its launch contents. -/
theorem W10_at (c : Dev nD) (b : Ref sig .tc) (hb : b.idx.val < 28) : W10 m ρ c (Proc.devRef .tc b) = m ((c : Thread nD τ).loc b) :=
  (W_arg (m := m) (ρ := ρ) c b hb).2.2.2.2.2.2.2.2.2

/-- Every weakly fair execution of @main terminates, nothing faulting, with the argument arrays as launched; and the
    result array at the last boundary's contents. -/
theorem run_frame : θ_run defs (onTc (τ := τ) (main (F := F))) ⟨m, fun _ => 0, ρ⟩ (fun r => ∀ c : Dev nD,
      r.2.mem ((c.tc : Thread nD τ).loc main_v141) = W10 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨h c _ (mem_uc main_v141 (by decide)),
      (h c _ (mem_uc main_arg0 (by decide))).trans (W10_at c main_arg0 (by decide)),
      (h c _ (mem_uc main_arg1 (by decide))).trans (W10_at c main_arg1 (by decide)),
      (h c _ (mem_uc main_arg2 (by decide))).trans (W10_at c main_arg2 (by decide)),
      (h c _ (mem_uc main_arg3 (by decide))).trans (W10_at c main_arg3 (by decide)),
      (h c _ (mem_uc main_arg4 (by decide))).trans (W10_at c main_arg4 (by decide)),
      (h c _ (mem_uc main_arg5 (by decide))).trans (W10_at c main_arg5 (by decide)),
      (h c _ (mem_uc main_arg6 (by decide))).trans (W10_at c main_arg6 (by decide)),
      (h c _ (mem_uc main_arg7 (by decide))).trans (W10_at c main_arg7 (by decide)),
      (h c _ (mem_uc main_arg8 (by decide))).trans (W10_at c main_arg8 (by decide)),
      (h c _ (mem_uc main_arg9 (by decide))).trans (W10_at c main_arg9 (by decide)),
      (h c _ (mem_uc main_arg10 (by decide))).trans (W10_at c main_arg10 (by decide)),
      (h c _ (mem_uc main_arg11 (by decide))).trans (W10_at c main_arg11 (by decide)),
      (h c _ (mem_uc main_arg12 (by decide))).trans (W10_at c main_arg12 (by decide)),
      (h c _ (mem_uc main_arg13 (by decide))).trans (W10_at c main_arg13 (by decide)),
      (h c _ (mem_uc main_arg14 (by decide))).trans (W10_at c main_arg14 (by decide)),
      (h c _ (mem_uc main_arg15 (by decide))).trans (W10_at c main_arg15 (by decide)),
      (h c _ (mem_uc main_arg16 (by decide))).trans (W10_at c main_arg16 (by decide)),
      (h c _ (mem_uc main_arg17 (by decide))).trans (W10_at c main_arg17 (by decide)),
      (h c _ (mem_uc main_arg18 (by decide))).trans (W10_at c main_arg18 (by decide)),
      (h c _ (mem_uc main_arg19 (by decide))).trans (W10_at c main_arg19 (by decide)),
      (h c _ (mem_uc main_arg20 (by decide))).trans (W10_at c main_arg20 (by decide)),
      (h c _ (mem_uc main_arg21 (by decide))).trans (W10_at c main_arg21 (by decide)),
      (h c _ (mem_uc main_arg22 (by decide))).trans (W10_at c main_arg22 (by decide)),
      (h c _ (mem_uc main_arg23 (by decide))).trans (W10_at c main_arg23 (by decide)),
      (h c _ (mem_uc main_arg24 (by decide))).trans (W10_at c main_arg24 (by decide)),
      (h c _ (mem_uc main_arg25 (by decide))).trans (W10_at c main_arg25 (by decide)),
      (h c _ (mem_uc main_arg26 (by decide))).trans (W10_at c main_arg26 (by decide)),
      (h c _ (mem_uc main_arg27 (by decide))).trans (W10_at c main_arg27 (by decide))⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => (h c).2) (run_frame m ρ)

end Cert.Kernel.Frm

end
-- ==== Proof.KI.R0.lean ====
/- The class-A half of region 0 of @main (custom_call 0: the tiled linear kernel, a block of
   relu (x · W + c · b) per grid point), at a PARAMETER `V` — the TensorCore's buffer contents when the region is
   entered: each window's block at a point (`iblk0`), the output window's staging buffer after the body as a
   closed function of the input blocks (`out0_3`), the body's triple (`sound_kernel0`), the pipeline's proof
   data (`dat0`) and the body obligation at every point (`body_obligation0`). -/
import proofs.«125994_j2843268349979_1_alg».proof.Proof.Gen.KernelIdeal.Launch
import proofs.«125994_j2843268349979_1_alg».proof.Proof.Gen.KernelIdeal.Skeleton
import proofs.«125994_j2843268349979_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- window 1 (W, whole) at the first point only: its index map is constant; -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- window 2 (b, whole) likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take the whole staging buffer -/

abbrev r0_x : Rect S5000x6 := Rect.unit (s := S5000x6) ![0, 0] S5000x6.size inb_S5000x6_S5000x6_0_0
abbrev r0_w : Rect S6x10 := Rect.unit (s := S6x10) ![0, 0] S6x10.size inb_S6x10_S6x10_0_0
abbrev r0_b : Rect S1x10 := Rect.unit (s := S1x10) ![0, 0] S1x10.size inb_S1x10_S1x10_0_0
abbrev r0_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out0_3 (x0 : Vec F S5000x6 .f32) (x1 : Vec F S6x10 .f32) (x2 : Vec F S1x10 .f32) : Vec F S5000x10 .f32 :=
  View.canon [⟨r0_out, k0_pay1 (View.ld x0 r0_x) (View.ld x1 r0_w) (View.ld x2 r0_b)⟩]

/-- The one store is the whole buffer, so it covers it (checked by evaluation). -/
theorem cover0_3 (p0 : Vec F S5000x10 .f32) (y : S5000x10.Idx) :
    ∃ pc ∈ ([⟨r0_out, p0⟩] : List (View.Piece (Elt F) S5000x10 .f32)), y ∈ pc.1.set :=
  View.cover_of_tiled [⟨r0_out, p0⟩] S5000x10.size (by rfl) y

/-! ## The body's triple -/

set_option maxHeartbeats 1000000 in
/-- The kernel body on whole staging memrefs, the inputs' at read contents `xW` and the output's at anything, runs to
    the continuation holding the inputs' as they were and the output's at `out0_3` of the inputs': the printed
    function is its skeleton, run operation by operation. The body also loads the output's buffer before storing
    into it; the value read is used nowhere, so whatever the buffer held does not matter. -/
theorem sound_kernel0 (c : Dev nD) (E : Set ℕ) (i : grid0.Coords) (arg1 : Memref sig .tc .vmem S5000x6 .f32) (harg1 : arg1.IsWhole) (arg2 : Memref sig .tc .vmem S6x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x6 .f32) (x1 : Vec F S6x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point
    `t` each input's buffer at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window (the proof data's `match` reduced). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (the body obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.R1.lean ====
/- The class-A half of region 1 of @main (custom_call 1: the tiled linear kernel, a block of
   relu (x · W + c · b) per grid point), at a PARAMETER `V` — the TensorCore's buffer contents when the region is
   entered: each window's block at a point (`iblk1`), the output window's staging buffer after the body as a
   closed function of the input blocks (`out1_3`), the body's triple (`sound_kernel1`), the pipeline's proof
   data (`dat1`) and the body obligation at every point (`body_obligation1`). -/
import proofs.«125994_j2843268349979_1_alg».proof.Proof.Gen.KernelIdeal.Launch
import proofs.«125994_j2843268349979_1_alg».proof.Proof.Gen.KernelIdeal.Skeleton
import proofs.«125994_j2843268349979_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- window 1 (W, whole) at the first point only: its index map is constant; -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- window 2 (b, whole) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_x : Rect S5000x6 := Rect.unit (s := S5000x6) ![0, 0] S5000x6.size inb_S5000x6_S5000x6_0_0
abbrev r1_w : Rect S6x10 := Rect.unit (s := S6x10) ![0, 0] S6x10.size inb_S6x10_S6x10_0_0
abbrev r1_b : Rect S1x10 := Rect.unit (s := S1x10) ![0, 0] S1x10.size inb_S1x10_S1x10_0_0
abbrev r1_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out1_3 (x0 : Vec F S5000x6 .f32) (x1 : Vec F S6x10 .f32) (x2 : Vec F S1x10 .f32) : Vec F S5000x10 .f32 :=
  View.canon [⟨r1_out, k1_pay1 (View.ld x0 r1_x) (View.ld x1 r1_w) (View.ld x2 r1_b)⟩]

/-- The one store is the whole buffer, so it covers it (checked by evaluation). -/
theorem cover1_3 (p0 : Vec F S5000x10 .f32) (y : S5000x10.Idx) :
    ∃ pc ∈ ([⟨r1_out, p0⟩] : List (View.Piece (Elt F) S5000x10 .f32)), y ∈ pc.1.set :=
  View.cover_of_tiled [⟨r1_out, p0⟩] S5000x10.size (by rfl) y

/-! ## The body's triple -/

set_option maxHeartbeats 1000000 in
/-- The kernel body on whole staging memrefs, the inputs' at read contents `xW` and the output's at anything, runs to
    the continuation holding the inputs' as they were and the output's at `out1_3` of the inputs': the printed
    function is its skeleton, run operation by operation. The body also loads the output's buffer before storing
    into it; the value read is used nowhere, so whatever the buffer held does not matter. -/
theorem sound_kernel1 (c : Dev nD) (E : Set ℕ) (i : grid1.Coords) (arg1 : Memref sig .tc .vmem S5000x6 .f32) (harg1 : arg1.IsWhole) (arg2 : Memref sig .tc .vmem S6x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x6 .f32) (x1 : Vec F S6x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them (`V`); after the body at point
    `t` each input's buffer at its block and the output's at `out1_3` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window (the proof data's `match` reduced). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks (`before1_W`), so `sound_kernel1` applies; the
    invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Frm

end
-- ==== Proof.KI.R2.lean ====
/- The class-A half of region 2 of @main (custom_call 2: the tiled linear kernel, a block of
   relu (x · W + c · b) per grid point), at a PARAMETER `V` — the TensorCore's buffer contents when the region is
   entered: each window's block at a point (`iblk2`), the output window's staging buffer after the body as a
   closed function of the input blocks (`out2_3`), the body's triple (`sound_kernel2`), the pipeline's proof
   data (`dat2`) and the body obligation at every point (`body_obligation2`). -/
import proofs.«125994_j2843268349979_1_alg».proof.Proof.Gen.KernelIdeal.Launch
import proofs.«125994_j2843268349979_1_alg».proof.Proof.Gen.KernelIdeal.Skeleton
import proofs.«125994_j2843268349979_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- window 1 (W, whole) at the first point only: its index map is constant; -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- window 2 (b, whole) likewise. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_x : Rect S5000x10 := Rect.unit (s := S5000x10) ![0, 0] S5000x10.size inb_S5000x10_S5000x10_0_0
abbrev r2_w : Rect S10x10 := Rect.unit (s := S10x10) ![0, 0] S10x10.size inb_S10x10_S10x10_0_0
abbrev r2_b : Rect S1x10 := Rect.unit (s := S1x10) ![0, 0] S1x10.size inb_S1x10_S1x10_0_0
abbrev r2_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out2_3 (x0 : Vec F S5000x10 .f32) (x1 : Vec F S10x10 .f32) (x2 : Vec F S1x10 .f32) : Vec F S5000x10 .f32 :=
  View.canon [⟨r2_out, k2_pay1 (View.ld x0 r2_x) (View.ld x1 r2_w) (View.ld x2 r2_b)⟩]

/-- The one store is the whole buffer, so it covers it (checked by evaluation). -/
theorem cover2_3 (p0 : Vec F S5000x10 .f32) (y : S5000x10.Idx) :
    ∃ pc ∈ ([⟨r2_out, p0⟩] : List (View.Piece (Elt F) S5000x10 .f32)), y ∈ pc.1.set :=
  View.cover_of_tiled [⟨r2_out, p0⟩] S5000x10.size (by rfl) y

/-! ## The body's triple -/

set_option maxHeartbeats 1000000 in
/-- The kernel body on whole staging memrefs, the inputs' at read contents `xW` and the output's at anything, runs to
    the continuation holding the inputs' as they were and the output's at `out2_3` of the inputs': the printed
    function is its skeleton, run operation by operation. The body also loads the output's buffer before storing
    into it; the value read is used nowhere, so whatever the buffer held does not matter. -/
theorem sound_kernel2 (c : Dev nD) (E : Set ℕ) (i : grid2.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x10 .f32) (x1 : Vec F S10x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point
    `t` each input's buffer at its block and the output's at `out2_3` of the input blocks; the invariant the
    scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- What the body leaves, window by window (the proof data's `match` reduced). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks (`before2_W`), so `sound_kernel2` applies; the
    invariant and the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Frm

end
-- ==== Proof.KI.R3.lean ====
/- The class-A half of region 3 of @main (custom_call 3: the tiled linear kernel, a block of
   relu (x · W + c · b) per grid point), at a PARAMETER `V` — the TensorCore's buffer contents when the region is
   entered: each window's block at a point (`iblk3`), the output window's staging buffer after the body as a
   closed function of the input blocks (`out3_3`), the body's triple (`sound_kernel3`), the pipeline's proof
   data (`dat3`) and the body obligation at every point (`body_obligation3`). -/
import proofs.«125994_j2843268349979_1_alg».proof.Proof.Gen.KernelIdeal.Launch
import proofs.«125994_j2843268349979_1_alg».proof.Proof.Gen.KernelIdeal.Skeleton
import proofs.«125994_j2843268349979_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the long axis' extent: the elaborator's structural look recurses once per coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffer contents when the region is entered: the parameter the half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not, for ANY proof
    data whose array is `V`'s (`hA`) and whose body leaves the block in place (`hafter`): where the pipeline does
    not fetch the window its block index has not moved, so the block of the point before is this point's. Window 0
    (the rows of x) is fetched at every point; -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- window 1 (W, whole) at the first point only: its index map is constant; -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- window 2 (b, whole) likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: every load and the one store take the whole staging buffer -/

abbrev r3_x : Rect S5000x10 := Rect.unit (s := S5000x10) ![0, 0] S5000x10.size inb_S5000x10_S5000x10_0_0
abbrev r3_w : Rect S10x10 := Rect.unit (s := S10x10) ![0, 0] S10x10.size inb_S10x10_S10x10_0_0
abbrev r3_b : Rect S1x10 := Rect.unit (s := S1x10) ![0, 0] S1x10.size inb_S1x10_S1x10_0_0
abbrev r3_out : Rect S5000x10 := Rect.unit (s := S5000x10) ![0, 0] S5000x10.size inb_S5000x10_S5000x10_0_0

/-! ## What the body leaves in the output window's buffer -/

/-- Window 3's staging buffer after the body, from the input windows' blocks: its one store as a piece (the payload
    is the skeleton's: relu (x · W + c · b) of the blocks loaded whole). -/
def out3_3 (x0 : Vec F S5000x10 .f32) (x1 : Vec F S10x10 .f32) (x2 : Vec F S1x10 .f32) : Vec F S5000x10 .f32 :=
  View.canon [⟨r3_out, k3_pay1 (View.ld x0 r3_x) (View.ld x1 r3_w) (View.ld x2 r3_b)⟩]

/-- The one store is the whole buffer, so it covers it (checked by evaluation). -/
theorem cover3_3 (p0 : Vec F S5000x10 .f32) (y : S5000x10.Idx) :
    ∃ pc ∈ ([⟨r3_out, p0⟩] : List (View.Piece (Elt F) S5000x10 .f32)), y ∈ pc.1.set :=
  View.cover_of_tiled [⟨r3_out, p0⟩] S5000x10.size (by rfl) y

/-! ## The body's triple -/

set_option maxHeartbeats 1000000 in
/-- The kernel body on whole staging memrefs, the inputs' at read contents `xW` and the output's at anything, runs to
    the continuation holding the inputs' as they were and the output's at `out3_3` of the inputs': the printed
    function is its skeleton, run operation by operation. The body also loads the output's buffer before storing
    into it; the value read is used nowhere, so whatever the buffer held does not matter. -/
theorem sound_kernel3 (c : Dev nD) (E : Set ℕ) (i : grid3.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S5000x10 .f32) (harg4 : arg4.IsWhole)
    (x0 : Vec F S5000x10 .f32) (x1 : Vec F S10x10 .f32) (x2 : Vec F S1x10 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3__linear_kernel i arg1 harg1 arg2 harg2 arg3 harg3 arg4 harg4) K := by
  simp only [cc3__linear_kernel_eq_skeleton]; unfold cc3__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them (`V`); after the body at point
    `t` each input's buffer at its block and the output's at `out3_3` of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- What the body leaves, window by window (the proof data's `match` reduced). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t` (the body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Frm

end
-- ==== Proof.KI.R4Runs.lean ====
import proofs.«125994_j2843268349979_1_alg».proof.Proof.Gen.KernelIdeal.Launch
import proofs.«125994_j2843268349979_1_alg».proof.Proof.Gen.KernelIdeal.Skeleton
import proofs.«125994_j2843268349979_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The readout kernel's body on any staging memrefs

The fifth call's kernel keeps a running sum in a scratch buffer of its own: zeroed at the grid's first point,
increased at every point by the column sum of that point's block, and at the last point scaled into the output.
This module states the body's triple in each of the three cases the two conditions on the grid coordinate
leave (first point; a middle point; last point), over the payloads of the kernel's skeleton. -/

/-- The two zero offsets of a rank-2 rectangle at the origin. -/
theorem zeros2 : (![0, 0] : Fin 2 → ℕ) = fun _ => 0 := by
  funext a; fin_cases a <;> rfl

/-- A load through the whole-shape rectangle at zero offsets reads the buffer's contents through the view. -/
theorem readAt_unit_zero {sg : RefSig} {κ : Kind} {sp : Space} {S : Shape} {e : EltTy} (v : View sg κ sp S e) {off : Fin S.rank → ℕ}
    (h : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero h inb _)

/-- A store through it, last, leaves its payload in the buffer, whatever it held and whatever was stored before. -/
theorem read_writes_unit_zero {sg : RefSig} {κ : Kind} {sp : Space} {S : Shape} {e : EltTy} (v : View sg κ sp S e) {off : Fin S.rank → ℕ}
    (h : off = fun _ => 0) (inb : ∀ a, off a + S.size a ≤ S.size a) (f : v.ty.Contents (Elt F)) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

/-! ## The body's two conditions, in closed form over the grid -/

/-- The condition of the body's first conditional (zero the accumulator), from the grid coordinate. -/
abbrev cond4_0 (i : grid4.Coords) : Prop := (Scalar.cmpi .ne (Scalar.extui (Scalar.cmpi .eq (BitVec.ofNat 32 (i 0).val) 0#32)) 0#32) = 1#1
/-- It holds at the first point only — decided over the grid. -/
theorem hcond4_0 : ∀ t : Fin cfg4.N, cond4_0 (grid4.coords t) ↔ t.val = 0 :=
  (by decide +kernel : ∀ t : Fin grid4.N, cond4_0 (grid4.coords t) ↔ t.val = 0)

/-- The condition of the body's second conditional (write the mean into the output). -/
abbrev cond4_1 (i : grid4.Coords) : Prop := k4_cond2 i = 1#1
/-- It holds at the last point only — decided over the grid. -/
theorem hcond4_1 : ∀ t : Fin cfg4.N, cond4_1 (grid4.coords t) ↔ t.val = 39 :=
  (by decide +kernel : ∀ t : Fin grid4.N, cond4_1 (grid4.coords t) ↔ t.val = 39)

/-! ## Where the windows are idle -/

/-- The inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl
theorem liveAt4_4 : ∀ t : Fin cfg4.N, cfg4.idle 4 (grid4.coords t) = false := fun _ => rfl
theorem liveAt4_5 : ∀ t : Fin cfg4.N, cfg4.idle 5 (grid4.coords t) = false := fun _ => rfl
theorem liveAt4_6 : ∀ t : Fin cfg4.N, cfg4.idle 6 (grid4.coords t) = false := fun _ => rfl
/-- Where the second condition fails the output window is idle: the body stores nothing into it, -/
theorem idleAt4_7 : ∀ t : Fin cfg4.N, ¬cond4_1 (grid4.coords t) → cfg4.idle 7 (grid4.coords t) = true := by decide +kernel
/-- and the pipeline does not write its block back there. -/
theorem noFlush4_7 : ∀ t : Fin cfg4.N, ¬cond4_1 (grid4.coords t) → (cfg4.win 7).flush t = false := by decide +kernel
/-- Where it holds the output window is live. -/
theorem liveAt4_7 : ∀ t : Fin cfg4.N, cond4_1 (grid4.coords t) → cfg4.idle 7 (grid4.coords t) = false := by decide +kernel

/-! ## The scratch accumulator -/

/-- The kernel's scratch operand: a whole scoped buffer of its own, passed beside the windows. -/
abbrev scM4 : Memref sig .tc .vmem S1x1 .f32 := Memref.whole cc4_scratch0

/-- The scoped buffers of the core that are neither a staging buffer of this call nor its scratch, unopened. -/
abbrev restBut4 (c : Dev nD) : sProp 𝕄 :=
  Pipeline.scopedRestBut (Ix := Unit) (Name := ℕ) (U := UR sig nD τ) (Lvl := ℕ) (Val := Elt F) spec4 c [cc4_scratch0]

/-- The class's invariant with the scratch operand split out as a memref owned at some contents: what the body
    obligation hands the body and takes back. -/
theorem PhiA4_eq (c : Dev nD) :
    (Pipeline.ΦA spec4 c : sProp 𝕄)
      = iprop(iprop(iprop((∃ d, owns (c : Thread nD τ) scM4 fullShare d)) ∗ restBut4 c) ∗ (∃ r, prngReg c r)) := by
  unfold Pipeline.ΦA; rw [scopedRest4_split]; simp only [scM4, owns_whole]; try rfl

/-- The column-sum operand computed from whole-buffer loads of the seven inputs is the one computed from the buffers'
    contents. -/
theorem pay4_readAt (arg1 : Memref sig .tc .vmem S5000x10 .f32) (arg2 : Memref sig .tc .vmem S10x10 .f32) (arg3 : Memref sig .tc .vmem S1x10 .f32) (arg4 : Memref sig .tc .vmem S10x10 .f32) (arg5 : Memref sig .tc .vmem S1x10 .f32) (arg6 : Memref sig .tc .vmem S10x1 .f32) (arg7 : Memref sig .tc .vmem S1x1 .f32)
    (f0 : arg1.view.ty.Contents (Elt F)) (f1 : arg2.view.ty.Contents (Elt F)) (f2 : arg3.view.ty.Contents (Elt F)) (f3 : arg4.view.ty.Contents (Elt F)) (f4 : arg5.view.ty.Contents (Elt F)) (f5 : arg6.view.ty.Contents (Elt F)) (f6 : arg7.view.ty.Contents (Elt F)) :
    k4_pay4 (F := F) (View.readAt (Elt F) arg1.view (Rect.unit ![0, 0] S5000x10.size inb_S5000x10_S5000x10_0_0).toLoadRect f0)
          (View.readAt (Elt F) arg2.view (Rect.unit ![0, 0] S10x10.size inb_S10x10_S10x10_0_0).toLoadRect f1)
          (View.readAt (Elt F) arg3.view (Rect.unit ![0, 0] S1x10.size inb_S1x10_S1x10_0_0).toLoadRect f2)
          (View.readAt (Elt F) arg4.view (Rect.unit ![0, 0] S10x10.size inb_S10x10_S10x10_0_0).toLoadRect f3)
          (View.readAt (Elt F) arg5.view (Rect.unit ![0, 0] S1x10.size inb_S1x10_S1x10_0_0).toLoadRect f4)
          (View.readAt (Elt F) arg6.view (Rect.unit ![0, 0] S10x1.size inb_S10x1_S10x1_0_0).toLoadRect f5)
          (View.readAt (Elt F) arg7.view (Rect.unit ![0, 0] S1x1.size inb_S1x1_S1x1_0_0).toLoadRect f6)
      = k4_pay4 (View.read (Elt F) arg1.view f0) (View.read (Elt F) arg2.view f1) (View.read (Elt F) arg3.view f2) (View.read (Elt F) arg4.view f3) (View.read (Elt F) arg5.view f4) (View.read (Elt F) arg6.view f5) (View.read (Elt F) arg7.view f6) := by
  simp only [readAt_unit_zero (S := S5000x10) _ zeros2, readAt_unit_zero (S := S10x10) _ zeros2,
    readAt_unit_zero (S := S1x10) _ zeros2, readAt_unit_zero (S := S10x1) _ zeros2, readAt_unit_zero (S := S1x1) _ zeros2]

/-! ## The body's triple, case by case -/

set_option maxHeartbeats 1000000 in
/-- FIRST POINT (the first condition holds, the second does not): on whole memrefs, the inputs' at contents `x·`, the
    output's at contents `xi7` and the scratch at anything, the body runs to the continuation holding the inputs' and
    the output's as they were and the scratch at the column sum of this point's block added to zero. -/
theorem sound_kernel4_A (c : Dev nD) (E : Set ℕ) (i : grid4.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : cond4_0 i) (hc1 : ¬cond4_1 i) (x0 : Vec F S5000x10 .f32) (x1 : Vec F S10x10 .f32) (x2 : Vec F S1x10 .f32) (x3 : Vec F S10x10 .f32) (x4 : Vec F S1x10 .f32) (x5 : Vec F S10x1 .f32) (x6 : Vec F S1x1 .f32) (xi7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare (k4_pay1 (k4_pay4 x0 x1 x2 x3 x4 x5 x6) (k4_pay3 (F := F)))) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9) K := by
  simp only [cc4__readout_kernel_eq_skeleton]; unfold cc4__readout_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds, %fs, -, HS⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  refine (read_writes_unit_zero (S := S1x1) _ zeros2 _ _ _ _).trans ?_
  exact congrArg₂ k4_pay1 (pay4_readAt ..) (View.readCov_unit_zero (S := S1x1) _ zeros2 _ _)

set_option maxHeartbeats 1000000 in
/-- A MIDDLE POINT (neither condition holds): the same with the scratch at the contents `xs` the point before left,
    and left at the column sum of this point's block added to them. -/
theorem sound_kernel4_B (c : Dev nD) (E : Set ℕ) (i : grid4.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond4_0 i) (hc1 : ¬cond4_1 i) (x0 : Vec F S5000x10 .f32) (x1 : Vec F S10x10 .f32) (x2 : Vec F S1x10 .f32) (x3 : Vec F S10x10 .f32) (x4 : Vec F S1x10 .f32) (x5 : Vec F S10x1 .f32) (x6 : Vec F S1x1 .f32) (xi7 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7 ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xi7
            ∗ owns (c : Thread nD τ) arg9 fullShare (k4_pay1 (k4_pay4 x0 x1 x2 x3 x4 x5 x6) xs)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9) K := by
  simp only [cc4__readout_kernel_eq_skeleton]; unfold cc4__readout_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs, %hfs, HS⟩, Hk⟩
  subst hf0 hf1 hf2 hf3 hf4 hf5 hf6 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact HS
  ipureintro
  refine (read_writes_unit_zero (S := S1x1) _ zeros2 _ _ _ _).trans ?_
  exact congrArg₂ k4_pay1 (pay4_readAt ..) (readAt_unit_zero (S := S1x1) _ zeros2 _ _)

set_option maxHeartbeats 1000000 in
/-- LAST POINT (the first condition fails, the second holds): the output's memref at anything; the scratch is left at the
    column sum of this point's block added to `xs`, and the output at that sum scaled by the kernel's constant. -/
theorem sound_kernel4_C (c : Dev nD) (E : Set ℕ) (i : grid4.Coords) (arg1 : Memref sig .tc .vmem S5000x10 .f32) (harg1 : arg1.IsWhole) (arg2 : Memref sig .tc .vmem S10x10 .f32) (harg2 : arg2.IsWhole) (arg3 : Memref sig .tc .vmem S1x10 .f32) (harg3 : arg3.IsWhole) (arg4 : Memref sig .tc .vmem S10x10 .f32) (harg4 : arg4.IsWhole) (arg5 : Memref sig .tc .vmem S1x10 .f32) (harg5 : arg5.IsWhole) (arg6 : Memref sig .tc .vmem S10x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole)
    (hc0 : ¬cond4_0 i) (hc1 : cond4_1 i) (x0 : Vec F S5000x10 .f32) (x1 : Vec F S10x10 .f32) (x2 : Vec F S1x10 .f32) (x3 : Vec F S10x10 .f32) (x4 : Vec F S1x10 .f32) (x5 : Vec F S10x1 .f32) (x6 : Vec F S1x1 .f32) (xs : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k4_pay2 (k4_pay1 (k4_pay4 x0 x1 x2 x3 x4 x5 x6) xs))
            ∗ owns (c : Thread nD τ) arg9 fullShare (k4_pay1 (k4_pay4 x0 x1 x2 x3 x4 x5 x6) xs)) -∗ K ⟨⟩))
      ⊢ wp frame (wpE (defs₀ (F := F)) Variants.none c none) E (cc4__readout_kernel i arg1 harg1 arg2 harg2 arg3 harg3 arg4 harg4 arg5 harg5 arg6 harg6 arg7 harg7 arg8 harg8 arg9 harg9) K := by
  simp only [cc4__readout_kernel_eq_skeleton]; unfold cc4__readout_kernel_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (read_writes_unit_zero (S := S1x1) _ zeros2 _ _ _ _).trans (congrArg k4_pay2 ?_)
    refine (View.readCov_unit_zero (S := S1x1) _ zeros2 _ _).trans ?_
    exact congrArg₂ k4_pay1 (pay4_readAt ..) (readAt_unit_zero (S := S1x1) _ zeros2 _ _)
  iexists _; isplitr
  swap; · iexact HS
  ipureintro
  refine (read_writes_unit_zero (S := S1x1) _ zeros2 _ _ _ _).trans ?_
  exact congrArg₂ k4_pay1 (pay4_readAt ..) (readAt_unit_zero (S := S1x1) _ zeros2 _ _)

end Cert.KernelIdeal.Frm

end
-- ==== Proof.KI.R4.lean ====
import proofs.«125994_j2843268349979_1_alg».proof.Proof.KI.R4Runs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The readout call's half of the frame, at the contents `V` the region is entered with

The proof data of the fifth call's pipeline: the inputs' staging buffers hold their blocks at every point; the
scratch accumulator after point `n` holds the running sum `acc4 n` of the column sums of the blocks up to `n`;
the output's buffer is left untouched but at the last point, where it is left at the running sum scaled. -/

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Each input window's current staging buffer holds its block at every point, fetched there or not, for any proof
    data whose array is `V`'s and whose body leaves the block in place: the window is uncut and never idle, and where
    it is not fetched its block index has not moved. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)
theorem before4_6_of {c : Dev nD} (dat : Dat τ (Elt F) Unit ℕ (UR sig nD τ) ℕ cfg4 c) (hA : dat.A 6 = V c (Pipeline.arrRef spec4 6))
    (hafter : ∀ t, dat.after 6 t = iblk4 V c 6 t) (t : Fin cfg4.N) (d) : dat.before 6 t d = iblk4 V c 6 t :=
  (dat.before_in_eq_fetched 6 rfl (fun _ => rfl) (fun _ _ _ => rfl) (fun t => by rw [hafter]; unfold Dat.blockOf iblk4; rw [hA]; try rfl) t d).trans
    (by unfold Dat.fetched Dat.blockOf iblk4; rw [hA]; try rfl)

/-! ## The running sum -/

/-- The per-row readout of the block at point `t`: the operand whose column sum the body adds to the accumulator. -/
def pay4 (c : Dev nD) (t : Fin cfg4.N) : FVec F S5000x1 .f32 :=
  k4_pay4 (iblk4 V c 0 t) (iblk4 V c 1 t) (iblk4 V c 2 t) (iblk4 V c 3 t) (iblk4 V c 4 t) (iblk4 V c 5 t) (iblk4 V c 6 t)

/-- THE ACCUMULATION: what the scratch holds after the body at position `n` — at the first point the column sum of
    its block added to zero, afterwards the column sum of the point's block added to what the point before left. -/
def acc4 (c : Dev nD) : (n : ℕ) → n < cfg4.N → Vec F S1x1 .f32
  | 0, hn => k4_pay1 (pay4 V c ⟨0, hn⟩) (k4_pay3 (F := F))
  | n + 1, hn => k4_pay1 (pay4 V c ⟨n + 1, hn⟩) (acc4 c n (Nat.lt_of_succ_lt hn))

/-- At the first point. -/
theorem acc4_zero (c : Dev nD) (t : Fin cfg4.N) (h : t.val = 0) :
    acc4 V c t.val t.isLt = k4_pay1 (pay4 V c t) (k4_pay3 (F := F)) := by
  obtain ⟨n, hn⟩ := t
  cases n with
  | zero => rfl
  | succ n => exact absurd h (Nat.succ_ne_zero n)

/-- At a later point, over what the point before left. -/
theorem acc4_pos (c : Dev nD) (t : Fin cfg4.N) (h : t.val ≠ 0) :
    acc4 V c t.val t.isLt = k4_pay1 (pay4 V c t) (acc4 V c (t.val - 1) (Nat.lt_of_le_of_lt (Nat.sub_le _ _) t.isLt)) := by
  obtain ⟨n, hn⟩ := t
  cases n with
  | zero => exact absurd rfl h
  | succ n => rfl

/-! ## The invariant -/

/-- The region invariant before position `n`: before the first point the class's (every scoped buffer that is no
    staging buffer at anything, the generator register at some state); afterwards the same with the scratch
    accumulator at what the point before left in it. -/
def PhiS4 (c : Dev nD) : (n : ℕ) → n ≤ cfg4.N → sProp 𝕄
  | 0, _ => Pipeline.ΦA spec4 c
  | n + 1, hn => iprop(iprop(owns (c : Thread nD τ) scM4 fullShare (acc4 V c n hn) ∗ restBut4 c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the accumulator at that point's contents. -/
theorem PhiS4_succ (c : Dev nD) (n : ℕ) (hn : n < cfg4.N) :
    PhiS4 V c (n + 1) hn = iprop(iprop(owns (c : Thread nD τ) scM4 fullShare (acc4 V c n hn) ∗ restBut4 c) ∗ (∃ r, prngReg c r)) := rfl

/-- Before a point that is not the first: the accumulator at what the point before left. -/
theorem PhiS4_pos (c : Dev nD) (n : ℕ) (h : n ≤ cfg4.N) (hz : n ≠ 0) :
    PhiS4 V c n h = iprop(iprop(owns (c : Thread nD τ) scM4 fullShare (acc4 V c (n - 1) (by omega)) ∗ restBut4 c) ∗ (∃ r, prngReg c r)) := by
  cases n with
  | zero => exact absurd rfl hz
  | succ n => rfl

/-! ## The pipeline's proof data -/

/-- The proof data of the readout call's pipeline on core `c`: the arrays as the region finds them (`V`); after the
    body at point `t` each input's buffer at its block and the output's at the running sum scaled (what the last
    point, the only one that stores into it and writes it back, leaves; elsewhere the window is idle and this is not
    consulted); the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => k4_pay2 (acc4 V c t.val t.isLt)
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = k4_pay2 (acc4 V c t.val t.isLt) := by dsimp only [dat4]

/-- At the last point the output's buffer is left at the whole grid's running sum scaled. -/
theorem after4_7_last (c : Dev nD) (t : Fin cfg4.N) (ht : t.val = 39) :
    (dat4 V c).after 7 t = k4_pay2 (acc4 V c 39 (by rw [show cfg4.N = 40 from N_4]; omega)) := by
  rw [after4_7]
  obtain ⟨n, hn⟩ := t
  obtain rfl : n = 39 := ht
  rfl

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d
theorem before4_6 (c : Dev nD) (t : Fin cfg4.N) (d) : (dat4 V c).before 6 t d = iblk4 V c 6 t :=
  before4_6_of V (dat4 V c) (A_eq4 V c 6) (after4_6 V c) t d

/-! ## The body obligation, at a generic point -/

/-- Each window's current staging memref at point `t`, as the pipeline passes it to the body. -/
abbrev ms4_0 (t : Fin cfg4.N) : Memref sig .tc .vmem S5000x10 .f32 := win4_0.stage (cfg4.slots t 0)
abbrev ms4_1 (t : Fin cfg4.N) : Memref sig .tc .vmem S10x10 .f32 := win4_1.stage (cfg4.slots t 1)
abbrev ms4_2 (t : Fin cfg4.N) : Memref sig .tc .vmem S1x10 .f32 := win4_2.stage (cfg4.slots t 2)
abbrev ms4_3 (t : Fin cfg4.N) : Memref sig .tc .vmem S10x10 .f32 := win4_3.stage (cfg4.slots t 3)
abbrev ms4_4 (t : Fin cfg4.N) : Memref sig .tc .vmem S1x10 .f32 := win4_4.stage (cfg4.slots t 4)
abbrev ms4_5 (t : Fin cfg4.N) : Memref sig .tc .vmem S10x1 .f32 := win4_5.stage (cfg4.slots t 5)
abbrev ms4_6 (t : Fin cfg4.N) : Memref sig .tc .vmem S1x1 .f32 := win4_6.stage (cfg4.slots t 6)
abbrev ms4_7 (t : Fin cfg4.N) : Memref sig .tc .vmem S1x1 .f32 := win4_7.stage (cfg4.slots t 7)

/-- An input's buffer is left at its block. -/
theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (ms4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (ms4_3 t) fullShare (iblk4 V c 3 t) := by
  unfold Dat.leavesExact; rw [liveAt4_3 t, after4_3]
theorem leaves4_4 (c : Dev nD) (t : Fin cfg4.N) :
    (dat4 V c).leavesExact 4 t = owns (c : Thread nD τ) (ms4_4 t) fullShare (iblk4 V c 4 t) := by
  unfold Dat.leavesExact; rw [liveAt4_4 t, after4_4]
theorem leaves4_5 (c : Dev nD) (t : Fin cfg4.N) :
    (dat4 V c).leavesExact 5 t = owns (c : Thread nD τ) (ms4_5 t) fullShare (iblk4 V c 5 t) := by
  unfold Dat.leavesExact; rw [liveAt4_5 t, after4_5]
theorem leaves4_6 (c : Dev nD) (t : Fin cfg4.N) :
    (dat4 V c).leavesExact 6 t = owns (c : Thread nD τ) (ms4_6 t) fullShare (iblk4 V c 6 t) := by
  unfold Dat.leavesExact; rw [liveAt4_6 t, after4_6]

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' memrefs hold their blocks; the closed forms of the two conditions say which case
    the point is in; the invariant hands the body the accumulator at what the point before left (at anything at the
    first point) and takes it back at this point's running sum; where the second condition fails the output's buffer
    goes back as it came, where it holds it goes back at the running sum scaled; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3, leaves4_4, leaves4_5, leaves4_6]
  have hN : t.val < 40 := lt_of_lt_of_eq t.isLt (show cfg4.N = 40 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 7 t (idleAt4_7 t hc1) (noFlush4_7 t hc1)]
    rw [acc4_zero V c t h0]
    rw [PhiS4_castSucc V c t, PhiS4_zero V c _ _ h0, PhiA4_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_kernel4_A c Set.univ (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) (iblk4 V c 6 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS]; · iexact HS
    iintro ⟨H0, H1, H2, H3, H4, H5, H6, H7, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond4_0 (grid4.coords t) := fun h => h0 ((hcond4_0 t).mp h)
    by_cases h1 : t.val = 39
    · have hc1 : cond4_1 (grid4.coords t) := (hcond4_1 t).mpr h1
      rw [show (dat4 V c).leavesExact 7 t = owns (c : Thread nD τ) (ms4_7 t) fullShare ((dat4 V c).after 7 t) from by
        unfold Dat.leavesExact; rw [liveAt4_7 t hc1], after4_7]
      rw [acc4_pos V c t h0]
      rw [PhiS4_castSucc V c t, PhiS4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_C c Set.univ (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) (iblk4 V c 6 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond4_1 (grid4.coords t) := fun h => h1 ((hcond4_1 t).mp h)
      rw [Dat.leavesExact_idle (dat4 V c) 7 t (idleAt4_7 t hc1) (noFlush4_7 t hc1)]
      rw [acc4_pos V c t h0]
      rw [PhiS4_castSucc V c t, PhiS4_pos V c _ _ h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (sound_kernel4_B c Set.univ (grid4.coords t) _ _ _ _ _ _ _ _ _ _ _ _ _ _ _ _ _ _ hc0 hc1 (iblk4 V c 0 t) (iblk4 V c 1 t) (iblk4 V c 2 t) (iblk4 V c 3 t) (iblk4 V c 4 t) (iblk4 V c 5 t) (iblk4 V c 6 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## Entering and leaving the region -/

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS, HR⟩, Hg⟩
  isplitl [HS HR]
  · isplitl [HS]
    · iexists _; iexact HS
    iexact HR
  iexact Hg

/-- The same after the last point. -/
theorem hout4 (c : Dev nD) : (dat4 V c).Φ (Fin.last cfg4.N) ⊢ Pipeline.ΦA spec4 c :=
  Phi_out4 V c _ (by rw [Fin.val_last]; have : cfg4.N = 40 := N_4; omega)

end Cert.KernelIdeal.Frm

end
-- ==== Proof.KI.Folds.lean ====
/-
  The contents of a TensorCore's buffers at every boundary of @main, as a fold from the launch memory.

  @main is five stretches of host operations, each followed by a kernel region. A stretch replaces the buffers its
  operations write by their functions of their operands; a region replaces its windows' arrays by what its write-backs
  leave (the inputs as entered, the output at the blocks the points wrote) and keeps every other buffer. W0 is the launch
  memory, W(2k+1) the contents when region k is entered, W(2k+2) the contents when it is left.
-/
import proofs.«125994_j2843268349979_1_alg».proof.Proof.KI.R0
import proofs.«125994_j2843268349979_1_alg».proof.Proof.KI.R1
import proofs.«125994_j2843268349979_1_alg».proof.Proof.KI.R2
import proofs.«125994_j2843268349979_1_alg».proof.Proof.KI.R3
import proofs.«125994_j2843268349979_1_alg».proof.Proof.KI.R4

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)

/-- After the first stretch of host operations: region 0's entry. -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
/-- At region 0's exit each of its arrays holds what the pipeline leaves and every other buffer what it held at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- An input window's array leaves the region as it entered it. -/
theorem W2_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))

/-- After the second stretch of host operations: region 1's entry. -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
/-- At region 1's exit each of its arrays holds what the pipeline leaves and every other buffer what it held at entry. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- An input window's array leaves the region as it entered it. -/
theorem W4_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))

/-- After the third stretch of host operations: region 2's entry. -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
/-- At region 2's exit each of its arrays holds what the pipeline leaves and every other buffer what it held at entry. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- An input window's array leaves the region as it entered it. -/
theorem W6_in (c : Dev nD) (w : Fin cfg2.W) (hw : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hw _).trans (A_eq2 (V5 m ρ) c w))

/-- After the fourth stretch of host operations: region 3's entry. -/
abbrev W7 : Dev nD → Valuation τ sig (Elt F) := fun c => StableHlo.after hostOps3 (W6 m ρ c)
/-- The same read at the TensorCore's references. -/
abbrev V7 : (c : Dev nD) → (b : Ref sig .tc) → Buf (Elt F) ((c : Thread nD τ).loc b) := fun c b => W7 m ρ c b
/-- At region 3's exit: its arrays at what the pipeline leaves, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
/-- At region 3's exit each of its arrays holds what the pipeline leaves and every other buffer what it held at entry. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)
/-- An input window's array leaves the region as it entered it. -/
theorem W8_in (c : Dev nD) (w : Fin cfg3.W) (hw : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hw _).trans (A_eq3 (V7 m ρ) c w))

/-- After the fifth stretch of host operations: region 4's entry. -/
abbrev W9 : Dev nD → Valuation τ sig (Elt F) := fun c => StableHlo.after hostOps4 (W8 m ρ c)
/-- The same read at the TensorCore's references. -/
abbrev V9 : (c : Dev nD) → (b : Ref sig .tc) → Buf (Elt F) ((c : Thread nD τ).loc b) := fun c b => W9 m ρ c b
/-- At region 4's exit: its arrays at what the pipeline leaves, every other buffer as entered. -/
def W10 (c : Dev nD) : Valuation τ sig (Elt F) :=
  Pipeline.withArrays spec4 c (W9 m ρ c) fun w => (dat4 (V9 m ρ) c).arrAt w cfg4.N
theorem W10_arr (c : Dev nD) (w : Fin cfg4.W) :
    W10 m ρ c (Proc.devRef .tc (Pipeline.arrRef spec4 w)) = (dat4 (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb
abbrev V10 : (c : Dev nD) → (b : Ref sig .tc) → Buf (Elt F) ((c : Thread nD τ).loc b) := fun c b => W10 m ρ c b
/-- At region 4's exit each of its arrays holds what the pipeline leaves and every other buffer what it held at entry. -/
theorem hF4 (c : Dev nD) (w : Fin cfg4.W) : (dat4 (V9 m ρ) c).arrAt w cfg4.N = V10 m ρ c (Pipeline.arrRef spec4 w) :=
  (W10_arr m ρ c w).symm
theorem hrest4 (c : Dev nD) : ∀ b, b ∉ Finset.univ.image (Pipeline.arrRef spec4) → V10 m ρ c b = V9 m ρ c b :=
  fun b hb => W10_of_ne m ρ c b fun w e => hb (Finset.mem_image.mpr ⟨w, Finset.mem_univ _, e⟩)
/-- An input window's array leaves the region as it entered it. -/
theorem W10_in (c : Dev nD) (w : Fin cfg4.W) (hw : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hw _).trans (A_eq4 (V9 m ρ) c w))

end Cert.KernelIdeal.Frm

end
-- ==== Proof.KI.Run.lean ====
/-
  The run of @main over its ten segments — five stretches of host operations, each followed by a kernel region —
  from the launch to the return: every weakly fair execution terminates without a fault, and in its final state every
  unscoped buffer of a TensorCore holds the last boundary's contents (the fold W10).

  Each stretch is a host segment from its boundary's contents; each region is entered from every unscoped buffer at its
  entry contents and left at its exit contents: its arrays are split out of the unscoped buffers and put back at what
  the write-backs leave, the generator register goes into the region's invariant and comes back, the core owes nothing.
  The thread state between segments is "every unscoped buffer at the boundary's contents, the generator register at some
  state, nothing owed".
-/
import proofs.«125994_j2843268349979_1_alg».proof.Proof.KI.Folds

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No pipeline has a prefetched table. -/
abbrev adm : (p : Fin 5) → (pcfgs (F := F) p).Adm := fun p => (cfgs p).toPCfg_adm
/-- Every pipeline's proof data, each at its region's entry contents. -/
def pdats : (p : Fin 5) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
  | ⟨4, _⟩ => fun c => dat4 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of stretch 0 allocates a buffer. -/
theorem hostOps0_fresh : (hostOps0 : List (HloOp τ sig (Elt F))).Forall fun op => op.fresh = ∅ := by
  simp only [List.Forall]; repeat' constructor

/-- No operation of stretch 1 allocates a buffer. -/
theorem hostOps1_fresh : (hostOps1 : List (HloOp τ sig (Elt F))).Forall fun op => op.fresh = ∅ := by
  simp only [List.Forall]; repeat' constructor

/-- No operation of stretch 2 allocates a buffer. -/
theorem hostOps2_fresh : (hostOps2 : List (HloOp τ sig (Elt F))).Forall fun op => op.fresh = ∅ := by
  simp only [List.Forall]; repeat' constructor

/-- No operation of stretch 3 allocates a buffer. -/
theorem hostOps3_fresh : (hostOps3 : List (HloOp τ sig (Elt F))).Forall fun op => op.fresh = ∅ := by
  simp only [List.Forall]; repeat' constructor

/-- No operation of stretch 4 allocates a buffer. -/
theorem hostOps4_fresh : (hostOps4 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

set_option backward.isDefEq.respectTransparency.types false in
/-- Region 0 over the thread state: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at W3, left at W4. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at W5, left at W6. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at W7, left at W8. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at W9, left at W10. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V9 m ρ) c).loose
  hwaits := Pipeline.hwaits_of_owed_zero _ _ _ _ L lv 4 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (V9 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (V9 m ρ) c)
    unfold Pipeline.ΦA
    iintro ⟨Hp, -, Hr⟩
    isplitl [Hr]; · iexact Hr
    iexact Hp
  hout c := by
    rw [Pipeline.ownSems0_none]
    refine BIBase.Entails.trans (hout4 (V9 m ρ) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V9 m ρ c) (V10 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's ten segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)),
    .region (reg4 m ρ) ]
/-- @main is the run of the segments. -/
theorem main_run (c : Dev nD) : main (F := F) c = Pipeline.Seg.run (segs m ρ) := by
  rw [main_chain, Pipeline.Seg.run_eq_chain]; rfl

set_option backward.isDefEq.respectTransparency.types false in
/-- From any memory with zero counters every weakly fair execution of @main terminates, nothing faulting, and in every
    final state each unscoped buffer of a TensorCore holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

end Cert.KernelIdeal.Frm

end
-- ==== Proof.KI.Args.lean ====
/-
  The argument arrays are never written: at every boundary of @main each of them holds its launch contents.

  The arguments are the first 28 buffers of the device's main memory. Every host operation writes a buffer numbered 28 or
  higher, and a kernel region touches an argument only as an input window's array, which the region leaves as it entered
  it (its output array, too, is numbered 28 or higher). So the fold of the boundary contents, read at an argument, walks
  back to the launch memory.
-/
import proofs.«125994_j2843268349979_1_alg».proof.Proof.KI.Folds

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer numbered below 28 is not one numbered 28 or higher. -/
theorem ne_of_idx_lt {b y : Ref sig .tc} (hb : b.idx.val < 28) (hy : 28 ≤ y.idx.val) : b ≠ y :=
  fun e => by subst e; omega

/-- Closes `after ops W (devRef b) = W (devRef b)` for a literal list of host operations, each writing a buffer numbered 28
    or higher, and a buffer `b` numbered below 28 (`hb`). -/
macro "keeps_low " ops:ident hb:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (ne_of_idx_lt $hb (by decide))))

set_option maxHeartbeats 4000000 in
/-- Stretch 0 keeps every buffer numbered below 28. -/
theorem hostOps0_keeps (W : Valuation τ sig (Elt F)) (b : Ref sig .tc) (hb : b.idx.val < 28) :
    StableHlo.after (hostOps0 (F := F)) W (Proc.devRef .tc b) = W (Proc.devRef .tc b) := by
  keeps_low hostOps0 hb
/-- Region 0's output windows' arrays are numbered 28 or higher. -/
theorem region0_out : ∀ w : Fin cfg0.W, (cfg0.win w).isOut = true → 28 ≤ (Pipeline.arrRef spec0 w).idx.val := by decide

set_option maxHeartbeats 4000000 in
/-- Stretch 1 keeps every buffer numbered below 28. -/
theorem hostOps1_keeps (W : Valuation τ sig (Elt F)) (b : Ref sig .tc) (hb : b.idx.val < 28) :
    StableHlo.after (hostOps1 (F := F)) W (Proc.devRef .tc b) = W (Proc.devRef .tc b) := by
  keeps_low hostOps1 hb
/-- Region 1's output windows' arrays are numbered 28 or higher. -/
theorem region1_out : ∀ w : Fin cfg1.W, (cfg1.win w).isOut = true → 28 ≤ (Pipeline.arrRef spec1 w).idx.val := by decide

set_option maxHeartbeats 4000000 in
/-- Stretch 2 keeps every buffer numbered below 28. -/
theorem hostOps2_keeps (W : Valuation τ sig (Elt F)) (b : Ref sig .tc) (hb : b.idx.val < 28) :
    StableHlo.after (hostOps2 (F := F)) W (Proc.devRef .tc b) = W (Proc.devRef .tc b) := by
  keeps_low hostOps2 hb
/-- Region 2's output windows' arrays are numbered 28 or higher. -/
theorem region2_out : ∀ w : Fin cfg2.W, (cfg2.win w).isOut = true → 28 ≤ (Pipeline.arrRef spec2 w).idx.val := by decide

set_option maxHeartbeats 4000000 in
/-- Stretch 3 keeps every buffer numbered below 28. -/
theorem hostOps3_keeps (W : Valuation τ sig (Elt F)) (b : Ref sig .tc) (hb : b.idx.val < 28) :
    StableHlo.after (hostOps3 (F := F)) W (Proc.devRef .tc b) = W (Proc.devRef .tc b) := by
  keeps_low hostOps3 hb
/-- Region 3's output windows' arrays are numbered 28 or higher. -/
theorem region3_out : ∀ w : Fin cfg3.W, (cfg3.win w).isOut = true → 28 ≤ (Pipeline.arrRef spec3 w).idx.val := by decide

set_option maxHeartbeats 4000000 in
/-- Stretch 4 keeps every buffer numbered below 28. -/
theorem hostOps4_keeps (W : Valuation τ sig (Elt F)) (b : Ref sig .tc) (hb : b.idx.val < 28) :
    StableHlo.after (hostOps4 (F := F)) W (Proc.devRef .tc b) = W (Proc.devRef .tc b) := by
  keeps_low hostOps4 hb
/-- Region 4's output windows' arrays are numbered 28 or higher. -/
theorem region4_out : ∀ w : Fin cfg4.W, (cfg4.win w).isOut = true → 28 ≤ (Pipeline.arrRef spec4 w).idx.val := by decide

variable {m ρ}

theorem W1_arg (c : Dev nD) (b : Ref sig .tc) (hb : b.idx.val < 28) : W1 m ρ c (Proc.devRef .tc b) = W0 m ρ c (Proc.devRef .tc b) :=
  hostOps0_keeps _ b hb
theorem W2_arg (c : Dev nD) (b : Ref sig .tc) (hb : b.idx.val < 28) : W2 m ρ c (Proc.devRef .tc b) = W1 m ρ c (Proc.devRef .tc b) := by
  by_cases h : ∃ w, Pipeline.arrRef spec0 w = b
  · obtain ⟨w, rfl⟩ := h
    refine W2_in m ρ c w ?_
    cases hw : (cfg0.win w).isOut
    · rfl
    · exact absurd hb (Nat.not_lt.mpr (region0_out w hw))
  · exact W2_of_ne m ρ c b fun w e => h ⟨w, e⟩

theorem W3_arg (c : Dev nD) (b : Ref sig .tc) (hb : b.idx.val < 28) : W3 m ρ c (Proc.devRef .tc b) = W2 m ρ c (Proc.devRef .tc b) :=
  hostOps1_keeps _ b hb
theorem W4_arg (c : Dev nD) (b : Ref sig .tc) (hb : b.idx.val < 28) : W4 m ρ c (Proc.devRef .tc b) = W3 m ρ c (Proc.devRef .tc b) := by
  by_cases h : ∃ w, Pipeline.arrRef spec1 w = b
  · obtain ⟨w, rfl⟩ := h
    refine W4_in m ρ c w ?_
    cases hw : (cfg1.win w).isOut
    · rfl
    · exact absurd hb (Nat.not_lt.mpr (region1_out w hw))
  · exact W4_of_ne m ρ c b fun w e => h ⟨w, e⟩

theorem W5_arg (c : Dev nD) (b : Ref sig .tc) (hb : b.idx.val < 28) : W5 m ρ c (Proc.devRef .tc b) = W4 m ρ c (Proc.devRef .tc b) :=
  hostOps2_keeps _ b hb
theorem W6_arg (c : Dev nD) (b : Ref sig .tc) (hb : b.idx.val < 28) : W6 m ρ c (Proc.devRef .tc b) = W5 m ρ c (Proc.devRef .tc b) := by
  by_cases h : ∃ w, Pipeline.arrRef spec2 w = b
  · obtain ⟨w, rfl⟩ := h
    refine W6_in m ρ c w ?_
    cases hw : (cfg2.win w).isOut
    · rfl
    · exact absurd hb (Nat.not_lt.mpr (region2_out w hw))
  · exact W6_of_ne m ρ c b fun w e => h ⟨w, e⟩

theorem W7_arg (c : Dev nD) (b : Ref sig .tc) (hb : b.idx.val < 28) : W7 m ρ c (Proc.devRef .tc b) = W6 m ρ c (Proc.devRef .tc b) :=
  hostOps3_keeps _ b hb
theorem W8_arg (c : Dev nD) (b : Ref sig .tc) (hb : b.idx.val < 28) : W8 m ρ c (Proc.devRef .tc b) = W7 m ρ c (Proc.devRef .tc b) := by
  by_cases h : ∃ w, Pipeline.arrRef spec3 w = b
  · obtain ⟨w, rfl⟩ := h
    refine W8_in m ρ c w ?_
    cases hw : (cfg3.win w).isOut
    · rfl
    · exact absurd hb (Nat.not_lt.mpr (region3_out w hw))
  · exact W8_of_ne m ρ c b fun w e => h ⟨w, e⟩

theorem W9_arg (c : Dev nD) (b : Ref sig .tc) (hb : b.idx.val < 28) : W9 m ρ c (Proc.devRef .tc b) = W8 m ρ c (Proc.devRef .tc b) :=
  hostOps4_keeps _ b hb
theorem W10_arg (c : Dev nD) (b : Ref sig .tc) (hb : b.idx.val < 28) : W10 m ρ c (Proc.devRef .tc b) = W9 m ρ c (Proc.devRef .tc b) := by
  by_cases h : ∃ w, Pipeline.arrRef spec4 w = b
  · obtain ⟨w, rfl⟩ := h
    refine W10_in m ρ c w ?_
    cases hw : (cfg4.win w).isOut
    · rfl
    · exact absurd hb (Nat.not_lt.mpr (region4_out w hw))
  · exact W10_of_ne m ρ c b fun w e => h ⟨w, e⟩

/-- At every boundary an argument holds its launch contents. -/
theorem W_arg (c : Dev nD) (b : Ref sig .tc) (hb : b.idx.val < 28) :
    W1 m ρ c (Proc.devRef .tc b) = m ((c : Thread nD τ).loc b) ∧ W2 m ρ c (Proc.devRef .tc b) = m ((c : Thread nD τ).loc b)
    ∧ W3 m ρ c (Proc.devRef .tc b) = m ((c : Thread nD τ).loc b) ∧ W4 m ρ c (Proc.devRef .tc b) = m ((c : Thread nD τ).loc b)
    ∧ W5 m ρ c (Proc.devRef .tc b) = m ((c : Thread nD τ).loc b) ∧ W6 m ρ c (Proc.devRef .tc b) = m ((c : Thread nD τ).loc b)
    ∧ W7 m ρ c (Proc.devRef .tc b) = m ((c : Thread nD τ).loc b) ∧ W8 m ρ c (Proc.devRef .tc b) = m ((c : Thread nD τ).loc b)
    ∧ W9 m ρ c (Proc.devRef .tc b) = m ((c : Thread nD τ).loc b) ∧ W10 m ρ c (Proc.devRef .tc b) = m ((c : Thread nD τ).loc b) := by
  have h0 : W0 m ρ c (Proc.devRef .tc b) = m ((c : Thread nD τ).loc b) := rfl
  have h1 := (W1_arg c b hb).trans h0
  have h2 := (W2_arg c b hb).trans h1
  have h3 := (W3_arg c b hb).trans h2
  have h4 := (W4_arg c b hb).trans h3
  have h5 := (W5_arg c b hb).trans h4
  have h6 := (W6_arg c b hb).trans h5
  have h7 := (W7_arg c b hb).trans h6
  have h8 := (W8_arg c b hb).trans h7
  have h9 := (W9_arg c b hb).trans h8
  have h10 := (W10_arg c b hb).trans h9
  exact ⟨h1, h2, h3, h4, h5, h6, h7, h8, h9, h10⟩

end Cert.KernelIdeal.Frm

end
-- ==== Proof.KI.Frame.lean ====
/-
  The frame of the program: it runs to the end without a fault and its 28 argument arrays end as launched — the run
  over the ten segments, each argument read at the last boundary's contents.
-/
import proofs.«125994_j2843268349979_1_alg».proof.Proof.KI.Run
import proofs.«125994_j2843268349979_1_alg».proof.Proof.KI.Args

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

variable {m ρ} in
/-- At the last boundary an argument holds its launch contents. -/
theorem W10_at (c : Dev nD) (b : Ref sig .tc) (hb : b.idx.val < 28) : W10 m ρ c (Proc.devRef .tc b) = m ((c : Thread nD τ).loc b) :=
  (W_arg (m := m) (ρ := ρ) c b hb).2.2.2.2.2.2.2.2.2

/-- Every weakly fair execution of @main terminates, nothing faulting, with the argument arrays as launched; and the
    result array at the last boundary's contents. -/
theorem run_frame : θ_run defs (onTc (τ := τ) (main (F := F))) ⟨m, fun _ => 0, ρ⟩ (fun r => ∀ c : Dev nD,
      r.2.mem ((c.tc : Thread nD τ).loc main_v141) = W10 m ρ c (Proc.devRef .tc main_v141)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => ⟨h c _ (mem_uc main_v141 (by decide)),
      (h c _ (mem_uc main_arg0 (by decide))).trans (W10_at c main_arg0 (by decide)),
      (h c _ (mem_uc main_arg1 (by decide))).trans (W10_at c main_arg1 (by decide)),
      (h c _ (mem_uc main_arg2 (by decide))).trans (W10_at c main_arg2 (by decide)),
      (h c _ (mem_uc main_arg3 (by decide))).trans (W10_at c main_arg3 (by decide)),
      (h c _ (mem_uc main_arg4 (by decide))).trans (W10_at c main_arg4 (by decide)),
      (h c _ (mem_uc main_arg5 (by decide))).trans (W10_at c main_arg5 (by decide)),
      (h c _ (mem_uc main_arg6 (by decide))).trans (W10_at c main_arg6 (by decide)),
      (h c _ (mem_uc main_arg7 (by decide))).trans (W10_at c main_arg7 (by decide)),
      (h c _ (mem_uc main_arg8 (by decide))).trans (W10_at c main_arg8 (by decide)),
      (h c _ (mem_uc main_arg9 (by decide))).trans (W10_at c main_arg9 (by decide)),
      (h c _ (mem_uc main_arg10 (by decide))).trans (W10_at c main_arg10 (by decide)),
      (h c _ (mem_uc main_arg11 (by decide))).trans (W10_at c main_arg11 (by decide)),
      (h c _ (mem_uc main_arg12 (by decide))).trans (W10_at c main_arg12 (by decide)),
      (h c _ (mem_uc main_arg13 (by decide))).trans (W10_at c main_arg13 (by decide)),
      (h c _ (mem_uc main_arg14 (by decide))).trans (W10_at c main_arg14 (by decide)),
      (h c _ (mem_uc main_arg15 (by decide))).trans (W10_at c main_arg15 (by decide)),
      (h c _ (mem_uc main_arg16 (by decide))).trans (W10_at c main_arg16 (by decide)),
      (h c _ (mem_uc main_arg17 (by decide))).trans (W10_at c main_arg17 (by decide)),
      (h c _ (mem_uc main_arg18 (by decide))).trans (W10_at c main_arg18 (by decide)),
      (h c _ (mem_uc main_arg19 (by decide))).trans (W10_at c main_arg19 (by decide)),
      (h c _ (mem_uc main_arg20 (by decide))).trans (W10_at c main_arg20 (by decide)),
      (h c _ (mem_uc main_arg21 (by decide))).trans (W10_at c main_arg21 (by decide)),
      (h c _ (mem_uc main_arg22 (by decide))).trans (W10_at c main_arg22 (by decide)),
      (h c _ (mem_uc main_arg23 (by decide))).trans (W10_at c main_arg23 (by decide)),
      (h c _ (mem_uc main_arg24 (by decide))).trans (W10_at c main_arg24 (by decide)),
      (h c _ (mem_uc main_arg25 (by decide))).trans (W10_at c main_arg25 (by decide)),
      (h c _ (mem_uc main_arg26 (by decide))).trans (W10_at c main_arg26 (by decide)),
      (h c _ (mem_uc main_arg27 (by decide))).trans (W10_at c main_arg27 (by decide))⟩) (run_all m ρ)

/-- The frame alone. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)) :=
  (θ_run defs _ _).mono (fun r h c => (h c).2) (run_frame m ρ)

end Cert.KernelIdeal.Frm

end
-- ==== Proof.KI.Spec.lean ====
/-
  The shared host chain of the two programs, named once.

  Both programs apply the same graph-convolution aggregation to node features x : [Ns, 10]: scale row s by
  1/sqrt(max(outdeg s, 1)), gather the rows at the edges' sources, multiply by the edge weights, sum into the
  edges' destinations, and scale row d by 1/sqrt(max(indeg d, 1)); a degree is the number of edges with that
  (sign-normalised) endpoint. The two extents that occur (4,000,000 edges between 200,000-node sides; 400,000 edges
  from a 20,000-node side into a 200,000-node side) get one definition each, as the composition of the host
  operations at the extended reals; nothing here opens them.
-/
import proofs.«125994_j2843268349979_1_alg».proof.KernelIdeal
import proofs.«125994_j2843268349979_1_alg».proof.Proof.Gen.KernelIdeal
import Idealize.ShloMosaic.PureOps.Ideal

noncomputable section

namespace Cert.KernelIdeal.Spec

open Idealize.ShloMosaic Cert.KernelIdeal Cert.KernelIdeal.Gen

/-- Float and integer arrays at the extended reals. -/
abbrev FA (S : Shape) := FVec Ideal S .f32
abbrev IA (S : Shape) := IVec S 32

/-- A negative index counts from the end: `i < 0 ? i + n : i`, over 4,000,000 edges. -/
def wrapBig (n : BitVec 32) (a : IA S4000000) : IA S4000000 :=
  select (cmpi .slt a (broadcastInDim S4000000 ![] bcast_S_S4000000 (constantI S_ 32 0#32)))
    (addi a (broadcastInDim S4000000 ![] bcast_S_S4000000 (constantI S_ 32 n))) a

/-- The same over 400,000 edges. -/
def wrapSoc (n : BitVec 32) (a : IA S400000) : IA S400000 :=
  select (cmpi .slt a (broadcastInDim S400000 ![] bcast_S_S400000 (constantI S_ 32 0#32)))
    (addi a (broadcastInDim S400000 ![] bcast_S_S400000 (constantI S_ 32 n))) a

/-- 1/sqrt(max(degree, 1)) of the 200,000 nodes an endpoint list of 4,000,000 edges names. -/
def normBig (idx : IA S4000000) : FA S200000 :=
  Host.rsqrt (maximumf
    (Host.scatterAdd (F := Ideal) scatter_S200000_S4000000x1_S4000000_n_0_0_1
      (broadcastInDim S200000 ![] bcast_S_S200000 (constant (F := Ideal) S_ .f32 0x00000000#32))
      (broadcastInDim S4000000x1 ![0] bcast_S4000000_S4000000x1_0 (wrapBig 200000#32 idx))
      (broadcastInDim S4000000 ![] bcast_S_S4000000 (constant (F := Ideal) S_ .f32 0x3F800000#32)))
    (broadcastInDim S200000 ![] bcast_S_S200000 (constant (F := Ideal) S_ .f32 0x3F800000#32)))

/-- The same for the 20,000 source nodes of the 400,000 edges. -/
def normSocSrc (idx : IA S400000) : FA S20000 :=
  Host.rsqrt (maximumf
    (Host.scatterAdd (F := Ideal) scatter_S20000_S400000x1_S400000_n_0_0_1
      (broadcastInDim S20000 ![] bcast_S_S20000 (constant (F := Ideal) S_ .f32 0x00000000#32))
      (broadcastInDim S400000x1 ![0] bcast_S400000_S400000x1_0 (wrapSoc 20000#32 idx))
      (broadcastInDim S400000 ![] bcast_S_S400000 (constant (F := Ideal) S_ .f32 0x3F800000#32)))
    (broadcastInDim S20000 ![] bcast_S_S20000 (constant (F := Ideal) S_ .f32 0x3F800000#32)))

/-- The same for the 200,000 destination nodes of the 400,000 edges. -/
def normSocDst (idx : IA S400000) : FA S200000 :=
  Host.rsqrt (maximumf
    (Host.scatterAdd (F := Ideal) scatter_S200000_S400000x1_S400000_n_0_0_1
      (broadcastInDim S200000 ![] bcast_S_S200000 (constant (F := Ideal) S_ .f32 0x00000000#32))
      (broadcastInDim S400000x1 ![0] bcast_S400000_S400000x1_0 (wrapSoc 200000#32 idx))
      (broadcastInDim S400000 ![] bcast_S_S400000 (constant (F := Ideal) S_ .f32 0x3F800000#32)))
    (broadcastInDim S200000 ![] bcast_S_S200000 (constant (F := Ideal) S_ .f32 0x3F800000#32)))

/-- The aggregation over 4,000,000 edges between two 200,000-node sides. -/
def gcBig (x : FA S200000x10) (src dst : IA S4000000) (w : FA S4000000) : FA S200000x10 :=
  mulf
    (Host.scatterAdd (F := Ideal) scatter_S200000x10_S4000000x1_S4000000x10_1_0_0_1
      (broadcastInDim S200000x10 ![] bcast_S_S200000x10 (constant (F := Ideal) S_ .f32 0x00000000#32))
      (broadcastInDim S4000000x1 ![0] bcast_S4000000_S4000000x1_0 dst)
      (mulf
        (Host.gather gather_S200000x10_S4000000x1_S4000000x10_1_0_n_n_0_1_110
          (mulf x (broadcastInDim S200000x10 ![0, 1] bcast_S200000x1_S200000x10_0_1
            (broadcastInDim S200000x1 ![0] bcast_S200000_S200000x1_0 (normBig src))))
          (broadcastInDim S4000000x1 ![0] bcast_S4000000_S4000000x1_0 (wrapBig 200000#32 src)))
        (broadcastInDim S4000000x10 ![0, 1] bcast_S4000000x1_S4000000x10_0_1
          (broadcastInDim S4000000x1 ![0] bcast_S4000000_S4000000x1_0 w))))
    (broadcastInDim S200000x10 ![0, 1] bcast_S200000x1_S200000x10_0_1
      (broadcastInDim S200000x1 ![0] bcast_S200000_S200000x1_0 (normBig dst)))

/-- The aggregation over 400,000 edges from the 20,000-node side into a 200,000-node side. -/
def gcSoc (x : FA S20000x10) (src dst : IA S400000) (w : FA S400000) : FA S200000x10 :=
  mulf
    (Host.scatterAdd (F := Ideal) scatter_S200000x10_S400000x1_S400000x10_1_0_0_1
      (broadcastInDim S200000x10 ![] bcast_S_S200000x10 (constant (F := Ideal) S_ .f32 0x00000000#32))
      (broadcastInDim S400000x1 ![0] bcast_S400000_S400000x1_0 dst)
      (mulf
        (Host.gather gather_S20000x10_S400000x1_S400000x10_1_0_n_n_0_1_110
          (mulf x (broadcastInDim S20000x10 ![0, 1] bcast_S20000x1_S20000x10_0_1
            (broadcastInDim S20000x1 ![0] bcast_S20000_S20000x1_0 (normSocSrc src))))
          (broadcastInDim S400000x1 ![0] bcast_S400000_S400000x1_0 (wrapSoc 20000#32 src)))
        (broadcastInDim S400000x10 ![0, 1] bcast_S400000x1_S400000x10_0_1
          (broadcastInDim S400000x1 ![0] bcast_S400000_S400000x1_0 w))))
    (broadcastInDim S200000x10 ![0, 1] bcast_S200000x1_S200000x10_0_1
      (broadcastInDim S200000x1 ![0] bcast_S200000_S200000x1_0 (normSocDst dst)))

end Cert.KernelIdeal.Spec

end
-- ==== Proof.KI.Reads.lean ====
/-
  What each stretch of host operations leaves in the buffers the kernel regions read, as a function of the contents the
  stretch starts from.

  A stretch's operations each replace one buffer by a function of buffers written before it or left alone. Read at one
  buffer, the stretch is therefore the composed term of the starting contents. The first two stretches reshape a bias
  vector to a row; the third computes the two graph aggregations into the 200,000-node side and adds them, and reshapes a
  bias; the fourth computes the aggregation back and reshapes the same bias; the fifth reshapes three biases.
-/
import proofs.«125994_j2843268349979_1_alg».proof.Proof.Gen.KernelIdeal.Launch
import proofs.«125994_j2843268349979_1_alg».proof.Proof.KI.Spec
import Idealize.ShloMosaic.Lib.StableHlo.Run

set_option maxRecDepth 16384

noncomputable section

namespace Cert.KernelIdeal.Frm

open Idealize.ShloMosaic Idealize.ShloMosaic.TcCoe Idealize.ShloMosaic.StableHlo
open Cert.KernelIdeal Cert.KernelIdeal.Gen Cert.KernelIdeal.Spec

variable (W : Valuation τ sig (Elt Ideal))

/-- A bias vector as a row: entry (0, j) is entry j (the reshape's row-major order). -/
abbrev rowOf (b : FA S10) : FA S1x10 := shapeCast S1x10 b shapeCasts_S10_S1x10

theorem read_v0 : StableHlo.after (hostOps0 (F := Ideal)) W (Proc.devRef .tc main_v0) = rowOf (W (Proc.devRef .tc main_arg13)) := by
  after_results; rfl

theorem read_v2 : StableHlo.after (hostOps1 (F := Ideal)) W (Proc.devRef .tc main_v2) = rowOf (W (Proc.devRef .tc main_arg15)) := by
  after_results; rfl

set_option maxHeartbeats 4000000 in
theorem read_v90 : @Eq (FVec Ideal S200000x10 .f32) (StableHlo.after (hostOps2 (F := Ideal)) W (Proc.devRef .tc main_v90))
    (addf (gcBig (W (Proc.devRef .tc main_v1)) (W (Proc.devRef .tc main_arg3)) (W (Proc.devRef .tc main_arg4)) (W (Proc.devRef .tc main_arg9)))
        (gcSoc (W (Proc.devRef .tc main_v3)) (W (Proc.devRef .tc main_arg7)) (W (Proc.devRef .tc main_arg8)) (W (Proc.devRef .tc main_arg11)))) := by
  after_results_simp; rfl

set_option maxHeartbeats 4000000 in
theorem read_v91 : StableHlo.after (hostOps2 (F := Ideal)) W (Proc.devRef .tc main_v91) = rowOf (W (Proc.devRef .tc main_arg21)) := by
  after_results_simp; rfl

set_option maxHeartbeats 4000000 in
theorem read_v135 : @Eq (FVec Ideal S200000x10 .f32) (StableHlo.after (hostOps3 (F := Ideal)) W (Proc.devRef .tc main_v135))
    (gcBig (W (Proc.devRef .tc main_v92)) (W (Proc.devRef .tc main_arg5)) (W (Proc.devRef .tc main_arg6)) (W (Proc.devRef .tc main_arg10))) := by
  after_results_simp; rfl

set_option maxHeartbeats 4000000 in
theorem read_v136 : StableHlo.after (hostOps3 (F := Ideal)) W (Proc.devRef .tc main_v136) = rowOf (W (Proc.devRef .tc main_arg21)) := by
  after_results_simp; rfl

theorem read_v138 : StableHlo.after (hostOps4 (F := Ideal)) W (Proc.devRef .tc main_v138) = rowOf (W (Proc.devRef .tc main_arg23)) := by
  after_results; rfl

theorem read_v139 : StableHlo.after (hostOps4 (F := Ideal)) W (Proc.devRef .tc main_v139) = rowOf (W (Proc.devRef .tc main_arg25)) := by
  after_results; rfl

theorem read_v140 : StableHlo.after (hostOps4 (F := Ideal)) W (Proc.devRef .tc main_v140)
    = (shapeCast S1x1 (W (Proc.devRef .tc main_arg27)) shapeCasts_S1_S1x1 : FA S1x1) := by
  after_results; rfl

end Cert.KernelIdeal.Frm

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibLinLayer.lean ====
/-
  A tiled linear layer read at an entry.

  A block of R rows of the layer  relu (x · W + c · b) : the product of an [R, K] block of x with the [K, C] matrix W,
  accumulated from zero, plus the [1, C] row b scaled by the constant c and broadcast over the R rows, clamped below at
  zero. On the extended reals the format changes of the product's operands are the identity, so the block's entry
  (p, q) is  max (∑ k, x (p, k) · W (k, q) + c · b (0, q)) 0 ; `linc` is that function on a whole [N, K] array, and the
  block at rows R·t … R·t + R − 1 of `linc` of the array is the block's value on those rows of the array.
  Also here: the two f32 words 1.0 and 2.0 as extended reals.
-/
import Idealize.ShloMosaic.PureOps.Ideal.Laws
import Idealize.ShloMosaic.Lib.ValueIdx
import Idealize.ShloMosaic.Lib.ValueLayout
import proofs.«125994_j2843268349979_1_alg».proof.Proof.LibPlainDot

noncomputable section

namespace LinLayer

open Idealize.ShloMosaic Idealize.ShloMosaic.ValueIdx
open scoped BigOperators

/-- The layer on a whole array: entry (i₀, i₁) is max (∑ k, x (i₀, k) · W (k, i₁) + cw · b (0, i₁)) 0. -/
def linc {N K C : Nat} (cw : EReal) (x : (⟨2, ![N, K]⟩ : Shape).Idx → EReal) (W : (⟨2, ![K, C]⟩ : Shape).Idx → EReal)
    (b : (⟨2, ![1, C]⟩ : Shape).Idx → EReal) : (⟨2, ![N, C]⟩ : Shape).Idx → EReal :=
  fun i => max ((∑ k : Fin K, x (ix2 (i 0) k) * W (ix2 k (i 1))) + cw * b (ix2 (0 : Fin 1) (i 1))) 0

/-- `linc` at an entry given by its coordinates. -/
theorem linc_apply {N K C : Nat} (cw : EReal) (x : (⟨2, ![N, K]⟩ : Shape).Idx → EReal) (W : (⟨2, ![K, C]⟩ : Shape).Idx → EReal)
    (b : (⟨2, ![1, C]⟩ : Shape).Idx → EReal) (p : Fin N) (q : Fin C) :
    linc cw x W b (ix2 p q) = max ((∑ k : Fin K, x (ix2 p k) * W (ix2 k q)) + cw * b (ix2 (0 : Fin 1) q)) 0 := rfl

/-- The f32 word of 1.0 is the extended real 1. -/
theorem ofBits_one_f32 : Ideal.ofBits .f32 0x3F800000#32 = 1 := by
  simp [Ideal.ofBits, Ideal.ieee, -EReal.coe_mul]; norm_num

/-- The f32 word of 2.0 is the extended real 2. -/
theorem ofBits_two_f32 : Ideal.ofBits .f32 0x40000000#32 = ((2 : ℝ) : EReal) := by
  simp [Ideal.ofBits, Ideal.ieee, -EReal.coe_mul]; norm_num

/-- A matrix product of plain dimension numbers into the zero accumulator at (p, q), whatever the operands' formats. -/
theorem matmul_zero_apply {M K N : Nat} {φ₁ φ₂ : FTy} (prec : Option ContractPrecision) (lhs : FVec Ideal ⟨2, ![M, K]⟩ φ₁)
    (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact Cert.PlainDot.contraction_eq lhs rhs p q

/-- THE BLOCK AT AN ENTRY: the product of the two operands narrowed to bf16 into the zero accumulator, plus the row
    `c · b` broadcast over the rows, clamped below at zero, is at (p, q) the layer's entry. `d` is any record of plain
    dimension numbers. -/
theorem block_apply {R K C : Nat} (d : DotDims ⟨2, ![R, K]⟩ ⟨2, ![K, C]⟩ ⟨2, ![R, C]⟩) (hd : d = DotDims.plain R K C)
    (prec : Option ContractPrecision) (hbits : FTy.bits .bf16 < FTy.bits .f32) (cwBits : BitVec 32)
    (v0 : FVec Ideal ⟨2, ![R, K]⟩ .f32) (v2 : FVec Ideal ⟨2, ![K, C]⟩ .f32) (v5 : FVec Ideal ⟨2, ![1, C]⟩ .f32)
    (h5 : (⟨2, ![1, C]⟩ : Shape).ShapeCasts ⟨2, ![1, C]⟩) (hb : (⟨2, ![1, C]⟩ : Shape).Broadcasts ⟨2, ![R, C]⟩)
    (p : Fin R) (q : Fin C) :
    maximumf (addf (matmul d prec (truncf .bf16 v0 hbits) (truncf .bf16 v2 hbits) (constant (F := Ideal) ⟨2, ![R, C]⟩ .f32 0x00000000#32))
        (broadcastTo ⟨2, ![R, C]⟩ (mulf (broadcast ⟨2, ![1, C]⟩ (Scalar.ofBits (F := Ideal) .f32 cwBits)) (shapeCast ⟨2, ![1, C]⟩ v5 h5)) hb))
      (broadcast ⟨2, ![R, C]⟩ (Scalar.ofBits (F := Ideal) .f32 0x00000000#32)) (ix2 p q)
      = max ((∑ k : Fin K, v0 (ix2 p k) * v2 (ix2 k q)) + Ideal.ofBits .f32 cwBits * v5 (ix2 (0 : Fin 1) q)) 0 := by
  subst hd
  rw [maximumf_apply, addf_apply, broadcast_apply, broadcastTo_1b_ab_apply, mulf_apply, broadcast_apply, shapeCast_self]
  refine (congrArg₂ max (congrArg (· + _) (matmul_zero_apply prec (truncf .bf16 v0 hbits) (truncf .bf16 v2 hbits) p q))
    Ideal.ofBits_zero_f32).trans ?_
  rfl

/-- The same when the left operand first passes through a shape cast to its own shape. -/
theorem block_cast_apply {R K C : Nat} (d : DotDims ⟨2, ![R, K]⟩ ⟨2, ![K, C]⟩ ⟨2, ![R, C]⟩) (hd : d = DotDims.plain R K C)
    (prec : Option ContractPrecision) (hbits : FTy.bits .bf16 < FTy.bits .f32) (cwBits : BitVec 32)
    (v0 : FVec Ideal ⟨2, ![R, K]⟩ .f32) (v2 : FVec Ideal ⟨2, ![K, C]⟩ .f32) (v5 : FVec Ideal ⟨2, ![1, C]⟩ .f32)
    (h0 : (⟨2, ![R, K]⟩ : Shape).ShapeCasts ⟨2, ![R, K]⟩)
    (h5 : (⟨2, ![1, C]⟩ : Shape).ShapeCasts ⟨2, ![1, C]⟩) (hb : (⟨2, ![1, C]⟩ : Shape).Broadcasts ⟨2, ![R, C]⟩)
    (p : Fin R) (q : Fin C) :
    maximumf (addf (matmul d prec (truncf .bf16 (shapeCast ⟨2, ![R, K]⟩ v0 h0) hbits) (truncf .bf16 v2 hbits) (constant (F := Ideal) ⟨2, ![R, C]⟩ .f32 0x00000000#32))
        (broadcastTo ⟨2, ![R, C]⟩ (mulf (broadcast ⟨2, ![1, C]⟩ (Scalar.ofBits (F := Ideal) .f32 cwBits)) (shapeCast ⟨2, ![1, C]⟩ v5 h5)) hb))
      (broadcast ⟨2, ![R, C]⟩ (Scalar.ofBits (F := Ideal) .f32 0x00000000#32)) (ix2 p q)
      = max ((∑ k : Fin K, v0 (ix2 p k) * v2 (ix2 k q)) + Ideal.ofBits .f32 cwBits * v5 (ix2 (0 : Fin 1) q)) 0 := by
  rw [shapeCast_self v0 h0]
  exact block_apply d hd prec hbits cwBits v0 v2 v5 h5 hb p q

end LinLayer

end
-- ==== Proof.LibReadout.lean ====
/-
  A three-layer perceptron applied to one row, as a function on the extended reals.

  For a row i of h : [N, A]: y1 = max (h(i,·) · O1 + b1, 0) : [B], y2 = max (y1 · O2 + b2, 0) : [C], and the scalar
  y2 · O3 + b3. The biases are rows ([1, B], [1, C], [1, 1]). The extents are arbitrary.
-/
import Idealize.ShloMosaic.Lib.ValueIdx
import Mathlib.Data.EReal.Basic

noncomputable section

namespace Readout

open Idealize.ShloMosaic Idealize.ShloMosaic.ValueIdx
open scoped BigOperators

/-- The perceptron's scalar output at row i. -/
def mlp3 {N A B C : Nat} (h : (⟨2, ![N, A]⟩ : Shape).Idx → EReal) (O1 : (⟨2, ![A, B]⟩ : Shape).Idx → EReal)
    (b1 : (⟨2, ![1, B]⟩ : Shape).Idx → EReal) (O2 : (⟨2, ![B, C]⟩ : Shape).Idx → EReal) (b2 : (⟨2, ![1, C]⟩ : Shape).Idx → EReal)
    (O3 : (⟨2, ![C, 1]⟩ : Shape).Idx → EReal) (b3 : (⟨2, ![1, 1]⟩ : Shape).Idx → EReal) (i : Fin N) : EReal :=
  (∑ k : Fin C,
      max ((∑ j : Fin B, max ((∑ l : Fin A, h (ix2 i l) * O1 (ix2 l j)) + b1 (ix2 (0 : Fin 1) j)) 0 * O2 (ix2 j k))
        + b2 (ix2 (0 : Fin 1) k)) 0 * O3 (ix2 k (0 : Fin 1)))
    + b3 (ix2 (0 : Fin 1) (0 : Fin 1))

end Readout

end
-- ==== Proof.KI.KVal.lean ====
/-
  The kernel program's result as a function of its argument arrays, on the extended reals.

  X0 and X1 are the two input layers max (x · W + b, 0); X2 is the layer of the 200,000-node side,
  max ((A + B) · W2 + 2 · b2, 0) with A and B the aggregations of X0 and X1; X3 = max (C · W2 + b2, 0) with C the
  aggregation of X2 back; the result is the sum over the 200,000 rows of the three-layer perceptron of X3, times the
  named constant 1/200000. Bias vectors enter as rows.
-/
import proofs.«125994_j2843268349979_1_alg».proof.Proof.KI.Reads
import proofs.«125994_j2843268349979_1_alg».proof.Proof.LibLinLayer
import proofs.«125994_j2843268349979_1_alg».proof.Proof.LibReadout

noncomputable section

namespace Cert.KernelIdeal.Frm

open Idealize.ShloMosaic Cert.KernelIdeal Cert.KernelIdeal.Gen Cert.KernelIdeal.Spec
open scoped BigOperators

/-- A one-entry vector as a [1, 1] array. -/
abbrev row1 (b : FA S1) : FA S1x1 := shapeCast S1x1 b shapeCasts_S1_S1x1

def kX0 (a0 : FA S200000x6) (a12 : FA S6x10) (a13 : FA S10) : FA S200000x10 := LinLayer.linc 1 a0 a12 (rowOf a13)

def kX1 (a1 : FA S20000x6) (a14 : FA S6x10) (a15 : FA S10) : FA S20000x10 := LinLayer.linc 1 a1 a14 (rowOf a15)

def kX2 (x0 : FA S200000x10) (x1 : FA S20000x10) (a3 a4 : IA S4000000) (a7 a8 : IA S400000) (a9 : FA S4000000) (a11 : FA S400000)
    (a20 : FA S10x10) (a21 : FA S10) : FA S200000x10 :=
  LinLayer.linc ((2 : ℝ) : EReal) (addf (gcBig x0 a3 a4 a9) (gcSoc x1 a7 a8 a11)) a20 (rowOf a21)

def kX3 (x2 : FA S200000x10) (a5 a6 : IA S4000000) (a10 : FA S4000000) (a20 : FA S10x10) (a21 : FA S10) : FA S200000x10 :=
  LinLayer.linc 1 (gcBig x2 a5 a6 a10) a20 (rowOf a21)

def kOut (x3 : FA S200000x10) (a22 : FA S10x10) (a23 : FA S10) (a24 : FA S10x10) (a25 : FA S10) (a26 : FA S10x1) (a27 : FA S1) : FA S1x1 :=
  fun _ => (∑ i : Fin 200000, Readout.mlp3 x3 a22 (rowOf a23) a24 (rowOf a25) a26 (row1 a27) i)
    * Named.named (F := Ideal) κ "inv_200000" (φ := .f32) 0x36A7C5AC#32

end Cert.KernelIdeal.Frm

end
-- ==== Proof.KI.Val0.lean ====
/- Region 0 of @main (custom_call 0, the tiled linear kernel on x [200000, 6]) read as one array: after the region the
   output array is  relu (x · W + 1 · b)  of the three input arrays as the region finds them, entry by entry. Point t
   of the 40-point grid computes rows 5000·t … 5000·t + 4999 from the same rows of x and from the whole of W and b;
   each block is therefore the restriction of one whole-array function (`LinLayer.linc`), and the 40 blocks cover the
   200000 rows. -/
import proofs.«125994_j2843268349979_1_alg».proof.Proof.KI.R0
import proofs.«125994_j2843268349979_1_alg».proof.Proof.LibLinLayer
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer rectangle. -/
theorem hz0 : (![0, 0] : Fin 2 → Nat) = fun _ => 0 := funext fun a => by fin_cases a <;> rfl

/-! ## The block's payload at an entry -/

/-- Entry (p, q) of the block the body stores, when row p of the x block is row r of an array X and the W and b
    blocks are arrays W and B on the entries read: entry (r, q) of the layer of X, W, B. -/
theorem pay0_eq (x0 : Vec Ideal S5000x6 .f32) (x1 : Vec Ideal S6x10 .f32) (x2 : Vec Ideal S1x10 .f32)
    (X : S200000x6.Idx → EReal) (W : S6x10.Idx → EReal) (B : S1x10.Idx → EReal) (p : Fin 5000) (q : Fin 10) (r : Fin 200000)
    (hx : ∀ k : Fin 6, x0 (ix2 p k) = X (ix2 r k)) (hw : ∀ k : Fin 6, x1 (ix2 k q) = W (ix2 k q))
    (hb : x2 (ix2 (0 : Fin 1) q) = B (ix2 (0 : Fin 1) q)) :
    k0_pay1 x0 x1 x2 (ix2 p q) = LinLayer.linc 1 X W B (ix2 r q) := by
  unfold k0_pay1
  refine (LinLayer.block_apply dot_S5000x6_S6x10_S5000x10_1_0_0_1_n_n rfl none bitsLt_bf16_f32 0x3F800000#32 x0 x1 x2
    shapeCasts_S1x10_S1x10 broadcasts_S1x10_S5000x10 p q).trans ?_
  rw [LinLayer.linc_apply, LinLayer.ofBits_one_f32, hb]
  exact congrArg (fun s => max (s + 1 * B (ix2 (0 : Fin 1) q)) 0) (Finset.sum_congr rfl fun k _ => by rw [hx k, hw k])

/-! ## The index maps -/

/-- The printed index maps over the grid: the x and output windows are at block (t, 0), the W and b windows at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## Each input block as entries of its array -/

/-- Row p of the x block at point t is row 5000·t + p of x. -/
theorem iblk0_0_apply (c : Dev nD) (t : Fin cfg0.N) (p : Fin 5000) (k : Fin 6) (r : Fin 200000) (hr : r.val = 5000 * t.val + p.val) :
    (iblk0 V c 0 t : Vec Ideal S5000x6 .f32) (ix2 p k) = (V c main_arg0 : S200000x6.Idx → EReal) (ix2 r k) := by
  obtain ⟨e0, e1, -⟩ := idx_facts0 t
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; rw [e0, hr]; omega
  | ⟨1, _⟩ => show win0_0.index t (1 : Fin 2) * 6 + 1 * k.val = k.val; rw [e1]; omega

/-- The W block at any point is W. -/
theorem iblk0_1_apply (c : Dev nD) (t : Fin cfg0.N) (k : Fin 6) (q : Fin 10) :
    (iblk0 V c 1 t : Vec Ideal S6x10 .f32) (ix2 k q) = (V c main_arg12 : S6x10.Idx → EReal) (ix2 k q) := by
  obtain ⟨-, -, e0, e1, -⟩ := idx_facts0 t
  show V c main_arg12 (((cfg0.win 1).blk t).view.emb (ix2 k q)) = V c main_arg12 (ix2 k q)
  refine congrArg (V c main_arg12) (funext fun a => Fin.ext ?_)
  match a with
  | ⟨0, _⟩ => show win0_1.index t (0 : Fin 2) * 6 + 1 * k.val = k.val; rw [e0]; omega
  | ⟨1, _⟩ => show win0_1.index t (1 : Fin 2) * 10 + 1 * q.val = q.val; rw [e1]; omega

/-- The b block at any point is b. -/
theorem iblk0_2_apply (c : Dev nD) (t : Fin cfg0.N) (z : Fin 1) (q : Fin 10) :
    (iblk0 V c 2 t : Vec Ideal S1x10 .f32) (ix2 z q) = (V c main_v0 : S1x10.Idx → EReal) (ix2 z q) := by
  obtain ⟨-, -, -, -, e0, e1, -⟩ := idx_facts0 t
  show V c main_v0 (((cfg0.win 2).blk t).view.emb (ix2 z q)) = V c main_v0 (ix2 z q)
  refine congrArg (V c main_v0) (funext fun a => Fin.ext ?_)
  match a with
  | ⟨0, _⟩ => show win0_2.index t (0 : Fin 2) * 1 + 1 * z.val = z.val; rw [e0]; omega
  | ⟨1, _⟩ => show win0_2.index t (1 : Fin 2) * 10 + 1 * q.val = q.val; rw [e1]; omega

/-! ## What a point writes back, the cover, the array -/

/-- The layer of the three arrays as the region finds them. -/
abbrev G0 (c : Dev nD) : S200000x10.Idx → EReal :=
  LinLayer.linc 1 (V c main_arg0 : S200000x6.Idx → EReal) (V c main_arg12 : S6x10.Idx → EReal) (V c main_v0 : S1x10.Idx → EReal)

/-- What point t writes back is block t of the layer of the arrays. -/
theorem flushed0_eq (c : Dev nD) (t : Fin cfg0.N) :
    (dat0 (F := Ideal) V c).flushed 3 t = ((cfg0.win 3).blk t).view.read (Elt Ideal) (G0 V c) := by
  have hN : cfg0.N = 40 := N_0
  have ht : t.val < 40 := hN ▸ t.isLt
  obtain ⟨-, -, -, -, -, -, e0, e1⟩ := idx_facts0 t
  show (cfg0.win 3).cut (grid0.coords t) ((dat0 (F := Ideal) V c).after 3 t) = _
  rw [after0_3]
  unfold out0_3
  rw [View.canon_unit_zero hz0]
  simp only [View.ld_unit_zero (S := S5000x6) hz0, View.ld_unit_zero (S := S6x10) hz0, View.ld_unit_zero (S := S1x10) hz0]
  funext j
  obtain ⟨p, q, rfl⟩ : ∃ (p : Fin 5000) (q : Fin 10), j = (ix2 p q : S5000x10.Idx) := ⟨j 0, j 1, eq_ix2 (n0 := 5000) (n1 := 10) j⟩
  show k0_pay1 (iblk0 V c 0 t) (iblk0 V c 1 t) (iblk0 V c 2 t) (ix2 p q) = G0 V c (((cfg0.win 3).blk t).view.emb (ix2 p q))
  refine (pay0_eq (iblk0 V c 0 t) (iblk0 V c 1 t) (iblk0 V c 2 t) (V c main_arg0) (V c main_arg12) (V c main_v0) p q
    ⟨5000 * t.val + p.val, by have := p.isLt; omega⟩ (fun k => iblk0_0_apply V c t p k _ rfl) (fun k => iblk0_1_apply V c t k q)
    (iblk0_2_apply V c t 0 q)).trans ?_
  refine congrArg (G0 V c) (funext fun a => Fin.ext ?_)
  match a with
  | ⟨0, _⟩ => show 5000 * t.val + p.val = win0_3.index t (0 : Fin 2) * 5000 + 1 * p.val; rw [e0]; omega
  | ⟨1, _⟩ => show q.val = win0_3.index t (1 : Fin 2) * 10 + 1 * q.val; rw [e1]; omega

/-- An index of the array is in point t's block iff each coordinate is in the block's range on its axis. -/
theorem mem_blk0 (t : Fin cfg0.N) (i : S200000x10.Idx) :
    i ∈ ((cfg0.win 3).blk t).view.set ↔ ∀ a : Fin 2, win0_3.index t a * S5000x10.size a ≤ (i a).val ∧ (i a).val < win0_3.index t a * S5000x10.size a + S5000x10.size a := by
  show i ∈ ((View.whole main_v1).slice (win0_3.rect t)).set ↔ _
  rw [View.set_slice_whole, Rect.mem_set_unit]
  exact Iff.rfl

/-- Every row is in the block of the point its number divided by 5000 names. -/
theorem cover0 (i : S200000x10.Idx) : ∃ t : Fin cfg0.N, (cfg0.win 3).flush t = true ∧ i ∈ ((cfg0.win 3).blk t).view.set := by
  have hN : cfg0.N = 40 := N_0
  have hi0 : (i 0).val < 200000 := (i 0).isLt
  have hi1 : (i 1).val < 10 := (i 1).isLt
  refine ⟨⟨(i 0).val / 5000, by rw [hN]; omega⟩, flush0_3 _, ?_⟩
  rw [mem_blk0]
  obtain ⟨-, -, -, -, -, -, e0, e1⟩ := idx_facts0 ⟨(i 0).val / 5000, by rw [hN]; omega⟩
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 10 ≤ (i 1).val ∧ (i 1).val < win0_3.index _ (1 : Fin 2) * 10 + 10
    rw [e1]; omega

/-- THE ARRAY after region 0: the layer  relu (x · W + 1 · b)  of the arrays as the region finds them. -/
theorem final0 (c : Dev nD) :
    (dat0 (F := Ideal) V c).arrAt 3 cfg0.N
      = LinLayer.linc 1 (V c main_arg0 : S200000x6.Idx → EReal) (V c main_arg12 : S6x10.Idx → EReal) (V c main_v0 : S1x10.Idx → EReal) :=
  (dat0 (F := Ideal) V c).arrAt_eq_of_cover 3 (G0 V c) (fun t _ => flushed0_eq V c t) cover0

end Cert.KernelIdeal.Frm

end
-- ==== Proof.KI.Val1.lean ====
/- Region 1 of @main (custom_call 1, the tiled linear kernel on x [20000, 6]) read as one array: after the region the
   output array is  relu (x · W + 1 · b)  of the three input arrays as the region finds them, entry by entry. Point t
   of the 4-point grid computes rows 5000·t … 5000·t + 4999 from the same rows of x and from the whole of W and b;
   each block is therefore the restriction of one whole-array function (`LinLayer.linc`), and the 4 blocks cover the
   20000 rows. -/
import proofs.«125994_j2843268349979_1_alg».proof.Proof.KI.R1
import proofs.«125994_j2843268349979_1_alg».proof.Proof.LibLinLayer
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer rectangle. -/
theorem hz1 : (![0, 0] : Fin 2 → Nat) = fun _ => 0 := funext fun a => by fin_cases a <;> rfl

/-! ## The block's payload at an entry -/

/-- Entry (p, q) of the block the body stores, when row p of the x block is row r of an array X and the W and b
    blocks are arrays W and B on the entries read: entry (r, q) of the layer of X, W, B. -/
theorem pay1_eq (x0 : Vec Ideal S5000x6 .f32) (x1 : Vec Ideal S6x10 .f32) (x2 : Vec Ideal S1x10 .f32)
    (X : S20000x6.Idx → EReal) (W : S6x10.Idx → EReal) (B : S1x10.Idx → EReal) (p : Fin 5000) (q : Fin 10) (r : Fin 20000)
    (hx : ∀ k : Fin 6, x0 (ix2 p k) = X (ix2 r k)) (hw : ∀ k : Fin 6, x1 (ix2 k q) = W (ix2 k q))
    (hb : x2 (ix2 (0 : Fin 1) q) = B (ix2 (0 : Fin 1) q)) :
    k1_pay1 x0 x1 x2 (ix2 p q) = LinLayer.linc 1 X W B (ix2 r q) := by
  unfold k1_pay1
  refine (LinLayer.block_apply dot_S5000x6_S6x10_S5000x10_1_0_0_1_n_n rfl none bitsLt_bf16_f32 0x3F800000#32 x0 x1 x2
    shapeCasts_S1x10_S1x10 broadcasts_S1x10_S5000x10 p q).trans ?_
  rw [LinLayer.linc_apply, LinLayer.ofBits_one_f32, hb]
  exact congrArg (fun s => max (s + 1 * B (ix2 (0 : Fin 1) q)) 0) (Finset.sum_congr rfl fun k _ => by rw [hx k, hw k])

/-! ## The index maps -/

/-- The printed index maps over the grid: the x and output windows are at block (t, 0), the W and b windows at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## Each input block as entries of its array -/

/-- Row p of the x block at point t is row 5000·t + p of x. -/
theorem iblk1_0_apply (c : Dev nD) (t : Fin cfg1.N) (p : Fin 5000) (k : Fin 6) (r : Fin 20000) (hr : r.val = 5000 * t.val + p.val) :
    (iblk1 V c 0 t : Vec Ideal S5000x6 .f32) (ix2 p k) = (V c main_arg1 : S20000x6.Idx → EReal) (ix2 r k) := by
  obtain ⟨e0, e1, -⟩ := idx_facts1 t
  show V c main_arg1 (((cfg1.win 0).blk t).view.emb (ix2 p k)) = V c main_arg1 (ix2 r k)
  refine congrArg (V c main_arg1) (funext fun a => Fin.ext ?_)
  match a with
  | ⟨0, _⟩ => show win1_0.index t (0 : Fin 2) * 5000 + 1 * p.val = r.val; rw [e0, hr]; omega
  | ⟨1, _⟩ => show win1_0.index t (1 : Fin 2) * 6 + 1 * k.val = k.val; rw [e1]; omega

/-- The W block at any point is W. -/
theorem iblk1_1_apply (c : Dev nD) (t : Fin cfg1.N) (k : Fin 6) (q : Fin 10) :
    (iblk1 V c 1 t : Vec Ideal S6x10 .f32) (ix2 k q) = (V c main_arg14 : S6x10.Idx → EReal) (ix2 k q) := by
  obtain ⟨-, -, e0, e1, -⟩ := idx_facts1 t
  show V c main_arg14 (((cfg1.win 1).blk t).view.emb (ix2 k q)) = V c main_arg14 (ix2 k q)
  refine congrArg (V c main_arg14) (funext fun a => Fin.ext ?_)
  match a with
  | ⟨0, _⟩ => show win1_1.index t (0 : Fin 2) * 6 + 1 * k.val = k.val; rw [e0]; omega
  | ⟨1, _⟩ => show win1_1.index t (1 : Fin 2) * 10 + 1 * q.val = q.val; rw [e1]; omega

/-- The b block at any point is b. -/
theorem iblk1_2_apply (c : Dev nD) (t : Fin cfg1.N) (z : Fin 1) (q : Fin 10) :
    (iblk1 V c 2 t : Vec Ideal S1x10 .f32) (ix2 z q) = (V c main_v2 : S1x10.Idx → EReal) (ix2 z q) := by
  obtain ⟨-, -, -, -, e0, e1, -⟩ := idx_facts1 t
  show V c main_v2 (((cfg1.win 2).blk t).view.emb (ix2 z q)) = V c main_v2 (ix2 z q)
  refine congrArg (V c main_v2) (funext fun a => Fin.ext ?_)
  match a with
  | ⟨0, _⟩ => show win1_2.index t (0 : Fin 2) * 1 + 1 * z.val = z.val; rw [e0]; omega
  | ⟨1, _⟩ => show win1_2.index t (1 : Fin 2) * 10 + 1 * q.val = q.val; rw [e1]; omega

/-! ## What a point writes back, the cover, the array -/

/-- The layer of the three arrays as the region finds them. -/
abbrev G1 (c : Dev nD) : S20000x10.Idx → EReal :=
  LinLayer.linc 1 (V c main_arg1 : S20000x6.Idx → EReal) (V c main_arg14 : S6x10.Idx → EReal) (V c main_v2 : S1x10.Idx → EReal)

/-- What point t writes back is block t of the layer of the arrays. -/
theorem flushed1_eq (c : Dev nD) (t : Fin cfg1.N) :
    (dat1 (F := Ideal) V c).flushed 3 t = ((cfg1.win 3).blk t).view.read (Elt Ideal) (G1 V c) := by
  have hN : cfg1.N = 4 := N_1
  have ht : t.val < 4 := hN ▸ t.isLt
  obtain ⟨-, -, -, -, -, -, e0, e1⟩ := idx_facts1 t
  show (cfg1.win 3).cut (grid1.coords t) ((dat1 (F := Ideal) V c).after 3 t) = _
  rw [after1_3]
  unfold out1_3
  rw [View.canon_unit_zero hz1]
  simp only [View.ld_unit_zero (S := S5000x6) hz1, View.ld_unit_zero (S := S6x10) hz1, View.ld_unit_zero (S := S1x10) hz1]
  funext j
  obtain ⟨p, q, rfl⟩ : ∃ (p : Fin 5000) (q : Fin 10), j = (ix2 p q : S5000x10.Idx) := ⟨j 0, j 1, eq_ix2 (n0 := 5000) (n1 := 10) j⟩
  show k1_pay1 (iblk1 V c 0 t) (iblk1 V c 1 t) (iblk1 V c 2 t) (ix2 p q) = G1 V c (((cfg1.win 3).blk t).view.emb (ix2 p q))
  refine (pay1_eq (iblk1 V c 0 t) (iblk1 V c 1 t) (iblk1 V c 2 t) (V c main_arg1) (V c main_arg14) (V c main_v2) p q
    ⟨5000 * t.val + p.val, by have := p.isLt; omega⟩ (fun k => iblk1_0_apply V c t p k _ rfl) (fun k => iblk1_1_apply V c t k q)
    (iblk1_2_apply V c t 0 q)).trans ?_
  refine congrArg (G1 V c) (funext fun a => Fin.ext ?_)
  match a with
  | ⟨0, _⟩ => show 5000 * t.val + p.val = win1_3.index t (0 : Fin 2) * 5000 + 1 * p.val; rw [e0]; omega
  | ⟨1, _⟩ => show q.val = win1_3.index t (1 : Fin 2) * 10 + 1 * q.val; rw [e1]; omega

/-- An index of the array is in point t's block iff each coordinate is in the block's range on its axis. -/
theorem mem_blk1 (t : Fin cfg1.N) (i : S20000x10.Idx) :
    i ∈ ((cfg1.win 3).blk t).view.set ↔ ∀ a : Fin 2, win1_3.index t a * S5000x10.size a ≤ (i a).val ∧ (i a).val < win1_3.index t a * S5000x10.size a + S5000x10.size a := by
  show i ∈ ((View.whole main_v3).slice (win1_3.rect t)).set ↔ _
  rw [View.set_slice_whole, Rect.mem_set_unit]
  exact Iff.rfl

/-- Every row is in the block of the point its number divided by 5000 names. -/
theorem cover1 (i : S20000x10.Idx) : ∃ t : Fin cfg1.N, (cfg1.win 3).flush t = true ∧ i ∈ ((cfg1.win 3).blk t).view.set := by
  have hN : cfg1.N = 4 := N_1
  have hi0 : (i 0).val < 20000 := (i 0).isLt
  have hi1 : (i 1).val < 10 := (i 1).isLt
  refine ⟨⟨(i 0).val / 5000, by rw [hN]; omega⟩, flush1_3 _, ?_⟩
  rw [mem_blk1]
  obtain ⟨-, -, -, -, -, -, e0, e1⟩ := idx_facts1 ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e0]; show (i 0).val / 5000 * 5000 ≤ (i 0).val ∧ (i 0).val < (i 0).val / 5000 * 5000 + 5000; omega
  | ⟨1, _⟩ =>
    show win1_3.index _ (1 : Fin 2) * 10 ≤ (i 1).val ∧ (i 1).val < win1_3.index _ (1 : Fin 2) * 10 + 10
    rw [e1]; omega

/-- THE ARRAY after region 1: the layer  relu (x · W + 1 · b)  of the arrays as the region finds them. -/
theorem final1 (c : Dev nD) :
    (dat1 (F := Ideal) V c).arrAt 3 cfg1.N
      = LinLayer.linc 1 (V c main_arg1 : S20000x6.Idx → EReal) (V c main_arg14 : S6x10.Idx → EReal) (V c main_v2 : S1x10.Idx → EReal) :=
  (dat1 (F := Ideal) V c).arrAt_eq_of_cover 3 (G1 V c) (fun t _ => flushed1_eq V c t) cover1

end Cert.KernelIdeal.Frm

end
-- ==== Proof.KI.Val2.lean ====
/- Region 2 of @main (custom_call 2, the tiled linear kernel on x [200000, 10]) read as one array: after the region the
   output array is  relu (x · W + 2 · b)  of the three input arrays as the region finds them, entry by entry. Point t
   of the 40-point grid computes rows 5000·t … 5000·t + 4999 from the same rows of x and from the whole of W and b;
   each block is therefore the restriction of one whole-array function (`LinLayer.linc`), and the 40 blocks cover the
   200000 rows. -/
import proofs.«125994_j2843268349979_1_alg».proof.Proof.KI.R2
import proofs.«125994_j2843268349979_1_alg».proof.Proof.LibLinLayer
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer rectangle. -/
theorem hz2 : (![0, 0] : Fin 2 → Nat) = fun _ => 0 := funext fun a => by fin_cases a <;> rfl

/-! ## The block's payload at an entry -/

/-- Entry (p, q) of the block the body stores, when row p of the x block is row r of an array X and the W and b
    blocks are arrays W and B on the entries read: entry (r, q) of the layer of X, W, B. -/
theorem pay2_eq (x0 : Vec Ideal S5000x10 .f32) (x1 : Vec Ideal S10x10 .f32) (x2 : Vec Ideal S1x10 .f32)
    (X : S200000x10.Idx → EReal) (W : S10x10.Idx → EReal) (B : S1x10.Idx → EReal) (p : Fin 5000) (q : Fin 10) (r : Fin 200000)
    (hx : ∀ k : Fin 10, x0 (ix2 p k) = X (ix2 r k)) (hw : ∀ k : Fin 10, x1 (ix2 k q) = W (ix2 k q))
    (hb : x2 (ix2 (0 : Fin 1) q) = B (ix2 (0 : Fin 1) q)) :
    k2_pay1 x0 x1 x2 (ix2 p q) = LinLayer.linc ((2 : ℝ) : EReal) X W B (ix2 r q) := by
  unfold k2_pay1
  refine (LinLayer.block_cast_apply dot_S5000x10_S10x10_S5000x10_1_0_0_1_n_n rfl none bitsLt_bf16_f32 0x40000000#32 x0 x1 x2
    shapeCasts_S5000x10_S5000x10 shapeCasts_S1x10_S1x10 broadcasts_S1x10_S5000x10 p q).trans ?_
  rw [LinLayer.linc_apply, LinLayer.ofBits_two_f32, hb]
  exact congrArg (fun s => max (s + ((2 : ℝ) : EReal) * B (ix2 (0 : Fin 1) q)) 0) (Finset.sum_congr rfl fun k _ => by rw [hx k, hw k])

/-! ## The index maps -/

/-- The printed index maps over the grid: the x and output windows are at block (t, 0), the W and b windows at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## Each input block as entries of its array -/

/-- Row p of the x block at point t is row 5000·t + p of x. -/
theorem iblk2_0_apply (c : Dev nD) (t : Fin cfg2.N) (p : Fin 5000) (k : Fin 10) (r : Fin 200000) (hr : r.val = 5000 * t.val + p.val) :
    (iblk2 V c 0 t : Vec Ideal S5000x10 .f32) (ix2 p k) = (V c main_v90 : S200000x10.Idx → EReal) (ix2 r k) := by
  obtain ⟨e0, e1, -⟩ := idx_facts2 t
  show V c main_v90 (((cfg2.win 0).blk t).view.emb (ix2 p k)) = V c main_v90 (ix2 r k)
  refine congrArg (V c main_v90) (funext fun a => Fin.ext ?_)
  match a with
  | ⟨0, _⟩ => show win2_0.index t (0 : Fin 2) * 5000 + 1 * p.val = r.val; rw [e0, hr]; omega
  | ⟨1, _⟩ => show win2_0.index t (1 : Fin 2) * 10 + 1 * k.val = k.val; rw [e1]; omega

/-- The W block at any point is W. -/
theorem iblk2_1_apply (c : Dev nD) (t : Fin cfg2.N) (k : Fin 10) (q : Fin 10) :
    (iblk2 V c 1 t : Vec Ideal S10x10 .f32) (ix2 k q) = (V c main_arg20 : S10x10.Idx → EReal) (ix2 k q) := by
  obtain ⟨-, -, e0, e1, -⟩ := idx_facts2 t
  show V c main_arg20 (((cfg2.win 1).blk t).view.emb (ix2 k q)) = V c main_arg20 (ix2 k q)
  refine congrArg (V c main_arg20) (funext fun a => Fin.ext ?_)
  match a with
  | ⟨0, _⟩ => show win2_1.index t (0 : Fin 2) * 10 + 1 * k.val = k.val; rw [e0]; omega
  | ⟨1, _⟩ => show win2_1.index t (1 : Fin 2) * 10 + 1 * q.val = q.val; rw [e1]; omega

/-- The b block at any point is b. -/
theorem iblk2_2_apply (c : Dev nD) (t : Fin cfg2.N) (z : Fin 1) (q : Fin 10) :
    (iblk2 V c 2 t : Vec Ideal S1x10 .f32) (ix2 z q) = (V c main_v91 : S1x10.Idx → EReal) (ix2 z q) := by
  obtain ⟨-, -, -, -, e0, e1, -⟩ := idx_facts2 t
  show V c main_v91 (((cfg2.win 2).blk t).view.emb (ix2 z q)) = V c main_v91 (ix2 z q)
  refine congrArg (V c main_v91) (funext fun a => Fin.ext ?_)
  match a with
  | ⟨0, _⟩ => show win2_2.index t (0 : Fin 2) * 1 + 1 * z.val = z.val; rw [e0]; omega
  | ⟨1, _⟩ => show win2_2.index t (1 : Fin 2) * 10 + 1 * q.val = q.val; rw [e1]; omega

/-! ## What a point writes back, the cover, the array -/

/-- The layer of the three arrays as the region finds them. -/
abbrev G2 (c : Dev nD) : S200000x10.Idx → EReal :=
  LinLayer.linc ((2 : ℝ) : EReal) (V c main_v90 : S200000x10.Idx → EReal) (V c main_arg20 : S10x10.Idx → EReal) (V c main_v91 : S1x10.Idx → EReal)

/-- What point t writes back is block t of the layer of the arrays. -/
theorem flushed2_eq (c : Dev nD) (t : Fin cfg2.N) :
    (dat2 (F := Ideal) V c).flushed 3 t = ((cfg2.win 3).blk t).view.read (Elt Ideal) (G2 V c) := by
  have hN : cfg2.N = 40 := N_2
  have ht : t.val < 40 := hN ▸ t.isLt
  obtain ⟨-, -, -, -, -, -, e0, e1⟩ := idx_facts2 t
  show (cfg2.win 3).cut (grid2.coords t) ((dat2 (F := Ideal) V c).after 3 t) = _
  rw [after2_3]
  unfold out2_3
  rw [View.canon_unit_zero hz2]
  simp only [View.ld_unit_zero (S := S5000x10) hz2, View.ld_unit_zero (S := S10x10) hz2, View.ld_unit_zero (S := S1x10) hz2]
  funext j
  obtain ⟨p, q, rfl⟩ : ∃ (p : Fin 5000) (q : Fin 10), j = (ix2 p q : S5000x10.Idx) := ⟨j 0, j 1, eq_ix2 (n0 := 5000) (n1 := 10) j⟩
  show k2_pay1 (iblk2 V c 0 t) (iblk2 V c 1 t) (iblk2 V c 2 t) (ix2 p q) = G2 V c (((cfg2.win 3).blk t).view.emb (ix2 p q))
  refine (pay2_eq (iblk2 V c 0 t) (iblk2 V c 1 t) (iblk2 V c 2 t) (V c main_v90) (V c main_arg20) (V c main_v91) p q
    ⟨5000 * t.val + p.val, by have := p.isLt; omega⟩ (fun k => iblk2_0_apply V c t p k _ rfl) (fun k => iblk2_1_apply V c t k q)
    (iblk2_2_apply V c t 0 q)).trans ?_
  refine congrArg (G2 V c) (funext fun a => Fin.ext ?_)
  match a with
  | ⟨0, _⟩ => show 5000 * t.val + p.val = win2_3.index t (0 : Fin 2) * 5000 + 1 * p.val; rw [e0]; omega
  | ⟨1, _⟩ => show q.val = win2_3.index t (1 : Fin 2) * 10 + 1 * q.val; rw [e1]; omega

/-- An index of the array is in point t's block iff each coordinate is in the block's range on its axis. -/
theorem mem_blk2 (t : Fin cfg2.N) (i : S200000x10.Idx) :
    i ∈ ((cfg2.win 3).blk t).view.set ↔ ∀ a : Fin 2, win2_3.index t a * S5000x10.size a ≤ (i a).val ∧ (i a).val < win2_3.index t a * S5000x10.size a + S5000x10.size a := by
  show i ∈ ((View.whole main_v92).slice (win2_3.rect t)).set ↔ _
  rw [View.set_slice_whole, Rect.mem_set_unit]
  exact Iff.rfl

/-- Every row is in the block of the point its number divided by 5000 names. -/
theorem cover2 (i : S200000x10.Idx) : ∃ t : Fin cfg2.N, (cfg2.win 3).flush t = true ∧ i ∈ ((cfg2.win 3).blk t).view.set := by
  have hN : cfg2.N = 40 := N_2
  have hi0 : (i 0).val < 200000 := (i 0).isLt
  have hi1 : (i 1).val < 10 := (i 1).isLt
  refine ⟨⟨(i 0).val / 5000, by rw [hN]; omega⟩, flush2_3 _, ?_⟩
  rw [mem_blk2]
  obtain ⟨-, -, -, -, -, -, e0, e1⟩ := idx_facts2 ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 10 ≤ (i 1).val ∧ (i 1).val < win2_3.index _ (1 : Fin 2) * 10 + 10
    rw [e1]; omega

/-- THE ARRAY after region 2: the layer  relu (x · W + 2 · b)  of the arrays as the region finds them. -/
theorem final2 (c : Dev nD) :
    (dat2 (F := Ideal) V c).arrAt 3 cfg2.N
      = LinLayer.linc ((2 : ℝ) : EReal) (V c main_v90 : S200000x10.Idx → EReal) (V c main_arg20 : S10x10.Idx → EReal) (V c main_v91 : S1x10.Idx → EReal) :=
  (dat2 (F := Ideal) V c).arrAt_eq_of_cover 3 (G2 V c) (fun t _ => flushed2_eq V c t) cover2

end Cert.KernelIdeal.Frm

end
-- ==== Proof.KI.Val3.lean ====
/- Region 3 of @main (custom_call 3, the tiled linear kernel on x [200000, 10]) read as one array: after the region the
   output array is  relu (x · W + 1 · b)  of the three input arrays as the region finds them, entry by entry. Point t
   of the 40-point grid computes rows 5000·t … 5000·t + 4999 from the same rows of x and from the whole of W and b;
   each block is therefore the restriction of one whole-array function (`LinLayer.linc`), and the 40 blocks cover the
   200000 rows. -/
import proofs.«125994_j2843268349979_1_alg».proof.Proof.KI.R3
import proofs.«125994_j2843268349979_1_alg».proof.Proof.LibLinLayer
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer rectangle. -/
theorem hz3 : (![0, 0] : Fin 2 → Nat) = fun _ => 0 := funext fun a => by fin_cases a <;> rfl

/-! ## The block's payload at an entry -/

/-- Entry (p, q) of the block the body stores, when row p of the x block is row r of an array X and the W and b
    blocks are arrays W and B on the entries read: entry (r, q) of the layer of X, W, B. -/
theorem pay3_eq (x0 : Vec Ideal S5000x10 .f32) (x1 : Vec Ideal S10x10 .f32) (x2 : Vec Ideal S1x10 .f32)
    (X : S200000x10.Idx → EReal) (W : S10x10.Idx → EReal) (B : S1x10.Idx → EReal) (p : Fin 5000) (q : Fin 10) (r : Fin 200000)
    (hx : ∀ k : Fin 10, x0 (ix2 p k) = X (ix2 r k)) (hw : ∀ k : Fin 10, x1 (ix2 k q) = W (ix2 k q))
    (hb : x2 (ix2 (0 : Fin 1) q) = B (ix2 (0 : Fin 1) q)) :
    k3_pay1 x0 x1 x2 (ix2 p q) = LinLayer.linc 1 X W B (ix2 r q) := by
  unfold k3_pay1
  refine (LinLayer.block_cast_apply dot_S5000x10_S10x10_S5000x10_1_0_0_1_n_n rfl none bitsLt_bf16_f32 0x3F800000#32 x0 x1 x2
    shapeCasts_S5000x10_S5000x10 shapeCasts_S1x10_S1x10 broadcasts_S1x10_S5000x10 p q).trans ?_
  rw [LinLayer.linc_apply, LinLayer.ofBits_one_f32, hb]
  exact congrArg (fun s => max (s + 1 * B (ix2 (0 : Fin 1) q)) 0) (Finset.sum_congr rfl fun k _ => by rw [hx k, hw k])

/-! ## The index maps -/

/-- The printed index maps over the grid: the x and output windows are at block (t, 0), the W and b windows at (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-! ## Each input block as entries of its array -/

/-- Row p of the x block at point t is row 5000·t + p of x. -/
theorem iblk3_0_apply (c : Dev nD) (t : Fin cfg3.N) (p : Fin 5000) (k : Fin 10) (r : Fin 200000) (hr : r.val = 5000 * t.val + p.val) :
    (iblk3 V c 0 t : Vec Ideal S5000x10 .f32) (ix2 p k) = (V c main_v135 : S200000x10.Idx → EReal) (ix2 r k) := by
  obtain ⟨e0, e1, -⟩ := idx_facts3 t
  show V c main_v135 (((cfg3.win 0).blk t).view.emb (ix2 p k)) = V c main_v135 (ix2 r k)
  refine congrArg (V c main_v135) (funext fun a => Fin.ext ?_)
  match a with
  | ⟨0, _⟩ => show win3_0.index t (0 : Fin 2) * 5000 + 1 * p.val = r.val; rw [e0, hr]; omega
  | ⟨1, _⟩ => show win3_0.index t (1 : Fin 2) * 10 + 1 * k.val = k.val; rw [e1]; omega

/-- The W block at any point is W. -/
theorem iblk3_1_apply (c : Dev nD) (t : Fin cfg3.N) (k : Fin 10) (q : Fin 10) :
    (iblk3 V c 1 t : Vec Ideal S10x10 .f32) (ix2 k q) = (V c main_arg20 : S10x10.Idx → EReal) (ix2 k q) := by
  obtain ⟨-, -, e0, e1, -⟩ := idx_facts3 t
  show V c main_arg20 (((cfg3.win 1).blk t).view.emb (ix2 k q)) = V c main_arg20 (ix2 k q)
  refine congrArg (V c main_arg20) (funext fun a => Fin.ext ?_)
  match a with
  | ⟨0, _⟩ => show win3_1.index t (0 : Fin 2) * 10 + 1 * k.val = k.val; rw [e0]; omega
  | ⟨1, _⟩ => show win3_1.index t (1 : Fin 2) * 10 + 1 * q.val = q.val; rw [e1]; omega

/-- The b block at any point is b. -/
theorem iblk3_2_apply (c : Dev nD) (t : Fin cfg3.N) (z : Fin 1) (q : Fin 10) :
    (iblk3 V c 2 t : Vec Ideal S1x10 .f32) (ix2 z q) = (V c main_v136 : S1x10.Idx → EReal) (ix2 z q) := by
  obtain ⟨-, -, -, -, e0, e1, -⟩ := idx_facts3 t
  show V c main_v136 (((cfg3.win 2).blk t).view.emb (ix2 z q)) = V c main_v136 (ix2 z q)
  refine congrArg (V c main_v136) (funext fun a => Fin.ext ?_)
  match a with
  | ⟨0, _⟩ => show win3_2.index t (0 : Fin 2) * 1 + 1 * z.val = z.val; rw [e0]; omega
  | ⟨1, _⟩ => show win3_2.index t (1 : Fin 2) * 10 + 1 * q.val = q.val; rw [e1]; omega

/-! ## What a point writes back, the cover, the array -/

/-- The layer of the three arrays as the region finds them. -/
abbrev G3 (c : Dev nD) : S200000x10.Idx → EReal :=
  LinLayer.linc 1 (V c main_v135 : S200000x10.Idx → EReal) (V c main_arg20 : S10x10.Idx → EReal) (V c main_v136 : S1x10.Idx → EReal)

/-- What point t writes back is block t of the layer of the arrays. -/
theorem flushed3_eq (c : Dev nD) (t : Fin cfg3.N) :
    (dat3 (F := Ideal) V c).flushed 3 t = ((cfg3.win 3).blk t).view.read (Elt Ideal) (G3 V c) := by
  have hN : cfg3.N = 40 := N_3
  have ht : t.val < 40 := hN ▸ t.isLt
  obtain ⟨-, -, -, -, -, -, e0, e1⟩ := idx_facts3 t
  show (cfg3.win 3).cut (grid3.coords t) ((dat3 (F := Ideal) V c).after 3 t) = _
  rw [after3_3]
  unfold out3_3
  rw [View.canon_unit_zero hz3]
  simp only [View.ld_unit_zero (S := S5000x10) hz3, View.ld_unit_zero (S := S10x10) hz3, View.ld_unit_zero (S := S1x10) hz3]
  funext j
  obtain ⟨p, q, rfl⟩ : ∃ (p : Fin 5000) (q : Fin 10), j = (ix2 p q : S5000x10.Idx) := ⟨j 0, j 1, eq_ix2 (n0 := 5000) (n1 := 10) j⟩
  show k3_pay1 (iblk3 V c 0 t) (iblk3 V c 1 t) (iblk3 V c 2 t) (ix2 p q) = G3 V c (((cfg3.win 3).blk t).view.emb (ix2 p q))
  refine (pay3_eq (iblk3 V c 0 t) (iblk3 V c 1 t) (iblk3 V c 2 t) (V c main_v135) (V c main_arg20) (V c main_v136) p q
    ⟨5000 * t.val + p.val, by have := p.isLt; omega⟩ (fun k => iblk3_0_apply V c t p k _ rfl) (fun k => iblk3_1_apply V c t k q)
    (iblk3_2_apply V c t 0 q)).trans ?_
  refine congrArg (G3 V c) (funext fun a => Fin.ext ?_)
  match a with
  | ⟨0, _⟩ => show 5000 * t.val + p.val = win3_3.index t (0 : Fin 2) * 5000 + 1 * p.val; rw [e0]; omega
  | ⟨1, _⟩ => show q.val = win3_3.index t (1 : Fin 2) * 10 + 1 * q.val; rw [e1]; omega

/-- An index of the array is in point t's block iff each coordinate is in the block's range on its axis. -/
theorem mem_blk3 (t : Fin cfg3.N) (i : S200000x10.Idx) :
    i ∈ ((cfg3.win 3).blk t).view.set ↔ ∀ a : Fin 2, win3_3.index t a * S5000x10.size a ≤ (i a).val ∧ (i a).val < win3_3.index t a * S5000x10.size a + S5000x10.size a := by
  show i ∈ ((View.whole main_v137).slice (win3_3.rect t)).set ↔ _
  rw [View.set_slice_whole, Rect.mem_set_unit]
  exact Iff.rfl

/-- Every row is in the block of the point its number divided by 5000 names. -/
theorem cover3 (i : S200000x10.Idx) : ∃ t : Fin cfg3.N, (cfg3.win 3).flush t = true ∧ i ∈ ((cfg3.win 3).blk t).view.set := by
  have hN : cfg3.N = 40 := N_3
  have hi0 : (i 0).val < 200000 := (i 0).isLt
  have hi1 : (i 1).val < 10 := (i 1).isLt
  refine ⟨⟨(i 0).val / 5000, by rw [hN]; omega⟩, flush3_3 _, ?_⟩
  rw [mem_blk3]
  obtain ⟨-, -, -, -, -, -, e0, e1⟩ := idx_facts3 ⟨(i 0).val / 5000, by rw [hN]; omega⟩
  intro a
  match a with
  | ⟨0, _⟩ =>
    show win3_3.index _ (0 : Fin 2) * 5000 ≤ (i 0).val ∧ (i 0).val < win3_3.index _ (0 : Fin 2) * 5000 + 5000
    rw [e0]; show (i 0).val / 5000 * 5000 ≤ (i 0).val ∧ (i 0).val < (i 0).val / 5000 * 5000 + 5000; omega
  | ⟨1, _⟩ =>
    show win3_3.index _ (1 : Fin 2) * 10 ≤ (i 1).val ∧ (i 1).val < win3_3.index _ (1 : Fin 2) * 10 + 10
    rw [e1]; omega

/-- THE ARRAY after region 3: the layer  relu (x · W + 1 · b)  of the arrays as the region finds them. -/
theorem final3 (c : Dev nD) :
    (dat3 (F := Ideal) V c).arrAt 3 cfg3.N
      = LinLayer.linc 1 (V c main_v135 : S200000x10.Idx → EReal) (V c main_arg20 : S10x10.Idx → EReal) (V c main_v136 : S1x10.Idx → EReal) :=
  (dat3 (F := Ideal) V c).arrAt_eq_of_cover 3 (G3 V c) (fun t _ => flushed3_eq V c t) cover3

end Cert.KernelIdeal.Frm

end
-- ==== Proof.LibSublaneSum.lean ====
/-
  The sum of an [a, b] array along its rows (axis 0), read at an index: on the extended reals the reduction
  to [b], at q, is the sum over k of the entries (k, q).  Stated for any extents a and b.
-/
import Idealize.ShloMosaic.Lib.Pipeline.Value
import Idealize.ShloMosaic.Lib.ValueIdx
import Idealize.ShloMosaic.PureOps.Ideal.Laws

namespace SublaneSum

open Idealize.ShloMosaic Idealize.ShloMosaic.ValueIdx

/-- The index of an [a, b] array that lies over q of the reduced [b] with row k put back is (k, q). -/
theorem lift_row {a b : ℕ} (h : (⟨2, ![a, b]⟩ : Shape).Reduces [0] (⟨1, ![b]⟩ : Shape)) (q : Fin b)
    (k : Fin ((⟨2, ![a, b]⟩ : Shape).size 0)) : h.lift (ix1 q) k = ix2 (⟨k.val, k.isLt⟩ : Fin a) q := by
  funext c; apply Fin.ext
  fin_cases c <;> rfl

/-- On the extended reals the sum of an [a, b] array along its rows is, at q, the sum over k of the entries
    (k, q): the reduction starts from the zero word, the neutral element of the sum. -/
theorem rowSum_apply {a b : ℕ} (src : FVec Ideal ⟨2, ![a, b]⟩ .f32)
    (h : (⟨2, ![a, b]⟩ : Shape).Reduces [0] (⟨1, ![b]⟩ : Shape)) (hφ : FKind.Formats .f32)
    (hacc : (0x00000000#32 : BitVec 32) = 0x00000000#32) (q : Fin b) :
    multiReduction (F := Ideal) .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (lift_row h q k)

end SublaneSum
-- ==== Proof.LibAccumBlocks.lean ====
/-
  A running total that is reset at every p-th step and otherwise takes up one more term: after the step numbered
  `p * j + k` (with `k < p`) it holds the sum of the terms of the steps `p * j, …, p * j + k` — the terms of its own
  period only, whatever was there before the reset. Only commutativity and associativity of the addition are used, so
  the statement holds in every additive commutative monoid; on the extended reals no finiteness is needed.
-/
import Mathlib.Algebra.BigOperators.Fin
import Mathlib.Algebra.BigOperators.Intervals

namespace AccumBlocks

open Finset

/-- `S` is the total after each step (defined for the steps below `N`), `B` the term a step contributes. If a step whose
    number is a multiple of `p` leaves exactly its own term (`hreset`) and every other step adds its term to what the step
    before left (`hstep`), then after step `p * j + k`, `k < p`, the total is `∑_{i ≤ k} B (p * j + i)`. -/
theorem total_eq_sum_range {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j : ℕ) : ∀ (k : ℕ), k < p → ∀ (n : ℕ) (h : n < N), n = p * j + k →
      S n h = ∑ i ∈ Finset.range (k + 1), B (p * j + i)
  | 0, _, n, h, hn => by
    subst hn
    rw [hreset _ h (by rw [Nat.add_zero]; exact Nat.mul_mod_right p j), Finset.sum_range_one]
  | k + 1, hk, n, h, hn => by
    subst hn
    have hne : (p * j + k + 1) % p ≠ 0 := by
      rw [Nat.add_assoc, Nat.mul_add_mod, Nat.mod_eq_of_lt hk]
      exact Nat.succ_ne_zero k
    have e := hstep (p * j + k) h hne
    rw [show S (p * j + (k + 1)) h = S (p * j + k + 1) h from rfl, e,
      total_eq_sum_range p N S B hreset hstep j k (Nat.lt_of_succ_lt hk) (p * j + k) _ rfl,
      Finset.sum_range_succ (fun i => B (p * j + i)) (k + 1)]
    rfl

/-- The same with the sum written over `Fin (k + 1)`. -/
theorem total_eq_sum_fin {M : Type*} [AddCommMonoid M] (p N : ℕ) (S : (n : ℕ) → n < N → M) (B : ℕ → M)
    (hreset : ∀ (n : ℕ) (h : n < N), n % p = 0 → S n h = B n)
    (hstep : ∀ (n : ℕ) (h : n + 1 < N), (n + 1) % p ≠ 0 → S (n + 1) h = S n (Nat.lt_of_succ_lt h) + B (n + 1))
    (j k : ℕ) (hk : k < p) (n : ℕ) (h : n < N) (hn : n = p * j + k) :
    S n h = ∑ i : Fin (k + 1), B (p * j + i.val) := by
  rw [total_eq_sum_range p N S B hreset hstep j k hk n h hn, Finset.sum_range]

end AccumBlocks
-- ==== Proof.LibSumBlocks.lean ====
/-
  A sum over `n * b` consecutive indices is the sum, over `n` blocks, of the sums over the `b` indices of each
  block: index `e` is `b * j + k` for exactly one block `j < n` and one offset `k < b`. This holds in every additive
  commutative monoid — only commutativity and associativity of the addition are used — so in particular on the
  extended reals, where no finiteness is needed.
-/
import Mathlib.Algebra.BigOperators.Fin
import Mathlib.Logic.Equiv.Fin.Basic

namespace SumBlocks

open Finset

/-- `∑_{e < n·b} f e = ∑_{j < n} ∑_{k < b} f (b·j + k)`: the indices below `n · b` are the pairs (block, offset). -/
theorem sum_mul_eq_sum_blocks {M : Type*} [AddCommMonoid M] (n b : ℕ) (f : ℕ → M) :
    ∑ e : Fin (n * b), f e.val = ∑ j : Fin n, ∑ k : Fin b, f (b * j.val + k.val) := by
  rw [← (finProdFinEquiv (m := n) (n := b)).sum_comp (fun e : Fin (n * b) => f e.val), Fintype.sum_prod_type]
  refine Finset.sum_congr rfl fun j _ => Finset.sum_congr rfl fun k _ => ?_
  exact congrArg f (Nat.add_comm _ _)

/-- Three blocks, with the left-nested grouping in which a running total takes them up one after the other. -/
theorem sum_three_blocks {M : Type*} [AddCommMonoid M] (b : ℕ) (f : ℕ → M) :
    ∑ e : Fin (3 * b), f e.val
      = ((∑ k : Fin b, f (b * 0 + k.val)) + ∑ k : Fin b, f (b * 1 + k.val)) + ∑ k : Fin b, f (b * 2 + k.val) := by
  rw [sum_mul_eq_sum_blocks 3 b f, Fin.sum_univ_three]
  rfl

end SumBlocks
-- ==== Proof.KI.Val4.lean ====
/- Region 4 of @main (custom_call 4, the readout kernel) read as one number: after the region the [1, 1] output array holds
   the sum over all 200000 rows of the three-layer perceptron's scalar at the row, times the kernel's scaling constant.
   Point t of the 40-point grid adds to a running sum the 5000 scalars of rows 5000·t … 5000·t + 4999; the last point
   scales the running sum into the output, which is written back there only. -/
import proofs.«125994_j2843268349979_1_alg».proof.Proof.KI.R4
import proofs.«125994_j2843268349979_1_alg».proof.Proof.LibReadout
import proofs.«125994_j2843268349979_1_alg».proof.Proof.LibLinLayer
import proofs.«125994_j2843268349979_1_alg».proof.Proof.LibSublaneSum
import proofs.«125994_j2843268349979_1_alg».proof.Proof.LibAccumBlocks
import proofs.«125994_j2843268349979_1_alg».proof.Proof.LibSumBlocks
import Idealize.ShloMosaic.Lib.Pipeline.Value
import Idealize.ShloMosaic.Lib.ValueIdx
import Idealize.ShloMosaic.Lib.ValueLayout

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

/-! ## One layer at an entry -/

/-- A layer with the clamp: the product of the two operands narrowed to bf16 into the zero accumulator, plus the bias row
    broadcast over the rows, clamped below at zero, is at (p, q)  max (∑ k, a (p, k) · w (k, q) + b (0, q)) 0. -/
theorem relu_layer_apply {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (a : FVec Ideal ⟨2, ![R, K]⟩ .f32) (w : FVec Ideal ⟨2, ![K, C]⟩ .f32) (b : FVec Ideal ⟨2, ![1, C]⟩ .f32)
    (h5 : (⟨2, ![1, C]⟩ : Shape).ShapeCasts ⟨2, ![1, C]⟩) (hb : (⟨2, ![1, C]⟩ : Shape).Broadcasts ⟨2, ![R, C]⟩)
    (p : Fin R) (q : Fin C) :
    maximumf (addf (matmul d prec (truncf .bf16 a hbits) (truncf .bf16 w hbits) (constant (F := Ideal) ⟨2, ![R, C]⟩ .f32 0x00000000#32))
        (broadcastTo ⟨2, ![R, C]⟩ (shapeCast ⟨2, ![1, C]⟩ b h5) hb))
      (broadcast ⟨2, ![R, C]⟩ (Scalar.ofBits (F := Ideal) .f32 0x00000000#32)) (ix2 p q)
      = max ((∑ k : Fin K, a (ix2 p k) * w (ix2 k q)) + b (ix2 (0 : Fin 1) q)) 0 := by
  subst hd
  rw [maximumf_apply, addf_apply, broadcast_apply, broadcastTo_1b_ab_apply, shapeCast_self]
  refine (congrArg₂ max (congrArg (· + _) (LinLayer.matmul_zero_apply prec (truncf .bf16 a hbits) (truncf .bf16 w hbits) p q))
    Ideal.ofBits_zero_f32).trans ?_
  rfl

/-- A layer without the clamp. -/
theorem lin_layer_apply {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (a : FVec Ideal ⟨2, ![R, K]⟩ .f32) (w : FVec Ideal ⟨2, ![K, C]⟩ .f32) (b : FVec Ideal ⟨2, ![1, C]⟩ .f32)
    (h5 : (⟨2, ![1, C]⟩ : Shape).ShapeCasts ⟨2, ![1, C]⟩) (hb : (⟨2, ![1, C]⟩ : Shape).Broadcasts ⟨2, ![R, C]⟩)
    (p : Fin R) (q : Fin C) :
    addf (matmul d prec (truncf .bf16 a hbits) (truncf .bf16 w hbits) (constant (F := Ideal) ⟨2, ![R, C]⟩ .f32 0x00000000#32))
        (broadcastTo ⟨2, ![R, C]⟩ (shapeCast ⟨2, ![1, C]⟩ b h5) hb) (ix2 p q)
      = (∑ k : Fin K, a (ix2 p k) * w (ix2 k q)) + b (ix2 (0 : Fin 1) q) := by
  subst hd
  rw [addf_apply, broadcastTo_1b_ab_apply, shapeCast_self]
  refine (congrArg (· + _) (LinLayer.matmul_zero_apply prec (truncf .bf16 a hbits) (truncf .bf16 w hbits) p q)).trans ?_
  rfl

/-! ## The body's payloads at an entry -/

/-- Row r of the per-row readout of a block, when row r of the block of h is row i of an array H: the perceptron's
    scalar at row i of H with the six parameter blocks. -/
theorem pay4_eq (v3 : Vec Ideal S5000x10 .f32) (v6 : Vec Ideal S10x10 .f32) (v9 : Vec Ideal S1x10 .f32) (v15 : Vec Ideal S10x10 .f32)
    (v19 : Vec Ideal S1x10 .f32) (v25 : Vec Ideal S10x1 .f32) (v29 : Vec Ideal S1x1 .f32)
    (H : S200000x10.Idx → EReal) (r : Fin 5000) (i : Fin 200000) (hh : ∀ l : Fin 10, v3 (ix2 r l) = H (ix2 i l)) :
    k4_pay4 v3 v6 v9 v15 v19 v25 v29 (ix2 r (0 : Fin 1)) = Readout.mlp3 H v6 v9 v15 v19 v25 v29 i := by
  unfold k4_pay4 Readout.mlp3
  refine (lin_layer_apply dot_S5000x10_S10x1_S5000x1_1_0_0_1_n_n rfl none bitsLt_bf16_f32 _ v25 v29 shapeCasts_S1x1_S1x1
    broadcasts_S1x1_S5000x1 r 0).trans ?_
  refine congrArg (· + _) (Finset.sum_congr rfl fun k _ => congrArg (· * _) ?_)
  refine (relu_layer_apply dot_S5000x10_S10x10_S5000x10_1_0_0_1_n_n rfl none bitsLt_bf16_f32 _ v15 v19 shapeCasts_S1x10_S1x10
    broadcasts_S1x10_S5000x10 r k).trans ?_
  refine congrArg (fun s => max (s + _) 0) (Finset.sum_congr rfl fun j _ => congrArg (· * _) ?_)
  refine (relu_layer_apply dot_S5000x10_S10x10_S5000x10_1_0_0_1_n_n rfl none bitsLt_bf16_f32 _ v6 v9 shapeCasts_S1x10_S1x10
    broadcasts_S1x10_S5000x10 r j).trans ?_
  refine congrArg (fun s => max (s + _) 0) (Finset.sum_congr rfl fun l _ => ?_)
  rw [shapeCast_self, hh l]

/-- The accumulator's new contents at its one entry: the old contents plus the column sum of the operand. -/
theorem pay1_apply (v32 : FVec Ideal S5000x1 .f32) (v33 : Vec Ideal S1x1 .f32) (u w : Fin 1) :
    k4_pay1 v32 v33 (ix2 u w) = v33 (ix2 u w) + ∑ r : Fin 5000, v32 (ix2 r w) := by
  show shapeCast S1x1 (addf v33 (shapeCast S1x1 (multiReduction (F := Ideal) .add [0] S1 v32 0x00000000#32 reduces_S5000x1_S1 (.inl rfl) rfl)
    shapeCasts_S1_S1x1)) shapeCasts_S1x1_S1x1 (ix2 u w) = _
  rw [shapeCast_self, addf_apply, shapeCast_a_1a_apply]
  exact congrArg (_ + ·) (SublaneSum.rowSum_apply v32 reduces_S5000x1_S1 (.inl rfl) rfl w)

/-- The accumulator's first contents are zero. -/
theorem pay3_apply (u w : Fin 1) : k4_pay3 (F := Ideal) (ix2 u w) = 0 := by
  show shapeCast S1x1 (broadcast S1x1 (Scalar.ofBits (F := Ideal) .f32 0x00000000#32)) shapeCasts_S1x1_S1x1 (ix2 u w) = 0
  rw [shapeCast_self]
  exact Ideal.ofBits_zero_f32

/-- The output's contents: the accumulator's times the kernel's scaling constant. -/
theorem pay2_apply (v43 : Vec Ideal S1x1 .f32) (j : S1x1.Idx) :
    k4_pay2 v43 j = v43 j * Named.named (F := Ideal) κ "inv_200000" (φ := .f32) 0x36A7C5AC#32 := rfl

/-! ## The index maps; each input block as entries of its array -/

variable (V : (c : Dev nD) → (b : Ref sig .tc) → Buf (Elt Ideal) ((c : Thread nD τ).loc b))

/-- The printed index maps over the grid: the h window is at block (t, 0), every other window at (0, 0). -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Row p of the h block at point t is row 5000·t + p of h. -/
theorem iblk4_0_apply (c : Dev nD) (t : Fin cfg4.N) (p : Fin 5000) (k : Fin 10) (r : Fin 200000) (hr : r.val = 5000 * t.val + p.val) :
    (iblk4 V c 0 t : Vec Ideal S5000x10 .f32) (ix2 p k) = (V c main_v137 : S200000x10.Idx → EReal) (ix2 r k) := by
  obtain ⟨e0, e1, -⟩ := idx_facts4 t
  show V c main_v137 (((cfg4.win 0).blk t).view.emb (ix2 p k)) = V c main_v137 (ix2 r k)
  refine congrArg (V c main_v137) (funext fun a => Fin.ext ?_)
  match a with
  | ⟨0, _⟩ => show win4_0.index t (0 : Fin 2) * 5000 + 1 * p.val = r.val; rw [e0, hr]; omega
  | ⟨1, _⟩ => show win4_0.index t (1 : Fin 2) * 10 + 1 * k.val = k.val; rw [e1]; omega

/-- Window 1's block at any point is the whole of its array. -/
theorem iblk4_1_eq (c : Dev nD) (t : Fin cfg4.N) : (iblk4 V c 1 t : Vec Ideal S10x10 .f32) = (V c main_arg22 : S10x10.Idx → EReal) := by
  obtain ⟨-, -, e0, e1, -⟩ := idx_facts4 t
  funext j
  obtain ⟨k, q, rfl⟩ : ∃ (k : Fin 10) (q : Fin 10), j = (ix2 k q : S10x10.Idx) := ⟨j 0, j 1, eq_ix2 (n0 := 10) (n1 := 10) j⟩
  show V c main_arg22 (((cfg4.win 1).blk t).view.emb (ix2 k q)) = V c main_arg22 (ix2 k q)
  refine congrArg (V c main_arg22) (funext fun a => Fin.ext ?_)
  match a with
  | ⟨0, _⟩ => show win4_1.index t (0 : Fin 2) * 10 + 1 * k.val = k.val; rw [e0]; omega
  | ⟨1, _⟩ => show win4_1.index t (1 : Fin 2) * 10 + 1 * q.val = q.val; rw [e1]; omega

/-- Window 2's block at any point is the whole of its array. -/
theorem iblk4_2_eq (c : Dev nD) (t : Fin cfg4.N) : (iblk4 V c 2 t : Vec Ideal S1x10 .f32) = (V c main_v138 : S1x10.Idx → EReal) := by
  obtain ⟨-, -, -, -, e0, e1, -⟩ := idx_facts4 t
  funext j
  obtain ⟨k, q, rfl⟩ : ∃ (k : Fin 1) (q : Fin 10), j = (ix2 k q : S1x10.Idx) := ⟨j 0, j 1, eq_ix2 (n0 := 1) (n1 := 10) j⟩
  show V c main_v138 (((cfg4.win 2).blk t).view.emb (ix2 k q)) = V c main_v138 (ix2 k q)
  refine congrArg (V c main_v138) (funext fun a => Fin.ext ?_)
  match a with
  | ⟨0, _⟩ => show win4_2.index t (0 : Fin 2) * 1 + 1 * k.val = k.val; rw [e0]; omega
  | ⟨1, _⟩ => show win4_2.index t (1 : Fin 2) * 10 + 1 * q.val = q.val; rw [e1]; omega

/-- Window 3's block at any point is the whole of its array. -/
theorem iblk4_3_eq (c : Dev nD) (t : Fin cfg4.N) : (iblk4 V c 3 t : Vec Ideal S10x10 .f32) = (V c main_arg24 : S10x10.Idx → EReal) := by
  obtain ⟨-, -, -, -, -, -, e0, e1, -⟩ := idx_facts4 t
  funext j
  obtain ⟨k, q, rfl⟩ : ∃ (k : Fin 10) (q : Fin 10), j = (ix2 k q : S10x10.Idx) := ⟨j 0, j 1, eq_ix2 (n0 := 10) (n1 := 10) j⟩
  show V c main_arg24 (((cfg4.win 3).blk t).view.emb (ix2 k q)) = V c main_arg24 (ix2 k q)
  refine congrArg (V c main_arg24) (funext fun a => Fin.ext ?_)
  match a with
  | ⟨0, _⟩ => show win4_3.index t (0 : Fin 2) * 10 + 1 * k.val = k.val; rw [e0]; omega
  | ⟨1, _⟩ => show win4_3.index t (1 : Fin 2) * 10 + 1 * q.val = q.val; rw [e1]; omega

/-- Window 4's block at any point is the whole of its array. -/
theorem iblk4_4_eq (c : Dev nD) (t : Fin cfg4.N) : (iblk4 V c 4 t : Vec Ideal S1x10 .f32) = (V c main_v139 : S1x10.Idx → EReal) := by
  obtain ⟨-, -, -, -, -, -, -, -, e0, e1, -⟩ := idx_facts4 t
  funext j
  obtain ⟨k, q, rfl⟩ : ∃ (k : Fin 1) (q : Fin 10), j = (ix2 k q : S1x10.Idx) := ⟨j 0, j 1, eq_ix2 (n0 := 1) (n1 := 10) j⟩
  show V c main_v139 (((cfg4.win 4).blk t).view.emb (ix2 k q)) = V c main_v139 (ix2 k q)
  refine congrArg (V c main_v139) (funext fun a => Fin.ext ?_)
  match a with
  | ⟨0, _⟩ => show win4_4.index t (0 : Fin 2) * 1 + 1 * k.val = k.val; rw [e0]; omega
  | ⟨1, _⟩ => show win4_4.index t (1 : Fin 2) * 10 + 1 * q.val = q.val; rw [e1]; omega

/-- Window 5's block at any point is the whole of its array. -/
theorem iblk4_5_eq (c : Dev nD) (t : Fin cfg4.N) : (iblk4 V c 5 t : Vec Ideal S10x1 .f32) = (V c main_arg26 : S10x1.Idx → EReal) := by
  obtain ⟨-, -, -, -, -, -, -, -, -, -, e0, e1, -⟩ := idx_facts4 t
  funext j
  obtain ⟨k, q, rfl⟩ : ∃ (k : Fin 10) (q : Fin 1), j = (ix2 k q : S10x1.Idx) := ⟨j 0, j 1, eq_ix2 (n0 := 10) (n1 := 1) j⟩
  show V c main_arg26 (((cfg4.win 5).blk t).view.emb (ix2 k q)) = V c main_arg26 (ix2 k q)
  refine congrArg (V c main_arg26) (funext fun a => Fin.ext ?_)
  match a with
  | ⟨0, _⟩ => show win4_5.index t (0 : Fin 2) * 10 + 1 * k.val = k.val; rw [e0]; omega
  | ⟨1, _⟩ => show win4_5.index t (1 : Fin 2) * 1 + 1 * q.val = q.val; rw [e1]; omega

/-- Window 6's block at any point is the whole of its array. -/
theorem iblk4_6_eq (c : Dev nD) (t : Fin cfg4.N) : (iblk4 V c 6 t : Vec Ideal S1x1 .f32) = (V c main_v140 : S1x1.Idx → EReal) := by
  obtain ⟨-, -, -, -, -, -, -, -, -, -, -, -, e0, e1, -⟩ := idx_facts4 t
  funext j
  obtain ⟨k, q, rfl⟩ : ∃ (k : Fin 1) (q : Fin 1), j = (ix2 k q : S1x1.Idx) := ⟨j 0, j 1, eq_ix2 (n0 := 1) (n1 := 1) j⟩
  show V c main_v140 (((cfg4.win 6).blk t).view.emb (ix2 k q)) = V c main_v140 (ix2 k q)
  refine congrArg (V c main_v140) (funext fun a => Fin.ext ?_)
  match a with
  | ⟨0, _⟩ => show win4_6.index t (0 : Fin 2) * 1 + 1 * k.val = k.val; rw [e0]; omega
  | ⟨1, _⟩ => show win4_6.index t (1 : Fin 2) * 1 + 1 * q.val = q.val; rw [e1]; omega

/-! ## The running sum -/

/-- The perceptron's scalar at row e of the arrays as the region finds them (zero past the last row: the sums below
    never reach there). -/
def f4 (c : Dev nD) (e : ℕ) : EReal :=
  if h : e < 200000 then Readout.mlp3 (V c main_v137 : S200000x10.Idx → EReal) (V c main_arg22 : S10x10.Idx → EReal)
    (V c main_v138 : S1x10.Idx → EReal) (V c main_arg24 : S10x10.Idx → EReal) (V c main_v139 : S1x10.Idx → EReal)
    (V c main_arg26 : S10x1.Idx → EReal) (V c main_v140 : S1x1.Idx → EReal) ⟨e, h⟩ else 0

/-- Row r of the per-row readout at point t is the perceptron's scalar at row 5000·t + r. -/
theorem pay4_apply (c : Dev nD) (t : Fin cfg4.N) (r : Fin 5000) :
    pay4 V c t (ix2 r (0 : Fin 1)) = f4 V c (5000 * t.val + r.val) := by
  have hN : t.val < 40 := lt_of_lt_of_eq t.isLt (show cfg4.N = 40 from N_4)
  have hlt : 5000 * t.val + r.val < 200000 := by have := r.isLt; omega
  unfold pay4 f4
  rw [dif_pos hlt, iblk4_1_eq, iblk4_2_eq, iblk4_3_eq, iblk4_4_eq, iblk4_5_eq, iblk4_6_eq]
  exact pay4_eq _ _ _ _ _ _ _ (V c main_v137) r ⟨_, hlt⟩ (fun l => iblk4_0_apply V c t r l _ rfl)

/-- After the last point the accumulator holds the sum of the perceptron's scalars over all the rows. -/
theorem acc4_sum (c : Dev nD) (h39 : 39 < cfg4.N) :
    acc4 V c 39 h39 (ix2 (0 : Fin 1) (0 : Fin 1)) = ∑ i : Fin 200000, Readout.mlp3 (V c main_v137 : S200000x10.Idx → EReal) (V c main_arg22 : S10x10.Idx → EReal)
    (V c main_v138 : S1x10.Idx → EReal) (V c main_arg24 : S10x10.Idx → EReal) (V c main_v139 : S1x10.Idx → EReal)
    (V c main_arg26 : S10x1.Idx → EReal) (V c main_v140 : S1x1.Idx → EReal) i := by
  have hreset : ∀ (n : ℕ) (h : n < cfg4.N), n % 40 = 0 →
      acc4 V c n h (ix2 (0 : Fin 1) (0 : Fin 1)) = ∑ r : Fin 5000, f4 V c (5000 * n + r.val) := by
    intro n h hn
    have hN : n < 40 := lt_of_lt_of_eq h (show cfg4.N = 40 from N_4)
    obtain rfl : n = 0 := by omega
    rw [show acc4 V c 0 h = k4_pay1 (pay4 V c ⟨0, h⟩) (k4_pay3 (F := Ideal)) from rfl, pay1_apply, pay3_apply, zero_add]
    exact Finset.sum_congr rfl fun r _ => pay4_apply V c ⟨0, h⟩ r
  have hstep : ∀ (n : ℕ) (h : n + 1 < cfg4.N), (n + 1) % 40 ≠ 0 →
      acc4 V c (n + 1) h (ix2 (0 : Fin 1) (0 : Fin 1))
        = acc4 V c n (Nat.lt_of_succ_lt h) (ix2 (0 : Fin 1) (0 : Fin 1)) + ∑ r : Fin 5000, f4 V c (5000 * (n + 1) + r.val) := by
    intro n h _
    rw [show acc4 V c (n + 1) h = k4_pay1 (pay4 V c ⟨n + 1, h⟩) (acc4 V c n (Nat.lt_of_succ_lt h)) from rfl, pay1_apply]
    exact congrArg (_ + ·) (Finset.sum_congr rfl fun r _ => pay4_apply V c ⟨n + 1, h⟩ r)
  refine (AccumBlocks.total_eq_sum_fin 40 cfg4.N (fun n h => acc4 V c n h (ix2 (0 : Fin 1) (0 : Fin 1)))
    (fun n => ∑ r : Fin 5000, f4 V c (5000 * n + r.val)) hreset hstep 0 39 (by omega) 39 h39 rfl).trans ?_
  have hblocks : ∑ e : Fin 200000, f4 V c e.val = ∑ j : Fin 40, ∑ k : Fin 5000, f4 V c (5000 * j.val + k.val) :=
    SumBlocks.sum_mul_eq_sum_blocks 40 5000 (f4 V c)
  refine Eq.trans ?_ (hblocks.symm.trans (Finset.sum_congr rfl fun e _ => ?_))
  · exact Finset.sum_congr rfl fun i _ => Finset.sum_congr rfl fun r _ => by rw [Nat.mul_zero, Nat.zero_add]
  · unfold f4; rw [dif_pos e.isLt]

/-! ## The output array after the region -/

/-- A shape of one element has one index. -/
theorem idx1x1 (x y : S1x1.Idx) : x = y := by
  funext a; apply Fin.ext
  match a with
  | ⟨0, _⟩ =>
    have h1 : (x 0).val < 1 := (x 0).isLt
    have h2 : (y 0).val < 1 := (y 0).isLt
    show (x 0).val = (y 0).val; omega
  | ⟨1, _⟩ =>
    have h1 : (x 1).val < 1 := (x 1).isLt
    have h2 : (y 1).val < 1 := (y 1).isLt
    show (x 1).val = (y 1).val; omega

/-- The grid has a point 39. -/
theorem h39_4 : 39 < cfg4.N := by rw [show cfg4.N = 40 from N_4]; omega

/-- The output array after the region: what the last point, the only one that writes it back, left in the output's
    staging buffer — the whole grid's running sum scaled. -/
theorem arrAt4_7 (c : Dev nD) :
    (dat4 (F := Ideal) V c).arrAt 7 cfg4.N = (k4_pay2 (acc4 V c 39 h39_4) : S1x1.Idx → EReal) := by
  refine Dat.arrAt_eq_of_cover (dat4 (F := Ideal) V c) 7 _ (fun t hf => ?_) (fun i => ?_)
  · have hN : t.val < 40 := lt_of_lt_of_eq t.isLt (show cfg4.N = 40 from N_4)
    have ht : t.val = 39 := by have := (flush4_7 t).mp hf; omega
    show (cfg4.win 7).cut _ ((dat4 (F := Ideal) V c).after 7 t) = _
    rw [after4_7_last V c t ht]
    funext y
    show k4_pay2 (acc4 V c 39 h39_4) _ = k4_pay2 (acc4 V c 39 h39_4) (((cfg4.win 7).blk t).view.emb y)
    exact congrArg _ (idx1x1 _ _)
  · refine ⟨⟨39, h39_4⟩, (flush4_7 _).mpr rfl, ?_⟩
    have e : i = ((cfg4.win 7).blk ⟨39, h39_4⟩).view.emb (ix2 (0 : Fin 1) (0 : Fin 1)) := idx1x1 _ _
    rw [e]
    exact View.emb_mem_set _ _

/-- THE VALUE of region 4: the output array's one entry is the sum over all rows of the perceptron's scalar, times the
    kernel's scaling constant. -/
theorem final4 (c : Dev nD) (j : S1x1.Idx) :
    (dat4 (F := Ideal) V c).arrAt 7 cfg4.N j
      = (∑ i : Fin 200000, Readout.mlp3 (V c main_v137 : S200000x10.Idx → EReal) (V c main_arg22 : S10x10.Idx → EReal)
    (V c main_v138 : S1x10.Idx → EReal) (V c main_arg24 : S10x10.Idx → EReal) (V c main_v139 : S1x10.Idx → EReal)
    (V c main_arg26 : S10x1.Idx → EReal) (V c main_v140 : S1x1.Idx → EReal) i)
        * Named.named (F := Ideal) κ "inv_200000" (φ := .f32) 0x36A7C5AC#32 := by
  rw [arrAt4_7 V c, pay2_apply, idx1x1 j (ix2 (0 : Fin 1) (0 : Fin 1)), acc4_sum]

end Cert.KernelIdeal.Frm

end
-- ==== Proof.LibKeep.lean ====
/-
  A buffer that a stretch of host operations does not write keeps its contents through the stretch.

  The contents of a device's buffers after a list of host operations are a fold over the list: each operation replaces the
  buffers it writes and leaves every other buffer. So the fold read at a buffer that no operation of the list writes is
  the contents before the list at that buffer. For a literal list over literal buffers this is decided operation by
  operation: each operation's written buffer is a different reference from the one read.
-/
import Idealize.ShloMosaic.Lib.StableHlo.Run

namespace Cert.Keep

open Idealize.ShloMosaic Idealize.ShloMosaic.StableHlo

/-- `keeps ops` closes a goal `after ops V b = V b` (or one that unfolds to it by abbreviations) when no operation of the
    literal list `ops` — nullary to quaternary operations, reshapes, indexed binary operations, an outlined function's
    typed-reference operations — writes the literal buffer `b`: every operation's written buffer is compared with `b`. -/
macro "keeps " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

end Cert.Keep
-- ==== Proof.KI.Value.lean ====
/-
  What the kernel program leaves in its result array, as a function of the launch contents of its arguments.

  Walking @main's boundaries: each region's output array is the dense layer of the arrays the region finds
  (the blockwise kernels read whole), and each stretch of host operations in between is the shared aggregation chain of
  what the regions before it left. No argument is ever written, so every argument read on the way is its launch
  contents.
-/
import proofs.«125994_j2843268349979_1_alg».proof.Proof.KI.Args
import proofs.«125994_j2843268349979_1_alg».proof.Proof.KI.KVal
import proofs.«125994_j2843268349979_1_alg».proof.Proof.KI.Val0
import proofs.«125994_j2843268349979_1_alg».proof.Proof.KI.Val1
import proofs.«125994_j2843268349979_1_alg».proof.Proof.KI.Val2
import proofs.«125994_j2843268349979_1_alg».proof.Proof.KI.Val3
import proofs.«125994_j2843268349979_1_alg».proof.Proof.KI.Val4
import proofs.«125994_j2843268349979_1_alg».proof.Proof.LibKeep

set_option maxRecDepth 16384

noncomputable section

namespace Cert.KernelIdeal.Frm

open Idealize.ShloMosaic Idealize.ShloMosaic.TcCoe Idealize.SL.Sem
open Cert.KernelIdeal Cert.KernelIdeal.Gen Cert.KernelIdeal.Spec Cert.Keep

variable (m : (ℓ : Loc nD τ sig) → Buf (Elt Ideal) ℓ) (ρ : Dev nD → PrngReg) (c : Dev nD)

/-- An argument's launch contents on core c. -/
abbrev argAt (b : Ref sig .tc) : Buf (Elt Ideal) ((c : Thread nD τ).loc b) := m ((c : Thread nD τ).loc b)

/-- Region 0's output: the first input layer. -/
theorem X0_eq : (dat0 (F := Ideal) (V1 m ρ) c).arrAt 3 cfg0.N = kX0 (argAt m c main_arg0) (argAt m c main_arg12) (argAt m c main_arg13) := by
  have e0 : V1 m ρ c main_arg0 = argAt m c main_arg0 := (W_arg (m := m) (ρ := ρ) c main_arg0 (by decide)).1
  have e12 : V1 m ρ c main_arg12 = argAt m c main_arg12 := (W_arg (m := m) (ρ := ρ) c main_arg12 (by decide)).1
  have ev : V1 m ρ c main_v0 = rowOf (argAt m c main_arg13) := read_v0 (W0 m ρ c)
  rw [final0, e0, e12, ev]; rfl

/-- Region 1's output: the second input layer. -/
theorem X1_eq : (dat1 (F := Ideal) (V3 m ρ) c).arrAt 3 cfg1.N = kX1 (argAt m c main_arg1) (argAt m c main_arg14) (argAt m c main_arg15) := by
  have e1 : V3 m ρ c main_arg1 = argAt m c main_arg1 := (W_arg (m := m) (ρ := ρ) c main_arg1 (by decide)).2.2.1
  have e14 : V3 m ρ c main_arg14 = argAt m c main_arg14 := (W_arg (m := m) (ρ := ρ) c main_arg14 (by decide)).2.2.1
  have e15 : W2 m ρ c (Proc.devRef .tc main_arg15) = argAt m c main_arg15 := (W_arg (m := m) (ρ := ρ) c main_arg15 (by decide)).2.1
  have ev : V3 m ρ c main_v2 = rowOf (argAt m c main_arg15) := (read_v2 (W2 m ρ c)).trans (congrArg rowOf e15)
  rw [final1, e1, e14, ev]; rfl

/-- The first layer's output is still in its buffer when the third stretch reads it. -/
theorem W4_v1 : W4 m ρ c (Proc.devRef .tc main_v1) = (dat0 (F := Ideal) (V1 m ρ) c).arrAt 3 cfg0.N :=
  calc W4 m ρ c (Proc.devRef .tc main_v1)
    _ = W3 m ρ c (Proc.devRef .tc main_v1) := W4_of_ne m ρ c main_v1 (by decide)
    _ = W2 m ρ c (Proc.devRef .tc main_v1) := by keeps hostOps1
    _ = _ := W2_arr m ρ c 3

theorem W4_v3 : W4 m ρ c (Proc.devRef .tc main_v3) = (dat1 (F := Ideal) (V3 m ρ) c).arrAt 3 cfg1.N := W4_arr m ρ c 3

/-- Region 2's output: the layer of the 200,000-node side over the two aggregations added. -/
theorem X2_eq : (dat2 (F := Ideal) (V5 m ρ) c).arrAt 3 cfg2.N
    = kX2 (kX0 (argAt m c main_arg0) (argAt m c main_arg12) (argAt m c main_arg13)) (kX1 (argAt m c main_arg1) (argAt m c main_arg14) (argAt m c main_arg15))
        (argAt m c main_arg3) (argAt m c main_arg4) (argAt m c main_arg7) (argAt m c main_arg8) (argAt m c main_arg9) (argAt m c main_arg11)
        (argAt m c main_arg20) (argAt m c main_arg21) := by
  have a (b : Ref sig .tc) (hb : b.idx.val < 28) : W4 m ρ c (Proc.devRef .tc b) = argAt m c b := (W_arg (m := m) (ρ := ρ) c b hb).2.2.2.1
  have e20 : V5 m ρ c main_arg20 = argAt m c main_arg20 := (W_arg (m := m) (ρ := ρ) c main_arg20 (by decide)).2.2.2.2.1
  have ev91 : V5 m ρ c main_v91 = rowOf (argAt m c main_arg21) := (read_v91 (W4 m ρ c)).trans (congrArg rowOf (a main_arg21 (by decide)))
  have ev90 : V5 m ρ c main_v90 = addf (gcBig (kX0 (argAt m c main_arg0) (argAt m c main_arg12) (argAt m c main_arg13)) (argAt m c main_arg3) (argAt m c main_arg4) (argAt m c main_arg9))
      (gcSoc (kX1 (argAt m c main_arg1) (argAt m c main_arg14) (argAt m c main_arg15)) (argAt m c main_arg7) (argAt m c main_arg8) (argAt m c main_arg11)) := by
    refine (read_v90 (W4 m ρ c)).trans ?_
    rw [W4_v1, W4_v3, X0_eq, X1_eq, a main_arg3 (by decide), a main_arg4 (by decide), a main_arg9 (by decide), a main_arg7 (by decide),
      a main_arg8 (by decide), a main_arg11 (by decide)]
  rw [final2, e20, ev91, ev90]; rfl

theorem W6_v92 : W6 m ρ c (Proc.devRef .tc main_v92) = (dat2 (F := Ideal) (V5 m ρ) c).arrAt 3 cfg2.N := W6_arr m ρ c 3

/-- Region 3's output: the layer of the other side over the aggregation back. -/
theorem X3_eq (x2 : FA S200000x10) (hx2 : (dat2 (F := Ideal) (V5 m ρ) c).arrAt 3 cfg2.N = x2) :
    (dat3 (F := Ideal) (V7 m ρ) c).arrAt 3 cfg3.N
      = kX3 x2 (argAt m c main_arg5) (argAt m c main_arg6) (argAt m c main_arg10) (argAt m c main_arg20) (argAt m c main_arg21) := by
  have a (b : Ref sig .tc) (hb : b.idx.val < 28) : W6 m ρ c (Proc.devRef .tc b) = argAt m c b := (W_arg (m := m) (ρ := ρ) c b hb).2.2.2.2.2.1
  have e20 : V7 m ρ c main_arg20 = argAt m c main_arg20 := (W_arg (m := m) (ρ := ρ) c main_arg20 (by decide)).2.2.2.2.2.2.1
  have ev136 : V7 m ρ c main_v136 = rowOf (argAt m c main_arg21) := (read_v136 (W6 m ρ c)).trans (congrArg rowOf (a main_arg21 (by decide)))
  have ev135 : V7 m ρ c main_v135 = gcBig x2 (argAt m c main_arg5) (argAt m c main_arg6) (argAt m c main_arg10) := by
    refine (read_v135 (W6 m ρ c)).trans ?_
    rw [W6_v92, hx2, a main_arg5 (by decide), a main_arg6 (by decide), a main_arg10 (by decide)]
  rw [final3, e20, ev136, ev135]; rfl

/-- The last layer's output is still in its buffer when the readout region reads it. -/
theorem V9_v137 : V9 m ρ c main_v137 = (dat3 (F := Ideal) (V7 m ρ) c).arrAt 3 cfg3.N :=
  calc W9 m ρ c (Proc.devRef .tc main_v137)
    _ = W8 m ρ c (Proc.devRef .tc main_v137) := by keeps hostOps4
    _ = _ := W8_arr m ρ c 3

/-- The result array: the mean readout of the last layer. -/
theorem out_eq (x3 : FA S200000x10) (hx3 : (dat3 (F := Ideal) (V7 m ρ) c).arrAt 3 cfg3.N = x3) :
    W10 m ρ c (Proc.devRef .tc main_v141)
      = kOut x3 (argAt m c main_arg22) (argAt m c main_arg23) (argAt m c main_arg24) (argAt m c main_arg25) (argAt m c main_arg26) (argAt m c main_arg27) := by
  have a (b : Ref sig .tc) (hb : b.idx.val < 28) : W8 m ρ c (Proc.devRef .tc b) = argAt m c b := (W_arg (m := m) (ρ := ρ) c b hb).2.2.2.2.2.2.2.1
  have a9 (b : Ref sig .tc) (hb : b.idx.val < 28) : V9 m ρ c b = argAt m c b := (W_arg (m := m) (ρ := ρ) c b hb).2.2.2.2.2.2.2.2.1
  have e138 : V9 m ρ c main_v138 = rowOf (argAt m c main_arg23) := (read_v138 (W8 m ρ c)).trans (congrArg rowOf (a main_arg23 (by decide)))
  have e139 : V9 m ρ c main_v139 = rowOf (argAt m c main_arg25) := (read_v139 (W8 m ρ c)).trans (congrArg rowOf (a main_arg25 (by decide)))
  have e140 : V9 m ρ c main_v140 = row1 (argAt m c main_arg27) := (read_v140 (W8 m ρ c)).trans (congrArg row1 (a main_arg27 (by decide)))
  refine (W10_arr m ρ c 7).trans (funext fun j => ?_)
  rw [final4, V9_v137, hx3, a9 main_arg22 (by decide), a9 main_arg24 (by decide), a9 main_arg26 (by decide), e138, e139, e140]; rfl

end Cert.KernelIdeal.Frm

end
-- ==== Proof.KI.PreReal.lean ====
/- The precondition read at the exact instance: the claim's hypothesis says that, of every float argument array,
   all entries have absolute value below +∞; over the extended reals that is: every entry of every float argument
   array is the image of a real number. -/
import proofs.«125994_j2843268349979_1_alg».proof.Defs
import proofs.«125994_j2843268349979_1_alg».proof.Proof.Gen.Pre_finite_inputs
import Idealize.ShloMosaic.Lib.ReduceAll
import Idealize.ShloMosaic.Lib.ValueIdx
import Idealize.ShloMosaic.PureOps.Ideal

namespace Cert.KernelIdeal.Frm

open Idealize.ShloMosaic Cert.KernelIdeal

/-- The pattern of +∞ denotes the top of the extended reals. -/
theorem ofBits_inf : Ideal.ofBits .f32 0x7F800000#32 = (⊤ : EReal) := by simp [Ideal.ofBits, Ideal.ieee]

/-- An extended real whose absolute value max x (-x) is below ⊤ is neither ⊤ nor ⊥: it is the image of a real. -/
theorem real_of_abs_lt_top (x : EReal) (h : max x (-x) < ⊤) : ∃ r : ℝ, x = (r : EReal) := by
  induction x using EReal.rec with
  | bot => simp at h
  | coe r => exact ⟨r, rfl⟩
  | top => simp at h

/-- A bit made from a boolean is 1 only if the boolean is true. -/
theorem eq_true_of_ofBool {b : Bool} (h : BitVec.ofBool b = 1#1) : b = true := by
  cases b
  · exact absurd h (by decide)
  · rfl

/-- A shape of rank 0 has one index. -/
local instance subsingleton_S_ : Subsingleton (Cert.Pre_finite_inputs.S_).Idx := ⟨fun a b => funext fun d => d.elim0⟩

/-- all (|x| < +∞) = 1, as the precondition prints it for an array `x` of any shape (the comparison against the
    broadcast pattern of +∞, reduced by `and` over every axis from 1), gives: every entry of `x` is real. The array
    stays a variable: nothing is evaluated over its entries. -/
theorem real_of_all_finite {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel) (j : Cert.Pre_finite_inputs.S_.Idx)
    (e : Host.reduce IntOp.andi (cmpf .olt (Host.absf x) (broadcastInDim s ![] hb (constant Cert.Pre_finite_inputs.S_ .f32 0x7F800000#32)))
        (constantI Cert.Pre_finite_inputs.S_ 1 1#1) hr hu j = 1#1) (i : s.Idx) : ∃ r : ℝ, x i = (r : EReal) := by
  have h1 := Host.reduce_andi_all _ _ hr hu j e i
  have h2 : Ideal.cmp .olt (max (x i) (-(x i))) (Ideal.ofBits .f32 0x7F800000#32) = 1#1 := h1
  rw [ofBits_inf] at h2
  have h3 : BitVec.ofBool (decide (max (x i) (-(x i)) < (⊤ : EReal))) = 1#1 := h2
  exact real_of_abs_lt_top (x i) (of_decide_eq_true (eq_true_of_ofBool h3))

/-- Every float argument array of @main, on core `c`, has real entries. -/
structure RealArgs (m : (ℓ : Loc nD τ sig) → Buf (Elt Ideal) ℓ) (c : Dev nD) : Prop where
  arg0 : ∀ i, ∃ r : ℝ, m ((c.tc : Thread nD τ).loc main_arg0) i = (r : EReal)
  arg1 : ∀ i, ∃ r : ℝ, m ((c.tc : Thread nD τ).loc main_arg1) i = (r : EReal)
  arg2 : ∀ i, ∃ r : ℝ, m ((c.tc : Thread nD τ).loc main_arg2) i = (r : EReal)
  arg9 : ∀ i, ∃ r : ℝ, m ((c.tc : Thread nD τ).loc main_arg9) i = (r : EReal)
  arg10 : ∀ i, ∃ r : ℝ, m ((c.tc : Thread nD τ).loc main_arg10) i = (r : EReal)
  arg11 : ∀ i, ∃ r : ℝ, m ((c.tc : Thread nD τ).loc main_arg11) i = (r : EReal)
  arg12 : ∀ i, ∃ r : ℝ, m ((c.tc : Thread nD τ).loc main_arg12) i = (r : EReal)
  arg13 : ∀ i, ∃ r : ℝ, m ((c.tc : Thread nD τ).loc main_arg13) i = (r : EReal)
  arg14 : ∀ i, ∃ r : ℝ, m ((c.tc : Thread nD τ).loc main_arg14) i = (r : EReal)
  arg15 : ∀ i, ∃ r : ℝ, m ((c.tc : Thread nD τ).loc main_arg15) i = (r : EReal)
  arg16 : ∀ i, ∃ r : ℝ, m ((c.tc : Thread nD τ).loc main_arg16) i = (r : EReal)
  arg17 : ∀ i, ∃ r : ℝ, m ((c.tc : Thread nD τ).loc main_arg17) i = (r : EReal)
  arg18 : ∀ i, ∃ r : ℝ, m ((c.tc : Thread nD τ).loc main_arg18) i = (r : EReal)
  arg19 : ∀ i, ∃ r : ℝ, m ((c.tc : Thread nD τ).loc main_arg19) i = (r : EReal)
  arg20 : ∀ i, ∃ r : ℝ, m ((c.tc : Thread nD τ).loc main_arg20) i = (r : EReal)
  arg21 : ∀ i, ∃ r : ℝ, m ((c.tc : Thread nD τ).loc main_arg21) i = (r : EReal)
  arg22 : ∀ i, ∃ r : ℝ, m ((c.tc : Thread nD τ).loc main_arg22) i = (r : EReal)
  arg23 : ∀ i, ∃ r : ℝ, m ((c.tc : Thread nD τ).loc main_arg23) i = (r : EReal)
  arg24 : ∀ i, ∃ r : ℝ, m ((c.tc : Thread nD τ).loc main_arg24) i = (r : EReal)
  arg25 : ∀ i, ∃ r : ℝ, m ((c.tc : Thread nD τ).loc main_arg25) i = (r : EReal)
  arg26 : ∀ i, ∃ r : ℝ, m ((c.tc : Thread nD τ).loc main_arg26) i = (r : EReal)
  arg27 : ∀ i, ∃ r : ℝ, m ((c.tc : Thread nD τ).loc main_arg27) i = (r : EReal)

/-- The precondition is a conjunction, nested to the left, of one `all (|x| < +∞)` per float argument array in
    argument order: split from the right, conjunct by conjunct (the printed function unfolds to it by definitional
    unfolding alone), and read each by `real_of_all_finite`. -/
theorem realArgs (m : (ℓ : Loc nD τ sig) → Buf (Elt Ideal) ℓ) (h : Cert.Pre_KernelIdeal m) (c : Dev nD) : RealArgs m c := by
  have h0 := congrFun (h c) ValueIdx.ix0
  obtain ⟨h0, a27⟩ := IntOp.andi_eq_one.1 h0
  obtain ⟨h0, a26⟩ := IntOp.andi_eq_one.1 h0
  obtain ⟨h0, a25⟩ := IntOp.andi_eq_one.1 h0
  obtain ⟨h0, a24⟩ := IntOp.andi_eq_one.1 h0
  obtain ⟨h0, a23⟩ := IntOp.andi_eq_one.1 h0
  obtain ⟨h0, a22⟩ := IntOp.andi_eq_one.1 h0
  obtain ⟨h0, a21⟩ := IntOp.andi_eq_one.1 h0
  obtain ⟨h0, a20⟩ := IntOp.andi_eq_one.1 h0
  obtain ⟨h0, a19⟩ := IntOp.andi_eq_one.1 h0
  obtain ⟨h0, a18⟩ := IntOp.andi_eq_one.1 h0
  obtain ⟨h0, a17⟩ := IntOp.andi_eq_one.1 h0
  obtain ⟨h0, a16⟩ := IntOp.andi_eq_one.1 h0
  obtain ⟨h0, a15⟩ := IntOp.andi_eq_one.1 h0
  obtain ⟨h0, a14⟩ := IntOp.andi_eq_one.1 h0
  obtain ⟨h0, a13⟩ := IntOp.andi_eq_one.1 h0
  obtain ⟨h0, a12⟩ := IntOp.andi_eq_one.1 h0
  obtain ⟨h0, a11⟩ := IntOp.andi_eq_one.1 h0
  obtain ⟨h0, a10⟩ := IntOp.andi_eq_one.1 h0
  obtain ⟨h0, a9⟩ := IntOp.andi_eq_one.1 h0
  obtain ⟨h0, a2⟩ := IntOp.andi_eq_one.1 h0
  obtain ⟨a0, a1⟩ := IntOp.andi_eq_one.1 h0
  exact ⟨real_of_all_finite _ _ _ _ _ a0,
    real_of_all_finite _ _ _ _ _ a1,
    real_of_all_finite _ _ _ _ _ a2,
    real_of_all_finite _ _ _ _ _ a9,
    real_of_all_finite _ _ _ _ _ a10,
    real_of_all_finite _ _ _ _ _ a11,
    real_of_all_finite _ _ _ _ _ a12,
    real_of_all_finite _ _ _ _ _ a13,
    real_of_all_finite _ _ _ _ _ a14,
    real_of_all_finite _ _ _ _ _ a15,
    real_of_all_finite _ _ _ _ _ a16,
    real_of_all_finite _ _ _ _ _ a17,
    real_of_all_finite _ _ _ _ _ a18,
    real_of_all_finite _ _ _ _ _ a19,
    real_of_all_finite _ _ _ _ _ a20,
    real_of_all_finite _ _ _ _ _ a21,
    real_of_all_finite _ _ _ _ _ a22,
    real_of_all_finite _ _ _ _ _ a23,
    real_of_all_finite _ _ _ _ _ a24,
    real_of_all_finite _ _ _ _ _ a25,
    real_of_all_finite _ _ _ _ _ a26,
    real_of_all_finite _ _ _ _ _ a27⟩

theorem real_arg0 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg0) i = (r : EReal) := (realArgs m h c).arg0
theorem real_arg1 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg1) i = (r : EReal) := (realArgs m h c).arg1
theorem real_arg2 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg2) i = (r : EReal) := (realArgs m h c).arg2
theorem real_arg9 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg9) i = (r : EReal) := (realArgs m h c).arg9
theorem real_arg10 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg10) i = (r : EReal) := (realArgs m h c).arg10
theorem real_arg11 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg11) i = (r : EReal) := (realArgs m h c).arg11
theorem real_arg12 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg12) i = (r : EReal) := (realArgs m h c).arg12
theorem real_arg13 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg13) i = (r : EReal) := (realArgs m h c).arg13
theorem real_arg14 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg14) i = (r : EReal) := (realArgs m h c).arg14
theorem real_arg15 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg15) i = (r : EReal) := (realArgs m h c).arg15
theorem real_arg16 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg16) i = (r : EReal) := (realArgs m h c).arg16
theorem real_arg17 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg17) i = (r : EReal) := (realArgs m h c).arg17
theorem real_arg18 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg18) i = (r : EReal) := (realArgs m h c).arg18
theorem real_arg19 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg19) i = (r : EReal) := (realArgs m h c).arg19
theorem real_arg20 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg20) i = (r : EReal) := (realArgs m h c).arg20
theorem real_arg21 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg21) i = (r : EReal) := (realArgs m h c).arg21
theorem real_arg22 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg22) i = (r : EReal) := (realArgs m h c).arg22
theorem real_arg23 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg23) i = (r : EReal) := (realArgs m h c).arg23
theorem real_arg24 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg24) i = (r : EReal) := (realArgs m h c).arg24
theorem real_arg25 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg25) i = (r : EReal) := (realArgs m h c).arg25
theorem real_arg26 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg26) i = (r : EReal) := (realArgs m h c).arg26
theorem real_arg27 (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread _ _).loc Cert.KernelIdeal.main_arg27) i = (r : EReal) := (realArgs m h c).arg27

end Cert.KernelIdeal.Frm
-- ==== Proof.Ref.Keeps.lean ====
/-
  The reference's host operations never write an argument: the arguments are the first 28 buffers of the device's main
  memory and every operation writes a buffer numbered 28 or higher, so the fold of the operations read at an argument is
  the contents the fold started from.
-/
import proofs.«125994_j2843268349979_1_alg».proof.Proof.RefOps
import Idealize.ShloMosaic.Lib.StableHlo.Run
import Idealize.ShloMosaic.PureOps.Ideal

set_option maxRecDepth 16384

noncomputable section

namespace Cert.ReferenceIdeal.RunH

open Cert.ReferenceIdeal Cert.ReferenceIdeal.Gen Cert.ReferenceIdeal.ValueP
open Idealize.ShloMosaic Idealize.ShloMosaic.TcCoe Idealize.SL.Sem Idealize.ShloMosaic.StableHlo

/-- A buffer numbered below 28 is not one numbered 28 or higher. -/
theorem ne_of_idx_lt {b y : Ref sig .tc} (hb : b.idx.val < 28) (hy : 28 ≤ y.idx.val) : b ≠ y :=
  fun e => by subst e; omega

set_option maxHeartbeats 40000000 in
/-- No operation writes a buffer numbered below 28. -/
theorem ops_keeps (W : Valuation τ sig (Elt Ideal)) (b : Ref sig .tc) (hb : b.idx.val < 28) :
    after (ops (F := Ideal)) W (Proc.devRef .tc b) = W (Proc.devRef .tc b) := by
  refine after_of_forall_not_mem _ _ (List.forall_iff_forall_mem.mp ?_)
  simp only [ops, List.Forall, nullary_writes, unary_writes, binary_writes, ternary_writes, quaternary_writes, reshape_writes,
    binaryIndexed_writes, Finset.mem_singleton]
  repeat' apply And.intro
  all_goals exact devRef_ne_of_ne (ne_of_idx_lt hb (by decide))

end Cert.ReferenceIdeal.RunH

end
-- ==== Proof.Ref.Spec.lean ====
/-
  The reference program's result as a composition of named pieces: the shared graph aggregation (the same chain of host
  operations as in the kernel's program, over this program's dimension records), the host's dense layer
  max (x · W + b, 0) and its affine part x · W + b, and the readout: the mean over the 200,000 rows of y · O3 + b3, as the
  host's sum along axis 0 divided by 200000.
-/
import proofs.«125994_j2843268349979_1_alg».proof.ReferenceIdeal
import proofs.«125994_j2843268349979_1_alg».proof.Proof.Gen.ReferenceIdeal
import Idealize.ShloMosaic.PureOps.Ideal

noncomputable section

namespace Cert.ReferenceIdeal.Spec

open Idealize.ShloMosaic Cert.ReferenceIdeal Cert.ReferenceIdeal.Gen

/-- Float and integer arrays at the extended reals. -/
abbrev FA (S : Shape) := FVec Ideal S .f32
abbrev IA (S : Shape) := IVec S 32

/-- A negative index counts from the end: `i < 0 ? i + n : i`, over 4,000,000 edges. -/
def wrapBig (n : BitVec 32) (a : IA S4000000) : IA S4000000 :=
  select (cmpi .slt a (broadcastInDim S4000000 ![] bcast_S_S4000000 (constantI S_ 32 0#32)))
    (addi a (broadcastInDim S4000000 ![] bcast_S_S4000000 (constantI S_ 32 n))) a

/-- The same over 400,000 edges. -/
def wrapSoc (n : BitVec 32) (a : IA S400000) : IA S400000 :=
  select (cmpi .slt a (broadcastInDim S400000 ![] bcast_S_S400000 (constantI S_ 32 0#32)))
    (addi a (broadcastInDim S400000 ![] bcast_S_S400000 (constantI S_ 32 n))) a

/-- 1/sqrt(max(degree, 1)) of the 200,000 nodes an endpoint list of 4,000,000 edges names. -/
def normBig (idx : IA S4000000) : FA S200000 :=
  Host.rsqrt (maximumf
    (Host.scatterAdd (F := Ideal) scatter_S200000_S4000000x1_S4000000_n_0_0_1
      (broadcastInDim S200000 ![] bcast_S_S200000 (constant (F := Ideal) S_ .f32 0x00000000#32))
      (broadcastInDim S4000000x1 ![0] bcast_S4000000_S4000000x1_0 (wrapBig 200000#32 idx))
      (broadcastInDim S4000000 ![] bcast_S_S4000000 (constant (F := Ideal) S_ .f32 0x3F800000#32)))
    (broadcastInDim S200000 ![] bcast_S_S200000 (constant (F := Ideal) S_ .f32 0x3F800000#32)))

/-- The same for the 20,000 source nodes of the 400,000 edges. -/
def normSocSrc (idx : IA S400000) : FA S20000 :=
  Host.rsqrt (maximumf
    (Host.scatterAdd (F := Ideal) scatter_S20000_S400000x1_S400000_n_0_0_1
      (broadcastInDim S20000 ![] bcast_S_S20000 (constant (F := Ideal) S_ .f32 0x00000000#32))
      (broadcastInDim S400000x1 ![0] bcast_S400000_S400000x1_0 (wrapSoc 20000#32 idx))
      (broadcastInDim S400000 ![] bcast_S_S400000 (constant (F := Ideal) S_ .f32 0x3F800000#32)))
    (broadcastInDim S20000 ![] bcast_S_S20000 (constant (F := Ideal) S_ .f32 0x3F800000#32)))

/-- The same for the 200,000 destination nodes of the 400,000 edges. -/
def normSocDst (idx : IA S400000) : FA S200000 :=
  Host.rsqrt (maximumf
    (Host.scatterAdd (F := Ideal) scatter_S200000_S400000x1_S400000_n_0_0_1
      (broadcastInDim S200000 ![] bcast_S_S200000 (constant (F := Ideal) S_ .f32 0x00000000#32))
      (broadcastInDim S400000x1 ![0] bcast_S400000_S400000x1_0 (wrapSoc 200000#32 idx))
      (broadcastInDim S400000 ![] bcast_S_S400000 (constant (F := Ideal) S_ .f32 0x3F800000#32)))
    (broadcastInDim S200000 ![] bcast_S_S200000 (constant (F := Ideal) S_ .f32 0x3F800000#32)))

/-- The aggregation over 4,000,000 edges between two 200,000-node sides. -/
def gcBig (x : FA S200000x10) (src dst : IA S4000000) (w : FA S4000000) : FA S200000x10 :=
  mulf
    (Host.scatterAdd (F := Ideal) scatter_S200000x10_S4000000x1_S4000000x10_1_0_0_1
      (broadcastInDim S200000x10 ![] bcast_S_S200000x10 (constant (F := Ideal) S_ .f32 0x00000000#32))
      (broadcastInDim S4000000x1 ![0] bcast_S4000000_S4000000x1_0 dst)
      (mulf
        (Host.gather gather_S200000x10_S4000000x1_S4000000x10_1_0_n_n_0_1_110
          (mulf x (broadcastInDim S200000x10 ![0, 1] bcast_S200000x1_S200000x10_0_1
            (broadcastInDim S200000x1 ![0] bcast_S200000_S200000x1_0 (normBig src))))
          (broadcastInDim S4000000x1 ![0] bcast_S4000000_S4000000x1_0 (wrapBig 200000#32 src)))
        (broadcastInDim S4000000x10 ![0, 1] bcast_S4000000x1_S4000000x10_0_1
          (broadcastInDim S4000000x1 ![0] bcast_S4000000_S4000000x1_0 w))))
    (broadcastInDim S200000x10 ![0, 1] bcast_S200000x1_S200000x10_0_1
      (broadcastInDim S200000x1 ![0] bcast_S200000_S200000x1_0 (normBig dst)))

/-- The aggregation over 400,000 edges from the 20,000-node side into a 200,000-node side. -/
def gcSoc (x : FA S20000x10) (src dst : IA S400000) (w : FA S400000) : FA S200000x10 :=
  mulf
    (Host.scatterAdd (F := Ideal) scatter_S200000x10_S400000x1_S400000x10_1_0_0_1
      (broadcastInDim S200000x10 ![] bcast_S_S200000x10 (constant (F := Ideal) S_ .f32 0x00000000#32))
      (broadcastInDim S400000x1 ![0] bcast_S400000_S400000x1_0 dst)
      (mulf
        (Host.gather gather_S20000x10_S400000x1_S400000x10_1_0_n_n_0_1_110
          (mulf x (broadcastInDim S20000x10 ![0, 1] bcast_S20000x1_S20000x10_0_1
            (broadcastInDim S20000x1 ![0] bcast_S20000_S20000x1_0 (normSocSrc src))))
          (broadcastInDim S400000x1 ![0] bcast_S400000_S400000x1_0 (wrapSoc 20000#32 src)))
        (broadcastInDim S400000x10 ![0, 1] bcast_S400000x1_S400000x10_0_1
          (broadcastInDim S400000x1 ![0] bcast_S400000_S400000x1_0 w))))
    (broadcastInDim S200000x10 ![0, 1] bcast_S200000x1_S200000x10_0_1
      (broadcastInDim S200000x1 ![0] bcast_S200000_S200000x1_0 (normSocDst dst)))

/-- The scalar zero spread over [200000, 10]. -/
abbrev zeroBig : FA S200000x10 := broadcastInDim S200000x10 ![] bcast_S_S200000x10 (constant (F := Ideal) S_ .f32 0x00000000#32)

/-- The dense layer max (x · W + b, 0) of the 200,000 × 6 features. -/
def lin6 (x : FA S200000x6) (W : FA S6x10) (b : FA S10) : FA S200000x10 :=
  maximumf (addf (Host.dotGeneral (F := Ideal) dot_S200000x6_S6x10_S200000x10_1_0_0_1_n_n none x W)
      (broadcastInDim S200000x10 ![0, 1] bcast_S1x10_S200000x10_0_1 (broadcastInDim S1x10 ![1] bcast_S10_S1x10_1 b)))
    zeroBig

/-- The same of the 20,000 × 6 features. -/
def lin6s (x : FA S20000x6) (W : FA S6x10) (b : FA S10) : FA S20000x10 :=
  maximumf (addf (Host.dotGeneral (F := Ideal) dot_S20000x6_S6x10_S20000x10_1_0_0_1_n_n none x W)
      (broadcastInDim S20000x10 ![0, 1] bcast_S1x10_S20000x10_0_1 (broadcastInDim S1x10 ![1] bcast_S10_S1x10_1 b)))
    (broadcastInDim S20000x10 ![] bcast_S_S20000x10 (constant (F := Ideal) S_ .f32 0x00000000#32))

/-- The affine layer x · W + b on 200,000 × 10 features. -/
def aff10 (x : FA S200000x10) (W : FA S10x10) (b : FA S10) : FA S200000x10 :=
  addf (Host.dotGeneral (F := Ideal) dot_S200000x10_S10x10_S200000x10_1_0_0_1_n_n none x W)
    (broadcastInDim S200000x10 ![0, 1] bcast_S1x10_S200000x10_0_1 (broadcastInDim S1x10 ![1] bcast_S10_S1x10_1 b))

/-- The dense layer max (x · W + b, 0) on 200,000 × 10 features. -/
def lin10 (x : FA S200000x10) (W : FA S10x10) (b : FA S10) : FA S200000x10 := maximumf (aff10 x W b) zeroBig

/-- The readout: the mean over the rows of y · O3 + b3. -/
def readout (y : FA S200000x10) (O3 : FA S10x1) (b3 : FA S1) : FA S1x1 :=
  Host.divf (F := Ideal)
    (broadcastInDim S1x1 ![1] bcast_S1_S1x1_1
      (Host.reduceAdd (F := Ideal)
        (addf (Host.dotGeneral (F := Ideal) dot_S200000x10_S10x1_S200000x1_1_0_0_1_n_n none y O3)
          (broadcastInDim S200000x1 ![0, 1] bcast_S1x1_S200000x1_0_1 (broadcastInDim S1x1 ![1] bcast_S1_S1x1_1 b3)))
        (constant (F := Ideal) S_ .f32 0x00000000#32) reducesTo_S200000x1_S1_d0 h_S_))
    (broadcastInDim S1x1 ![] bcast_S_S1x1 (constant (F := Ideal) S_ .f32 0x48435000#32))

/-- The hidden state of the 200,000-node side after the first round: both relations' layers added, then the maximum with zero. -/
def hcon (a0 : FA S200000x6) (a1 : FA S20000x6) (a3 a4 : IA S4000000) (a7 a8 : IA S400000) (a9 : FA S4000000) (a11 : FA S400000)
    (a12 : FA S6x10) (a13 : FA S10) (a14 : FA S6x10) (a15 : FA S10) (a20 : FA S10x10) (a21 : FA S10) : FA S200000x10 :=
  maximumf (addf (aff10 (gcBig (lin6 a0 a12 a13) a3 a4 a9) a20 a21) (aff10 (gcSoc (lin6s a1 a14 a15) a7 a8 a11) a20 a21)) zeroBig

/-- The reference's result as a function of its argument arrays. -/
def refVal (a0 : FA S200000x6) (a1 : FA S20000x6) (a3 a4 a5 a6 : IA S4000000) (a7 a8 : IA S400000) (a9 a10 : FA S4000000) (a11 : FA S400000)
    (a12 : FA S6x10) (a13 : FA S10) (a14 : FA S6x10) (a15 : FA S10) (a20 : FA S10x10) (a21 : FA S10) (a22 : FA S10x10) (a23 : FA S10)
    (a24 : FA S10x10) (a25 : FA S10) (a26 : FA S10x1) (a27 : FA S1) : FA S1x1 :=
  readout (lin10 (lin10 (lin10 (gcBig (hcon a0 a1 a3 a4 a7 a8 a9 a11 a12 a13 a14 a15 a20 a21) a5 a6 a10) a20 a21) a22 a23) a24 a25) a26 a27

end Cert.ReferenceIdeal.Spec

end
-- ==== Proof.LibHostRead.lean ====
/-
  Reading a buffer after a stretch of host operations, some of them from outlined functions.

  The contents of a device's buffers after a list of host operations are a fold over the list (`StableHlo.after`): each
  operation replaces its result buffer by its function of its operands' contents and leaves every other buffer. Read at one
  buffer, the fold is that buffer's composed term of the contents before the list.

  An outlined function's operations (a `where`, a `relu`) name their buffers through typed references, and what such an
  operation reads or writes is moved between the value's type and the buffer's own type by a transport along an equation
  between the two types. For a typed reference to a literal buffer that equation holds by computation, so the transport is
  the identity: `toBuf_of` and `ofBuf_of`, by reflexivity, for any signature and any type of values. Rewriting with them
  removes every transport from a composed term. That matters for what comes next: an equation between two composed terms
  with the same operations at the same places is decided argument by argument, but a transport at the head of one side
  hides that, and the comparison then opens `select`, the float comparison or `maximumf` down to their elementwise
  definitions and from there the host's scatter and gather over their whole index ranges.

  `read_results` does the reading: one simp pass over the fold; then, for results the pass leaves standing inside a list
  of operands (the pieces of a `concatenate`), the same two rules by rewriting in place until none applies; then the
  transports. What is left is an equation between terms of the PureOps operations over the contents before the list.
-/
import Idealize.ShloMosaic.Lib.StableHlo.Run

namespace Cert.HostRead

open Idealize.ShloMosaic Idealize.ShloMosaic.StableHlo

variable {sig : RefSig} {Val : EltTy → Type}

/-- Contents moved to a literal buffer's own type are themselves. -/
theorem toBuf_of (r : Ref sig .tc) (h1 : r.ty = r.ty) (h2 : r.space ≠ .host) (h3 : r.isScoped = false)
    (v : r.ty.Contents Val) : (TRef.of r h1 h2 h3 : TRef sig r.ty).toBuf v = v := rfl

/-- Contents moved back from a literal buffer's own type are themselves. -/
theorem ofBuf_of (r : Ref sig .tc) (h1 : r.ty = r.ty) (h2 : r.space ≠ .host) (h3 : r.isScoped = false)
    (v : r.ty.Contents Val) : (TRef.of r h1 h2 h3 : TRef sig r.ty).ofBuf v = v := rfl

/-- Reads a goal `after ops V (Proc.devRef .tc r) = …`, `ops` a literal list of operations over literal buffers, as the
    operations' composed term of `V` at the buffers the list does not write. -/
macro "read_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))
             repeat (first | rw [toBuf_of] | rw [ofBuf_of])))

end Cert.HostRead
-- ==== Proof.Ref.Windows.lean ====
/-
  The reference's 412 host operations cut into six consecutive stretches, and the fold over the whole list as the folds
  over the stretches one after the other: the two input layers; a first round into the 200,000-node side whose result
  nothing reads; the round that is read; a round back whose result nothing reads; the round back that is read; the
  perceptron and the mean readout.
-/
import proofs.«125994_j2843268349979_1_alg».proof.Proof.RefOps
import proofs.«125994_j2843268349979_1_alg».proof.Proof.Ref.Spec
import proofs.«125994_j2843268349979_1_alg».proof.Proof.LibHostRead
import Idealize.ShloMosaic.Lib.StableHlo.Run

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

/-- The fold over a concatenation is the fold over the second list of the fold over the first. -/
theorem after_append (l1 l2 : List (HloOp τ sig (Elt Ideal))) (V : Valuation τ sig (Elt Ideal)) :
    after (l1 ++ l2) V = after l2 (after l1 V) := by
  induction l1 generalizing V with
  | nil => rfl
  | cons a l ih => exact ih _

abbrev opsI : List (HloOp τ sig (Elt Ideal)) := ops (F := Ideal)
/-- Operations 0–13: the two input layers. -/
abbrev wA : List (HloOp τ sig (Elt Ideal)) := opsI.take 14
abbrev rA : List (HloOp τ sig (Elt Ideal)) := opsI.drop 14
/-- Operations 14–137: a round into the 200,000-node side that nothing reads. -/
abbrev wB : List (HloOp τ sig (Elt Ideal)) := rA.take 124
abbrev rB : List (HloOp τ sig (Elt Ideal)) := rA.drop 124
/-- Operations 138–261: the round into the 200,000-node side. -/
abbrev wC : List (HloOp τ sig (Elt Ideal)) := rB.take 124
abbrev rC : List (HloOp τ sig (Elt Ideal)) := rB.drop 124
/-- Operations 262–324: a round back that nothing reads. -/
abbrev wD : List (HloOp τ sig (Elt Ideal)) := rC.take 63
abbrev rD : List (HloOp τ sig (Elt Ideal)) := rC.drop 63
/-- Operations 325–387: the round back. -/
abbrev wE : List (HloOp τ sig (Elt Ideal)) := rD.take 63
/-- Operations 388–411: the perceptron and the readout. -/
abbrev wF : List (HloOp τ sig (Elt Ideal)) := rD.drop 63

theorem ops_split : opsI = wA ++ (wB ++ (wC ++ (wD ++ (wE ++ wF)))) := by
  simp only [wA, wB, wC, wD, wE, wF, rA, rB, rC, rD, List.take_append_drop]

/-- The whole fold as the six folds in order. -/
theorem after_ops (V : Valuation τ sig (Elt Ideal)) :
    after opsI V = after wF (after wE (after wD (after wC (after wB (after wA V))))) := by
  conv_lhs => rw [ops_split]
  simp only [after_append]

end Cert.ReferenceIdeal.RunH

end
-- ==== Proof.Ref.WinA.lean ====
/-
  The first stretch of the reference: the two input layers, read at their result buffers; no argument is written.
-/
import proofs.«125994_j2843268349979_1_alg».proof.Proof.Ref.Windows
import proofs.«125994_j2843268349979_1_alg».proof.Proof.Ref.Keeps

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

open Cert.HostRead

variable (W : Valuation τ sig (Elt Ideal))

set_option maxHeartbeats 4000000 in
theorem readA4 : @Eq (FVec Ideal S200000x10 .f32) (after wA W (Proc.devRef .tc main_v4))
    (lin6 (W (Proc.devRef .tc main_arg0)) (W (Proc.devRef .tc main_arg12)) (W (Proc.devRef .tc main_arg13))) := by
  simp only [wA, opsI, ops, List.drop_succ_cons, List.drop_zero, List.take_succ_cons, List.take_zero]
  read_results
  rfl

set_option maxHeartbeats 4000000 in
theorem readA9 : @Eq (FVec Ideal S20000x10 .f32) (after wA W (Proc.devRef .tc main_v9))
    (lin6s (W (Proc.devRef .tc main_arg1)) (W (Proc.devRef .tc main_arg14)) (W (Proc.devRef .tc main_arg15))) := by
  simp only [wA, opsI, ops, List.drop_succ_cons, List.drop_zero, List.take_succ_cons, List.take_zero]
  read_results
  rfl

set_option maxHeartbeats 4000000 in
theorem keepA_args (b : Ref sig .tc) (hb : b.idx.val < 28) : after wA W (Proc.devRef .tc b) = W (Proc.devRef .tc b) := by
  refine after_of_forall_not_mem _ _ (List.forall_iff_forall_mem.mp ?_)
  simp only [wA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (ne_of_idx_lt hb (by decide))

end Cert.ReferenceIdeal.RunH

end
-- ==== Proof.Ref.WinB.lean ====
/-
  The second stretch of the reference (a round whose result nothing reads): it writes neither input layer's buffer nor an argument.
-/
import proofs.«125994_j2843268349979_1_alg».proof.Proof.Ref.Windows
import proofs.«125994_j2843268349979_1_alg».proof.Proof.Ref.Keeps

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

open Cert.HostRead

variable (W : Valuation τ sig (Elt Ideal))

set_option maxHeartbeats 4000000 in
theorem keepB_v4 : after wB W (Proc.devRef .tc main_v4) = W (Proc.devRef .tc main_v4) := by
  refine after_of_forall_not_mem _ _ (List.forall_iff_forall_mem.mp ?_)
  simp only [wB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (by decide)

set_option maxHeartbeats 4000000 in
theorem keepB_v9 : after wB W (Proc.devRef .tc main_v9) = W (Proc.devRef .tc main_v9) := by
  refine after_of_forall_not_mem _ _ (List.forall_iff_forall_mem.mp ?_)
  simp only [wB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (by decide)

set_option maxHeartbeats 4000000 in
theorem keepB_args (b : Ref sig .tc) (hb : b.idx.val < 28) : after wB W (Proc.devRef .tc b) = W (Proc.devRef .tc b) := by
  refine after_of_forall_not_mem _ _ (List.forall_iff_forall_mem.mp ?_)
  simp only [wB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (ne_of_idx_lt hb (by decide))

end Cert.ReferenceIdeal.RunH

end
-- ==== Proof.Ref.WinC.lean ====
/-
  The third stretch of the reference: the round into the 200,000-node side, read at its result buffer — both relations' aggregations through their affine layers, added, then the maximum with zero.
-/
import proofs.«125994_j2843268349979_1_alg».proof.Proof.Ref.Windows
import proofs.«125994_j2843268349979_1_alg».proof.Proof.Ref.Keeps

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

open Cert.HostRead

variable (W : Valuation τ sig (Elt Ideal))

set_option maxHeartbeats 8000000 in
theorem readC : @Eq (FVec Ideal S200000x10 .f32) (after wC W (Proc.devRef .tc main_v201))
    (maximumf (addf (aff10 (gcBig (W (Proc.devRef .tc main_v4)) (W (Proc.devRef .tc main_arg3)) (W (Proc.devRef .tc main_arg4)) (W (Proc.devRef .tc main_arg9))) (W (Proc.devRef .tc main_arg20)) (W (Proc.devRef .tc main_arg21)))
        (aff10 (gcSoc (W (Proc.devRef .tc main_v9)) (W (Proc.devRef .tc main_arg7)) (W (Proc.devRef .tc main_arg8)) (W (Proc.devRef .tc main_arg11))) (W (Proc.devRef .tc main_arg20)) (W (Proc.devRef .tc main_arg21)))) zeroBig) := by
  simp only [wC, rB, rA, opsI, ops, List.drop_succ_cons, List.drop_zero, List.take_succ_cons, List.take_zero]
  read_results
  rfl

set_option maxHeartbeats 4000000 in
theorem keepC_args (b : Ref sig .tc) (hb : b.idx.val < 28) : after wC W (Proc.devRef .tc b) = W (Proc.devRef .tc b) := by
  refine after_of_forall_not_mem _ _ (List.forall_iff_forall_mem.mp ?_)
  simp only [wC, rB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (ne_of_idx_lt hb (by decide))

end Cert.ReferenceIdeal.RunH

end
-- ==== Proof.Ref.WinD.lean ====
/-
  The fourth stretch of the reference (a round back whose result nothing reads): it writes neither the 200,000-node side's hidden state nor an argument.
-/
import proofs.«125994_j2843268349979_1_alg».proof.Proof.Ref.Windows
import proofs.«125994_j2843268349979_1_alg».proof.Proof.Ref.Keeps

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

open Cert.HostRead

variable (W : Valuation τ sig (Elt Ideal))

set_option maxHeartbeats 4000000 in
theorem keepD_v201 : after wD W (Proc.devRef .tc main_v201) = W (Proc.devRef .tc main_v201) := by
  refine after_of_forall_not_mem _ _ (List.forall_iff_forall_mem.mp ?_)
  simp only [wD, rC, rB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (by decide)

set_option maxHeartbeats 4000000 in
theorem keepD_args (b : Ref sig .tc) (hb : b.idx.val < 28) : after wD W (Proc.devRef .tc b) = W (Proc.devRef .tc b) := by
  refine after_of_forall_not_mem _ _ (List.forall_iff_forall_mem.mp ?_)
  simp only [wD, rC, rB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (ne_of_idx_lt hb (by decide))

end Cert.ReferenceIdeal.RunH

end
-- ==== Proof.Ref.WinE.lean ====
/-
  The fifth stretch of the reference: the round back, read at its result buffer.
-/
import proofs.«125994_j2843268349979_1_alg».proof.Proof.Ref.Windows
import proofs.«125994_j2843268349979_1_alg».proof.Proof.Ref.Keeps

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

open Cert.HostRead

variable (W : Valuation τ sig (Elt Ideal))

set_option maxHeartbeats 8000000 in
theorem readE : @Eq (FVec Ideal S200000x10 .f32) (after wE W (Proc.devRef .tc main_v297))
    (lin10 (gcBig (W (Proc.devRef .tc main_v201)) (W (Proc.devRef .tc main_arg5)) (W (Proc.devRef .tc main_arg6)) (W (Proc.devRef .tc main_arg10))) (W (Proc.devRef .tc main_arg20)) (W (Proc.devRef .tc main_arg21))) := by
  simp only [wE, rD, rC, rB, rA, opsI, ops, List.drop_succ_cons, List.drop_zero, List.take_succ_cons, List.take_zero]
  read_results
  rfl

set_option maxHeartbeats 4000000 in
theorem keepE_args (b : Ref sig .tc) (hb : b.idx.val < 28) : after wE W (Proc.devRef .tc b) = W (Proc.devRef .tc b) := by
  refine after_of_forall_not_mem _ _ (List.forall_iff_forall_mem.mp ?_)
  simp only [wE, rD, rC, rB, rA, opsI, ops, List.drop_succ_cons, List.drop_zero, List.take_succ_cons, List.take_zero, List.Forall, nullary_writes, unary_writes, binary_writes, ternary_writes, quaternary_writes, reshape_writes, binaryIndexed_writes, Finset.mem_singleton]
  repeat' apply And.intro
  all_goals exact devRef_ne_of_ne (ne_of_idx_lt hb (by decide))

end Cert.ReferenceIdeal.RunH

end
-- ==== Proof.Ref.WinF.lean ====
/-
  The last stretch of the reference: the perceptron and the mean readout, read at the result buffer.
-/
import proofs.«125994_j2843268349979_1_alg».proof.Proof.Ref.Windows
import proofs.«125994_j2843268349979_1_alg».proof.Proof.Ref.Keeps

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

open Cert.HostRead

variable (W : Valuation τ sig (Elt Ideal))

set_option maxHeartbeats 8000000 in
theorem readF : @Eq (FVec Ideal S1x1 .f32) (after wF W (Proc.devRef .tc main_v315))
    (readout (lin10 (lin10 (W (Proc.devRef .tc main_v297)) (W (Proc.devRef .tc main_arg22)) (W (Proc.devRef .tc main_arg23))) (W (Proc.devRef .tc main_arg24)) (W (Proc.devRef .tc main_arg25))) (W (Proc.devRef .tc main_arg26)) (W (Proc.devRef .tc main_arg27))) := by
  simp only [wF, rD, rC, rB, rA, opsI, ops, List.drop_succ_cons, List.drop_zero, List.take_succ_cons, List.take_zero]
  read_results
  rfl

end Cert.ReferenceIdeal.RunH

end
-- ==== Proof.Ref.Result.lean ====
/-
  The fold of the reference's host operations, read at the result buffer, is the specification's composition of the launch
  contents of the arguments: the six stretches read one after the other — each result a named piece of what the stretches
  before it left, each argument still at its launch contents.
-/
import proofs.«125994_j2843268349979_1_alg».proof.Proof.Ref.WinA
import proofs.«125994_j2843268349979_1_alg».proof.Proof.Ref.WinB
import proofs.«125994_j2843268349979_1_alg».proof.Proof.Ref.WinC
import proofs.«125994_j2843268349979_1_alg».proof.Proof.Ref.WinD
import proofs.«125994_j2843268349979_1_alg».proof.Proof.Ref.WinE
import proofs.«125994_j2843268349979_1_alg».proof.Proof.Ref.WinF

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

set_option maxHeartbeats 4000000 in
theorem ops_result (m : (ℓ : Loc nD τ sig) → Buf (Elt Ideal) ℓ) (c : Dev nD) :
    after (ops (F := Ideal)) (launchContents m c) (Proc.devRef .tc main_v315)
      = refVal (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg20)) (m ((c.tc : Thread nD τ).loc main_arg21))
          (m ((c.tc : Thread nD τ).loc main_arg22)) (m ((c.tc : Thread nD τ).loc main_arg23)) (m ((c.tc : Thread nD τ).loc main_arg24))
          (m ((c.tc : Thread nD τ).loc main_arg25)) (m ((c.tc : Thread nD τ).loc main_arg26)) (m ((c.tc : Thread nD τ).loc main_arg27)) := by
  have hsplit := after_ops (launchContents m c)
  -- the contents after each stretch
  generalize hV0 : launchContents m c = V0 at hsplit
  generalize hV1 : after wA V0 = V1 at hsplit
  generalize hV2 : after wB V1 = V2 at hsplit
  generalize hV3 : after wC V2 = V3 at hsplit
  generalize hV4 : after wD V3 = V4 at hsplit
  generalize hV5 : after wE V4 = V5 at hsplit
  -- an argument is at its launch contents throughout
  have a1 (b : Ref sig .tc) (hb : b.idx.val < 28) : V1 (Proc.devRef .tc b) = V0 (Proc.devRef .tc b) := by rw [← hV1]; exact keepA_args V0 b hb
  have a2 (b : Ref sig .tc) (hb : b.idx.val < 28) : V2 (Proc.devRef .tc b) = V0 (Proc.devRef .tc b) := by rw [← hV2]; exact (keepB_args V1 b hb).trans (a1 b hb)
  have a3 (b : Ref sig .tc) (hb : b.idx.val < 28) : V3 (Proc.devRef .tc b) = V0 (Proc.devRef .tc b) := by rw [← hV3]; exact (keepC_args V2 b hb).trans (a2 b hb)
  have a4 (b : Ref sig .tc) (hb : b.idx.val < 28) : V4 (Proc.devRef .tc b) = V0 (Proc.devRef .tc b) := by rw [← hV4]; exact (keepD_args V3 b hb).trans (a3 b hb)
  have a5 (b : Ref sig .tc) (hb : b.idx.val < 28) : V5 (Proc.devRef .tc b) = V0 (Proc.devRef .tc b) := by rw [← hV5]; exact (keepE_args V4 b hb).trans (a4 b hb)
  -- the input layers, still in their buffers when the third stretch reads them
  have e4 : V2 (Proc.devRef .tc main_v4) = lin6 (V0 (Proc.devRef .tc main_arg0)) (V0 (Proc.devRef .tc main_arg12)) (V0 (Proc.devRef .tc main_arg13)) := by
    rw [← hV2, ← hV1]; exact (keepB_v4 _).trans (readA4 V0)
  have e9 : V2 (Proc.devRef .tc main_v9) = lin6s (V0 (Proc.devRef .tc main_arg1)) (V0 (Proc.devRef .tc main_arg14)) (V0 (Proc.devRef .tc main_arg15)) := by
    rw [← hV2, ← hV1]; exact (keepB_v9 _).trans (readA9 V0)
  -- the hidden state of the 200,000-node side
  have e201 : V4 (Proc.devRef .tc main_v201) = hcon (V0 (Proc.devRef .tc main_arg0)) (V0 (Proc.devRef .tc main_arg1)) (V0 (Proc.devRef .tc main_arg3)) (V0 (Proc.devRef .tc main_arg4))
      (V0 (Proc.devRef .tc main_arg7)) (V0 (Proc.devRef .tc main_arg8)) (V0 (Proc.devRef .tc main_arg9)) (V0 (Proc.devRef .tc main_arg11))
      (V0 (Proc.devRef .tc main_arg12)) (V0 (Proc.devRef .tc main_arg13)) (V0 (Proc.devRef .tc main_arg14)) (V0 (Proc.devRef .tc main_arg15))
      (V0 (Proc.devRef .tc main_arg20)) (V0 (Proc.devRef .tc main_arg21)) := by
    rw [← hV4, ← hV3]
    refine (keepD_v201 _).trans ((readC V2).trans ?_)
    rw [e4, e9, a2 main_arg3 (by decide), a2 main_arg4 (by decide), a2 main_arg9 (by decide), a2 main_arg7 (by decide), a2 main_arg8 (by decide),
      a2 main_arg11 (by decide), a2 main_arg20 (by decide), a2 main_arg21 (by decide)]
    rfl
  -- the hidden state of the other side
  have e297 : V5 (Proc.devRef .tc main_v297) = lin10 (gcBig (V4 (Proc.devRef .tc main_v201)) (V0 (Proc.devRef .tc main_arg5)) (V0 (Proc.devRef .tc main_arg6)) (V0 (Proc.devRef .tc main_arg10)))
      (V0 (Proc.devRef .tc main_arg20)) (V0 (Proc.devRef .tc main_arg21)) := by
    rw [← hV5]
    refine (readE V4).trans ?_
    rw [a4 main_arg5 (by decide), a4 main_arg6 (by decide), a4 main_arg10 (by decide), a4 main_arg20 (by decide), a4 main_arg21 (by decide)]
  -- the readout
  refine (congrFun hsplit (Proc.devRef .tc main_v315)).trans ((readF V5).trans ?_)
  rw [e297, e201, a5 main_arg22 (by decide), a5 main_arg23 (by decide), a5 main_arg24 (by decide), a5 main_arg25 (by decide), a5 main_arg26 (by decide),
    a5 main_arg27 (by decide)]
  subst hV0
  rfl

end Cert.ReferenceIdeal.RunH

end
-- ==== Proof.Ref.Run.lean ====
/-
  The reference program's run at the extended reals: it terminates without a fault, its argument arrays end as
  launched, and its result array ends at the specification's composition of its argument arrays. The program is a list of
  host operations, so after its run each buffer holds the fold of the operations' results over the launch memory.
-/
import proofs.«125994_j2843268349979_1_alg».proof.Proof.Ref.Keeps
import proofs.«125994_j2843268349979_1_alg».proof.Proof.Ref.Result

set_option maxRecDepth 16384

noncomputable section

namespace Cert.ReferenceIdeal.RunH

open Cert.ReferenceIdeal Cert.ReferenceIdeal.Gen Cert.ReferenceIdeal.Spec Cert.ReferenceIdeal.ValueP
open Idealize.ShloMosaic Idealize.ShloMosaic.TcCoe Idealize.SL.Sem Idealize.ShloMosaic.StableHlo

set_option maxHeartbeats 40000000 in
/-- No operation allocates a buffer. -/
theorem ops_fresh : (ops : List (HloOp τ sig (Elt Ideal))).Forall fun op => op.fresh = ∅ := by
  simp only [ops, List.Forall]; repeat' constructor

/-- Every weakly fair execution of the reference terminates, nothing faulting, with its result at the specification's
    value of the arguments and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v315)
        = refVal (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg20)) (m ((c.tc : Thread nD τ).loc main_arg21))
          (m ((c.tc : Thread nD τ).loc main_arg22)) (m ((c.tc : Thread nD τ).loc main_arg23)) (m ((c.tc : Thread nD τ).loc main_arg24))
          (m ((c.tc : Thread nD τ).loc main_arg25)) (m ((c.tc : Thread nD τ).loc main_arg26)) (m ((c.tc : Thread nD τ).loc main_arg27))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27) :=
  (θ_run defs _ _).mono (fun _ h c => ⟨(h c main_v315).trans (ops_result m c),
      (h c main_arg0).trans (ops_keeps _ main_arg0 (by decide)),
      (h c main_arg1).trans (ops_keeps _ main_arg1 (by decide)),
      (h c main_arg2).trans (ops_keeps _ main_arg2 (by decide)),
      (h c main_arg3).trans (ops_keeps _ main_arg3 (by decide)),
      (h c main_arg4).trans (ops_keeps _ main_arg4 (by decide)),
      (h c main_arg5).trans (ops_keeps _ main_arg5 (by decide)),
      (h c main_arg6).trans (ops_keeps _ main_arg6 (by decide)),
      (h c main_arg7).trans (ops_keeps _ main_arg7 (by decide)),
      (h c main_arg8).trans (ops_keeps _ main_arg8 (by decide)),
      (h c main_arg9).trans (ops_keeps _ main_arg9 (by decide)),
      (h c main_arg10).trans (ops_keeps _ main_arg10 (by decide)),
      (h c main_arg11).trans (ops_keeps _ main_arg11 (by decide)),
      (h c main_arg12).trans (ops_keeps _ main_arg12 (by decide)),
      (h c main_arg13).trans (ops_keeps _ main_arg13 (by decide)),
      (h c main_arg14).trans (ops_keeps _ main_arg14 (by decide)),
      (h c main_arg15).trans (ops_keeps _ main_arg15 (by decide)),
      (h c main_arg16).trans (ops_keeps _ main_arg16 (by decide)),
      (h c main_arg17).trans (ops_keeps _ main_arg17 (by decide)),
      (h c main_arg18).trans (ops_keeps _ main_arg18 (by decide)),
      (h c main_arg19).trans (ops_keeps _ main_arg19 (by decide)),
      (h c main_arg20).trans (ops_keeps _ main_arg20 (by decide)),
      (h c main_arg21).trans (ops_keeps _ main_arg21 (by decide)),
      (h c main_arg22).trans (ops_keeps _ main_arg22 (by decide)),
      (h c main_arg23).trans (ops_keeps _ main_arg23 (by decide)),
      (h c main_arg24).trans (ops_keeps _ main_arg24 (by decide)),
      (h c main_arg25).trans (ops_keeps _ main_arg25 (by decide)),
      (h c main_arg26).trans (ops_keeps _ main_arg26 (by decide)),
      (h c main_arg27).trans (ops_keeps _ main_arg27 (by decide))⟩)
    (run_seq scopedRefs_eq scopedSems_eq defs main (fun _ => ops) main_eq (fun _ => ops_sub) m ρ
      (fun _ op h => (List.forall_iff_forall_mem.mp ops_fresh) op h))

end Cert.ReferenceIdeal.RunH

end
-- ==== Proof.LibHostLin.lean ====
/-
  The host's dense layer, read at an entry.

  On the extended reals the host computes a dense layer of an [N, K] array x as max (x · W + b, 0): a product of plain
  dimension numbers, the bias vector b : [C] spread first to a row [1, C] and then over the N rows, and the maximum with
  the zero scalar spread over [N, C]. At the entry (p, q) that is max ((∑ k, x (p, k) · W (k, q)) + b q) 0; without the
  maximum, (∑ k, x (p, k) · W (k, q)) + b q. A bias vector reshaped to a row has entry (0, q) equal to entry q. The
  extents are arbitrary.
-/
import Idealize.ShloMosaic.Lib.ValueLayout
import Idealize.ShloMosaic.Lib.Pipeline.Value
import proofs.«125994_j2843268349979_1_alg».proof.Proof.LibPlainDot

noncomputable section

namespace HostLin

open Idealize.ShloMosaic Idealize.ShloMosaic.ValueIdx
open scoped BigOperators

variable {α : Type}

/-- A vector spread to a row and then over N rows: entry (p, q) is entry q. -/
theorem bias_bcast_apply {N C : Nat}
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (b : (⟨1, ![C]⟩ : Shape).Idx → α) (p : Fin N) (q : Fin C) :
    broadcastInDim ⟨2, ![N, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
    match a with
    | ⟨0, _⟩ => simp [ix2]
    | ⟨1, _⟩ =>
      show q.val = if C = 1 then 0 else q.val
      split_ifs with hC
      · subst hC; omega
      · rfl)]
  rw [broadcastInDim_apply ![1] h1 b (ix2 (0 : Fin 1) q) (ix1 q) (fun a => by
    match a with
    | ⟨0, _⟩ =>
      show q.val = if C = 1 then 0 else q.val
      split_ifs with hC
      · subst hC; omega
      · rfl)]

/-- A scalar spread over a shape is that scalar at every index. -/
theorem scalar_bcast_apply {t : Shape} (h : (⟨0, ![]⟩ : Shape).BroadcastsInDim t (![] : Fin 0 → Fin t.rank))
    (y : (⟨0, ![]⟩ : Shape).Idx → α) (i : t.Idx) : broadcastInDim t ![] h y i = y ix0 :=
  broadcastInDim_apply ![] h y i ix0 (fun a => a.elim0)

/-- A vector reshaped to a row: entry (0, q) is entry q. -/
theorem row_apply {C : Nat} (h : (⟨1, ![C]⟩ : Shape).ShapeCasts ⟨2, ![1, C]⟩) (b : (⟨1, ![C]⟩ : Shape).Idx → α) (q : Fin C) :
    shapeCast ⟨2, ![1, C]⟩ b h (ix2 (0 : Fin 1) q) = b (ix1 q) :=
  shapeCast_a_1a_apply b h 0 q

/-- The host's affine layer x · W + b at (p, q). -/
theorem affine_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (x : FVec Ideal ⟨2, ![N, K]⟩ .f32) (W : FVec Ideal ⟨2, ![K, C]⟩ .f32) (b : FVec Ideal ⟨1, ![C]⟩ .f32) (p : Fin N) (q : Fin C) :
    addf (Host.dotGeneral d none x W) (broadcastInDim ⟨2, ![N, C]⟩ ![0, 1] h2 (broadcastInDim ⟨2, ![1, C]⟩ ![1] h1 b)) (ix2 p q)
      = (∑ k : Fin K, x (ix2 p k) * W (ix2 k q)) + b (ix1 q) := by
  subst hd
  rw [addf_apply, bias_bcast_apply]
  exact congrArg (· + b (ix1 q)) (Cert.PlainDot.dotGeneral_apply none .single x W p q)

/-- The host's dense layer max (x · W + b, 0) at (p, q). -/
theorem relu_apply {N K C : Nat} (d : DotDims ⟨2, ![N, K]⟩ ⟨2, ![K, C]⟩ ⟨2, ![N, C]⟩) (hd : d = DotDims.plain N K C)
    (h1 : (⟨1, ![C]⟩ : Shape).BroadcastsInDim ⟨2, ![1, C]⟩ (![1] : Fin 1 → Fin 2))
    (h2 : (⟨2, ![1, C]⟩ : Shape).BroadcastsInDim ⟨2, ![N, C]⟩ (![0, 1] : Fin 2 → Fin 2))
    (h0 : (⟨0, ![]⟩ : Shape).BroadcastsInDim ⟨2, ![N, C]⟩ (![] : Fin 0 → Fin 2))
    (x : FVec Ideal ⟨2, ![N, K]⟩ .f32) (W : FVec Ideal ⟨2, ![K, C]⟩ .f32) (b : FVec Ideal ⟨1, ![C]⟩ .f32) (p : Fin N) (q : Fin C) :
    maximumf (addf (Host.dotGeneral d none x W) (broadcastInDim ⟨2, ![N, C]⟩ ![0, 1] h2 (broadcastInDim ⟨2, ![1, C]⟩ ![1] h1 b)))
        (broadcastInDim ⟨2, ![N, C]⟩ ![] h0 (constant (F := Ideal) ⟨0, ![]⟩ .f32 0x00000000#32)) (ix2 p q)
      = max ((∑ k : Fin K, x (ix2 p k) * W (ix2 k q)) + b (ix1 q)) 0 := by
  rw [maximumf_apply, affine_apply d hd h1 h2, scalar_bcast_apply, constant_apply]
  exact congrArg (max _) Ideal.ofBits_zero_f32

end HostLin

end
-- ==== Proof.LibHostMean.lean ====
/-
  The host's mean readout and a three-layer perceptron, read at an entry.

  On the extended reals the host's sum along axis 0 of an [N, 1] array, from an initial scalar, is at its one index the
  initial value plus the sum over the N rows of the entries (i, 0). The mean readout of y : [N, C] — the column
  y · O3 + b3 : [N, 1] summed along axis 0 from zero, spread to [1, 1] and divided by a scalar constant spread to
  [1, 1] — is therefore at its one entry  (∑ i, ((∑ k, y (i, k) · O3 (k, 0)) + b3 0)) / c . When y is the second of two
  dense layers max (· · O + b, 0) over an array h, each summand is the perceptron `Readout.mlp3` at row i, with the
  bias vectors reshaped to rows. The extents are arbitrary.
-/
import Idealize.ShloMosaic.PureOps.Ideal.Laws
import Idealize.ShloMosaic.Lib.ValueLayout
import Idealize.ShloMosaic.Lib.Pipeline.Value
import proofs.«125994_j2843268349979_1_alg».proof.Proof.LibPlainDot
import proofs.«125994_j2843268349979_1_alg».proof.Proof.LibHostLin
import proofs.«125994_j2843268349979_1_alg».proof.Proof.LibReadout

noncomputable section

namespace HostMean

open Idealize.ShloMosaic Idealize.ShloMosaic.ValueIdx
open scoped BigOperators

/-- Over a sum along axis 0 of an [N, 1] array, the source index over the one result index with row i inserted is (i, 0). -/
theorem lift_eq {N : Nat} (hr : (⟨2, ![N, 1]⟩ : Shape).Reduces [(0 : Fin 2)] ⟨1, ![1]⟩) (j : (⟨1, ![1]⟩ : Shape).Idx) (i : Fin N) :
    hr.lift j i = ix2 i (0 : Fin 1) := by
  funext c
  apply Fin.ext
  match c with
  | ⟨0, _⟩ => rfl
  | ⟨1, _⟩ =>
    show hr.liftVal j i.val (1 : Fin 2) = 0
    unfold Shape.Reduces.liftVal
    split
    · next hc => exact absurd hc Nat.one_ne_zero
    · split
      · next hlt => exact absurd hlt (Nat.not_lt_zero 1)
      · exact Nat.lt_one_iff.mp (j _).isLt

/-- The host's sum along axis 0 of an [N, 1] array at its one index: the initial value plus the sum of the N entries. -/
theorem colsum_apply {N : Nat} (hr' : (⟨2, ![N, 1]⟩ : Shape).ReducesTo [(0 : Fin 2)] ⟨1, ![1]⟩)
    (hr : (⟨2, ![N, 1]⟩ : Shape).Reduces [(0 : Fin 2)] ⟨1, ![1]⟩) (hu : 0 < (⟨0, ![]⟩ : Shape).numel)
    (x : FVec Ideal ⟨2, ![N, 1]⟩ .f32) (init : FVec Ideal ⟨0, ![]⟩ .f32) (j : (⟨1, ![1]⟩ : Shape).Idx) :
    Host.reduceAdd (F := Ideal) x init hr' hu j = init (Shape.Idx.first hu) + ∑ i : Fin N, x (ix2 i (0 : Fin 1)) := by
  refine (Ideal.hostReduceAdd_single hr' hr x (init (Shape.Idx.first hu)) j).trans ?_
  refine congrArg (init (Shape.Idx.first hu) + ·) ?_
  show ∑ i : Fin N, x (hr.lift j i) = ∑ i : Fin N, x (ix2 i (0 : Fin 1))
  exact Finset.sum_congr rfl fun i _ => congrArg x (lift_eq hr j i)

/-- A vector of one entry spread to [1, 1]: the entry. -/
theorem one_bcast_apply {α : Type} (h1 : (⟨1, ![1]⟩ : Shape).BroadcastsInDim ⟨2, ![1, 1]⟩ (![1] : Fin 1 → Fin 2))
    (v : (⟨1, ![1]⟩ : Shape).Idx → α) (j : (⟨2, ![1, 1]⟩ : Shape).Idx) :
    broadcastInDim ⟨2, ![1, 1]⟩ ![1] h1 v j = v (ix1 (0 : Fin 1)) :=
  broadcastInDim_apply ![1] h1 v j (ix1 (0 : Fin 1)) (fun a => by
    match a with
    | ⟨0, _⟩ => rfl)

/-- THE MEAN READOUT at its one entry: the sum over the rows of y · O3 + b3, divided by the constant. -/
theorem mean_apply {N C : Nat} (d : DotDims ⟨2, ![N, C]⟩ ⟨2, ![C, 1]⟩ ⟨2, ![N, 1]⟩) (hd : d = DotDims.plain N C 1)
    (h1 : (⟨1, ![1]⟩ : Shape).BroadcastsInDim ⟨2, ![1, 1]⟩ (![1] : Fin 1 → Fin 2))
    (h2 : (⟨2, ![1, 1]⟩ : Shape).BroadcastsInDim ⟨2, ![N, 1]⟩ (![0, 1] : Fin 2 → Fin 2))
    (h0 : (⟨0, ![]⟩ : Shape).BroadcastsInDim ⟨2, ![1, 1]⟩ (![] : Fin 0 → Fin 2))
    (hr' : (⟨2, ![N, 1]⟩ : Shape).ReducesTo [(0 : Fin 2)] ⟨1, ![1]⟩)
    (hr : (⟨2, ![N, 1]⟩ : Shape).Reduces [(0 : Fin 2)] ⟨1, ![1]⟩) (hu : 0 < (⟨0, ![]⟩ : Shape).numel)
    (nBits : BitVec 32) (y : FVec Ideal ⟨2, ![N, C]⟩ .f32) (O3 : FVec Ideal ⟨2, ![C, 1]⟩ .f32) (b3 : FVec Ideal ⟨1, ![1]⟩ .f32)
    (j : (⟨2, ![1, 1]⟩ : Shape).Idx) :
    Host.divf (F := Ideal)
        (broadcastInDim ⟨2, ![1, 1]⟩ ![1] h1
          (Host.reduceAdd (F := Ideal)
            (addf (Host.dotGeneral (F := Ideal) d none y O3)
              (broadcastInDim ⟨2, ![N, 1]⟩ ![0, 1] h2 (broadcastInDim ⟨2, ![1, 1]⟩ ![1] h1 b3)))
            (constant (F := Ideal) ⟨0, ![]⟩ .f32 0x00000000#32) hr' hu))
        (broadcastInDim ⟨2, ![1, 1]⟩ ![] h0 (constant (F := Ideal) ⟨0, ![]⟩ .f32 nBits)) j
      = Ideal.div (∑ i : Fin N, ((∑ k : Fin C, y (ix2 i k) * O3 (ix2 k (0 : Fin 1))) + b3 (ix1 (0 : Fin 1))))
          (Ideal.ofBits .f32 nBits) := by
  unfold Host.divf
  rw [Ideal.hostDivf_def, HostLin.scalar_bcast_apply, constant_apply, one_bcast_apply, colsum_apply hr' hr hu, constant_apply, Ideal.ofBits_zero_f32,
    zero_add]
  exact congrArg (fun s => Ideal.div s (Ideal.ofBits .f32 nBits))
    (Finset.sum_congr rfl fun i _ => HostLin.affine_apply d hd h1 h2 y O3 b3 i (0 : Fin 1))

/-- The readout's summand at row i, when y2 is the second of two dense layers over h, is the perceptron at row i with
    the bias vectors reshaped to rows. -/
theorem mlp3_of_layers {N A B C : Nat} (h : (⟨2, ![N, A]⟩ : Shape).Idx → EReal) (O1 : (⟨2, ![A, B]⟩ : Shape).Idx → EReal)
    (b1 : (⟨1, ![B]⟩ : Shape).Idx → EReal) (O2 : (⟨2, ![B, C]⟩ : Shape).Idx → EReal) (b2 : (⟨1, ![C]⟩ : Shape).Idx → EReal)
    (O3 : (⟨2, ![C, 1]⟩ : Shape).Idx → EReal) (b3 : (⟨1, ![1]⟩ : Shape).Idx → EReal)
    (h1 : (⟨1, ![B]⟩ : Shape).ShapeCasts ⟨2, ![1, B]⟩) (h2 : (⟨1, ![C]⟩ : Shape).ShapeCasts ⟨2, ![1, C]⟩)
    (h3 : (⟨1, ![1]⟩ : Shape).ShapeCasts ⟨2, ![1, 1]⟩)
    (y1 : (⟨2, ![N, B]⟩ : Shape).Idx → EReal) (y2 : (⟨2, ![N, C]⟩ : Shape).Idx → EReal)
    (hy1 : ∀ (i : Fin N) (j : Fin B), y1 (ix2 i j) = max ((∑ l : Fin A, h (ix2 i l) * O1 (ix2 l j)) + b1 (ix1 j)) 0)
    (hy2 : ∀ (i : Fin N) (k : Fin C), y2 (ix2 i k) = max ((∑ j : Fin B, y1 (ix2 i j) * O2 (ix2 j k)) + b2 (ix1 k)) 0)
    (i : Fin N) :
    (∑ k : Fin C, y2 (ix2 i k) * O3 (ix2 k (0 : Fin 1))) + b3 (ix1 (0 : Fin 1))
      = Readout.mlp3 h O1 (shapeCast ⟨2, ![1, B]⟩ b1 h1) O2 (shapeCast ⟨2, ![1, C]⟩ b2 h2) O3 (shapeCast ⟨2, ![1, 1]⟩ b3 h3) i := by
  unfold Readout.mlp3
  rw [HostLin.row_apply h3 b3 (0 : Fin 1)]
  refine congrArg (· + b3 (ix1 (0 : Fin 1))) (Finset.sum_congr rfl fun k _ => ?_)
  rw [hy2 i k, HostLin.row_apply h2 b2 k]
  refine congrArg (fun s => max (s + b2 (ix1 k)) 0 * O3 (ix2 k (0 : Fin 1))) (Finset.sum_congr rfl fun j _ => ?_)
  rw [hy1 i j, HostLin.row_apply h1 b1 j]

end HostMean

end
-- ==== Proof.Ref.ReadoutVal.lean ====
/- The reference's readout at its one entry: the mean over the 200,000 rows of the three-layer perceptron applied to each
   row of the hidden state — the two dense layers max (· · O + b, 0), then · · O3 + b3 —, as the host computes it: the
   column summed along axis 0 from zero and divided by the f32 constant 200000. The bias vectors appear reshaped to rows,
   by any proofs of the reshapes. -/
import proofs.«125994_j2843268349979_1_alg».proof.Proof.Ref.Spec
import proofs.«125994_j2843268349979_1_alg».proof.Proof.LibHostLin
import proofs.«125994_j2843268349979_1_alg».proof.Proof.LibReadout
import proofs.«125994_j2843268349979_1_alg».proof.Proof.LibHostMean

noncomputable section

namespace Cert.ReferenceIdeal.Spec

open Idealize.ShloMosaic Idealize.ShloMosaic.ValueIdx Cert.ReferenceIdeal Cert.ReferenceIdeal.Gen
open scoped BigOperators

/-- The shape fact of the sum along axis 0 of a [200000, 1] array, in the form that names the inserted coordinate. -/
theorem reduces_S200000x1_S1 : S200000x1.Reduces [(0 : Fin 2)] S1 := by decide

/-- The dense layer on 200,000 × 10 features at an entry. -/
theorem lin10_apply (x : FA S200000x10) (W : FA S10x10) (b : FA S10) (i : Fin 200000) (j : Fin 10) :
    lin10 x W b (ix2 i j) = max ((∑ l : Fin 10, x (ix2 i l) * W (ix2 l j)) + b (ix1 j)) 0 :=
  HostLin.relu_apply dot_S200000x10_S10x10_S200000x10_1_0_0_1_n_n rfl bcast_S10_S1x10_1 bcast_S1x10_S200000x10_0_1
    bcast_S_S200000x10 x W b i j

/-- THE READOUT at its one entry: the sum over the rows of the perceptron, divided by the constant 200000. -/
theorem readout_apply (hv : FA S200000x10) (a22 : FA S10x10) (a23 : FA S10) (a24 : FA S10x10) (a25 : FA S10) (a26 : FA S10x1)
    (a27 : FA S1) (h23 : S10.ShapeCasts S1x10) (h25 : S10.ShapeCasts S1x10) (h27 : S1.ShapeCasts S1x1) (j : S1x1.Idx) :
    readout (lin10 (lin10 hv a22 a23) a24 a25) a26 a27 j
      = Ideal.div (∑ i : Fin 200000, Readout.mlp3 hv a22 (shapeCast S1x10 a23 h23) a24 (shapeCast S1x10 a25 h25) a26
          (shapeCast S1x1 a27 h27) i) (Ideal.ofBits .f32 0x48435000#32) :=
  (HostMean.mean_apply dot_S200000x10_S10x1_S200000x1_1_0_0_1_n_n rfl bcast_S1_S1x1_1 bcast_S1x1_S200000x1_0_1 bcast_S_S1x1
      reducesTo_S200000x1_S1_d0 reduces_S200000x1_S1 h_S_ 0x48435000#32 (lin10 (lin10 hv a22 a23) a24 a25) a26 a27 j).trans
    (congrArg (fun s => Ideal.div s (Ideal.ofBits .f32 0x48435000#32))
      (Finset.sum_congr rfl fun i _ =>
        HostMean.mlp3_of_layers hv a22 a23 a24 a25 a26 a27 h23 h25 h27 (lin10 hv a22 a23) (lin10 (lin10 hv a22 a23) a24 a25)
          (fun i j => lin10_apply hv a22 a23 i j) (fun i k => lin10_apply (lin10 hv a22 a23) a24 a25 i k) i))

end Cert.ReferenceIdeal.Spec

end
-- ==== Proof.LibRealEntries.lean ====
/-
  Real (finite) entries among the extended reals.

  An extended real is *real* when it is the image of a real number. Real entries are closed under addition,
  multiplication, maximum and finite sums; the reciprocal square root of a real number that is at least one is
  real. On real entries multiplication distributes over addition, which fails in general on the extended reals
  (at infinities of opposite sign); this gives the identity

      max ((a + b) · w + 2 β, 0) = max ((a · w + β) + (b · w + β), 0)

  for rows a, b, a column w and a bias β, all real, where (u · w) is the finite sum of the products u k * w k.
-/
import Mathlib
import Idealize.ShloMosaic.PureOps.Ideal

namespace RealEntries

open Idealize.ShloMosaic

/-- An extended real that is the image of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of real entries that are all nonnegative is nonnegative. -/
theorem sum_nonneg {ι : Type*} (s : Finset ι) (f : ι → EReal) (h : ∀ i ∈ s, 0 ≤ f i) :
    0 ≤ ∑ i ∈ s, f i := Finset.sum_nonneg h

/-- The reciprocal square root of a real number that is at least one is real. -/
theorem isReal_rsqrt {x : EReal} (hx : IsReal x) (h1 : 1 ≤ x) : IsReal (Ideal.rsqrt x) := by
  obtain ⟨r, rfl⟩ := hx
  have hr : (1 : ℝ) ≤ r := by exact_mod_cast h1
  have h0 : ¬ r < 0 := by linarith
  have h0' : ¬ r = 0 := by intro h; linarith
  rw [Ideal.rsqrt_coe, if_neg h0, if_neg h0']
  exact isReal_coe _

/-- Two layers merged into one: with real rows, column and bias, the maximum with zero of
    (a + b) · w + 2 β is that of (a · w + β) + (b · w + β). -/
theorem merge_layers {K : Type} [Fintype K] (a b w : K → EReal) (β : EReal)
    (ha : ∀ k, IsReal (a k)) (hb : ∀ k, IsReal (b k)) (hw : ∀ k, IsReal (w k)) (hβ : IsReal β) :
    max ((∑ k, (a k + b k) * w k) + ((2 : ℝ) : EReal) * β) 0
      = max (((∑ k, a k * w k) + β) + ((∑ k, b k * w k) + β)) 0 := by
  choose a' ha' using ha
  choose b' hb' using hb
  choose w' hw' using hw
  obtain ⟨β', rfl⟩ := hβ
  have e1 : (∑ k, (a k + b k) * w k) = ((∑ k, (a' k + b' k) * w' k : ℝ) : EReal) := by
    rw [coe_sum]
    refine Finset.sum_congr rfl fun k _ => ?_
    rw [ha' k, hb' k, hw' k, EReal.coe_mul, EReal.coe_add]
  have e2 : (∑ k, a k * w k) = ((∑ k, a' k * w' k : ℝ) : EReal) := by
    rw [coe_sum]
    refine Finset.sum_congr rfl fun k _ => ?_
    rw [ha' k, hw' k, EReal.coe_mul]
  have e3 : (∑ k, b k * w k) = ((∑ k, b' k * w' k : ℝ) : EReal) := by
    rw [coe_sum]
    refine Finset.sum_congr rfl fun k _ => ?_
    rw [hb' k, hw' k, EReal.coe_mul]
  rw [e1, e2, e3, ← EReal.coe_mul, ← EReal.coe_add, ← EReal.coe_add, ← EReal.coe_add, ← EReal.coe_add]
  congr 2
  simp only [add_mul, Finset.sum_add_distrib]
  ring

end RealEntries
-- ==== Proof.KI.GcReal.lean ====
/-
  The graph aggregations keep real entries.

  Every operation of the aggregation chain reads, at an index, either an entry of its operand (a broadcast, a
  gather), a product or maximum of two entries, a reciprocal square root of an entry, or an operand entry plus a
  finite sum of update entries (an accumulating scatter). A degree is zero plus a finite sum of ones, so its maximum
  with one is a real number that is at least one and the reciprocal square root of that is real; the scaled rows,
  the gathered rows, their products with the edge weights and the sums into the destination rows are then real
  whenever the node features and the edge weights are. The operation-level facts hold for arbitrary shapes and
  dimension records; the two aggregations are their compositions.
-/
import proofs.«125994_j2843268349979_1_alg».proof.Proof.KI.Spec
import proofs.«125994_j2843268349979_1_alg».proof.Proof.LibRealEntries
import Idealize.ShloMosaic.Lib.ValueIdx
import Idealize.ShloMosaic.PureOps.Ideal.Laws

noncomputable section

namespace Cert.KernelIdeal.Spec

open Idealize.ShloMosaic RealEntries

/-! ### Operation-level facts, for arbitrary shapes -/

section Generic

/-- The word of the float one denotes the extended real one. -/
theorem ofBits_one_f32 : Ideal.ofBits .f32 0x3F800000#32 = 1 := by
  simp [Ideal.ofBits, Ideal.ieee, -EReal.coe_mul]; norm_num

/-- A broadcast reads an entry of its operand: what holds of every operand entry holds of every result entry. -/
theorem bcast_all {α : Type} (P : α → Prop) {s t : Shape} (dims : Fin s.rank → Fin t.rank)
    (h : s.BroadcastsInDim t dims) (x : s.Idx → α) (hx : ∀ k, P (x k)) (j : t.Idx) :
    P (broadcastInDim t dims h x j) := hx _

/-- A gather reads an entry of its table. -/
theorem gather_all {α : Type} (P : α → Prop) {s si t : Shape} {w : Nat} (d : GatherDims s si t)
    (x : s.Idx → α) (idx : IVec si w) (hx : ∀ k, P (x k)) (j : t.Idx) :
    P (Host.gather d x idx j) := hx _

/-- The splat of the float zero is real. -/
theorem const_zero_real {s : Shape} (i : s.Idx) :
    IsReal (constant (F := Ideal) s .f32 0x00000000#32 i) := by
  show IsReal (Ideal.ofBits .f32 0x00000000#32)
  rw [Ideal.ofBits_zero_f32]; exact isReal_zero

/-- The splat of the float one is real. -/
theorem const_one_real {s : Shape} (i : s.Idx) :
    IsReal (constant (F := Ideal) s .f32 0x3F800000#32 i) := by
  show IsReal (Ideal.ofBits .f32 0x3F800000#32)
  rw [ofBits_one_f32]; exact isReal_one

/-- A product of arrays with real entries has real entries. -/
theorem mulf_real {s : Shape} (a b : FVec Ideal s .f32) (ha : ∀ i, IsReal (a i)) (hb : ∀ i, IsReal (b i))
    (i : s.Idx) : IsReal (mulf a b i) := (ha i).mul (hb i)

/-- A maximum of arrays with real entries has real entries. -/
theorem maximumf_real {s : Shape} (a b : FVec Ideal s .f32) (ha : ∀ i, IsReal (a i)) (hb : ∀ i, IsReal (b i))
    (i : s.Idx) : IsReal (maximumf a b i) := (ha i).max (hb i)

/-- An accumulating scatter of real updates into a real operand has real entries: at an index it is the operand
    entry plus a finite sum of update entries. -/
theorem scatterAdd_real {s si u : Shape} {w : Nat} (d : ScatterDims s si u) (x : FVec Ideal s .f32)
    (idx : IVec si w) (upd : FVec Ideal u .f32) (hx : ∀ i, IsReal (x i)) (hu : ∀ j, IsReal (upd j))
    (i : s.Idx) : IsReal (Host.scatterAdd (F := Ideal) d x idx upd i) := by
  show IsReal (x i + ∑ j ∈ Finset.univ.filter (fun j => d.resultIdx? j idx = some i), upd j)
  exact (hx i).add (isReal_sum _ _ fun j _ => hu j)

/-- The reciprocal square root of an array whose entries are real and at least one has real entries. -/
theorem rsqrt_real {s : Shape} (a : FVec Ideal s .f32) (ha : ∀ i, IsReal (a i)) (h1 : ∀ i, 1 ≤ a i)
    (i : s.Idx) : IsReal (Host.rsqrt a i) := by
  show IsReal (Ideal.rsqrt (a i))
  exact isReal_rsqrt (ha i) (h1 i)

/-- A maximum with the splat of one is at least one. -/
theorem one_le_max_one {s : Shape} (a : FVec Ideal s .f32)
    (h : (⟨0, ![]⟩ : Shape).BroadcastsInDim s (![] : Fin 0 → Fin s.rank)) (i : s.Idx) :
    1 ≤ maximumf a (broadcastInDim s ![] h (constant (F := Ideal) ⟨0, ![]⟩ .f32 0x3F800000#32)) i := by
  show 1 ≤ max (a i) (Ideal.ofBits .f32 0x3F800000#32)
  rw [ofBits_one_f32]; exact le_max_right _ _

/-- One over the square root of the larger of a degree and one is real: the degree is the scatter of ones into
    zeros, for any dimension record and shapes. -/
theorem norm_real {sN si sE : Shape} {w : Nat} (d : ScatterDims sN si sE)
    (hN : (⟨0, ![]⟩ : Shape).BroadcastsInDim sN (![] : Fin 0 → Fin sN.rank))
    (hE : (⟨0, ![]⟩ : Shape).BroadcastsInDim sE (![] : Fin 0 → Fin sE.rank))
    (idx : IVec si w) (n : sN.Idx) :
    IsReal (Host.rsqrt (maximumf
      (Host.scatterAdd (F := Ideal) d
        (broadcastInDim sN ![] hN (constant (F := Ideal) ⟨0, ![]⟩ .f32 0x00000000#32)) idx
        (broadcastInDim sE ![] hE (constant (F := Ideal) ⟨0, ![]⟩ .f32 0x3F800000#32)))
      (broadcastInDim sN ![] hN (constant (F := Ideal) ⟨0, ![]⟩ .f32 0x3F800000#32))) n) :=
  rsqrt_real _
    (maximumf_real _ _
      (scatterAdd_real d _ idx _ (bcast_all IsReal _ hN _ const_zero_real) (bcast_all IsReal _ hE _ const_one_real))
      (bcast_all IsReal _ hN _ const_one_real))
    (one_le_max_one _ hN) n

/-- The aggregation, for any shapes and dimension records: scale the rows of x by a real array, gather them, multiply
    by real weights, scatter-add into zeros, scale by a real array. -/
theorem agg_real {sX sI sE sV sV1 sW sW1 sO sO1 sOv : Shape} {w : Nat}
    (ds : ScatterDims sO sI sE) (dg : GatherDims sX sI sE)
    (hZ : (⟨0, ![]⟩ : Shape).BroadcastsInDim sO (![] : Fin 0 → Fin sO.rank))
    {dV1 : Fin sV.rank → Fin sV1.rank} (hV1 : sV.BroadcastsInDim sV1 dV1)
    {dV : Fin sV1.rank → Fin sX.rank} (hV : sV1.BroadcastsInDim sX dV)
    {dW1 : Fin sW.rank → Fin sW1.rank} (hW1 : sW.BroadcastsInDim sW1 dW1)
    {dW : Fin sW1.rank → Fin sE.rank} (hW : sW1.BroadcastsInDim sE dW)
    {dO1 : Fin sOv.rank → Fin sO1.rank} (hO1 : sOv.BroadcastsInDim sO1 dO1)
    {dO : Fin sO1.rank → Fin sO.rank} (hO : sO1.BroadcastsInDim sO dO)
    (x : FVec Ideal sX .f32) (ns : FVec Ideal sV .f32) (wt : FVec Ideal sW .f32) (nd : FVec Ideal sOv .f32)
    (sidx didx : IVec sI w)
    (hx : ∀ i, IsReal (x i)) (hns : ∀ i, IsReal (ns i)) (hwt : ∀ i, IsReal (wt i)) (hnd : ∀ i, IsReal (nd i))
    (i : sO.Idx) :
    IsReal (mulf
      (Host.scatterAdd (F := Ideal) ds
        (broadcastInDim sO ![] hZ (constant (F := Ideal) ⟨0, ![]⟩ .f32 0x00000000#32)) didx
        (mulf
          (Host.gather dg (mulf x (broadcastInDim sX dV hV (broadcastInDim sV1 dV1 hV1 ns))) sidx)
          (broadcastInDim sE dW hW (broadcastInDim sW1 dW1 hW1 wt))))
      (broadcastInDim sO dO hO (broadcastInDim sO1 dO1 hO1 nd)) i) :=
  mulf_real _ _
    (scatterAdd_real ds _ didx _ (bcast_all IsReal _ hZ _ const_zero_real)
      (mulf_real _ _
        (gather_all IsReal dg _ sidx
          (mulf_real _ _ hx (bcast_all IsReal _ hV _ (bcast_all IsReal _ hV1 _ hns))))
        (bcast_all IsReal _ hW _ (bcast_all IsReal _ hW1 _ hwt))))
    (bcast_all IsReal _ hO _ (bcast_all IsReal _ hO1 _ hnd)) i

end Generic

/-! ### The two aggregations -/

theorem normBig_real (idx : IA S4000000) (n : S200000.Idx) : IsReal (normBig idx n) :=
  norm_real _ _ _ _ n

theorem normSocSrc_real (idx : IA S400000) (n : S20000.Idx) : IsReal (normSocSrc idx n) :=
  norm_real _ _ _ _ n

theorem normSocDst_real (idx : IA S400000) (n : S200000.Idx) : IsReal (normSocDst idx n) :=
  norm_real _ _ _ _ n

/-- The aggregation over 4,000,000 edges keeps real entries. -/
theorem gcBig_real (x : FA S200000x10) (src dst : IA S4000000) (w : FA S4000000)
    (hx : ∀ i, RealEntries.IsReal (x i)) (hw : ∀ e, RealEntries.IsReal (w e)) :
    ∀ i, RealEntries.IsReal (gcBig x src dst w i) := fun i =>
  agg_real _ _ _ _ _ _ _ _ _ x (normBig src) w (normBig dst) _ _ hx (normBig_real src) hw (normBig_real dst) i

/-- The aggregation over 400,000 edges keeps real entries. -/
theorem gcSoc_real (x : FA S20000x10) (src dst : IA S400000) (w : FA S400000)
    (hx : ∀ i, RealEntries.IsReal (x i)) (hw : ∀ e, RealEntries.IsReal (w e)) :
    ∀ i, RealEntries.IsReal (gcSoc x src dst w i) := fun i =>
  agg_real _ _ _ _ _ _ _ _ _ x (normSocSrc src) w (normSocDst dst) _ _ hx (normSocSrc_real src) hw
    (normSocDst_real dst) i

end Cert.KernelIdeal.Spec

end
-- ==== Proof.LibLinReal.lean ====
/-
  Real entries through a linear layer, and two layers merged into one.

  The layer  max (x · W + c · b, 0)  has real entries when c and the entries of x, W and b are real: each entry is
  the maximum with zero of a finite sum of products plus a product. A reshape reads entries of its operand, so it
  keeps real entries. On real entries the layer of a sum A + B with the bias doubled is the maximum with zero of the
  sum of the two affine images  (A · W + β) + (B · W + β) ; with the constant one the layer is  max (x · W + β, 0).
  A three-layer perceptron of real data is real. The extents are arbitrary.
-/
import proofs.«125994_j2843268349979_1_alg».proof.Proof.LibLinLayer
import proofs.«125994_j2843268349979_1_alg».proof.Proof.LibRealEntries
import proofs.«125994_j2843268349979_1_alg».proof.Proof.LibReadout

noncomputable section

namespace LinLayer

open Idealize.ShloMosaic Idealize.ShloMosaic.ValueIdx RealEntries
open scoped BigOperators

/-- Every entry of the layer is real when the constant and every entry of the three operands are. -/
theorem linc_real {N K C : Nat} (cw : EReal) (x : (⟨2, ![N, K]⟩ : Shape).Idx → EReal)
    (W : (⟨2, ![K, C]⟩ : Shape).Idx → EReal) (b : (⟨2, ![1, C]⟩ : Shape).Idx → EReal)
    (hcw : IsReal cw) (hx : ∀ i, IsReal (x i)) (hW : ∀ i, IsReal (W i)) (hb : ∀ i, IsReal (b i))
    (i : (⟨2, ![N, C]⟩ : Shape).Idx) : IsReal (linc cw x W b i) := by
  show IsReal (max ((∑ k : Fin K, x (ix2 (i 0) k) * W (ix2 k (i 1))) + cw * b (ix2 (0 : Fin 1) (i 1))) 0)
  exact ((isReal_sum _ _ fun k _ => (hx _).mul (hW _)).add (hcw.mul (hb _))).max isReal_zero

/-- A reshape reads an entry of its operand: what holds of every operand entry holds of every result entry. -/
theorem shapeCast_all {α : Type} (P : α → Prop) {s t : Shape} (x : s.Idx → α) (h : s.ShapeCasts t)
    (hx : ∀ k, P (x k)) (j : t.Idx) : P (shapeCast t x h j) := hx _

/-- A reshape of an array with real entries has real entries. -/
theorem shapeCast_real {s t : Shape} (x : s.Idx → EReal) (h : s.ShapeCasts t) (hx : ∀ k, IsReal (x k))
    (j : t.Idx) : IsReal (shapeCast t x h j) := hx _

/-- The entrywise sum of two arrays with real entries has real entries. -/
theorem add_real {s : Shape} (A B : s.Idx → EReal) (hA : ∀ i, IsReal (A i)) (hB : ∀ i, IsReal (B i))
    (i : s.Idx) : IsReal ((fun i => A i + B i) i) := (hA i).add (hB i)

/-- TWO LAYERS MERGED: with real entries, the layer of A + B with the bias row doubled is at (p, q) the maximum
    with zero of (A · W + β) + (B · W + β). The bias row reads the bias vector β. -/
theorem merge_linc {N K C : Nat} (A B : (⟨2, ![N, K]⟩ : Shape).Idx → EReal) (W : (⟨2, ![K, C]⟩ : Shape).Idx → EReal)
    (β : (⟨1, ![C]⟩ : Shape).Idx → EReal) (brow : (⟨2, ![1, C]⟩ : Shape).Idx → EReal)
    (hrow : ∀ q : Fin C, brow (ix2 (0 : Fin 1) q) = β (ix1 q))
    (hA : ∀ i, IsReal (A i)) (hB : ∀ i, IsReal (B i)) (hW : ∀ i, IsReal (W i)) (hβ : ∀ i, IsReal (β i))
    (p : Fin N) (q : Fin C) :
    linc ((2 : ℝ) : EReal) (fun i => A i + B i) W brow (ix2 p q)
      = max (((∑ k, A (ix2 p k) * W (ix2 k q)) + β (ix1 q)) + ((∑ k, B (ix2 p k) * W (ix2 k q)) + β (ix1 q))) 0 := by
  rw [linc_apply, hrow]
  exact merge_layers (fun k => A (ix2 p k)) (fun k => B (ix2 p k)) (fun k => W (ix2 k q)) (β (ix1 q))
    (fun _ => hA _) (fun _ => hB _) (fun _ => hW _) (hβ _)

/-- With the constant one the layer is at (p, q) the maximum with zero of x · W + β. -/
theorem one_linc {N K C : Nat} (x : (⟨2, ![N, K]⟩ : Shape).Idx → EReal) (W : (⟨2, ![K, C]⟩ : Shape).Idx → EReal)
    (β : (⟨1, ![C]⟩ : Shape).Idx → EReal) (brow : (⟨2, ![1, C]⟩ : Shape).Idx → EReal)
    (hrow : ∀ q : Fin C, brow (ix2 (0 : Fin 1) q) = β (ix1 q)) (p : Fin N) (q : Fin C) :
    linc 1 x W brow (ix2 p q) = max ((∑ k, x (ix2 p k) * W (ix2 k q)) + β (ix1 q)) 0 := by
  rw [linc_apply, one_mul, hrow]

/-- The three-layer perceptron of real data is real. -/
theorem mlp3_real {N A B C : Nat} (h : (⟨2, ![N, A]⟩ : Shape).Idx → EReal) (O1 : (⟨2, ![A, B]⟩ : Shape).Idx → EReal)
    (b1 : (⟨2, ![1, B]⟩ : Shape).Idx → EReal) (O2 : (⟨2, ![B, C]⟩ : Shape).Idx → EReal)
    (b2 : (⟨2, ![1, C]⟩ : Shape).Idx → EReal) (O3 : (⟨2, ![C, 1]⟩ : Shape).Idx → EReal)
    (b3 : (⟨2, ![1, 1]⟩ : Shape).Idx → EReal)
    (hh : ∀ i, IsReal (h i)) (hO1 : ∀ i, IsReal (O1 i)) (hb1 : ∀ i, IsReal (b1 i)) (hO2 : ∀ i, IsReal (O2 i))
    (hb2 : ∀ i, IsReal (b2 i)) (hO3 : ∀ i, IsReal (O3 i)) (hb3 : ∀ i, IsReal (b3 i)) (i : Fin N) :
    IsReal (Readout.mlp3 h O1 b1 O2 b2 O3 b3 i) := by
  unfold Readout.mlp3
  exact (isReal_sum _ _ fun k _ =>
    (((isReal_sum _ _ fun j _ =>
      ((((isReal_sum _ _ fun l _ => (hh _).mul (hO1 _)).add (hb1 _)).max isReal_zero).mul (hO2 _))).add (hb2 _)).max
        isReal_zero).mul (hO3 _)).add (hb3 _)

end LinLayer

end
-- ==== Proof.Bridge.lean ====
/-
  The two programs compute the same function of the argument arrays, on the extended reals, when every float argument is
  real.

  Layer by layer: the host's dense layer max (x · W + b, 0) is the kernel's max (x · W + 1 · row b, 0) entry by entry.
  On the 200,000-node side the reference adds two affine layers A · W + b and B · W + b of the two aggregations before the
  maximum, where the kernel applies one layer (A + B) · W + 2 · b to their sum: equal when all entries are real — the
  aggregations of real arrays are real —, by distributivity in the reals. The readout is the same perceptron row by row;
  the reference divides the sum over the rows by 200000, the kernel multiplies it by the named constant 1/200000.
-/
import proofs.«125994_j2843268349979_1_alg».proof.Proof.Ref.Spec
import proofs.«125994_j2843268349979_1_alg».proof.Proof.Ref.ReadoutVal
import proofs.«125994_j2843268349979_1_alg».proof.Proof.KI.KVal
import proofs.«125994_j2843268349979_1_alg».proof.Proof.KI.GcReal
import proofs.«125994_j2843268349979_1_alg».proof.Proof.LibLinReal
import proofs.«125994_j2843268349979_1_alg».proof.Proof.LibHostLin
import Idealize.ShloMosaic.PureOps.IdealRules

set_option maxRecDepth 16384

noncomputable section

namespace Cert.Bridge

open Idealize.ShloMosaic Idealize.ShloMosaic.ValueIdx RealEntries
open Cert.KernelIdeal.Frm (kX0 kX1 kX2 kX3 kOut rowOf row1)
open scoped BigOperators

/-- The two programs' aggregation chains are one function (the same operations over equal dimension records). -/
theorem gcBig_eq : @Cert.ReferenceIdeal.Spec.gcBig = @Cert.KernelIdeal.Spec.gcBig := rfl
theorem gcSoc_eq : @Cert.ReferenceIdeal.Spec.gcSoc = @Cert.KernelIdeal.Spec.gcSoc := rfl

/-- A bias vector as a row has entry (0, q) equal to entry q. -/
theorem row_entry (b : FVec Ideal Cert.KernelIdeal.S10 .f32) (q : Fin 10) : rowOf b (ix2 (0 : Fin 1) q) = b (ix1 q) :=
  HostLin.row_apply _ b q

/-- The first input layer. -/
theorem lin6_eq (a0 : FVec Ideal Cert.KernelIdeal.S200000x6 .f32) (a12 : FVec Ideal Cert.KernelIdeal.S6x10 .f32) (a13 : FVec Ideal Cert.KernelIdeal.S10 .f32) :
    Cert.ReferenceIdeal.Spec.lin6 a0 a12 a13 = kX0 a0 a12 a13 := by
  funext i
  obtain ⟨p, q, rfl⟩ : ∃ (p : Fin 200000) (q : Fin 10), i = ix2 p q := ⟨i 0, i 1, eq_ix2 i⟩
  refine (HostLin.relu_apply _ rfl _ _ _ a0 a12 a13 p q).trans ?_
  exact (LinLayer.one_linc a0 a12 a13 (rowOf a13) (row_entry a13) p q).symm

/-- The second input layer. -/
theorem lin6s_eq (a1 : FVec Ideal Cert.KernelIdeal.S20000x6 .f32) (a14 : FVec Ideal Cert.KernelIdeal.S6x10 .f32) (a15 : FVec Ideal Cert.KernelIdeal.S10 .f32) :
    Cert.ReferenceIdeal.Spec.lin6s a1 a14 a15 = kX1 a1 a14 a15 := by
  funext i
  obtain ⟨p, q, rfl⟩ : ∃ (p : Fin 20000) (q : Fin 10), i = ix2 p q := ⟨i 0, i 1, eq_ix2 i⟩
  refine (HostLin.relu_apply _ rfl _ _ _ a1 a14 a15 p q).trans ?_
  exact (LinLayer.one_linc a1 a14 a15 (rowOf a15) (row_entry a15) p q).symm

/-- A dense layer on 200,000 × 10 features. -/
theorem lin10_eq (x : FVec Ideal Cert.KernelIdeal.S200000x10 .f32) (W : FVec Ideal Cert.KernelIdeal.S10x10 .f32) (b : FVec Ideal Cert.KernelIdeal.S10 .f32) :
    Cert.ReferenceIdeal.Spec.lin10 x W b = LinLayer.linc 1 x W (rowOf b) := by
  funext i
  obtain ⟨p, q, rfl⟩ : ∃ (p : Fin 200000) (q : Fin 10), i = ix2 p q := ⟨i 0, i 1, eq_ix2 i⟩
  refine (HostLin.relu_apply _ rfl _ _ _ x W b p q).trans ?_
  exact (LinLayer.one_linc x W b (rowOf b) (row_entry b) p q).symm

/-- The layer of the 200,000-node side: two affine layers added against one layer of the sum, at real entries. -/
theorem merge_eq (A B : FVec Ideal Cert.KernelIdeal.S200000x10 .f32) (W : FVec Ideal Cert.KernelIdeal.S10x10 .f32) (b : FVec Ideal Cert.KernelIdeal.S10 .f32)
    (hA : ∀ i, IsReal (A i)) (hB : ∀ i, IsReal (B i)) (hW : ∀ i, IsReal (W i)) (hb : ∀ i, IsReal (b i)) :
    maximumf (addf (Cert.ReferenceIdeal.Spec.aff10 A W b) (Cert.ReferenceIdeal.Spec.aff10 B W b)) Cert.ReferenceIdeal.Spec.zeroBig
      = LinLayer.linc ((2 : ℝ) : EReal) (addf A B) W (rowOf b) := by
  funext i
  obtain ⟨p, q, rfl⟩ : ∃ (p : Fin 200000) (q : Fin 10), i = ix2 p q := ⟨i 0, i 1, eq_ix2 i⟩
  refine Eq.trans ?_ (LinLayer.merge_linc A B W b (rowOf b) (row_entry b) hA hB hW hb p q).symm
  rw [maximumf_apply, addf_apply]
  have eA := HostLin.affine_apply Cert.ReferenceIdeal.dot_S200000x10_S10x10_S200000x10_1_0_0_1_n_n rfl
    Cert.ReferenceIdeal.Gen.bcast_S10_S1x10_1 Cert.ReferenceIdeal.Gen.bcast_S1x10_S200000x10_0_1 A W b p q
  have eB := HostLin.affine_apply Cert.ReferenceIdeal.dot_S200000x10_S10x10_S200000x10_1_0_0_1_n_n rfl
    Cert.ReferenceIdeal.Gen.bcast_S10_S1x10_1 Cert.ReferenceIdeal.Gen.bcast_S1x10_S200000x10_0_1 B W b p q
  have ez : Cert.ReferenceIdeal.Spec.zeroBig (ix2 p q) = 0 :=
    (HostLin.scalar_bcast_apply _ _ _).trans ((constant_apply _ _).trans Ideal.ofBits_zero_f32)
  exact congr (congrArg max (congr (congrArg HAdd.hAdd eA) eB)) ez

/-- The named reciprocal denotes the rational 1/200000. -/
theorem inv_n : Named.named (F := Ideal) Cert.KernelIdeal.κ "inv_200000" (φ := .f32) 0x36A7C5AC#32 = ((1 / 200000 : ℝ) : EReal) :=
  IdealRules.named_const.ideal_named_scalar _ _ _ _ rfl

/-- The reference's divisor denotes the real 200000. -/
theorem ofBits_200000 : Ideal.ofBits .f32 0x48435000#32 = ((200000 : ℝ) : EReal) := by
  simp [Ideal.ofBits, Ideal.ieee, -EReal.coe_mul]; norm_num

/-- The readout: the sum over the rows divided by 200000 is the sum times 1/200000, on every extended real. -/
theorem readout_eq (x3 : FVec Ideal Cert.KernelIdeal.S200000x10 .f32) (a22 : FVec Ideal Cert.KernelIdeal.S10x10 .f32) (a23 : FVec Ideal Cert.KernelIdeal.S10 .f32)
    (a24 : FVec Ideal Cert.KernelIdeal.S10x10 .f32) (a25 : FVec Ideal Cert.KernelIdeal.S10 .f32) (a26 : FVec Ideal Cert.KernelIdeal.S10x1 .f32) (a27 : FVec Ideal Cert.KernelIdeal.S1 .f32) :
    Cert.ReferenceIdeal.Spec.readout (Cert.ReferenceIdeal.Spec.lin10 (Cert.ReferenceIdeal.Spec.lin10 x3 a22 a23) a24 a25) a26 a27
      = kOut x3 a22 a23 a24 a25 a26 a27 := by
  funext j
  refine (Cert.ReferenceIdeal.Spec.readout_apply x3 a22 a23 a24 a25 a26 a27 Cert.KernelIdeal.Gen.shapeCasts_S10_S1x10
    Cert.KernelIdeal.Gen.shapeCasts_S10_S1x10 Cert.KernelIdeal.Gen.shapeCasts_S1_S1x1 j).trans ?_
  rw [ofBits_200000, Ideal.div_coe (by norm_num : (200000 : ℝ) ≠ 0)]
  unfold kOut
  rw [inv_n]

/-- The whole function: the reference's result is the kernel program's, when the float arguments that meet in the merged layer are real. -/
theorem refVal_eq (a0 : FVec Ideal Cert.KernelIdeal.S200000x6 .f32) (a1 : FVec Ideal Cert.KernelIdeal.S20000x6 .f32)
    (a3 a4 a5 a6 : IVec Cert.KernelIdeal.S4000000 32) (a7 a8 : IVec Cert.KernelIdeal.S400000 32)
    (a9 a10 : FVec Ideal Cert.KernelIdeal.S4000000 .f32) (a11 : FVec Ideal Cert.KernelIdeal.S400000 .f32)
    (a12 : FVec Ideal Cert.KernelIdeal.S6x10 .f32) (a13 : FVec Ideal Cert.KernelIdeal.S10 .f32) (a14 : FVec Ideal Cert.KernelIdeal.S6x10 .f32) (a15 : FVec Ideal Cert.KernelIdeal.S10 .f32)
    (a20 : FVec Ideal Cert.KernelIdeal.S10x10 .f32) (a21 : FVec Ideal Cert.KernelIdeal.S10 .f32) (a22 : FVec Ideal Cert.KernelIdeal.S10x10 .f32) (a23 : FVec Ideal Cert.KernelIdeal.S10 .f32)
    (a24 : FVec Ideal Cert.KernelIdeal.S10x10 .f32) (a25 : FVec Ideal Cert.KernelIdeal.S10 .f32) (a26 : FVec Ideal Cert.KernelIdeal.S10x1 .f32) (a27 : FVec Ideal Cert.KernelIdeal.S1 .f32)
    (h0 : ∀ i, IsReal (a0 i)) (h1 : ∀ i, IsReal (a1 i)) (h9 : ∀ i, IsReal (a9 i)) (h11 : ∀ i, IsReal (a11 i))
    (h12 : ∀ i, IsReal (a12 i)) (h13 : ∀ i, IsReal (a13 i)) (h14 : ∀ i, IsReal (a14 i)) (h15 : ∀ i, IsReal (a15 i))
    (h20 : ∀ i, IsReal (a20 i)) (h21 : ∀ i, IsReal (a21 i)) :
    Cert.ReferenceIdeal.Spec.refVal a0 a1 a3 a4 a5 a6 a7 a8 a9 a10 a11 a12 a13 a14 a15 a20 a21 a22 a23 a24 a25 a26 a27
      = kOut (kX3 (kX2 (kX0 a0 a12 a13) (kX1 a1 a14 a15) a3 a4 a7 a8 a9 a11 a20 a21) a5 a6 a10 a20 a21) a22 a23 a24 a25 a26 a27 := by
  have hX0 : ∀ i, IsReal (kX0 a0 a12 a13 i) :=
    LinLayer.linc_real 1 a0 a12 (rowOf a13) isReal_one h0 h12 (LinLayer.shapeCast_real a13 _ h13)
  have hX1 : ∀ i, IsReal (kX1 a1 a14 a15 i) :=
    LinLayer.linc_real 1 a1 a14 (rowOf a15) isReal_one h1 h14 (LinLayer.shapeCast_real a15 _ h15)
  have hA := Cert.KernelIdeal.Spec.gcBig_real (kX0 a0 a12 a13) a3 a4 a9 hX0 h9
  have hB := Cert.KernelIdeal.Spec.gcSoc_real (kX1 a1 a14 a15) a7 a8 a11 hX1 h11
  have e2 : Cert.ReferenceIdeal.Spec.hcon a0 a1 a3 a4 a7 a8 a9 a11 a12 a13 a14 a15 a20 a21
      = kX2 (kX0 a0 a12 a13) (kX1 a1 a14 a15) a3 a4 a7 a8 a9 a11 a20 a21 := by
    unfold Cert.ReferenceIdeal.Spec.hcon
    rw [lin6_eq, lin6s_eq, gcBig_eq, gcSoc_eq]
    exact merge_eq _ _ a20 a21 hA hB h20 h21
  unfold Cert.ReferenceIdeal.Spec.refVal
  rw [e2, gcBig_eq, lin10_eq (Cert.KernelIdeal.Spec.gcBig _ a5 a6 a10) a20 a21]
  exact readout_eq _ a22 a23 a24 a25 a26 a27

end Cert.Bridge

end
-- ==== Proof.lean ====
/-
  A tiled graph-convolution network (two input layers, two rounds of weighted, degree-normalised aggregation between a
  200,000-node side and its neighbours, a three-layer perceptron and a mean readout) as five kernel regions among host
  operations, against the same network written with host operations only.

  The three programs run to the end without a fault and leave their 28 argument arrays unchanged: the kernel programs by
  the run over their ten segments (five stretches of host operations, each followed by a kernel region), the reference by
  the run of its list of host operations. The kernel's named constant is the rational 1/200000 by the certificate's table.
  At the extended reals, from memories that agree on the arguments, both idealized programs end with the same [1, 1]
  result: each kernel region's output array is a dense layer of the arrays it finds, the host stretches in between are the
  aggregation chain both programs share, and where the reference adds two affine layers before the maximum the kernel
  applies one layer to the sum — equal because, the float inputs being finite, every entry on the way is a real number.
  The reference divides the sum over the rows by 200000 where the kernel multiplies by 1/200000.
-/
import proofs.«125994_j2843268349979_1_alg».proof.Defs
import proofs.«125994_j2843268349979_1_alg».proof.Proof.Gen.Kernel
import proofs.«125994_j2843268349979_1_alg».proof.Proof.Gen.KernelIdeal
import proofs.«125994_j2843268349979_1_alg».proof.Proof.Gen.ReferenceIdeal
import proofs.«125994_j2843268349979_1_alg».proof.Proof.Gen.Pre_finite_inputs
import proofs.«125994_j2843268349979_1_alg».proof.Proof.K.Frame
import proofs.«125994_j2843268349979_1_alg».proof.Proof.KI.Frame
import proofs.«125994_j2843268349979_1_alg».proof.Proof.KI.Value
import proofs.«125994_j2843268349979_1_alg».proof.Proof.KI.PreReal
import proofs.«125994_j2843268349979_1_alg».proof.Proof.Ref.Run
import proofs.«125994_j2843268349979_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.RunH.run m ρ)

/-- The one rewrite of the idealization: the certificate's table gives "inv_200000" the value 1/200000. -/
theorem preserves : Cert.preserves_Kernel_KernelIdeal :=
  IdealRules.named_const.statement Cert.KernelIdeal.κ "inv_200000" .f32 0x36A7C5AC#32 ((1 / 200000 : ℝ) : EReal) rfl

open Cert.KernelIdeal.Frm in
/-- Both idealized programs end with the kernel program's result array. -/
theorem algebraic : Cert.algebraic_KernelIdeal_ReferenceIdeal := by
  intro m ρ m' ρ' hpre hagree
  refine ⟨fun c => W10 (F := Ideal) m ρ c (Proc.devRef .tc Cert.KernelIdeal.main_v141), run_frame (F := Ideal) m ρ, ?_⟩
  refine (θ_run Cert.ReferenceIdeal.defs _ _).mono (fun _ h c => ⟨(h c).1.trans ?_, (h c).2⟩) (Cert.ReferenceIdeal.RunH.run m' ρ')
  obtain ⟨g0, g1, g2, g3, g4, g5, g6, g7, g8, g9, g10, g11, g12, g13, g14, g15, g16, g17, g18, g19, g20, g21, g22, g23, g24, g25, g26, g27⟩ := hagree c
  have hr := realArgs m hpre c
  rw [g0, g1, g3, g4, g5, g6, g7, g8, g9, g10, g11, g12, g13, g14, g15, g20, g21, g22, g23, g24, g25, g26, g27]
  refine (Cert.Bridge.refVal_eq _ _ _ _ _ _ _ _ _ _ _ _ _ _ _ _ _ _ _ _ _ _ _ hr.arg0 hr.arg1 hr.arg9 hr.arg11 hr.arg12 hr.arg13 hr.arg14 hr.arg15 hr.arg20 hr.arg21).trans ?_
  exact (out_eq m ρ c _ (X3_eq m ρ c _ (X2_eq m ρ c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
